-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24)) (m ((c.tc : Thread Cert.Kernel.nD Cert.Kernel.τ).loc Cert.Kernel.main_arg25)) (m ((c.tc : Thread Cert.Kernel.nD Cert.Kernel.τ).loc Cert.Kernel.main_arg26)) (m ((c.tc : Thread Cert.Kernel.nD Cert.Kernel.τ).loc Cert.Kernel.main_arg27)) (m ((c.tc : Thread Cert.Kernel.nD Cert.Kernel.τ).loc Cert.Kernel.main_arg28)) (m ((c.tc : Thread Cert.Kernel.nD Cert.Kernel.τ).loc Cert.Kernel.main_arg29))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27)) (m ((c.tc : Thread Cert.KernelIdeal.nD Cert.KernelIdeal.τ).loc Cert.KernelIdeal.main_arg28)) (m ((c.tc : Thread Cert.KernelIdeal.nD Cert.KernelIdeal.τ).loc Cert.KernelIdeal.main_arg29))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26)) (m ((c.tc : Thread Cert.ReferenceIdeal.nD Cert.ReferenceIdeal.τ).loc Cert.ReferenceIdeal.main_arg27)) (m ((c.tc : Thread Cert.ReferenceIdeal.nD Cert.ReferenceIdeal.τ).loc Cert.ReferenceIdeal.main_arg28)) (m ((c.tc : Thread Cert.ReferenceIdeal.nD Cert.ReferenceIdeal.τ).loc Cert.ReferenceIdeal.main_arg29))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25)
      ∧ r.2.mem ((c.tc : Thread Cert.Kernel.nD Cert.Kernel.τ).loc Cert.Kernel.main_arg26) = m ((c.tc : Thread Cert.Kernel.nD Cert.Kernel.τ).loc Cert.Kernel.main_arg26)
      ∧ r.2.mem ((c.tc : Thread Cert.Kernel.nD Cert.Kernel.τ).loc Cert.Kernel.main_arg27) = m ((c.tc : Thread Cert.Kernel.nD Cert.Kernel.τ).loc Cert.Kernel.main_arg27)
      ∧ r.2.mem ((c.tc : Thread Cert.Kernel.nD Cert.Kernel.τ).loc Cert.Kernel.main_arg28) = m ((c.tc : Thread Cert.Kernel.nD Cert.Kernel.τ).loc Cert.Kernel.main_arg28)
      ∧ r.2.mem ((c.tc : Thread Cert.Kernel.nD Cert.Kernel.τ).loc Cert.Kernel.main_arg29) = m ((c.tc : Thread Cert.Kernel.nD Cert.Kernel.τ).loc Cert.Kernel.main_arg29))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
      ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
      ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
      ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28)
      ∧ r.2.mem ((c.tc : Thread Cert.KernelIdeal.nD Cert.KernelIdeal.τ).loc Cert.KernelIdeal.main_arg29) = m ((c.tc : Thread Cert.KernelIdeal.nD Cert.KernelIdeal.τ).loc Cert.KernelIdeal.main_arg29))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25)
      ∧ r.2.mem ((c.tc : Thread Cert.ReferenceIdeal.nD Cert.ReferenceIdeal.τ).loc Cert.ReferenceIdeal.main_arg26) = m ((c.tc : Thread Cert.ReferenceIdeal.nD Cert.ReferenceIdeal.τ).loc Cert.ReferenceIdeal.main_arg26)
      ∧ r.2.mem ((c.tc : Thread Cert.ReferenceIdeal.nD Cert.ReferenceIdeal.τ).loc Cert.ReferenceIdeal.main_arg27) = m ((c.tc : Thread Cert.ReferenceIdeal.nD Cert.ReferenceIdeal.τ).loc Cert.ReferenceIdeal.main_arg27)
      ∧ r.2.mem ((c.tc : Thread Cert.ReferenceIdeal.nD Cert.ReferenceIdeal.τ).loc Cert.ReferenceIdeal.main_arg28) = m ((c.tc : Thread Cert.ReferenceIdeal.nD Cert.ReferenceIdeal.τ).loc Cert.ReferenceIdeal.main_arg28)
      ∧ r.2.mem ((c.tc : Thread Cert.ReferenceIdeal.nD Cert.ReferenceIdeal.τ).loc Cert.ReferenceIdeal.main_arg29) = m ((c.tc : Thread Cert.ReferenceIdeal.nD Cert.ReferenceIdeal.τ).loc Cert.ReferenceIdeal.main_arg29))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)
      ∧ m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26)
      ∧ m' ((c.tc : Thread Cert.ReferenceIdeal.nD Cert.ReferenceIdeal.τ).loc Cert.ReferenceIdeal.main_arg27) = m ((c.tc : Thread Cert.KernelIdeal.nD Cert.KernelIdeal.τ).loc Cert.KernelIdeal.main_arg27)
      ∧ m' ((c.tc : Thread Cert.ReferenceIdeal.nD Cert.ReferenceIdeal.τ).loc Cert.ReferenceIdeal.main_arg28) = m ((c.tc : Thread Cert.KernelIdeal.nD Cert.KernelIdeal.τ).loc Cert.KernelIdeal.main_arg28)
      ∧ m' ((c.tc : Thread Cert.ReferenceIdeal.nD Cert.ReferenceIdeal.τ).loc Cert.ReferenceIdeal.main_arg29) = m ((c.tc : Thread Cert.KernelIdeal.nD Cert.KernelIdeal.τ).loc Cert.KernelIdeal.main_arg29)) →
    ∃ (v0 : (c : Dev Cert.KernelIdeal.nD) → Buf (Elt Ideal) ((c.tc : Thread Cert.KernelIdeal.nD Cert.KernelIdeal.τ).loc Cert.KernelIdeal.main_v81_0)) (v1 : (c : Dev Cert.KernelIdeal.nD) → Buf (Elt Ideal) ((c.tc : Thread Cert.KernelIdeal.nD Cert.KernelIdeal.τ).loc Cert.KernelIdeal.main_v100)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v81_0) = v0 c
          ∧ r.2.mem ((c.tc : Thread Cert.KernelIdeal.nD Cert.KernelIdeal.τ).loc Cert.KernelIdeal.main_v100) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
          ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
          ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
          ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28)
          ∧ r.2.mem ((c.tc : Thread Cert.KernelIdeal.nD Cert.KernelIdeal.τ).loc Cert.KernelIdeal.main_arg29) = m ((c.tc : Thread Cert.KernelIdeal.nD Cert.KernelIdeal.τ).loc Cert.KernelIdeal.main_arg29))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v148) = v0 c
          ∧ r.2.mem ((c.tc : Thread Cert.ReferenceIdeal.nD Cert.ReferenceIdeal.τ).loc Cert.ReferenceIdeal.main_v200) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25)
          ∧ r.2.mem ((c.tc : Thread Cert.ReferenceIdeal.nD Cert.ReferenceIdeal.τ).loc Cert.ReferenceIdeal.main_arg26) = m' ((c.tc : Thread Cert.ReferenceIdeal.nD Cert.ReferenceIdeal.τ).loc Cert.ReferenceIdeal.main_arg26)
          ∧ r.2.mem ((c.tc : Thread Cert.ReferenceIdeal.nD Cert.ReferenceIdeal.τ).loc Cert.ReferenceIdeal.main_arg27) = m' ((c.tc : Thread Cert.ReferenceIdeal.nD Cert.ReferenceIdeal.τ).loc Cert.ReferenceIdeal.main_arg27)
          ∧ r.2.mem ((c.tc : Thread Cert.ReferenceIdeal.nD Cert.ReferenceIdeal.τ).loc Cert.ReferenceIdeal.main_arg28) = m' ((c.tc : Thread Cert.ReferenceIdeal.nD Cert.ReferenceIdeal.τ).loc Cert.ReferenceIdeal.main_arg28)
          ∧ r.2.mem ((c.tc : Thread Cert.ReferenceIdeal.nD Cert.ReferenceIdeal.τ).loc Cert.ReferenceIdeal.main_arg29) = m' ((c.tc : Thread Cert.ReferenceIdeal.nD Cert.ReferenceIdeal.τ).loc Cert.ReferenceIdeal.main_arg29))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x256 : Shape := ⟨2, ![10000, 256]⟩
abbrev S300000x128 : Shape := ⟨2, ![300000, 128]⟩
abbrev S2x300000 : Shape := ⟨2, ![2, 300000]⟩
abbrev S10000x3x3 : Shape := ⟨3, ![10000, 3, 3]⟩
abbrev S10000x3 : Shape := ⟨2, ![10000, 3]⟩
abbrev S10000 : Shape := ⟨1, ![10000]⟩
abbrev S256x24 : Shape := ⟨2, ![256, 24]⟩
abbrev S24 : Shape := ⟨1, ![24]⟩
abbrev S672x256 : Shape := ⟨2, ![672, 256]⟩
abbrev S256 : Shape := ⟨1, ![256]⟩
abbrev S256x256 : Shape := ⟨2, ![256, 256]⟩
abbrev S256x128 : Shape := ⟨2, ![256, 128]⟩
abbrev S128 : Shape := ⟨1, ![128]⟩
abbrev S384x384 : Shape := ⟨2, ![384, 384]⟩
abbrev S384 : Shape := ⟨1, ![384]⟩
abbrev S384x128 : Shape := ⟨2, ![384, 128]⟩
abbrev S_ : Shape := ⟨0, ![]⟩

class Facts : Prop where
  bcast_S_S10000x256 : S_.BroadcastsInDim S10000x256 (![] : Fin 0 → Fin S10000x256.rank)
  reducesTo_S10000x256_S_d0_1 : S10000x256.ReducesTo [0, 1] S_
  h_S_ : 0 < S_.numel
  bcast_S_S300000x128 : S_.BroadcastsInDim S300000x128 (![] : Fin 0 → Fin S300000x128.rank)
  reducesTo_S300000x128_S_d0_1 : S300000x128.ReducesTo [0, 1] S_
  bcast_S_S10000x3x3 : S_.BroadcastsInDim S10000x3x3 (![] : Fin 0 → Fin S10000x3x3.rank)
  reducesTo_S10000x3x3_S_d0_1_2 : S10000x3x3.ReducesTo [0, 1, 2] S_
  bcast_S_S10000x3 : S_.BroadcastsInDim S10000x3 (![] : Fin 0 → Fin S10000x3.rank)
  reducesTo_S10000x3_S_d0_1 : S10000x3.ReducesTo [0, 1] S_
  bcast_S_S10000 : S_.BroadcastsInDim S10000 (![] : Fin 0 → Fin S10000.rank)
  reducesTo_S10000_S_d0 : S10000.ReducesTo [0] S_
  bcast_S_S256x24 : S_.BroadcastsInDim S256x24 (![] : Fin 0 → Fin S256x24.rank)
  reducesTo_S256x24_S_d0_1 : S256x24.ReducesTo [0, 1] S_
  bcast_S_S24 : S_.BroadcastsInDim S24 (![] : Fin 0 → Fin S24.rank)
  reducesTo_S24_S_d0 : S24.ReducesTo [0] S_
  bcast_S_S672x256 : S_.BroadcastsInDim S672x256 (![] : Fin 0 → Fin S672x256.rank)
  reducesTo_S672x256_S_d0_1 : S672x256.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S384x384 : S_.BroadcastsInDim S384x384 (![] : Fin 0 → Fin S384x384.rank)
  reducesTo_S384x384_S_d0_1 : S384x384.ReducesTo [0, 1] S_
  bcast_S_S384 : S_.BroadcastsInDim S384 (![] : Fin 0 → Fin S384.rank)
  reducesTo_S384_S_d0 : S384.ReducesTo [0] S_
  bcast_S_S384x128 : S_.BroadcastsInDim S384x128 (![] : Fin 0 → Fin S384x128.rank)
  reducesTo_S384x128_S_d0_1 : S384x128.ReducesTo [0, 1] S_

variable [Facts]

def fn_part8 {F : FTy → Type} [FloatOps F] (main_arg29 : FVec F S128 .f32) (main_v133 : IVec S_ 1) (main_v136 : IVec S128 1) : IVec S_ 1 :=
  let main_c_53 : IVec S_ 1 := constantI S_ 1 1#1
  let main_v137 : IVec S_ 1 := (fun x v => Host.reduce IntOp.andi x v reducesTo_S128_S_d0 h_S_) main_v136 main_c_53
  let main_v138 : IVec S_ 1 := andi main_v133 main_v137
  let main_v139 : FVec F S128 .f32 := Host.absf main_arg29
  let main_cst_54 : FVec F S_ .f32 := constant S_ .f32 0x7F800000#32
  let main_v140 : FVec F S128 .f32 := broadcastInDim S128 ![] bcast_S_S128 main_cst_54
  let main_v141 : IVec S128 1 := cmpf .olt main_v139 main_v140
  let main_c_55 : IVec S_ 1 := constantI S_ 1 1#1
  let main_v142 : IVec S_ 1 := (fun x v => Host.reduce IntOp.andi x v reducesTo_S128_S_d0 h_S_) main_v141 main_c_55
  let main_v143 : IVec S_ 1 := andi main_v138 main_v142
  main_v143

def fn_part7 {F : FTy → Type} [FloatOps F] (main_arg26 : FVec F S384x128 .f32) (main_arg27 : FVec F S128 .f32) (main_arg28 : FVec F S128 .f32) (main_arg29 : FVec F S128 .f32) (main_v118 : IVec S_ 1) (main_v119 : FVec F S384 .f32) : IVec S_ 1 :=
  let main_cst_46 : FVec F S_ .f32 := constant S_ .f32 0x7F800000#32
  let main_v120 : FVec F S384 .f32 := broadcastInDim S384 ![] bcast_S_S384 main_cst_46
  let main_v121 : IVec S384 1 := cmpf .olt main_v119 main_v120
  let main_c_47 : IVec S_ 1 := constantI S_ 1 1#1
  let main_v122 : IVec S_ 1 := (fun x v => Host.reduce IntOp.andi x v reducesTo_S384_S_d0 h_S_) main_v121 main_c_47
  let main_v123 : IVec S_ 1 := andi main_v118 main_v122
  let main_v124 : FVec F S384x128 .f32 := Host.absf main_arg26
  let main_cst_48 : FVec F S_ .f32 := constant S_ .f32 0x7F800000#32
  let main_v125 : FVec F S384x128 .f32 := broadcastInDim S384x128 ![] bcast_S_S384x128 main_cst_48
  let main_v126 : IVec S384x128 1 := cmpf .olt main_v124 main_v125
  let main_c_49 : IVec S_ 1 := constantI S_ 1 1#1
  let main_v127 : IVec S_ 1 := (fun x v => Host.reduce IntOp.andi x v reducesTo_S384x128_S_d0_1 h_S_) main_v126 main_c_49
  let main_v128 : IVec S_ 1 := andi main_v123 main_v127
  let main_v129 : FVec F S128 .f32 := Host.absf main_arg27
  let main_cst_50 : FVec F S_ .f32 := constant S_ .f32 0x7F800000#32
  let main_v130 : FVec F S128 .f32 := broadcastInDim S128 ![] bcast_S_S128 main_cst_50
  let main_v131 : IVec S128 1 := cmpf .olt main_v129 main_v130
  let main_c_51 : IVec S_ 1 := constantI S_ 1 1#1
  let main_v132 : IVec S_ 1 := (fun x v => Host.reduce IntOp.andi x v reducesTo_S128_S_d0 h_S_) main_v131 main_c_51
  let main_v133 : IVec S_ 1 := andi main_v128 main_v132
  let main_v134 : FVec F S128 .f32 := Host.absf main_arg28
  let main_cst_52 : FVec F S_ .f32 := constant S_ .f32 0x7F800000#32
  let main_v135 : FVec F S128 .f32 := broadcastInDim S128 ![] bcast_S_S128 main_cst_52
  let main_v136 : IVec S128 1 := cmpf .olt main_v134 main_v135
  fn_part8 (F := F) main_arg29 main_v133 main_v136

def fn_part6 {F : FTy → Type} [FloatOps F] (main_arg22 : FVec F S256x128 .f32) (main_arg23 : FVec F S128 .f32) (main_arg24 : FVec F S384x384 .f32) (main_arg25 : FVec F S384 .f32) (main_arg26 : FVec F S384x128 .f32) (main_arg27 : FVec F S128 .f32) (main_arg28 : FVec F S128 .f32) (main_arg29 : FVec F S128 .f32) (main_v98 : IVec S_ 1) (main_v101 : IVec S256 1) (main_c_39 : IVec S_ 1) : IVec S_ 1 :=
  let main_v102 : IVec S_ 1 := (fun x v => Host.reduce IntOp.andi x v reducesTo_S256_S_d0 h_S_) main_v101 main_c_39
  let main_v103 : IVec S_ 1 := andi main_v98 main_v102
  let main_v104 : FVec F S256x128 .f32 := Host.absf main_arg22
  let main_cst_40 : FVec F S_ .f32 := constant S_ .f32 0x7F800000#32
  let main_v105 : FVec F S256x128 .f32 := broadcastInDim S256x128 ![] bcast_S_S256x128 main_cst_40
  let main_v106 : IVec S256x128 1 := cmpf .olt main_v104 main_v105
  let main_c_41 : IVec S_ 1 := constantI S_ 1 1#1
  let main_v107 : IVec S_ 1 := (fun x v => Host.reduce IntOp.andi x v reducesTo_S256x128_S_d0_1 h_S_) main_v106 main_c_41
  let main_v108 : IVec S_ 1 := andi main_v103 main_v107
  let main_v109 : FVec F S128 .f32 := Host.absf main_arg23
  let main_cst_42 : FVec F S_ .f32 := constant S_ .f32 0x7F800000#32
  let main_v110 : FVec F S128 .f32 := broadcastInDim S128 ![] bcast_S_S128 main_cst_42
  let main_v111 : IVec S128 1 := cmpf .olt main_v109 main_v110
  let main_c_43 : IVec S_ 1 := constantI S_ 1 1#1
  let main_v112 : IVec S_ 1 := (fun x v => Host.reduce IntOp.andi x v reducesTo_S128_S_d0 h_S_) main_v111 main_c_43
  let main_v113 : IVec S_ 1 := andi main_v108 main_v112
  let main_v114 : FVec F S384x384 .f32 := Host.absf main_arg24
  let main_cst_44 : FVec F S_ .f32 := constant S_ .f32 0x7F800000#32
  let main_v115 : FVec F S384x384 .f32 := broadcastInDim S384x384 ![] bcast_S_S384x384 main_cst_44
  let main_v116 : IVec S384x384 1 := cmpf .olt main_v114 main_v115
  let main_c_45 : IVec S_ 1 := constantI S_ 1 1#1
  let main_v117 : IVec S_ 1 := (fun x v => Host.reduce IntOp.andi x v reducesTo_S384x384_S_d0_1 h_S_) main_v116 main_c_45
  let main_v118 : IVec S_ 1 := andi main_v113 main_v117
  let main_v119 : FVec F S384 .f32 := Host.absf main_arg25
  fn_part7 (F := F) main_arg26 main_arg27 main_arg28 main_arg29 main_v118 main_v119

def fn_part5 {F : FTy → Type} [FloatOps F] (main_arg19 : FVec F S256 .f32) (main_arg20 : FVec F S256 .f32) (main_arg21 : FVec F S256 .f32) (main_arg22 : FVec F S256x128 .f32) (main_arg23 : FVec F S128 .f32) (main_arg24 : FVec F S384x384 .f32) (main_arg25 : FVec F S384 .f32) (main_arg26 : FVec F S384x128 .f32) (main_arg27 : FVec F S128 .f32) (main_arg28 : FVec F S128 .f32) (main_arg29 : FVec F S128 .f32) (main_v83 : IVec S_ 1) (main_v84 : FVec F S256x256 .f32) (main_cst_32 : FVec F S_ .f32) : IVec S_ 1 :=
  let main_v85 : FVec F S256x256 .f32 := broadcastInDim S256x256 ![] bcast_S_S256x256 main_cst_32
  let main_v86 : IVec S256x256 1 := cmpf .olt main_v84 main_v85
  let main_c_33 : IVec S_ 1 := constantI S_ 1 1#1
  let main_v87 : IVec S_ 1 := (fun x v => Host.reduce IntOp.andi x v reducesTo_S256x256_S_d0_1 h_S_) main_v86 main_c_33
  let main_v88 : IVec S_ 1 := andi main_v83 main_v87
  let main_v89 : FVec F S256 .f32 := Host.absf main_arg19
  let main_cst_34 : FVec F S_ .f32 := constant S_ .f32 0x7F800000#32
  let main_v90 : FVec F S256 .f32 := broadcastInDim S256 ![] bcast_S_S256 main_cst_34
  let main_v91 : IVec S256 1 := cmpf .olt main_v89 main_v90
  let main_c_35 : IVec S_ 1 := constantI S_ 1 1#1
  let main_v92 : IVec S_ 1 := (fun x v => Host.reduce IntOp.andi x v reducesTo_S256_S_d0 h_S_) main_v91 main_c_35
  let main_v93 : IVec S_ 1 := andi main_v88 main_v92
  let main_v94 : FVec F S256 .f32 := Host.absf main_arg20
  let main_cst_36 : FVec F S_ .f32 := constant S_ .f32 0x7F800000#32
  let main_v95 : FVec F S256 .f32 := broadcastInDim S256 ![] bcast_S_S256 main_cst_36
  let main_v96 : IVec S256 1 := cmpf .olt main_v94 main_v95
  let main_c_37 : IVec S_ 1 := constantI S_ 1 1#1
  let main_v97 : IVec S_ 1 := (fun x v => Host.reduce IntOp.andi x v reducesTo_S256_S_d0 h_S_) main_v96 main_c_37
  let main_v98 : IVec S_ 1 := andi main_v93 main_v97
  let main_v99 : FVec F S256 .f32 := Host.absf main_arg21
  let main_cst_38 : FVec F S_ .f32 := constant S_ .f32 0x7F800000#32
  let main_v100 : FVec F S256 .f32 := broadcastInDim S256 ![] bcast_S_S256 main_cst_38
  let main_v101 : IVec S256 1 := cmpf .olt main_v99 main_v100
  let main_c_39 : IVec S_ 1 := constantI S_ 1 1#1
  fn_part6 (F := F) main_arg22 main_arg23 main_arg24 main_arg25 main_arg26 main_arg27 main_arg28 main_arg29 main_v98 main_v101 main_c_39

def fn_part4 {F : FTy → Type} [FloatOps F] (main_arg15 : FVec F S256 .f32) (main_arg16 : FVec F S256x256 .f32) (main_arg17 : FVec F S256 .f32) (main_arg18 : FVec F S256x256 .f32) (main_arg19 : FVec F S256 .f32) (main_arg20 : FVec F S256 .f32) (main_arg21 : FVec F S256 .f32) (main_arg22 : FVec F S256x128 .f32) (main_arg23 : FVec F S128 .f32) (main_arg24 : FVec F S384x384 .f32) (main_arg25 : FVec F S384 .f32) (main_arg26 : FVec F S384x128 .f32) (main_arg27 : FVec F S128 .f32) (main_arg28 : FVec F S128 .f32) (main_arg29 : FVec F S128 .f32) (main_v63 : IVec S_ 1) (main_v67 : IVec S_ 1) : IVec S_ 1 :=
  let main_v68 : IVec S_ 1 := andi main_v63 main_v67
  let main_v69 : FVec F S256 .f32 := Host.absf main_arg15
  let main_cst_26 : FVec F S_ .f32 := constant S_ .f32 0x7F800000#32
  let main_v70 : FVec F S256 .f32 := broadcastInDim S256 ![] bcast_S_S256 main_cst_26
  let main_v71 : IVec S256 1 := cmpf .olt main_v69 main_v70
  let main_c_27 : IVec S_ 1 := constantI S_ 1 1#1
  let main_v72 : IVec S_ 1 := (fun x v => Host.reduce IntOp.andi x v reducesTo_S256_S_d0 h_S_) main_v71 main_c_27
  let main_v73 : IVec S_ 1 := andi main_v68 main_v72
  let main_v74 : FVec F S256x256 .f32 := Host.absf main_arg16
  let main_cst_28 : FVec F S_ .f32 := constant S_ .f32 0x7F800000#32
  let main_v75 : FVec F S256x256 .f32 := broadcastInDim S256x256 ![] bcast_S_S256x256 main_cst_28
  let main_v76 : IVec S256x256 1 := cmpf .olt main_v74 main_v75
  let main_c_29 : IVec S_ 1 := constantI S_ 1 1#1
  let main_v77 : IVec S_ 1 := (fun x v => Host.reduce IntOp.andi x v reducesTo_S256x256_S_d0_1 h_S_) main_v76 main_c_29
  let main_v78 : IVec S_ 1 := andi main_v73 main_v77
  let main_v79 : FVec F S256 .f32 := Host.absf main_arg17
  let main_cst_30 : FVec F S_ .f32 := constant S_ .f32 0x7F800000#32
  let main_v80 : FVec F S256 .f32 := broadcastInDim S256 ![] bcast_S_S256 main_cst_30
  let main_v81 : IVec S256 1 := cmpf .olt main_v79 main_v80
  let main_c_31 : IVec S_ 1 := constantI S_ 1 1#1
  let main_v82 : IVec S_ 1 := (fun x v => Host.reduce IntOp.andi x v reducesTo_S256_S_d0 h_S_) main_v81 main_c_31
  let main_v83 : IVec S_ 1 := andi main_v78 main_v82
  let main_v84 : FVec F S256x256 .f32 := Host.absf main_arg18
  let main_cst_32 : FVec F S_ .f32 := constant S_ .f32 0x7F800000#32
  fn_part5 (F := F) main_arg19 main_arg20 main_arg21 main_arg22 main_arg23 main_arg24 main_arg25 main_arg26 main_arg27 main_arg28 main_arg29 main_v83 main_v84 main_cst_32

def fn_part3 {F : FTy → Type} [FloatOps F] (main_arg12 : FVec F S256 .f32) (main_arg13 : FVec F S256 .f32) (main_arg14 : FVec F S256x256 .f32) (main_arg15 : FVec F S256 .f32) (main_arg16 : FVec F S256x256 .f32) (main_arg17 : FVec F S256 .f32) (main_arg18 : FVec F S256x256 .f32) (main_arg19 : FVec F S256 .f32) (main_arg20 : FVec F S256 .f32) (main_arg21 : FVec F S256 .f32) (main_arg22 : FVec F S256x128 .f32) (main_arg23 : FVec F S128 .f32) (main_arg24 : FVec F S384x384 .f32) (main_arg25 : FVec F S384 .f32) (main_arg26 : FVec F S384x128 .f32) (main_arg27 : FVec F S128 .f32) (main_arg28 : FVec F S128 .f32) (main_arg29 : FVec F S128 .f32) (main_v48 : IVec S_ 1) (main_v49 : FVec F S256 .f32) (main_v50 : FVec F S256 .f32) : IVec S_ 1 :=
  let main_v51 : IVec S256 1 := cmpf .olt main_v49 main_v50
  let main_c_19 : IVec S_ 1 := constantI S_ 1 1#1
  let main_v52 : IVec S_ 1 := (fun x v => Host.reduce IntOp.andi x v reducesTo_S256_S_d0 h_S_) main_v51 main_c_19
  let main_v53 : IVec S_ 1 := andi main_v48 main_v52
  let main_v54 : FVec F S256 .f32 := Host.absf main_arg12
  let main_cst_20 : FVec F S_ .f32 := constant S_ .f32 0x7F800000#32
  let main_v55 : FVec F S256 .f32 := broadcastInDim S256 ![] bcast_S_S256 main_cst_20
  let main_v56 : IVec S256 1 := cmpf .olt main_v54 main_v55
  let main_c_21 : IVec S_ 1 := constantI S_ 1 1#1
  let main_v57 : IVec S_ 1 := (fun x v => Host.reduce IntOp.andi x v reducesTo_S256_S_d0 h_S_) main_v56 main_c_21
  let main_v58 : IVec S_ 1 := andi main_v53 main_v57
  let main_v59 : FVec F S256 .f32 := Host.absf main_arg13
  let main_cst_22 : FVec F S_ .f32 := constant S_ .f32 0x7F800000#32
  let main_v60 : FVec F S256 .f32 := broadcastInDim S256 ![] bcast_S_S256 main_cst_22
  let main_v61 : IVec S256 1 := cmpf .olt main_v59 main_v60
  let main_c_23 : IVec S_ 1 := constantI S_ 1 1#1
  let main_v62 : IVec S_ 1 := (fun x v => Host.reduce IntOp.andi x v reducesTo_S256_S_d0 h_S_) main_v61 main_c_23
  let main_v63 : IVec S_ 1 := andi main_v58 main_v62
  let main_v64 : FVec F S256x256 .f32 := Host.absf main_arg14
  let main_cst_24 : FVec F S_ .f32 := constant S_ .f32 0x7F800000#32
  let main_v65 : FVec F S256x256 .f32 := broadcastInDim S256x256 ![] bcast_S_S256x256 main_cst_24
  let main_v66 : IVec S256x256 1 := cmpf .olt main_v64 main_v65
  let main_c_25 : IVec S_ 1 := constantI S_ 1 1#1
  let main_v67 : IVec S_ 1 := (fun x v => Host.reduce IntOp.andi x v reducesTo_S256x256_S_d0_1 h_S_) main_v66 main_c_25
  fn_part4 (F := F) main_arg15 main_arg16 main_arg17 main_arg18 main_arg19 main_arg20 main_arg21 main_arg22 main_arg23 main_arg24 main_arg25 main_arg26 main_arg27 main_arg28 main_arg29 main_v63 main_v67

def fn_part2 {F : FTy → Type} [FloatOps F] (main_arg8 : FVec F S672x256 .f32) (main_arg9 : FVec F S256 .f32) (main_arg10 : FVec F S256x256 .f32) (main_arg11 : FVec F S256 .f32) (main_arg12 : FVec F S256 .f32) (main_arg13 : FVec F S256 .f32) (main_arg14 : FVec F S256x256 .f32) (main_arg15 : FVec F S256 .f32) (main_arg16 : FVec F S256x256 .f32) (main_arg17 : FVec F S256 .f32) (main_arg18 : FVec F S256x256 .f32) (main_arg19 : FVec F S256 .f32) (main_arg20 : FVec F S256 .f32) (main_arg21 : FVec F S256 .f32) (main_arg22 : FVec F S256x128 .f32) (main_arg23 : FVec F S128 .f32) (main_arg24 : FVec F S384x384 .f32) (main_arg25 : FVec F S384 .f32) (main_arg26 : FVec F S384x128 .f32) (main_arg27 : FVec F S128 .f32) (main_arg28 : FVec F S128 .f32) (main_arg29 : FVec F S128 .f32) (main_v33 : IVec S_ 1) : IVec S_ 1 :=
  let main_v34 : FVec F S672x256 .f32 := Host.absf main_arg8
  let main_cst_12 : FVec F S_ .f32 := constant S_ .f32 0x7F800000#32
  let main_v35 : FVec F S672x256 .f32 := broadcastInDim S672x256 ![] bcast_S_S672x256 main_cst_12
  let main_v36 : IVec S672x256 1 := cmpf .olt main_v34 main_v35
  let main_c_13 : IVec S_ 1 := constantI S_ 1 1#1
  let main_v37 : IVec S_ 1 := (fun x v => Host.reduce IntOp.andi x v reducesTo_S672x256_S_d0_1 h_S_) main_v36 main_c_13
  let main_v38 : IVec S_ 1 := andi main_v33 main_v37
  let main_v39 : FVec F S256 .f32 := Host.absf main_arg9
  let main_cst_14 : FVec F S_ .f32 := constant S_ .f32 0x7F800000#32
  let main_v40 : FVec F S256 .f32 := broadcastInDim S256 ![] bcast_S_S256 main_cst_14
  let main_v41 : IVec S256 1 := cmpf .olt main_v39 main_v40
  let main_c_15 : IVec S_ 1 := constantI S_ 1 1#1
  let main_v42 : IVec S_ 1 := (fun x v => Host.reduce IntOp.andi x v reducesTo_S256_S_d0 h_S_) main_v41 main_c_15
  let main_v43 : IVec S_ 1 := andi main_v38 main_v42
  let main_v44 : FVec F S256x256 .f32 := Host.absf main_arg10
  let main_cst_16 : FVec F S_ .f32 := constant S_ .f32 0x7F800000#32
  let main_v45 : FVec F S256x256 .f32 := broadcastInDim S256x256 ![] bcast_S_S256x256 main_cst_16
  let main_v46 : IVec S256x256 1 := cmpf .olt main_v44 main_v45
  let main_c_17 : IVec S_ 1 := constantI S_ 1 1#1
  let main_v47 : IVec S_ 1 := (fun x v => Host.reduce IntOp.andi x v reducesTo_S256x256_S_d0_1 h_S_) main_v46 main_c_17
  let main_v48 : IVec S_ 1 := andi main_v43 main_v47
  let main_v49 : FVec F S256 .f32 := Host.absf main_arg11
  let main_cst_18 : FVec F S_ .f32 := constant S_ .f32 0x7F800000#32
  let main_v50 : FVec F S256 .f32 := broadcastInDim S256 ![] bcast_S_S256 main_cst_18
  fn_part3 (F := F) main_arg12 main_arg13 main_arg14 main_arg15 main_arg16 main_arg17 main_arg18 main_arg19 main_arg20 main_arg21 main_arg22 main_arg23 main_arg24 main_arg25 main_arg26 main_arg27 main_arg28 main_arg29 main_v48 main_v49 main_v50

def fn_part1 {F : FTy → Type} [FloatOps F] (main_arg5 : FVec F S10000 .f32) (main_arg6 : FVec F S256x24 .f32) (main_arg7 : FVec F S24 .f32) (main_arg8 : FVec F S672x256 .f32) (main_arg9 : FVec F S256 .f32) (main_arg10 : FVec F S256x256 .f32) (main_arg11 : FVec F S256 .f32) (main_arg12 : FVec F S256 .f32) (main_arg13 : FVec F S256 .f32) (main_arg14 : FVec F S256x256 .f32) (main_arg15 : FVec F S256 .f32) (main_arg16 : FVec F S256x256 .f32) (main_arg17 : FVec F S256 .f32) (main_arg18 : FVec F S256x256 .f32) (main_arg19 : FVec F S256 .f32) (main_arg20 : FVec F S256 .f32) (main_arg21 : FVec F S256 .f32) (main_arg22 : FVec F S256x128 .f32) (main_arg23 : FVec F S128 .f32) (main_arg24 : FVec F S384x384 .f32) (main_arg25 : FVec F S384 .f32) (main_arg26 : FVec F S384x128 .f32) (main_arg27 : FVec F S128 .f32) (main_arg28 : FVec F S128 .f32) (main_arg29 : FVec F S128 .f32) (main_v13 : IVec S_ 1) (main_v16 : IVec S10000x3 1) : IVec S_ 1 :=
  let main_c_5 : IVec S_ 1 := constantI S_ 1 1#1
  let main_v17 : IVec S_ 1 := (fun x v => Host.reduce IntOp.andi x v reducesTo_S10000x3_S_d0_1 h_S_) main_v16 main_c_5
  let main_v18 : IVec S_ 1 := andi main_v13 main_v17
  let main_v19 : FVec F S10000 .f32 := Host.absf main_arg5
  let main_cst_6 : FVec F S_ .f32 := constant S_ .f32 0x7F800000#32
  let main_v20 : FVec F S10000 .f32 := broadcastInDim S10000 ![] bcast_S_S10000 main_cst_6
  let main_v21 : IVec S10000 1 := cmpf .olt main_v19 main_v20
  let main_c_7 : IVec S_ 1 := constantI S_ 1 1#1
  let main_v22 : IVec S_ 1 := (fun x v => Host.reduce IntOp.andi x v reducesTo_S10000_S_d0 h_S_) main_v21 main_c_7
  let main_v23 : IVec S_ 1 := andi main_v18 main_v22
  let main_v24 : FVec F S256x24 .f32 := Host.absf main_arg6
  let main_cst_8 : FVec F S_ .f32 := constant S_ .f32 0x7F800000#32
  let main_v25 : FVec F S256x24 .f32 := broadcastInDim S256x24 ![] bcast_S_S256x24 main_cst_8
  let main_v26 : IVec S256x24 1 := cmpf .olt main_v24 main_v25
  let main_c_9 : IVec S_ 1 := constantI S_ 1 1#1
  let main_v27 : IVec S_ 1 := (fun x v => Host.reduce IntOp.andi x v reducesTo_S256x24_S_d0_1 h_S_) main_v26 main_c_9
  let main_v28 : IVec S_ 1 := andi main_v23 main_v27
  let main_v29 : FVec F S24 .f32 := Host.absf main_arg7
  let main_cst_10 : FVec F S_ .f32 := constant S_ .f32 0x7F800000#32
  let main_v30 : FVec F S24 .f32 := broadcastInDim S24 ![] bcast_S_S24 main_cst_10
  let main_v31 : IVec S24 1 := cmpf .olt main_v29 main_v30
  let main_c_11 : IVec S_ 1 := constantI S_ 1 1#1
  let main_v32 : IVec S_ 1 := (fun x v => Host.reduce IntOp.andi x v reducesTo_S24_S_d0 h_S_) main_v31 main_c_11
  let main_v33 : IVec S_ 1 := andi main_v28 main_v32
  fn_part2 (F := F) main_arg8 main_arg9 main_arg10 main_arg11 main_arg12 main_arg13 main_arg14 main_arg15 main_arg16 main_arg17 main_arg18 main_arg19 main_arg20 main_arg21 main_arg22 main_arg23 main_arg24 main_arg25 main_arg26 main_arg27 main_arg28 main_arg29 main_v33

def fn {F : FTy → Type} [FloatOps F] (main_arg0 : FVec F S10000x256 .f32) (main_arg1 : FVec F S300000x128 .f32) (main_arg2 : IVec S2x300000 32) (main_arg3 : FVec F S10000x3x3 .f32) (main_arg4 : FVec F S10000x3 .f32) (main_arg5 : FVec F S10000 .f32) (main_arg6 : FVec F S256x24 .f32) (main_arg7 : FVec F S24 .f32) (main_arg8 : FVec F S672x256 .f32) (main_arg9 : FVec F S256 .f32) (main_arg10 : FVec F S256x256 .f32) (main_arg11 : FVec F S256 .f32) (main_arg12 : FVec F S256 .f32) (main_arg13 : FVec F S256 .f32) (main_arg14 : FVec F S256x256 .f32) (main_arg15 : FVec F S256 .f32) (main_arg16 : FVec F S256x256 .f32) (main_arg17 : FVec F S256 .f32) (main_arg18 : FVec F S256x256 .f32) (main_arg19 : FVec F S256 .f32) (main_arg20 : FVec F S256 .f32) (main_arg21 : FVec F S256 .f32) (main_arg22 : FVec F S256x128 .f32) (main_arg23 : FVec F S128 .f32) (main_arg24 : FVec F S384x384 .f32) (main_arg25 : FVec F S384 .f32) (main_arg26 : FVec F S384x128 .f32) (main_arg27 : FVec F S128 .f32) (main_arg28 : FVec F S128 .f32) (main_arg29 : FVec F S128 .f32) : IVec S_ 1 :=
  let main_v0 : FVec F S10000x256 .f32 := Host.absf main_arg0
  let main_cst : FVec F S_ .f32 := constant S_ .f32 0x7F800000#32
  let main_v1 : FVec F S10000x256 .f32 := broadcastInDim S10000x256 ![] bcast_S_S10000x256 main_cst
  let main_v2 : IVec S10000x256 1 := cmpf .olt main_v0 main_v1
  let main_c : IVec S_ 1 := constantI S_ 1 1#1
  let main_v3 : IVec S_ 1 := (fun x v => Host.reduce IntOp.andi x v reducesTo_S10000x256_S_d0_1 h_S_) main_v2 main_c
  let main_v4 : FVec F S300000x128 .f32 := Host.absf main_arg1
  let main_cst_0 : FVec F S_ .f32 := constant S_ .f32 0x7F800000#32
  let main_v5 : FVec F S300000x128 .f32 := broadcastInDim S300000x128 ![] bcast_S_S300000x128 main_cst_0
  let main_v6 : IVec S300000x128 1 := cmpf .olt main_v4 main_v5
  let main_c_1 : IVec S_ 1 := constantI S_ 1 1#1
  let main_v7 : IVec S_ 1 := (fun x v => Host.reduce IntOp.andi x v reducesTo_S300000x128_S_d0_1 h_S_) main_v6 main_c_1
  let main_v8 : IVec S_ 1 := andi main_v3 main_v7
  let main_v9 : FVec F S10000x3x3 .f32 := Host.absf main_arg3
  let main_cst_2 : FVec F S_ .f32 := constant S_ .f32 0x7F800000#32
  let main_v10 : FVec F S10000x3x3 .f32 := broadcastInDim S10000x3x3 ![] bcast_S_S10000x3x3 main_cst_2
  let main_v11 : IVec S10000x3x3 1 := cmpf .olt main_v9 main_v10
  let main_c_3 : IVec S_ 1 := constantI S_ 1 1#1
  let main_v12 : IVec S_ 1 := (fun x v => Host.reduce IntOp.andi x v reducesTo_S10000x3x3_S_d0_1_2 h_S_) main_v11 main_c_3
  let main_v13 : IVec S_ 1 := andi main_v8 main_v12
  let main_v14 : FVec F S10000x3 .f32 := Host.absf main_arg4
  let main_cst_4 : FVec F S_ .f32 := constant S_ .f32 0x7F800000#32
  let main_v15 : FVec F S10000x3 .f32 := broadcastInDim S10000x3 ![] bcast_S_S10000x3 main_cst_4
  let main_v16 : IVec S10000x3 1 := cmpf .olt main_v14 main_v15
  fn_part1 (F := F) main_arg5 main_arg6 main_arg7 main_arg8 main_arg9 main_arg10 main_arg11 main_arg12 main_arg13 main_arg14 main_arg15 main_arg16 main_arg17 main_arg18 main_arg19 main_arg20 main_arg21 main_arg22 main_arg23 main_arg24 main_arg25 main_arg26 main_arg27 main_arg28 main_arg29 main_v13 main_v16
-- ==== Kernel.lean ====
abbrev S10000x256 : Shape := ⟨2, ![10000, 256]⟩
abbrev S300000x128 : Shape := ⟨2, ![300000, 128]⟩
abbrev S2x300000 : Shape := ⟨2, ![2, 300000]⟩
abbrev S10000x3x3 : Shape := ⟨3, ![10000, 3, 3]⟩
abbrev S10000x3 : Shape := ⟨2, ![10000, 3]⟩
abbrev S10000 : Shape := ⟨1, ![10000]⟩
abbrev S256x24 : Shape := ⟨2, ![256, 24]⟩
abbrev S24 : Shape := ⟨1, ![24]⟩
abbrev S672x256 : Shape := ⟨2, ![672, 256]⟩
abbrev S256 : Shape := ⟨1, ![256]⟩
abbrev S256x256 : Shape := ⟨2, ![256, 256]⟩
abbrev S256x128 : Shape := ⟨2, ![256, 128]⟩
abbrev S128 : Shape := ⟨1, ![128]⟩
abbrev S384x384 : Shape := ⟨2, ![384, 384]⟩
abbrev S384 : Shape := ⟨1, ![384]⟩
abbrev S384x128 : Shape := ⟨2, ![384, 128]⟩
abbrev S1x300000 : Shape := ⟨2, ![1, 300000]⟩
abbrev S300000 : Shape := ⟨1, ![300000]⟩
abbrev S10000x24 : Shape := ⟨2, ![10000, 24]⟩
abbrev S1x24 : Shape := ⟨2, ![1, 24]⟩
abbrev S10000x8x3 : Shape := ⟨3, ![10000, 8, 3]⟩
abbrev S10000x1x3 : Shape := ⟨3, ![10000, 1, 3]⟩
abbrev S_ : Shape := ⟨0, ![]⟩
abbrev S300000x1 : Shape := ⟨2, ![300000, 1]⟩
abbrev S300000x8x3 : Shape := ⟨3, ![300000, 8, 3]⟩
abbrev S300000x3 : Shape := ⟨2, ![300000, 3]⟩
abbrev S300000x1x3 : Shape := ⟨3, ![300000, 1, 3]⟩
abbrev S300000x3x3 : Shape := ⟨3, ![300000, 3, 3]⟩
abbrev S300000x8 : Shape := ⟨2, ![300000, 8]⟩
abbrev S300000x24 : Shape := ⟨2, ![300000, 24]⟩
abbrev S300000x256 : Shape := ⟨2, ![300000, 256]⟩
abbrev S1x256 : Shape := ⟨2, ![1, 256]⟩
abbrev S3000x256 : Shape := ⟨2, ![3000, 256]⟩
abbrev S3000x128 : Shape := ⟨2, ![3000, 128]⟩
abbrev S3000x24 : Shape := ⟨2, ![3000, 24]⟩
abbrev S3000x8 : Shape := ⟨2, ![3000, 8]⟩
abbrev S3000x672 : Shape := ⟨2, ![3000, 672]⟩
abbrev S10000x1 : Shape := ⟨2, ![10000, 1]⟩
abbrev S1x128 : Shape := ⟨2, ![1, 128]⟩
abbrev S10000x128 : Shape := ⟨2, ![10000, 128]⟩
abbrev S2000x256 : Shape := ⟨2, ![2000, 256]⟩
abbrev S2000x1 : Shape := ⟨2, ![2000, 1]⟩
abbrev S2000x128 : Shape := ⟨2, ![2000, 128]⟩
abbrev S2000 : Shape := ⟨1, ![2000]⟩
abbrev S1x384 : Shape := ⟨2, ![1, 384]⟩
abbrev S3000x384 : Shape := ⟨2, ![3000, 384]⟩
abbrev S3000 : Shape := ⟨1, ![3000]⟩
abbrev S3000x1 : Shape := ⟨2, ![3000, 1]⟩

abbrev nBuf : Space → Nat
  | .hbm => 152
  | .vmem => 52
  | .smem => 0
  | _ => 0

abbrev hbmTy0_0 (i : Nat) : BufTy := match i % 128 with
  | 0 => ⟨S10000x256, .f32⟩
  | 1 => ⟨S300000x128, .f32⟩
  | 2 => ⟨S2x300000, .i32⟩
  | 3 => ⟨S10000x3x3, .f32⟩
  | 4 => ⟨S10000x3, .f32⟩
  | 5 => ⟨S10000, .f32⟩
  | 6 => ⟨S256x24, .f32⟩
  | 7 => ⟨S24, .f32⟩
  | 8 => ⟨S672x256, .f32⟩
  | 9 => ⟨S256, .f32⟩
  | 10 => ⟨S256x256, .f32⟩
  | 11 => ⟨S256, .f32⟩
  | 12 => ⟨S256, .f32⟩
  | 13 => ⟨S256, .f32⟩
  | 14 => ⟨S256x256, .f32⟩
  | 15 => ⟨S256, .f32⟩
  | 16 => ⟨S256x256, .f32⟩
  | 17 => ⟨S256, .f32⟩
  | 18 => ⟨S256x256, .f32⟩
  | 19 => ⟨S256, .f32⟩
  | 20 => ⟨S256, .f32⟩
  | 21 => ⟨S256, .f32⟩
  | 22 => ⟨S256x128, .f32⟩
  | 23 => ⟨S128, .f32⟩
  | 24 => ⟨S384x384, .f32⟩
  | 25 => ⟨S384, .f32⟩
  | 26 => ⟨S384x128, .f32⟩
  | 27 => ⟨S128, .f32⟩
  | 28 => ⟨S128, .f32⟩
  | 29 => ⟨S128, .f32⟩
  | 30 => ⟨S1x300000, .i32⟩
  | 31 => ⟨S300000, .i32⟩
  | 32 => ⟨S1x300000, .i32⟩
  | 33 => ⟨S300000, .i32⟩
  | 34 => ⟨S10000x24, .f32⟩
  | 35 => ⟨S1x24, .f32⟩
  | 36 => ⟨S10000x24, .f32⟩
  | 37 => ⟨S10000x24, .f32⟩
  | 38 => ⟨S10000x8x3, .f32⟩
  | 39 => ⟨S10000x8x3, .f32⟩
  | 40 => ⟨S10000x1x3, .f32⟩
  | 41 => ⟨S10000x8x3, .f32⟩
  | 42 => ⟨S10000x8x3, .f32⟩
  | 43 => ⟨S_, .i32⟩
  | 44 => ⟨S300000, .i32⟩
  | 45 => ⟨S300000, .i1⟩
  | 46 => ⟨S_, .i32⟩
  | 47 => ⟨S300000, .i32⟩
  | 48 => ⟨S300000, .i32⟩
  | 49 => ⟨S300000, .i32⟩
  | 50 => ⟨S300000x1, .i32⟩
  | 51 => ⟨S300000x8x3, .f32⟩
  | 52 => ⟨S_, .i32⟩
  | 53 => ⟨S300000, .i32⟩
  | 54 => ⟨S300000, .i1⟩
  | 55 => ⟨S_, .i32⟩
  | 56 => ⟨S300000, .i32⟩
  | 57 => ⟨S300000, .i32⟩
  | 58 => ⟨S300000, .i32⟩
  | 59 => ⟨S300000x1, .i32⟩
  | 60 => ⟨S300000x3, .f32⟩
  | 61 => ⟨S300000x1x3, .f32⟩
  | 62 => ⟨S300000x8x3, .f32⟩
  | 63 => ⟨S300000x8x3, .f32⟩
  | 64 => ⟨S_, .i32⟩
  | 65 => ⟨S300000, .i32⟩
  | 66 => ⟨S300000, .i1⟩
  | 67 => ⟨S_, .i32⟩
  | 68 => ⟨S300000, .i32⟩
  | 69 => ⟨S300000, .i32⟩
  | 70 => ⟨S300000, .i32⟩
  | 71 => ⟨S300000x1, .i32⟩
  | 72 => ⟨S300000x3x3, .f32⟩
  | 73 => ⟨S300000x8x3, .f32⟩
  | 74 => ⟨S300000x8x3, .f32⟩
  | 75 => ⟨S_, .f32⟩
  | 76 => ⟨S300000x8, .f32⟩
  | 77 => ⟨S_, .f32⟩
  | 78 => ⟨S300000x8, .f32⟩
  | 79 => ⟨S300000x8, .f32⟩
  | 80 => ⟨S300000x8, .f32⟩
  | 81 => ⟨S300000x24, .f32⟩
  | 82 => ⟨S_, .i32⟩
  | 83 => ⟨S300000, .i32⟩
  | 84 => ⟨S300000, .i1⟩
  | 85 => ⟨S_, .i32⟩
  | 86 => ⟨S300000, .i32⟩
  | 87 => ⟨S300000, .i32⟩
  | 88 => ⟨S300000, .i32⟩
  | 89 => ⟨S300000x1, .i32⟩
  | 90 => ⟨S300000x256, .f32⟩
  | 91 => ⟨S_, .i32⟩
  | 92 => ⟨S300000, .i32⟩
  | 93 => ⟨S300000, .i1⟩
  | 94 => ⟨S_, .i32⟩
  | 95 => ⟨S300000, .i32⟩
  | 96 => ⟨S300000, .i32⟩
  | 97 => ⟨S300000, .i32⟩
  | 98 => ⟨S300000x1, .i32⟩
  | 99 => ⟨S300000x256, .f32⟩
  | 100 => ⟨S1x256, .f32⟩
  | 101 => ⟨S1x256, .f32⟩
  | 102 => ⟨S300000x256, .f32⟩
  | 103 => ⟨S_, .f32⟩
  | 104 => ⟨S10000x256, .f32⟩
  | 105 => ⟨S300000x1, .i32⟩
  | 106 => ⟨S10000x256, .f32⟩
  | 107 => ⟨S_, .f32⟩
  | 108 => ⟨S300000x1, .f32⟩
  | 109 => ⟨S_, .f32⟩
  | 110 => ⟨S10000x1, .f32⟩
  | 111 => ⟨S300000x1, .i32⟩
  | 112 => ⟨S10000x1, .f32⟩
  | 113 => ⟨S_, .f32⟩
  | 114 => ⟨S10000x1, .f32⟩
  | 115 => ⟨S10000x1, .f32⟩
  | 116 => ⟨S10000x256, .f32⟩
  | 117 => ⟨S10000x256, .f32⟩
  | 118 => ⟨S10000x1, .f32⟩
  | 119 => ⟨S1x256, .f32⟩
  | 120 => ⟨S1x256, .f32⟩
  | 121 => ⟨S1x256, .f32⟩
  | 122 => ⟨S1x256, .f32⟩
  | 123 => ⟨S1x256, .f32⟩
  | 124 => ⟨S1x256, .f32⟩
  | 125 => ⟨S1x256, .f32⟩
  | 126 => ⟨S1x128, .f32⟩
  | 127 => ⟨S10000x256, .f32⟩
  | _ => ⟨S10000x256, .f32⟩

abbrev hbmTy0_1 (i : Nat) : BufTy := match i % 128 with
  | 0 => ⟨S10000x128, .f32⟩
  | 1 => ⟨S_, .i32⟩
  | 2 => ⟨S300000, .i32⟩
  | 3 => ⟨S300000, .i1⟩
  | 4 => ⟨S_, .i32⟩
  | 5 => ⟨S300000, .i32⟩
  | 6 => ⟨S300000, .i32⟩
  | 7 => ⟨S300000, .i32⟩
  | 8 => ⟨S300000x1, .i32⟩
  | 9 => ⟨S300000x128, .f32⟩
  | 10 => ⟨S_, .i32⟩
  | 11 => ⟨S300000, .i32⟩
  | 12 => ⟨S300000, .i1⟩
  | 13 => ⟨S_, .i32⟩
  | 14 => ⟨S300000, .i32⟩
  | 15 => ⟨S300000, .i32⟩
  | 16 => ⟨S300000, .i32⟩
  | 17 => ⟨S300000x1, .i32⟩
  | 18 => ⟨S300000x128, .f32⟩
  | 19 => ⟨S1x384, .f32⟩
  | 20 => ⟨S1x128, .f32⟩
  | 21 => ⟨S1x128, .f32⟩
  | 22 => ⟨S1x128, .f32⟩
  | 23 => ⟨S300000x128, .f32⟩
  | _ => ⟨S10000x256, .f32⟩

abbrev hbmTy (i : Nat) : BufTy := match i / 128 with
  | 0 => hbmTy0_0 i
  | 1 => hbmTy0_1 i
  | _ => ⟨S10000x256, .f32⟩

abbrev bufTy : (tb : Table) → Fin (tcTables nBuf tb) → BufTy
  | .hbm, ⟨i, _⟩ => hbmTy i
  | .local _ .vmem, ⟨0, _⟩ => ⟨S3000x256, .f32⟩
  | .local _ .vmem, ⟨1, _⟩ => ⟨S3000x256, .f32⟩
  | .local _ .vmem, ⟨2, _⟩ => ⟨S3000x256, .f32⟩
  | .local _ .vmem, ⟨3, _⟩ => ⟨S3000x256, .f32⟩
  | .local _ .vmem, ⟨4, _⟩ => ⟨S3000x128, .f32⟩
  | .local _ .vmem, ⟨5, _⟩ => ⟨S3000x128, .f32⟩
  | .local _ .vmem, ⟨6, _⟩ => ⟨S3000x24, .f32⟩
  | .local _ .vmem, ⟨7, _⟩ => ⟨S3000x24, .f32⟩
  | .local _ .vmem, ⟨8, _⟩ => ⟨S3000x8, .f32⟩
  | .local _ .vmem, ⟨9, _⟩ => ⟨S3000x8, .f32⟩
  | .local _ .vmem, ⟨10, _⟩ => ⟨S672x256, .f32⟩
  | .local _ .vmem, ⟨11, _⟩ => ⟨S1x256, .f32⟩
  | .local _ .vmem, ⟨12, _⟩ => ⟨S256x256, .f32⟩
  | .local _ .vmem, ⟨13, _⟩ => ⟨S1x256, .f32⟩
  | .local _ .vmem, ⟨14, _⟩ => ⟨S3000x256, .f32⟩
  | .local _ .vmem, ⟨15, _⟩ => ⟨S3000x256, .f32⟩
  | .local _ .vmem, ⟨16, _⟩ => ⟨S2000x256, .f32⟩
  | .local _ .vmem, ⟨17, _⟩ => ⟨S2000x256, .f32⟩
  | .local _ .vmem, ⟨18, _⟩ => ⟨S2000x256, .f32⟩
  | .local _ .vmem, ⟨19, _⟩ => ⟨S2000x256, .f32⟩
  | .local _ .vmem, ⟨20, _⟩ => ⟨S2000x1, .f32⟩
  | .local _ .vmem, ⟨21, _⟩ => ⟨S2000x1, .f32⟩
  | .local _ .vmem, ⟨22, _⟩ => ⟨S1x256, .f32⟩
  | .local _ .vmem, ⟨23, _⟩ => ⟨S1x256, .f32⟩
  | .local _ .vmem, ⟨24, _⟩ => ⟨S256x256, .f32⟩
  | .local _ .vmem, ⟨25, _⟩ => ⟨S1x256, .f32⟩
  | .local _ .vmem, ⟨26, _⟩ => ⟨S256x256, .f32⟩
  | .local _ .vmem, ⟨27, _⟩ => ⟨S1x256, .f32⟩
  | .local _ .vmem, ⟨28, _⟩ => ⟨S256x256, .f32⟩
  | .local _ .vmem, ⟨29, _⟩ => ⟨S1x256, .f32⟩
  | .local _ .vmem, ⟨30, _⟩ => ⟨S1x256, .f32⟩
  | .local _ .vmem, ⟨31, _⟩ => ⟨S1x256, .f32⟩
  | .local _ .vmem, ⟨32, _⟩ => ⟨S256x128, .f32⟩
  | .local _ .vmem, ⟨33, _⟩ => ⟨S1x128, .f32⟩
  | .local _ .vmem, ⟨34, _⟩ => ⟨S2000x256, .f32⟩
  | .local _ .vmem, ⟨35, _⟩ => ⟨S2000x256, .f32⟩
  | .local _ .vmem, ⟨36, _⟩ => ⟨S2000x128, .f32⟩
  | .local _ .vmem, ⟨37, _⟩ => ⟨S2000x128, .f32⟩
  | .local _ .vmem, ⟨38, _⟩ => ⟨S3000x128, .f32⟩
  | .local _ .vmem, ⟨39, _⟩ => ⟨S3000x128, .f32⟩
  | .local _ .vmem, ⟨40, _⟩ => ⟨S3000x128, .f32⟩
  | .local _ .vmem, ⟨41, _⟩ => ⟨S3000x128, .f32⟩
  | .local _ .vmem, ⟨42, _⟩ => ⟨S3000x128, .f32⟩
  | .local _ .vmem, ⟨43, _⟩ => ⟨S3000x128, .f32⟩
  | .local _ .vmem, ⟨44, _⟩ => ⟨S384x384, .f32⟩
  | .local _ .vmem, ⟨45, _⟩ => ⟨S1x384, .f32⟩
  | .local _ .vmem, ⟨46, _⟩ => ⟨S384x128, .f32⟩
  | .local _ .vmem, ⟨47, _⟩ => ⟨S1x128, .f32⟩
  | .local _ .vmem, ⟨48, _⟩ => ⟨S1x128, .f32⟩
  | .local _ .vmem, ⟨49, _⟩ => ⟨S1x128, .f32⟩
  | .local _ .vmem, ⟨50, _⟩ => ⟨S3000x128, .f32⟩
  | .local _ .vmem, ⟨51, _⟩ => ⟨S3000x128, .f32⟩
  | _, _ => ⟨S10000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | _, _ => false

abbrev semScoped : Fin 0 → Bool
  | ⟨_, h⟩ => absurd h (Nat.not_lt_zero _)

abbrev dmaSemScoped : Fin 52 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | _ => false

abbrev sig : RefSig :=
  ofTc nBuf bufTy 0 52 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_v0 : Ref sig .tc := ⟨.hbm, 30, rfl⟩
abbrev main_v1 : Ref sig .tc := ⟨.hbm, 31, rfl⟩
abbrev main_v2 : Ref sig .tc := ⟨.hbm, 32, rfl⟩
abbrev main_v3 : Ref sig .tc := ⟨.hbm, 33, rfl⟩
abbrev main_v4 : Ref sig .tc := ⟨.hbm, 34, rfl⟩
abbrev main_v5 : Ref sig .tc := ⟨.hbm, 35, rfl⟩
abbrev main_v6 : Ref sig .tc := ⟨.hbm, 36, rfl⟩
abbrev main_v7 : Ref sig .tc := ⟨.hbm, 37, rfl⟩
abbrev main_v8 : Ref sig .tc := ⟨.hbm, 38, rfl⟩
abbrev main_v9 : Ref sig .tc := ⟨.hbm, 39, rfl⟩
abbrev main_v10 : Ref sig .tc := ⟨.hbm, 40, rfl⟩
abbrev main_v11 : Ref sig .tc := ⟨.hbm, 41, rfl⟩
abbrev main_v12 : Ref sig .tc := ⟨.hbm, 42, rfl⟩
abbrev main_c : Ref sig .tc := ⟨.hbm, 43, rfl⟩
abbrev main_v13 : Ref sig .tc := ⟨.hbm, 44, rfl⟩
abbrev main_v14 : Ref sig .tc := ⟨.hbm, 45, rfl⟩
abbrev main_c_0 : Ref sig .tc := ⟨.hbm, 46, rfl⟩
abbrev main_v15 : Ref sig .tc := ⟨.hbm, 47, rfl⟩
abbrev main_v16 : Ref sig .tc := ⟨.hbm, 48, rfl⟩
abbrev main_v17 : Ref sig .tc := ⟨.hbm, 49, rfl⟩
abbrev main_v18 : Ref sig .tc := ⟨.hbm, 50, rfl⟩
abbrev main_v19 : Ref sig .tc := ⟨.hbm, 51, rfl⟩
abbrev main_c_1 : Ref sig .tc := ⟨.hbm, 52, rfl⟩
abbrev main_v20 : Ref sig .tc := ⟨.hbm, 53, rfl⟩
abbrev main_v21 : Ref sig .tc := ⟨.hbm, 54, rfl⟩
abbrev main_c_2 : Ref sig .tc := ⟨.hbm, 55, rfl⟩
abbrev main_v22 : Ref sig .tc := ⟨.hbm, 56, rfl⟩
abbrev main_v23 : Ref sig .tc := ⟨.hbm, 57, rfl⟩
abbrev main_v24 : Ref sig .tc := ⟨.hbm, 58, rfl⟩
abbrev main_v25 : Ref sig .tc := ⟨.hbm, 59, rfl⟩
abbrev main_v26 : Ref sig .tc := ⟨.hbm, 60, rfl⟩
abbrev main_v27 : Ref sig .tc := ⟨.hbm, 61, rfl⟩
abbrev main_v28 : Ref sig .tc := ⟨.hbm, 62, rfl⟩
abbrev main_v29 : Ref sig .tc := ⟨.hbm, 63, rfl⟩
abbrev main_c_3 : Ref sig .tc := ⟨.hbm, 64, rfl⟩
abbrev main_v30 : Ref sig .tc := ⟨.hbm, 65, rfl⟩
abbrev main_v31 : Ref sig .tc := ⟨.hbm, 66, rfl⟩
abbrev main_c_4 : Ref sig .tc := ⟨.hbm, 67, rfl⟩
abbrev main_v32 : Ref sig .tc := ⟨.hbm, 68, rfl⟩
abbrev main_v33 : Ref sig .tc := ⟨.hbm, 69, rfl⟩
abbrev main_v34 : Ref sig .tc := ⟨.hbm, 70, rfl⟩
abbrev main_v35 : Ref sig .tc := ⟨.hbm, 71, rfl⟩
abbrev main_v36 : Ref sig .tc := ⟨.hbm, 72, rfl⟩
abbrev main_v37 : Ref sig .tc := ⟨.hbm, 73, rfl⟩
abbrev main_v38 : Ref sig .tc := ⟨.hbm, 74, rfl⟩
abbrev main_cst : Ref sig .tc := ⟨.hbm, 75, rfl⟩
abbrev main_v39 : Ref sig .tc := ⟨.hbm, 76, rfl⟩
abbrev main_cst_5 : Ref sig .tc := ⟨.hbm, 77, rfl⟩
abbrev main_v40 : Ref sig .tc := ⟨.hbm, 78, rfl⟩
abbrev main_v41 : Ref sig .tc := ⟨.hbm, 79, rfl⟩
abbrev main_v42 : Ref sig .tc := ⟨.hbm, 80, rfl⟩
abbrev main_v43 : Ref sig .tc := ⟨.hbm, 81, rfl⟩
abbrev main_c_6 : Ref sig .tc := ⟨.hbm, 82, rfl⟩
abbrev main_v44 : Ref sig .tc := ⟨.hbm, 83, rfl⟩
abbrev main_v45 : Ref sig .tc := ⟨.hbm, 84, rfl⟩
abbrev main_c_7 : Ref sig .tc := ⟨.hbm, 85, rfl⟩
abbrev main_v46 : Ref sig .tc := ⟨.hbm, 86, rfl⟩
abbrev main_v47 : Ref sig .tc := ⟨.hbm, 87, rfl⟩
abbrev main_v48 : Ref sig .tc := ⟨.hbm, 88, rfl⟩
abbrev main_v49 : Ref sig .tc := ⟨.hbm, 89, rfl⟩
abbrev main_v50 : Ref sig .tc := ⟨.hbm, 90, rfl⟩
abbrev main_c_8 : Ref sig .tc := ⟨.hbm, 91, rfl⟩
abbrev main_v51 : Ref sig .tc := ⟨.hbm, 92, rfl⟩
abbrev main_v52 : Ref sig .tc := ⟨.hbm, 93, rfl⟩
abbrev main_c_9 : Ref sig .tc := ⟨.hbm, 94, rfl⟩
abbrev main_v53 : Ref sig .tc := ⟨.hbm, 95, rfl⟩
abbrev main_v54 : Ref sig .tc := ⟨.hbm, 96, rfl⟩
abbrev main_v55 : Ref sig .tc := ⟨.hbm, 97, rfl⟩
abbrev main_v56 : Ref sig .tc := ⟨.hbm, 98, rfl⟩
abbrev main_v57 : Ref sig .tc := ⟨.hbm, 99, rfl⟩
abbrev main_v58 : Ref sig .tc := ⟨.hbm, 100, rfl⟩
abbrev main_v59 : Ref sig .tc := ⟨.hbm, 101, rfl⟩
abbrev main_v60 : Ref sig .tc := ⟨.hbm, 102, rfl⟩
abbrev main_cst_10 : Ref sig .tc := ⟨.hbm, 103, rfl⟩
abbrev main_v61 : Ref sig .tc := ⟨.hbm, 104, rfl⟩
abbrev main_v62 : Ref sig .tc := ⟨.hbm, 105, rfl⟩
abbrev main_v63 : Ref sig .tc := ⟨.hbm, 106, rfl⟩
abbrev main_cst_11 : Ref sig .tc := ⟨.hbm, 107, rfl⟩
abbrev main_v64 : Ref sig .tc := ⟨.hbm, 108, rfl⟩
abbrev main_cst_12 : Ref sig .tc := ⟨.hbm, 109, rfl⟩
abbrev main_v65 : Ref sig .tc := ⟨.hbm, 110, rfl⟩
abbrev main_v66 : Ref sig .tc := ⟨.hbm, 111, rfl⟩
abbrev main_v67 : Ref sig .tc := ⟨.hbm, 112, rfl⟩
abbrev main_cst_13 : Ref sig .tc := ⟨.hbm, 113, rfl⟩
abbrev main_v68 : Ref sig .tc := ⟨.hbm, 114, rfl⟩
abbrev main_v69 : Ref sig .tc := ⟨.hbm, 115, rfl⟩
abbrev main_v70 : Ref sig .tc := ⟨.hbm, 116, rfl⟩
abbrev main_v71 : Ref sig .tc := ⟨.hbm, 117, rfl⟩
abbrev main_v72 : Ref sig .tc := ⟨.hbm, 118, rfl⟩
abbrev main_v73 : Ref sig .tc := ⟨.hbm, 119, rfl⟩
abbrev main_v74 : Ref sig .tc := ⟨.hbm, 120, rfl⟩
abbrev main_v75 : Ref sig .tc := ⟨.hbm, 121, rfl⟩
abbrev main_v76 : Ref sig .tc := ⟨.hbm, 122, rfl⟩
abbrev main_v77 : Ref sig .tc := ⟨.hbm, 123, rfl⟩
abbrev main_v78 : Ref sig .tc := ⟨.hbm, 124, rfl⟩
abbrev main_v79 : Ref sig .tc := ⟨.hbm, 125, rfl⟩
abbrev main_v80 : Ref sig .tc := ⟨.hbm, 126, rfl⟩
abbrev main_v81_0 : Ref sig .tc := ⟨.hbm, 127, rfl⟩
abbrev main_v81_1 : Ref sig .tc := ⟨.hbm, 128, rfl⟩
abbrev main_c_14 : Ref sig .tc := ⟨.hbm, 129, rfl⟩
abbrev main_v82 : Ref sig .tc := ⟨.hbm, 130, rfl⟩
abbrev main_v83 : Ref sig .tc := ⟨.hbm, 131, rfl⟩
abbrev main_c_15 : Ref sig .tc := ⟨.hbm, 132, rfl⟩
abbrev main_v84 : Ref sig .tc := ⟨.hbm, 133, rfl⟩
abbrev main_v85 : Ref sig .tc := ⟨.hbm, 134, rfl⟩
abbrev main_v86 : Ref sig .tc := ⟨.hbm, 135, rfl⟩
abbrev main_v87 : Ref sig .tc := ⟨.hbm, 136, rfl⟩
abbrev main_v88 : Ref sig .tc := ⟨.hbm, 137, rfl⟩
abbrev main_c_16 : Ref sig .tc := ⟨.hbm, 138, rfl⟩
abbrev main_v89 : Ref sig .tc := ⟨.hbm, 139, rfl⟩
abbrev main_v90 : Ref sig .tc := ⟨.hbm, 140, rfl⟩
abbrev main_c_17 : Ref sig .tc := ⟨.hbm, 141, rfl⟩
abbrev main_v91 : Ref sig .tc := ⟨.hbm, 142, rfl⟩
abbrev main_v92 : Ref sig .tc := ⟨.hbm, 143, rfl⟩
abbrev main_v93 : Ref sig .tc := ⟨.hbm, 144, rfl⟩
abbrev main_v94 : Ref sig .tc := ⟨.hbm, 145, rfl⟩
abbrev main_v95 : Ref sig .tc := ⟨.hbm, 146, rfl⟩
abbrev main_v96 : Ref sig .tc := ⟨.hbm, 147, rfl⟩
abbrev main_v97 : Ref sig .tc := ⟨.hbm, 148, rfl⟩
abbrev main_v98 : Ref sig .tc := ⟨.hbm, 149, rfl⟩
abbrev main_v99 : Ref sig .tc := ⟨.hbm, 150, rfl⟩
abbrev main_v100 : Ref sig .tc := ⟨.hbm, 151, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc1_stg0_0 : Ref sig .tc := ⟨.vmem, 16, rfl⟩
abbrev cc1_stg0_1 : Ref sig .tc := ⟨.vmem, 17, rfl⟩
abbrev cc1_stg1_0 : Ref sig .tc := ⟨.vmem, 18, rfl⟩
abbrev cc1_stg1_1 : Ref sig .tc := ⟨.vmem, 19, rfl⟩
abbrev cc1_stg2_0 : Ref sig .tc := ⟨.vmem, 20, rfl⟩
abbrev cc1_stg2_1 : Ref sig .tc := ⟨.vmem, 21, rfl⟩
abbrev cc1_stg3_0 : Ref sig .tc := ⟨.vmem, 22, rfl⟩
abbrev cc1_stg4_0 : Ref sig .tc := ⟨.vmem, 23, rfl⟩
abbrev cc1_stg5_0 : Ref sig .tc := ⟨.vmem, 24, rfl⟩
abbrev cc1_stg6_0 : Ref sig .tc := ⟨.vmem, 25, rfl⟩
abbrev cc1_stg7_0 : Ref sig .tc := ⟨.vmem, 26, rfl⟩
abbrev cc1_stg8_0 : Ref sig .tc := ⟨.vmem, 27, rfl⟩
abbrev cc1_stg9_0 : Ref sig .tc := ⟨.vmem, 28, rfl⟩
abbrev cc1_stg10_0 : Ref sig .tc := ⟨.vmem, 29, rfl⟩
abbrev cc1_stg11_0 : Ref sig .tc := ⟨.vmem, 30, rfl⟩
abbrev cc1_stg12_0 : Ref sig .tc := ⟨.vmem, 31, rfl⟩
abbrev cc1_stg13_0 : Ref sig .tc := ⟨.vmem, 32, rfl⟩
abbrev cc1_stg14_0 : Ref sig .tc := ⟨.vmem, 33, rfl⟩
abbrev cc1_stg15_0 : Ref sig .tc := ⟨.vmem, 34, rfl⟩
abbrev cc1_stg15_1 : Ref sig .tc := ⟨.vmem, 35, rfl⟩
abbrev cc1_stg16_0 : Ref sig .tc := ⟨.vmem, 36, rfl⟩
abbrev cc1_stg16_1 : Ref sig .tc := ⟨.vmem, 37, rfl⟩
abbrev cc2_stg0_0 : Ref sig .tc := ⟨.vmem, 38, rfl⟩
abbrev cc2_stg0_1 : Ref sig .tc := ⟨.vmem, 39, rfl⟩
abbrev cc2_stg1_0 : Ref sig .tc := ⟨.vmem, 40, rfl⟩
abbrev cc2_stg1_1 : Ref sig .tc := ⟨.vmem, 41, rfl⟩
abbrev cc2_stg2_0 : Ref sig .tc := ⟨.vmem, 42, rfl⟩
abbrev cc2_stg2_1 : Ref sig .tc := ⟨.vmem, 43, rfl⟩
abbrev cc2_stg3_0 : Ref sig .tc := ⟨.vmem, 44, rfl⟩
abbrev cc2_stg4_0 : Ref sig .tc := ⟨.vmem, 45, rfl⟩
abbrev cc2_stg5_0 : Ref sig .tc := ⟨.vmem, 46, rfl⟩
abbrev cc2_stg6_0 : Ref sig .tc := ⟨.vmem, 47, rfl⟩
abbrev cc2_stg7_0 : Ref sig .tc := ⟨.vmem, 48, rfl⟩
abbrev cc2_stg8_0 : Ref sig .tc := ⟨.vmem, 49, rfl⟩
abbrev cc2_stg9_0 : Ref sig .tc := ⟨.vmem, 50, rfl⟩
abbrev cc2_stg9_1 : Ref sig .tc := ⟨.vmem, 51, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem9_1 : DmaSem sig := 15
abbrev cc1_sem0_0 : DmaSem sig := 16
abbrev cc1_sem0_1 : DmaSem sig := 17
abbrev cc1_sem1_0 : DmaSem sig := 18
abbrev cc1_sem1_1 : DmaSem sig := 19
abbrev cc1_sem2_0 : DmaSem sig := 20
abbrev cc1_sem2_1 : DmaSem sig := 21
abbrev cc1_sem3_0 : DmaSem sig := 22
abbrev cc1_sem4_0 : DmaSem sig := 23
abbrev cc1_sem5_0 : DmaSem sig := 24
abbrev cc1_sem6_0 : DmaSem sig := 25
abbrev cc1_sem7_0 : DmaSem sig := 26
abbrev cc1_sem8_0 : DmaSem sig := 27
abbrev cc1_sem9_0 : DmaSem sig := 28
abbrev cc1_sem10_0 : DmaSem sig := 29
abbrev cc1_sem11_0 : DmaSem sig := 30
abbrev cc1_sem12_0 : DmaSem sig := 31
abbrev cc1_sem13_0 : DmaSem sig := 32
abbrev cc1_sem14_0 : DmaSem sig := 33
abbrev cc1_sem15_0 : DmaSem sig := 34
abbrev cc1_sem15_1 : DmaSem sig := 35
abbrev cc1_sem16_0 : DmaSem sig := 36
abbrev cc1_sem16_1 : DmaSem sig := 37
abbrev cc2_sem0_0 : DmaSem sig := 38
abbrev cc2_sem0_1 : DmaSem sig := 39
abbrev cc2_sem1_0 : DmaSem sig := 40
abbrev cc2_sem1_1 : DmaSem sig := 41
abbrev cc2_sem2_0 : DmaSem sig := 42
abbrev cc2_sem2_1 : DmaSem sig := 43
abbrev cc2_sem3_0 : DmaSem sig := 44
abbrev cc2_sem4_0 : DmaSem sig := 45
abbrev cc2_sem5_0 : DmaSem sig := 46
abbrev cc2_sem6_0 : DmaSem sig := 47
abbrev cc2_sem7_0 : DmaSem sig := 48
abbrev cc2_sem8_0 : DmaSem sig := 49
abbrev cc2_sem9_0 : DmaSem sig := 50
abbrev cc2_sem9_1 : DmaSem sig := 51

abbrev nD : Nat := 1
abbrev τ : Topo := Topo.v7x

variable {F : FTy → Type} [FloatOps F]

abbrev grid0 : Pipeline.Grid := ⟨1, ![100], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S3000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S3000x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S3000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S3000x24 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S3000x8 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S672x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S3000x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev grid1 : Pipeline.Grid := ⟨1, ![5], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_11 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_12 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_13 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_14 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_15 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_16 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S256x256 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x256 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S256x256 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1x256 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S256x256 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 1 → Memref sig .tc .vmem S1x256 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

abbrev stage1_11 : Fin 1 → Memref sig .tc .vmem S1x256 .f32 := fun | 0 => Memref.whole cc1_stg11_0 | ⟨_ + 1, h⟩ => absurd h (Nat.not_lt.2 (Nat.le_add_left _ _))
abbrev sem1_11 : Fin 1 → DmaSem sig := fun | 0 => cc1_sem11_0 | ⟨_ + 1, h⟩ => absurd h (Nat.not_lt.2 (Nat.le_add_left _ _))
abbrev reads1_11 : Fin grid1.rank → Bool := ![false]

abbrev stage1_12 : Fin 1 → Memref sig .tc .vmem S1x256 .f32 := fun | 0 => Memref.whole cc1_stg12_0 | ⟨_ + 1, h⟩ => absurd h (Nat.not_lt.2 (Nat.le_add_left _ _))
abbrev sem1_12 : Fin 1 → DmaSem sig := fun | 0 => cc1_sem12_0 | ⟨_ + 1, h⟩ => absurd h (Nat.not_lt.2 (Nat.le_add_left _ _))
abbrev reads1_12 : Fin grid1.rank → Bool := ![false]

abbrev stage1_13 : Fin 1 → Memref sig .tc .vmem S256x128 .f32 := fun | 0 => Memref.whole cc1_stg13_0 | ⟨_ + 1, h⟩ => absurd h (Nat.not_lt.2 (Nat.le_add_left _ _))
abbrev sem1_13 : Fin 1 → DmaSem sig := fun | 0 => cc1_sem13_0 | ⟨_ + 1, h⟩ => absurd h (Nat.not_lt.2 (Nat.le_add_left _ _))
abbrev reads1_13 : Fin grid1.rank → Bool := ![false]

abbrev stage1_14 : Fin 1 → Memref sig .tc .vmem S1x128 .f32 := fun | 0 => Memref.whole cc1_stg14_0 | ⟨_ + 1, h⟩ => absurd h (Nat.not_lt.2 (Nat.le_add_left _ _))
abbrev sem1_14 : Fin 1 → DmaSem sig := fun | 0 => cc1_sem14_0 | ⟨_ + 1, h⟩ => absurd h (Nat.not_lt.2 (Nat.le_add_left _ _))
abbrev reads1_14 : Fin grid1.rank → Bool := ![false]

abbrev stage1_15 : Fin 2 → Memref sig .tc .vmem S2000x256 .f32 := fun | 0 => Memref.whole cc1_stg15_0 | 1 => Memref.whole cc1_stg15_1 | ⟨_ + 2, h⟩ => absurd h (Nat.not_lt.2 (Nat.le_add_left _ _))
abbrev sem1_15 : Fin 2 → DmaSem sig := fun | 0 => cc1_sem15_0 | 1 => cc1_sem15_1 | ⟨_ + 2, h⟩ => absurd h (Nat.not_lt.2 (Nat.le_add_left _ _))
abbrev reads1_15 : Fin grid1.rank → Bool := ![true]

abbrev stage1_16 : Fin 2 → Memref sig .tc .vmem S2000x128 .f32 := fun | 0 => Memref.whole cc1_stg16_0 | 1 => Memref.whole cc1_stg16_1 | ⟨_ + 2, h⟩ => absurd h (Nat.not_lt.2 (Nat.le_add_left _ _))
abbrev sem1_16 : Fin 2 → DmaSem sig := fun | 0 => cc1_sem16_0 | 1 => cc1_sem16_1 | ⟨_ + 2, h⟩ => absurd h (Nat.not_lt.2 (Nat.le_add_left _ _))
abbrev reads1_16 : Fin grid1.rank → Bool := ![true]

abbrev grid2 : Pipeline.Grid := ⟨1, ![100], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S3000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S3000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S3000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S384x384 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x384 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S384x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x128 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S1x128 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S1x128 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 2 → Memref sig .tc .vmem S3000x128 .f32 := fun | 0 => Memref.whole cc2_stg9_0 | 1 => Memref.whole cc2_stg9_1 | ⟨_ + 2, h⟩ => absurd h (Nat.not_lt.2 (Nat.le_add_left _ _))
abbrev sem2_9 : Fin 2 → DmaSem sig := fun | 0 => cc2_sem9_0 | 1 => cc2_sem9_1 | ⟨_ + 2, h⟩ => absurd h (Nat.not_lt.2 (Nat.le_add_left _ _))
abbrev reads2_9 : Fin grid2.rank → Bool := ![true]

class Facts₀ : Prop where
  slices_S2x300000_S1x300000_0_0 : S2x300000.Slices ![0, 0] S1x300000
  shapeCasts_S1x300000_S300000 : S1x300000.ShapeCasts S300000
  slices_S2x300000_S1x300000_1_0 : S2x300000.Slices ![1, 0] S1x300000
  bcast_S24_S1x24_1 : S24.BroadcastsInDim S1x24 (![1] : Fin 1 → Fin S1x24.rank)
  bcast_S1x24_S10000x24_0_1 : S1x24.BroadcastsInDim S10000x24 (![0, 1] : Fin 2 → Fin S10000x24.rank)
  shapeCasts_S10000x24_S10000x8x3 : S10000x24.ShapeCasts S10000x8x3
  bcast_S10000x3_S10000x1x3_0_2 : S10000x3.BroadcastsInDim S10000x1x3 (![0, 2] : Fin 2 → Fin S10000x1x3.rank)
  bcast_S10000x1x3_S10000x8x3_0_1_2 : S10000x1x3.BroadcastsInDim S10000x8x3 (![0, 1, 2] : Fin 3 → Fin S10000x8x3.rank)
  bcast_S_S300000 : S_.BroadcastsInDim S300000 (![] : Fin 0 → Fin S300000.rank)
  bcast_S300000_S300000x1_0 : S300000.BroadcastsInDim S300000x1 (![0] : Fin 1 → Fin S300000x1.rank)
  bcast_S300000x3_S300000x1x3_0_2 : S300000x3.BroadcastsInDim S300000x1x3 (![0, 2] : Fin 2 → Fin S300000x1x3.rank)
  bcast_S300000x1x3_S300000x8x3_0_1_2 : S300000x1x3.BroadcastsInDim S300000x8x3 (![0, 1, 2] : Fin 3 → Fin S300000x8x3.rank)
  reducesTo_S300000x8x3_S300000x8_d2 : S300000x8x3.ReducesTo [2] S300000x8
  h_S_ : 0 < S_.numel
  bcast_S_S300000x8 : S_.BroadcastsInDim S300000x8 (![] : Fin 0 → Fin S300000x8.rank)
  shapeCasts_S300000x8x3_S300000x24 : S300000x8x3.ShapeCasts S300000x24
  shapeCasts_S256_S1x256 : S256.ShapeCasts S1x256
  inb_S3000x256_S3000x256_0_0 : ∀ a, (![0, 0] : Fin 2 → Nat) a + S3000x256.size a ≤ S3000x256.size a
  h_S3000x256 : 0 < S3000x256.numel
  shapeCasts_S3000x256_S3000x256 : S3000x256.ShapeCasts S3000x256
  inb_S3000x128_S3000x128_0_0 : ∀ a, (![0, 0] : Fin 2 → Nat) a + S3000x128.size a ≤ S3000x128.size a
  h_S3000x128 : 0 < S3000x128.numel
  inb_S3000x24_S3000x24_0_0 : ∀ a, (![0, 0] : Fin 2 → Nat) a + S3000x24.size a ≤ S3000x24.size a
  h_S3000x24 : 0 < S3000x24.numel
  shapeCasts_S3000x24_S3000x24 : S3000x24.ShapeCasts S3000x24
  inb_S3000x8_S3000x8_0_0 : ∀ a, (![0, 0] : Fin 2 → Nat) a + S3000x8.size a ≤ S3000x8.size a
  h_S3000x8 : 0 < S3000x8.numel
  shapeCasts_S3000x8_S3000x8 : S3000x8.ShapeCasts S3000x8
  concatenates_S3000x256_S3000x256_S3000x128_S3000x24_S3000x8_S3000x672_d1 : Shape.Concatenates [S3000x256, S3000x256, S3000x128, S3000x24, S3000x8] S3000x672 1
  inb_S672x256_S672x256_0_0 : ∀ a, (![0, 0] : Fin 2 → Nat) a + S672x256.size a ≤ S672x256.size a
  h_S672x256 : 0 < S672x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S3000x256 : S1x256.Broadcasts S3000x256
  inb_S256x256_S256x256_0_0 : ∀ a, (![0, 0] : Fin 2 → Nat) a + S256x256.size a ≤ S256x256.size a
  h_S256x256 : 0 < S256x256.numel
  bcast_S_S10000x256 : S_.BroadcastsInDim S10000x256 (![] : Fin 0 → Fin S10000x256.rank)
  bcast_S_S300000x1 : S_.BroadcastsInDim S300000x1 (![] : Fin 0 → Fin S300000x1.rank)
  bcast_S_S10000x1 : S_.BroadcastsInDim S10000x1 (![] : Fin 0 → Fin S10000x1.rank)
  bcast_S10000x1_S10000x256_0_1 : S10000x1.BroadcastsInDim S10000x256 (![0, 1] : Fin 2 → Fin S10000x256.rank)
  shapeCasts_S10000_S10000x1 : S10000.ShapeCasts S10000x1
  shapeCasts_S128_S1x128 : S128.ShapeCasts S1x128
  inb_S2000x256_S2000x256_0_0 : ∀ a, (![0, 0] : Fin 2 → Nat) a + S2000x256.size a ≤ S2000x256.size a
  h_S2000x256 : 0 < S2000x256.numel
  shapeCasts_S2000x256_S2000x256 : S2000x256.ShapeCasts S2000x256
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x256 : S2000x1.Broadcasts S2000x256
  reduces_S2000x256_S2000 : S2000x256.Reduces [1] S2000
  shapeCasts_S2000_S2000x1 : S2000.ShapeCasts S2000x1
  broadcasts_S1x256_S2000x256 : S1x256.Broadcasts S2000x256
  inb_S256x128_S256x128_0_0 : ∀ a, (![0, 0] : Fin 2 → Nat) a + S256x128.size a ≤ S256x128.size a
  h_S256x128 : 0 < S256x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  inb_S2000x128_S2000x128_0_0 : ∀ a, (![0, 0] : Fin 2 → Nat) a + S2000x128.size a ≤ S2000x128.size a
  h_S2000x128 : 0 < S2000x128.numel
  shapeCasts_S384_S1x384 : S384.ShapeCasts S1x384
  shapeCasts_S3000x128_S3000x128 : S3000x128.ShapeCasts S3000x128
  concatenates_S3000x128_S3000x128_S3000x128_S3000x384_d1 : Shape.Concatenates [S3000x128, S3000x128, S3000x128] S3000x384 1
  inb_S384x384_S384x384_0_0 : ∀ a, (![0, 0] : Fin 2 → Nat) a + S384x384.size a ≤ S384x384.size a
  h_S384x384 : 0 < S384x384.numel
  inb_S1x384_S1x384_0_0 : ∀ a, (![0, 0] : Fin 2 → Nat) a + S1x384.size a ≤ S1x384.size a
  h_S1x384 : 0 < S1x384.numel
  shapeCasts_S1x384_S1x384 : S1x384.ShapeCasts S1x384
  broadcasts_S1x384_S3000x384 : S1x384.Broadcasts S3000x384
  inb_S384x128_S384x128_0_0 : ∀ a, (![0, 0] : Fin 2 → Nat) a + S384x128.size a ≤ S384x128.size a
  h_S384x128 : 0 < S384x128.numel
  broadcasts_S1x128_S3000x128 : S1x128.Broadcasts S3000x128
  reduces_S3000x128_S3000 : S3000x128.Reduces [1] S3000
  shapeCasts_S3000_S3000x1 : S3000.ShapeCasts S3000x1
  broadcasts_S3000x1_S3000x128 : S3000x1.Broadcasts S3000x128
  dot_S10000x256_S256x24_S10000x24_1_0_0_1_n_n_wf : DotDims.WF S10000x256 S256x24 S10000x24 [1] [0] [0] [1] [] []
  dot_S10000x8x3_S10000x3x3_S10000x8x3_2_2_1_1_0_0_wf : DotDims.WF S10000x8x3 S10000x3x3 S10000x8x3 [2] [2] [1] [1] [0] [0]
  gather_S10000x8x3_S300000x1_S300000x8x3_12_0_n_n_0_1_183_wf : GatherDims.WF S10000x8x3 S300000x1 S300000x8x3 [1, 2] [0] [] [0] [] 1 ![1, 8, 3]
  gather_S10000x3_S300000x1_S300000x3_1_0_n_n_0_1_13_wf : GatherDims.WF S10000x3 S300000x1 S300000x3 [1] [0] [] [0] [] 1 ![1, 3]
  gather_S10000x3x3_S300000x1_S300000x3x3_12_0_n_n_0_1_133_wf : GatherDims.WF S10000x3x3 S300000x1 S300000x3x3 [1, 2] [0] [] [0] [] 1 ![1, 3, 3]
  dot_S300000x8x3_S300000x3x3_S300000x8x3_2_1_1_2_0_0_wf : DotDims.WF S300000x8x3 S300000x3x3 S300000x8x3 [2] [1] [1] [2] [0] [0]
  gather_S10000x256_S300000x1_S300000x256_1_0_n_n_0_1_1256_wf : GatherDims.WF S10000x256 S300000x1 S300000x256 [1] [0] [] [0] [] 1 ![1, 256]
  dot_S3000x672_S672x256_S3000x256_1_0_0_1_n_n_wf : DotDims.WF S3000x672 S672x256 S3000x256 [1] [0] [0] [1] [] []
  dot_S3000x256_S256x256_S3000x256_1_0_0_1_n_n_wf : DotDims.WF S3000x256 S256x256 S3000x256 [1] [0] [0] [1] [] []
  scatter_S10000x256_S300000x1_S300000x256_1_0_0_1_wf : ScatterDims.WF S10000x256 S300000x1 S300000x256 [1] [0] [0] 1
  scatter_S10000x1_S300000x1_S300000x1_1_0_0_1_wf : ScatterDims.WF S10000x1 S300000x1 S300000x1 [1] [0] [0] 1
  dot_S2000x256_S256x256_S2000x256_1_0_0_1_n_n_wf : DotDims.WF S2000x256 S256x256 S2000x256 [1] [0] [0] [1] [] []
  dot_S2000x256_S256x128_S2000x128_1_0_0_1_n_n_wf : DotDims.WF S2000x256 S256x128 S2000x128 [1] [0] [0] [1] [] []
  gather_S10000x128_S300000x1_S300000x128_1_0_n_n_0_1_1128_wf : GatherDims.WF S10000x128 S300000x1 S300000x128 [1] [0] [] [0] [] 1 ![1, 128]
  dot_S3000x384_S384x384_S3000x384_1_0_0_1_n_n_wf : DotDims.WF S3000x384 S384x384 S3000x384 [1] [0] [0] [1] [] []
  dot_S3000x384_S384x128_S3000x128_1_0_0_1_n_n_wf : DotDims.WF S3000x384 S384x128 S3000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S3000x256.size a ≤ S300000x256.size a
  hwx0_0 : ∀ i : grid0.Coords, EltTy.bits .f32 = 32 ∨ (Rect.block (s := S300000x256) S3000x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S3000x256.size a ≤ S300000x256.size a
  hwx0_1 : ∀ i : grid0.Coords, EltTy.bits .f32 = 32 ∨ (Rect.block (s := S300000x256) S3000x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S3000x128.size a ≤ S300000x128.size a
  hwx0_2 : ∀ i : grid0.Coords, EltTy.bits .f32 = 32 ∨ (Rect.block (s := S300000x128) S3000x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S3000x24.size a ≤ S300000x24.size a
  hwx0_3 : ∀ i : grid0.Coords, EltTy.bits .f32 = 32 ∨ (Rect.block (s := S300000x24) S3000x24.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S3000x8.size a ≤ S300000x8.size a
  hwx0_4 : ∀ i : grid0.Coords, EltTy.bits .f32 = 32 ∨ (Rect.block (s := S300000x8) S3000x8.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S672x256.size a ≤ S672x256.size a
  hwx0_5 : ∀ i : grid0.Coords, EltTy.bits .f32 = 32 ∨ (Rect.block (s := S672x256) S672x256.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x256.size a ≤ S1x256.size a
  hwx0_6 : ∀ i : grid0.Coords, EltTy.bits .f32 = 32 ∨ (Rect.block (s := S1x256) S1x256.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S256x256.size a ≤ S256x256.size a
  hwx0_7 : ∀ i : grid0.Coords, EltTy.bits .f32 = 32 ∨ (Rect.block (s := S256x256) S256x256.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x256.size a ≤ S1x256.size a
  hwx0_8 : ∀ i : grid0.Coords, EltTy.bits .f32 = 32 ∨ (Rect.block (s := S1x256) S1x256.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S3000x256.size a ≤ S300000x256.size a
  hwx0_9 : ∀ i : grid0.Coords, EltTy.bits .f32 = 32 ∨ (Rect.block (s := S300000x256) S3000x256.size (cc0_transform_9 i) (hinb0_9 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x256.size a ≤ S10000x256.size a
  hwx1_0 : ∀ i : grid1.Coords, EltTy.bits .f32 = 32 ∨ (Rect.block (s := S10000x256) S2000x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x256.size a ≤ S10000x256.size a
  hwx1_1 : ∀ i : grid1.Coords, EltTy.bits .f32 = 32 ∨ (Rect.block (s := S10000x256) S2000x256.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x1.size a ≤ S10000x1.size a
  hwx1_2 : ∀ i : grid1.Coords, EltTy.bits .f32 = 32 ∨ (Rect.block (s := S10000x1) S2000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x256.size a ≤ S1x256.size a
  hwx1_3 : ∀ i : grid1.Coords, EltTy.bits .f32 = 32 ∨ (Rect.block (s := S1x256) S1x256.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x256.size a ≤ S1x256.size a
  hwx1_4 : ∀ i : grid1.Coords, EltTy.bits .f32 = 32 ∨ (Rect.block (s := S1x256) S1x256.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S256x256.size a ≤ S256x256.size a
  hwx1_5 : ∀ i : grid1.Coords, EltTy.bits .f32 = 32 ∨ (Rect.block (s := S256x256) S256x256.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x256.size a ≤ S1x256.size a
  hwx1_6 : ∀ i : grid1.Coords, EltTy.bits .f32 = 32 ∨ (Rect.block (s := S1x256) S1x256.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S256x256.size a ≤ S256x256.size a
  hwx1_7 : ∀ i : grid1.Coords, EltTy.bits .f32 = 32 ∨ (Rect.block (s := S256x256) S256x256.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S1x256.size a ≤ S1x256.size a
  hwx1_8 : ∀ i : grid1.Coords, EltTy.bits .f32 = 32 ∨ (Rect.block (s := S1x256) S1x256.size (cc1_transform_8 i) (hinb1_8 i)).WholeWords (EltTy.packing .f32)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S256x256.size a ≤ S256x256.size a
  hwx1_9 : ∀ i : grid1.Coords, EltTy.bits .f32 = 32 ∨ (Rect.block (s := S256x256) S256x256.size (cc1_transform_9 i) (hinb1_9 i)).WholeWords (EltTy.packing .f32)
  hstage1_10 : ∀ j, (stage1_10 j).IsWhole
  nbuf1_10 : grid1.bufCount reads1_10 true = 1
  hreads1_10 : ∀ i i' : grid1.Coords, (∀ a, reads1_10 a = true → i a = i' a) → cc1_transform_10 i = cc1_transform_10 i'
  hinb1_10 : ∀ (i : grid1.Coords) a, (cc1_transform_10 i a + 1) * S1x256.size a ≤ S1x256.size a
  hwx1_10 : ∀ i : grid1.Coords, EltTy.bits .f32 = 32 ∨ (Rect.block (s := S1x256) S1x256.size (cc1_transform_10 i) (hinb1_10 i)).WholeWords (EltTy.packing .f32)
  hstage1_11 : ∀ j, (stage1_11 j).IsWhole
  nbuf1_11 : grid1.bufCount reads1_11 true = 1
  hreads1_11 : ∀ i i' : grid1.Coords, (∀ a, reads1_11 a = true → i a = i' a) → cc1_transform_11 i = cc1_transform_11 i'
  hinb1_11 : ∀ (i : grid1.Coords) a, (cc1_transform_11 i a + 1) * S1x256.size a ≤ S1x256.size a
  hwx1_11 : ∀ i : grid1.Coords, EltTy.bits .f32 = 32 ∨ (Rect.block (s := S1x256) S1x256.size (cc1_transform_11 i) (hinb1_11 i)).WholeWords (EltTy.packing .f32)
  hstage1_12 : ∀ j, (stage1_12 j).IsWhole
  nbuf1_12 : grid1.bufCount reads1_12 true = 1
  hreads1_12 : ∀ i i' : grid1.Coords, (∀ a, reads1_12 a = true → i a = i' a) → cc1_transform_12 i = cc1_transform_12 i'
  hinb1_12 : ∀ (i : grid1.Coords) a, (cc1_transform_12 i a + 1) * S1x256.size a ≤ S1x256.size a
  hwx1_12 : ∀ i : grid1.Coords, EltTy.bits .f32 = 32 ∨ (Rect.block (s := S1x256) S1x256.size (cc1_transform_12 i) (hinb1_12 i)).WholeWords (EltTy.packing .f32)
  hstage1_13 : ∀ j, (stage1_13 j).IsWhole
  nbuf1_13 : grid1.bufCount reads1_13 true = 1
  hreads1_13 : ∀ i i' : grid1.Coords, (∀ a, reads1_13 a = true → i a = i' a) → cc1_transform_13 i = cc1_transform_13 i'
  hinb1_13 : ∀ (i : grid1.Coords) a, (cc1_transform_13 i a + 1) * S256x128.size a ≤ S256x128.size a
  hwx1_13 : ∀ i : grid1.Coords, EltTy.bits .f32 = 32 ∨ (Rect.block (s := S256x128) S256x128.size (cc1_transform_13 i) (hinb1_13 i)).WholeWords (EltTy.packing .f32)
  hstage1_14 : ∀ j, (stage1_14 j).IsWhole
  nbuf1_14 : grid1.bufCount reads1_14 true = 1
  hreads1_14 : ∀ i i' : grid1.Coords, (∀ a, reads1_14 a = true → i a = i' a) → cc1_transform_14 i = cc1_transform_14 i'
  hinb1_14 : ∀ (i : grid1.Coords) a, (cc1_transform_14 i a + 1) * S1x128.size a ≤ S1x128.size a
  hwx1_14 : ∀ i : grid1.Coords, EltTy.bits .f32 = 32 ∨ (Rect.block (s := S1x128) S1x128.size (cc1_transform_14 i) (hinb1_14 i)).WholeWords (EltTy.packing .f32)
  hstage1_15 : ∀ j, (stage1_15 j).IsWhole
  nbuf1_15 : grid1.bufCount reads1_15 false = 2
  hreads1_15 : ∀ i i' : grid1.Coords, (∀ a, reads1_15 a = true → i a = i' a) → cc1_transform_15 i = cc1_transform_15 i'
  hinb1_15 : ∀ (i : grid1.Coords) a, (cc1_transform_15 i a + 1) * S2000x256.size a ≤ S10000x256.size a
  hwx1_15 : ∀ i : grid1.Coords, EltTy.bits .f32 = 32 ∨ (Rect.block (s := S10000x256) S2000x256.size (cc1_transform_15 i) (hinb1_15 i)).WholeWords (EltTy.packing .f32)
  hstage1_16 : ∀ j, (stage1_16 j).IsWhole
  nbuf1_16 : grid1.bufCount reads1_16 false = 2
  hreads1_16 : ∀ i i' : grid1.Coords, (∀ a, reads1_16 a = true → i a = i' a) → cc1_transform_16 i = cc1_transform_16 i'
  hinb1_16 : ∀ (i : grid1.Coords) a, (cc1_transform_16 i a + 1) * S2000x128.size a ≤ S10000x128.size a
  hwx1_16 : ∀ i : grid1.Coords, EltTy.bits .f32 = 32 ∨ (Rect.block (s := S10000x128) S2000x128.size (cc1_transform_16 i) (hinb1_16 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S3000x128.size a ≤ S300000x128.size a
  hwx2_0 : ∀ i : grid2.Coords, EltTy.bits .f32 = 32 ∨ (Rect.block (s := S300000x128) S3000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S3000x128.size a ≤ S300000x128.size a
  hwx2_1 : ∀ i : grid2.Coords, EltTy.bits .f32 = 32 ∨ (Rect.block (s := S300000x128) S3000x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S3000x128.size a ≤ S300000x128.size a
  hwx2_2 : ∀ i : grid2.Coords, EltTy.bits .f32 = 32 ∨ (Rect.block (s := S300000x128) S3000x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S384x384.size a ≤ S384x384.size a
  hwx2_3 : ∀ i : grid2.Coords, EltTy.bits .f32 = 32 ∨ (Rect.block (s := S384x384) S384x384.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x384.size a ≤ S1x384.size a
  hwx2_4 : ∀ i : grid2.Coords, EltTy.bits .f32 = 32 ∨ (Rect.block (s := S1x384) S1x384.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S384x128.size a ≤ S384x128.size a
  hwx2_5 : ∀ i : grid2.Coords, EltTy.bits .f32 = 32 ∨ (Rect.block (s := S384x128) S384x128.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x128.size a ≤ S1x128.size a
  hwx2_6 : ∀ i : grid2.Coords, EltTy.bits .f32 = 32 ∨ (Rect.block (s := S1x128) S1x128.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S1x128.size a ≤ S1x128.size a
  hwx2_7 : ∀ i : grid2.Coords, EltTy.bits .f32 = 32 ∨ (Rect.block (s := S1x128) S1x128.size (cc2_transform_7 i) (hinb2_7 i)).WholeWords (EltTy.packing .f32)
  hstage2_8 : ∀ j, (stage2_8 j).IsWhole
  nbuf2_8 : grid2.bufCount reads2_8 true = 1
  hreads2_8 : ∀ i i' : grid2.Coords, (∀ a, reads2_8 a = true → i a = i' a) → cc2_transform_8 i = cc2_transform_8 i'
  hinb2_8 : ∀ (i : grid2.Coords) a, (cc2_transform_8 i a + 1) * S1x128.size a ≤ S1x128.size a
  hwx2_8 : ∀ i : grid2.Coords, EltTy.bits .f32 = 32 ∨ (Rect.block (s := S1x128) S1x128.size (cc2_transform_8 i) (hinb2_8 i)).WholeWords (EltTy.packing .f32)
  hstage2_9 : ∀ j, (stage2_9 j).IsWhole
  nbuf2_9 : grid2.bufCount reads2_9 false = 2
  hreads2_9 : ∀ i i' : grid2.Coords, (∀ a, reads2_9 a = true → i a = i' a) → cc2_transform_9 i = cc2_transform_9 i'
  hinb2_9 : ∀ (i : grid2.Coords) a, (cc2_transform_9 i a + 1) * S3000x128.size a ≤ S300000x128.size a
  hwx2_9 : ∀ i : grid2.Coords, EltTy.bits .f32 = 32 ∨ (Rect.block (s := S300000x128) S3000x128.size (cc2_transform_9 i) (hinb2_9 i)).WholeWords (EltTy.packing .f32)

variable [Facts₀]

def dot_S10000x256_S256x24_S10000x24_1_0_0_1_n_n : DotDims S10000x256 S256x24 S10000x24 where
  lhsContracting := [1]
  rhsContracting := [0]
  lhsNonContracting := [0]
  rhsNonContracting := [1]
  lhsBatch := []
  rhsBatch := []
  wf := dot_S10000x256_S256x24_S10000x24_1_0_0_1_n_n_wf
def dot_S10000x8x3_S10000x3x3_S10000x8x3_2_2_1_1_0_0 : DotDims S10000x8x3 S10000x3x3 S10000x8x3 where
  lhsContracting := [2]
  rhsContracting := [2]
  lhsNonContracting := [1]
  rhsNonContracting := [1]
  lhsBatch := [0]
  rhsBatch := [0]
  wf := dot_S10000x8x3_S10000x3x3_S10000x8x3_2_2_1_1_0_0_wf
def gather_S10000x8x3_S300000x1_S300000x8x3_12_0_n_n_0_1_183 : GatherDims S10000x8x3 S300000x1 S300000x8x3 where
  offsetDims := [1, 2]
  collapsedSliceDims := [0]
  operandBatchingDims := []
  startIndicesBatchingDims := []
  startIndexMap := [0]
  indexVectorDim := 1
  sliceSizes := ![1, 8, 3]
  wf := gather_S10000x8x3_S300000x1_S300000x8x3_12_0_n_n_0_1_183_wf
def gather_S10000x3_S300000x1_S300000x3_1_0_n_n_0_1_13 : GatherDims S10000x3 S300000x1 S300000x3 where
  offsetDims := [1]
  collapsedSliceDims := [0]
  operandBatchingDims := []
  startIndicesBatchingDims := []
  startIndexMap := [0]
  indexVectorDim := 1
  sliceSizes := ![1, 3]
  wf := gather_S10000x3_S300000x1_S300000x3_1_0_n_n_0_1_13_wf
def gather_S10000x3x3_S300000x1_S300000x3x3_12_0_n_n_0_1_133 : GatherDims S10000x3x3 S300000x1 S300000x3x3 where
  offsetDims := [1, 2]
  collapsedSliceDims := [0]
  operandBatchingDims := []
  startIndicesBatchingDims := []
  startIndexMap := [0]
  indexVectorDim := 1
  sliceSizes := ![1, 3, 3]
  wf := gather_S10000x3x3_S300000x1_S300000x3x3_12_0_n_n_0_1_133_wf
def dot_S300000x8x3_S300000x3x3_S300000x8x3_2_1_1_2_0_0 : DotDims S300000x8x3 S300000x3x3 S300000x8x3 where
  lhsContracting := [2]
  rhsContracting := [1]
  lhsNonContracting := [1]
  rhsNonContracting := [2]
  lhsBatch := [0]
  rhsBatch := [0]
  wf := dot_S300000x8x3_S300000x3x3_S300000x8x3_2_1_1_2_0_0_wf
def gather_S10000x256_S300000x1_S300000x256_1_0_n_n_0_1_1256 : GatherDims S10000x256 S300000x1 S300000x256 where
  offsetDims := [1]
  collapsedSliceDims := [0]
  operandBatchingDims := []
  startIndicesBatchingDims := []
  startIndexMap := [0]
  indexVectorDim := 1
  sliceSizes := ![1, 256]
  wf := gather_S10000x256_S300000x1_S300000x256_1_0_n_n_0_1_1256_wf
def dot_S3000x672_S672x256_S3000x256_1_0_0_1_n_n : DotDims S3000x672 S672x256 S3000x256 where
  lhsContracting := [1]
  rhsContracting := [0]
  lhsNonContracting := [0]
  rhsNonContracting := [1]
  lhsBatch := []
  rhsBatch := []
  wf := dot_S3000x672_S672x256_S3000x256_1_0_0_1_n_n_wf
def dot_S3000x256_S256x256_S3000x256_1_0_0_1_n_n : DotDims S3000x256 S256x256 S3000x256 where
  lhsContracting := [1]
  rhsContracting := [0]
  lhsNonContracting := [0]
  rhsNonContracting := [1]
  lhsBatch := []
  rhsBatch := []
  wf := dot_S3000x256_S256x256_S3000x256_1_0_0_1_n_n_wf
def scatter_S10000x256_S300000x1_S300000x256_1_0_0_1 : ScatterDims S10000x256 S300000x1 S300000x256 where
  updateWindowDims := [1]
  insertedWindowDims := [0]
  scatterDimsToOperandDims := [0]
  indexVectorDim := 1
  wf := scatter_S10000x256_S300000x1_S300000x256_1_0_0_1_wf
def scatter_S10000x1_S300000x1_S300000x1_1_0_0_1 : ScatterDims S10000x1 S300000x1 S300000x1 where
  updateWindowDims := [1]
  insertedWindowDims := [0]
  scatterDimsToOperandDims := [0]
  indexVectorDim := 1
  wf := scatter_S10000x1_S300000x1_S300000x1_1_0_0_1_wf
def dot_S2000x256_S256x256_S2000x256_1_0_0_1_n_n : DotDims S2000x256 S256x256 S2000x256 where
  lhsContracting := [1]
  rhsContracting := [0]
  lhsNonContracting := [0]
  rhsNonContracting := [1]
  lhsBatch := []
  rhsBatch := []
  wf := dot_S2000x256_S256x256_S2000x256_1_0_0_1_n_n_wf
def dot_S2000x256_S256x128_S2000x128_1_0_0_1_n_n : DotDims S2000x256 S256x128 S2000x128 where
  lhsContracting := [1]
  rhsContracting := [0]
  lhsNonContracting := [0]
  rhsNonContracting := [1]
  lhsBatch := []
  rhsBatch := []
  wf := dot_S2000x256_S256x128_S2000x128_1_0_0_1_n_n_wf
def gather_S10000x128_S300000x1_S300000x128_1_0_n_n_0_1_1128 : GatherDims S10000x128 S300000x1 S300000x128 where
  offsetDims := [1]
  collapsedSliceDims := [0]
  operandBatchingDims := []
  startIndicesBatchingDims := []
  startIndexMap := [0]
  indexVectorDim := 1
  sliceSizes := ![1, 128]
  wf := gather_S10000x128_S300000x1_S300000x128_1_0_n_n_0_1_1128_wf
def dot_S3000x384_S384x384_S3000x384_1_0_0_1_n_n : DotDims S3000x384 S384x384 S3000x384 where
  lhsContracting := [1]
  rhsContracting := [0]
  lhsNonContracting := [0]
  rhsNonContracting := [1]
  lhsBatch := []
  rhsBatch := []
  wf := dot_S3000x384_S384x384_S3000x384_1_0_0_1_n_n_wf
def dot_S3000x384_S384x128_S3000x128_1_0_0_1_n_n : DotDims S3000x384 S384x128 S3000x128 where
  lhsContracting := [1]
  rhsContracting := [0]
  lhsNonContracting := [0]
  rhsNonContracting := [1]
  lhsBatch := []
  rhsBatch := []
  wf := dot_S3000x384_S384x128_S3000x128_1_0_0_1_n_n_wf

abbrev win0_0 : Pipeline.Window sig grid0 :=
  Pipeline.Window.ofSpec (Memref.whole main_v50) S3000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v57) S3000x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S3000x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v43) S3000x24.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v42) S3000x8.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_arg8) S672x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v58) S1x256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg10) S256x256.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v59) S1x256.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v60) S3000x256.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

abbrev win1_0 : Pipeline.Window sig grid1 :=
  Pipeline.Window.ofSpec (Memref.whole main_arg0) S2000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v71) S2000x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v72) S2000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v73) S1x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v74) S1x256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg14) S256x256.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v75) S1x256.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_arg16) S256x256.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v76) S1x256.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_arg18) S256x256.size cc1_transform_9 reads1_9 false true 1 stage1_9 sem1_9
    hrank1 hreads1_9 hinb1_9 nbuf1_9 (Memref.isWhole_whole _) hwx1_9 hstage1_9

abbrev win1_10 : Pipeline.Window sig grid1 :=
  Pipeline.Window.ofSpec (Memref.whole main_v77) S1x256.size cc1_transform_10 reads1_10 false true 1 stage1_10 sem1_10
    hrank1 hreads1_10 hinb1_10 nbuf1_10 (Memref.isWhole_whole _) hwx1_10 hstage1_10

abbrev win1_11 : Pipeline.Window sig grid1 :=
  Pipeline.Window.ofSpec (Memref.whole main_v78) S1x256.size cc1_transform_11 reads1_11 false true 1 stage1_11 sem1_11
    hrank1 hreads1_11 hinb1_11 nbuf1_11 (Memref.isWhole_whole _) hwx1_11 hstage1_11

abbrev win1_12 : Pipeline.Window sig grid1 :=
  Pipeline.Window.ofSpec (Memref.whole main_v79) S1x256.size cc1_transform_12 reads1_12 false true 1 stage1_12 sem1_12
    hrank1 hreads1_12 hinb1_12 nbuf1_12 (Memref.isWhole_whole _) hwx1_12 hstage1_12

abbrev win1_13 : Pipeline.Window sig grid1 :=
  Pipeline.Window.ofSpec (Memref.whole main_arg22) S256x128.size cc1_transform_13 reads1_13 false true 1 stage1_13 sem1_13
    hrank1 hreads1_13 hinb1_13 nbuf1_13 (Memref.isWhole_whole _) hwx1_13 hstage1_13

abbrev win1_14 : Pipeline.Window sig grid1 :=
  Pipeline.Window.ofSpec (Memref.whole main_v80) S1x128.size cc1_transform_14 reads1_14 false true 1 stage1_14 sem1_14
    hrank1 hreads1_14 hinb1_14 nbuf1_14 (Memref.isWhole_whole _) hwx1_14 hstage1_14

abbrev win1_15 : Pipeline.Window sig grid1 :=
  Pipeline.Window.ofSpec (Memref.whole main_v81_0) S2000x256.size cc1_transform_15 reads1_15 true false 2 stage1_15 sem1_15
    hrank1 hreads1_15 hinb1_15 nbuf1_15 (Memref.isWhole_whole _) hwx1_15 hstage1_15

abbrev win1_16 : Pipeline.Window sig grid1 :=
  Pipeline.Window.ofSpec (Memref.whole main_v81_1) S2000x128.size cc1_transform_16 reads1_16 true false 2 stage1_16 sem1_16
    hrank1 hreads1_16 hinb1_16 nbuf1_16 (Memref.isWhole_whole _) hwx1_16 hstage1_16

abbrev win1 : Fin 17 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | 11 => win1_11 | 12 => win1_12 | 13 => win1_13 | 14 => win1_14 | 15 => win1_15 | 16 => win1_16 | ⟨_ + 17, h⟩ => absurd h (Nat.not_lt.2 (Nat.le_add_left _ _))
abbrev spec1 : Fin 17 → Pipeline.WinSpec sig grid1.rank := fun w => (win1 w).toWinSpec

abbrev win2_0 : Pipeline.Window sig grid2 :=
  Pipeline.Window.ofSpec (Memref.whole main_v88) S3000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v95) S3000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg1) S3000x128.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_arg24) S384x384.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v96) S1x384.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_arg26) S384x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v97) S1x128.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v98) S1x128.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_v99) S1x128.size cc2_transform_8 reads2_8 false true 1 stage2_8 sem2_8
    hrank2 hreads2_8 hinb2_8 nbuf2_8 (Memref.isWhole_whole _) hwx2_8 hstage2_8

abbrev win2_9 : Pipeline.Window sig grid2 :=
  Pipeline.Window.ofSpec (Memref.whole main_v100) S3000x128.size cc2_transform_9 reads2_9 true false 2 stage2_9 sem2_9
    hrank2 hreads2_9 hinb2_9 nbuf2_9 (Memref.isWhole_whole _) hwx2_9 hstage2_9

abbrev win2 : Fin 10 → Pipeline.Window sig grid2 := fun | 0 => win2_0 | 1 => win2_1 | 2 => win2_2 | 3 => win2_3 | 4 => win2_4 | 5 => win2_5 | 6 => win2_6 | 7 => win2_7 | 8 => win2_8 | 9 => win2_9 | ⟨_ + 10, h⟩ => absurd h (Nat.not_lt.2 (Nat.le_add_left _ _))
abbrev spec2 : Fin 10 → Pipeline.WinSpec sig grid2.rank := fun w => (win2 w).toWinSpec

class Facts : Prop extends Facts₀ where

variable [Facts]
-- ==== ReferenceIdeal.lean ====
abbrev S10000x256 : Shape := ⟨2, ![10000, 256]⟩
abbrev S300000x128 : Shape := ⟨2, ![300000, 128]⟩
abbrev S2x300000 : Shape := ⟨2, ![2, 300000]⟩
abbrev S10000x3x3 : Shape := ⟨3, ![10000, 3, 3]⟩
abbrev S10000x3 : Shape := ⟨2, ![10000, 3]⟩
abbrev S10000 : Shape := ⟨1, ![10000]⟩
abbrev S256x24 : Shape := ⟨2, ![256, 24]⟩
abbrev S24 : Shape := ⟨1, ![24]⟩
abbrev S672x256 : Shape := ⟨2, ![672, 256]⟩
abbrev S256 : Shape := ⟨1, ![256]⟩
abbrev S256x256 : Shape := ⟨2, ![256, 256]⟩
abbrev S256x128 : Shape := ⟨2, ![256, 128]⟩
abbrev S128 : Shape := ⟨1, ![128]⟩
abbrev S384x384 : Shape := ⟨2, ![384, 384]⟩
abbrev S384 : Shape := ⟨1, ![384]⟩
abbrev S384x128 : Shape := ⟨2, ![384, 128]⟩
abbrev S1x300000 : Shape := ⟨2, ![1, 300000]⟩
abbrev S300000 : Shape := ⟨1, ![300000]⟩
abbrev S10000x24 : Shape := ⟨2, ![10000, 24]⟩
abbrev S1x24 : Shape := ⟨2, ![1, 24]⟩
abbrev S10000x8x3 : Shape := ⟨3, ![10000, 8, 3]⟩
abbrev S10000x1x3 : Shape := ⟨3, ![10000, 1, 3]⟩
abbrev S_ : Shape := ⟨0, ![]⟩
abbrev S300000x1 : Shape := ⟨2, ![300000, 1]⟩
abbrev S300000x8x3 : Shape := ⟨3, ![300000, 8, 3]⟩
abbrev S300000x3 : Shape := ⟨2, ![300000, 3]⟩
abbrev S300000x1x3 : Shape := ⟨3, ![300000, 1, 3]⟩
abbrev S300000x3x3 : Shape := ⟨3, ![300000, 3, 3]⟩
abbrev S300000x8 : Shape := ⟨2, ![300000, 8]⟩
abbrev S300000x256 : Shape := ⟨2, ![300000, 256]⟩
abbrev S300000x24 : Shape := ⟨2, ![300000, 24]⟩
abbrev S300000x672 : Shape := ⟨2, ![300000, 672]⟩
abbrev S1x256 : Shape := ⟨2, ![1, 256]⟩
abbrev S10000x1 : Shape := ⟨2, ![10000, 1]⟩
abbrev S10000x128 : Shape := ⟨2, ![10000, 128]⟩
abbrev S1x128 : Shape := ⟨2, ![1, 128]⟩
abbrev S300000x384 : Shape := ⟨2, ![300000, 384]⟩
abbrev S1x384 : Shape := ⟨2, ![1, 384]⟩

abbrev nBuf : Space → Nat
  | .hbm => 274
  | .vmem => 0
  | .smem => 0
  | _ => 0

abbrev hbmTy0_0 (i : Nat) : BufTy := match i % 128 with
  | 0 => ⟨S10000x256, .f32⟩
  | 1 => ⟨S300000x128, .f32⟩
  | 2 => ⟨S2x300000, .i32⟩
  | 3 => ⟨S10000x3x3, .f32⟩
  | 4 => ⟨S10000x3, .f32⟩
  | 5 => ⟨S10000, .f32⟩
  | 6 => ⟨S256x24, .f32⟩
  | 7 => ⟨S24, .f32⟩
  | 8 => ⟨S672x256, .f32⟩
  | 9 => ⟨S256, .f32⟩
  | 10 => ⟨S256x256, .f32⟩
  | 11 => ⟨S256, .f32⟩
  | 12 => ⟨S256, .f32⟩
  | 13 => ⟨S256, .f32⟩
  | 14 => ⟨S256x256, .f32⟩
  | 15 => ⟨S256, .f32⟩
  | 16 => ⟨S256x256, .f32⟩
  | 17 => ⟨S256, .f32⟩
  | 18 => ⟨S256x256, .f32⟩
  | 19 => ⟨S256, .f32⟩
  | 20 => ⟨S256, .f32⟩
  | 21 => ⟨S256, .f32⟩
  | 22 => ⟨S256x128, .f32⟩
  | 23 => ⟨S128, .f32⟩
  | 24 => ⟨S384x384, .f32⟩
  | 25 => ⟨S384, .f32⟩
  | 26 => ⟨S384x128, .f32⟩
  | 27 => ⟨S128, .f32⟩
  | 28 => ⟨S128, .f32⟩
  | 29 => ⟨S128, .f32⟩
  | 30 => ⟨S1x300000, .i32⟩
  | 31 => ⟨S300000, .i32⟩
  | 32 => ⟨S1x300000, .i32⟩
  | 33 => ⟨S300000, .i32⟩
  | 34 => ⟨S10000x24, .f32⟩
  | 35 => ⟨S1x24, .f32⟩
  | 36 => ⟨S10000x24, .f32⟩
  | 37 => ⟨S10000x24, .f32⟩
  | 38 => ⟨S10000x8x3, .f32⟩
  | 39 => ⟨S10000x8x3, .f32⟩
  | 40 => ⟨S10000x1x3, .f32⟩
  | 41 => ⟨S10000x8x3, .f32⟩
  | 42 => ⟨S10000x8x3, .f32⟩
  | 43 => ⟨S_, .i32⟩
  | 44 => ⟨S300000, .i32⟩
  | 45 => ⟨S300000, .i1⟩
  | 46 => ⟨S_, .i32⟩
  | 47 => ⟨S300000, .i32⟩
  | 48 => ⟨S300000, .i32⟩
  | 49 => ⟨S300000, .i32⟩
  | 50 => ⟨S300000x1, .i32⟩
  | 51 => ⟨S300000x8x3, .f32⟩
  | 52 => ⟨S_, .i32⟩
  | 53 => ⟨S300000, .i32⟩
  | 54 => ⟨S300000, .i1⟩
  | 55 => ⟨S_, .i32⟩
  | 56 => ⟨S300000, .i32⟩
  | 57 => ⟨S300000, .i32⟩
  | 58 => ⟨S300000, .i32⟩
  | 59 => ⟨S300000x1, .i32⟩
  | 60 => ⟨S300000x3, .f32⟩
  | 61 => ⟨S300000x1x3, .f32⟩
  | 62 => ⟨S300000x8x3, .f32⟩
  | 63 => ⟨S300000x8x3, .f32⟩
  | 64 => ⟨S_, .i32⟩
  | 65 => ⟨S300000, .i32⟩
  | 66 => ⟨S300000, .i1⟩
  | 67 => ⟨S_, .i32⟩
  | 68 => ⟨S300000, .i32⟩
  | 69 => ⟨S300000, .i32⟩
  | 70 => ⟨S300000, .i32⟩
  | 71 => ⟨S300000x1, .i32⟩
  | 72 => ⟨S300000x3x3, .f32⟩
  | 73 => ⟨S300000x8x3, .f32⟩
  | 74 => ⟨S300000x8x3, .f32⟩
  | 75 => ⟨S_, .f32⟩
  | 76 => ⟨S300000x8, .f32⟩
  | 77 => ⟨S_, .f32⟩
  | 78 => ⟨S300000x8, .f32⟩
  | 79 => ⟨S300000x8, .f32⟩
  | 80 => ⟨S300000x8, .f32⟩
  | 81 => ⟨S_, .i32⟩
  | 82 => ⟨S300000, .i32⟩
  | 83 => ⟨S300000, .i1⟩
  | 84 => ⟨S_, .i32⟩
  | 85 => ⟨S300000, .i32⟩
  | 86 => ⟨S300000, .i32⟩
  | 87 => ⟨S300000, .i32⟩
  | 88 => ⟨S300000x1, .i32⟩
  | 89 => ⟨S300000x256, .f32⟩
  | 90 => ⟨S_, .i32⟩
  | 91 => ⟨S300000, .i32⟩
  | 92 => ⟨S300000, .i1⟩
  | 93 => ⟨S_, .i32⟩
  | 94 => ⟨S300000, .i32⟩
  | 95 => ⟨S300000, .i32⟩
  | 96 => ⟨S300000, .i32⟩
  | 97 => ⟨S300000x1, .i32⟩
  | 98 => ⟨S300000x256, .f32⟩
  | 99 => ⟨S300000x24, .f32⟩
  | 100 => ⟨S300000x672, .f32⟩
  | 101 => ⟨S300000x256, .f32⟩
  | 102 => ⟨S1x256, .f32⟩
  | 103 => ⟨S300000x256, .f32⟩
  | 104 => ⟨S300000x256, .f32⟩
  | 105 => ⟨S_, .f32⟩
  | 106 => ⟨S300000x256, .f32⟩
  | 107 => ⟨S300000x256, .f32⟩
  | 108 => ⟨S300000x256, .f32⟩
  | 109 => ⟨S1x256, .f32⟩
  | 110 => ⟨S300000x256, .f32⟩
  | 111 => ⟨S300000x256, .f32⟩
  | 112 => ⟨S_, .f32⟩
  | 113 => ⟨S10000x256, .f32⟩
  | 114 => ⟨S300000x1, .i32⟩
  | 115 => ⟨S10000x256, .f32⟩
  | 116 => ⟨S_, .f32⟩
  | 117 => ⟨S300000x1, .f32⟩
  | 118 => ⟨S_, .f32⟩
  | 119 => ⟨S10000x1, .f32⟩
  | 120 => ⟨S300000x1, .i32⟩
  | 121 => ⟨S10000x1, .f32⟩
  | 122 => ⟨S_, .f32⟩
  | 123 => ⟨S10000x1, .f32⟩
  | 124 => ⟨S10000x1, .f32⟩
  | 125 => ⟨S10000x256, .f32⟩
  | 126 => ⟨S10000x256, .f32⟩
  | 127 => ⟨S10000x1, .f32⟩
  | _ => ⟨S10000x256, .f32⟩

abbrev hbmTy0_1 (i : Nat) : BufTy := match i % 128 with
  | 0 => ⟨S10000x256, .f32⟩
  | 1 => ⟨S10000x256, .f32⟩
  | 2 => ⟨S10000x256, .f32⟩
  | 3 => ⟨S_, .f32⟩
  | 4 => ⟨S10000, .f32⟩
  | 5 => ⟨S10000x1, .f32⟩
  | 6 => ⟨S_, .f32⟩
  | 7 => ⟨S10000x1, .f32⟩
  | 8 => ⟨S10000x1, .f32⟩
  | 9 => ⟨S10000x256, .f32⟩
  | 10 => ⟨S10000x256, .f32⟩
  | 11 => ⟨S10000x256, .f32⟩
  | 12 => ⟨S_, .f32⟩
  | 13 => ⟨S10000, .f32⟩
  | 14 => ⟨S10000x1, .f32⟩
  | 15 => ⟨S_, .f32⟩
  | 16 => ⟨S10000x1, .f32⟩
  | 17 => ⟨S10000x1, .f32⟩
  | 18 => ⟨S10000x256, .f32⟩
  | 19 => ⟨S10000x256, .f32⟩
  | 20 => ⟨S_, .f32⟩
  | 21 => ⟨S10000x1, .f32⟩
  | 22 => ⟨S10000x1, .f32⟩
  | 23 => ⟨S10000x1, .f32⟩
  | 24 => ⟨S10000x256, .f32⟩
  | 25 => ⟨S10000x256, .f32⟩
  | 26 => ⟨S1x256, .f32⟩
  | 27 => ⟨S10000x256, .f32⟩
  | 28 => ⟨S10000x256, .f32⟩
  | 29 => ⟨S1x256, .f32⟩
  | 30 => ⟨S10000x256, .f32⟩
  | 31 => ⟨S10000x256, .f32⟩
  | 32 => ⟨S10000x256, .f32⟩
  | 33 => ⟨S1x256, .f32⟩
  | 34 => ⟨S10000x256, .f32⟩
  | 35 => ⟨S10000x256, .f32⟩
  | 36 => ⟨S_, .f32⟩
  | 37 => ⟨S10000x256, .f32⟩
  | 38 => ⟨S10000x256, .f32⟩
  | 39 => ⟨S10000x256, .f32⟩
  | 40 => ⟨S1x256, .f32⟩
  | 41 => ⟨S10000x256, .f32⟩
  | 42 => ⟨S10000x256, .f32⟩
  | 43 => ⟨S_, .f32⟩
  | 44 => ⟨S10000x256, .f32⟩
  | 45 => ⟨S10000x256, .f32⟩
  | 46 => ⟨S10000x256, .f32⟩
  | 47 => ⟨S1x256, .f32⟩
  | 48 => ⟨S10000x256, .f32⟩
  | 49 => ⟨S10000x256, .f32⟩
  | 50 => ⟨S10000x256, .f32⟩
  | 51 => ⟨S_, .f32⟩
  | 52 => ⟨S10000, .f32⟩
  | 53 => ⟨S10000x1, .f32⟩
  | 54 => ⟨S_, .f32⟩
  | 55 => ⟨S10000x1, .f32⟩
  | 56 => ⟨S10000x1, .f32⟩
  | 57 => ⟨S10000x256, .f32⟩
  | 58 => ⟨S10000x256, .f32⟩
  | 59 => ⟨S10000x256, .f32⟩
  | 60 => ⟨S_, .f32⟩
  | 61 => ⟨S10000, .f32⟩
  | 62 => ⟨S10000x1, .f32⟩
  | 63 => ⟨S_, .f32⟩
  | 64 => ⟨S10000x1, .f32⟩
  | 65 => ⟨S10000x1, .f32⟩
  | 66 => ⟨S10000x256, .f32⟩
  | 67 => ⟨S10000x256, .f32⟩
  | 68 => ⟨S_, .f32⟩
  | 69 => ⟨S10000x1, .f32⟩
  | 70 => ⟨S10000x1, .f32⟩
  | 71 => ⟨S10000x1, .f32⟩
  | 72 => ⟨S10000x256, .f32⟩
  | 73 => ⟨S10000x256, .f32⟩
  | 74 => ⟨S1x256, .f32⟩
  | 75 => ⟨S10000x256, .f32⟩
  | 76 => ⟨S10000x256, .f32⟩
  | 77 => ⟨S1x256, .f32⟩
  | 78 => ⟨S10000x256, .f32⟩
  | 79 => ⟨S10000x256, .f32⟩
  | 80 => ⟨S10000x1, .f32⟩
  | 81 => ⟨S10000x256, .f32⟩
  | 82 => ⟨S10000x256, .f32⟩
  | 83 => ⟨S10000x128, .f32⟩
  | 84 => ⟨S1x128, .f32⟩
  | 85 => ⟨S10000x128, .f32⟩
  | 86 => ⟨S10000x128, .f32⟩
  | 87 => ⟨S_, .i32⟩
  | 88 => ⟨S300000, .i32⟩
  | 89 => ⟨S300000, .i1⟩
  | 90 => ⟨S_, .i32⟩
  | 91 => ⟨S300000, .i32⟩
  | 92 => ⟨S300000, .i32⟩
  | 93 => ⟨S300000, .i32⟩
  | 94 => ⟨S300000x1, .i32⟩
  | 95 => ⟨S300000x128, .f32⟩
  | 96 => ⟨S_, .i32⟩
  | 97 => ⟨S300000, .i32⟩
  | 98 => ⟨S300000, .i1⟩
  | 99 => ⟨S_, .i32⟩
  | 100 => ⟨S300000, .i32⟩
  | 101 => ⟨S300000, .i32⟩
  | 102 => ⟨S300000, .i32⟩
  | 103 => ⟨S300000x1, .i32⟩
  | 104 => ⟨S300000x128, .f32⟩
  | 105 => ⟨S300000x384, .f32⟩
  | 106 => ⟨S300000x384, .f32⟩
  | 107 => ⟨S1x384, .f32⟩
  | 108 => ⟨S300000x384, .f32⟩
  | 109 => ⟨S300000x384, .f32⟩
  | 110 => ⟨S_, .f32⟩
  | 111 => ⟨S300000x384, .f32⟩
  | 112 => ⟨S300000x384, .f32⟩
  | 113 => ⟨S300000x128, .f32⟩
  | 114 => ⟨S1x128, .f32⟩
  | 115 => ⟨S300000x128, .f32⟩
  | 116 => ⟨S300000x128, .f32⟩
  | 117 => ⟨S_, .f32⟩
  | 118 => ⟨S300000, .f32⟩
  | 119 => ⟨S300000x1, .f32⟩
  | 120 => ⟨S_, .f32⟩
  | 121 => ⟨S300000x1, .f32⟩
  | 122 => ⟨S300000x1, .f32⟩
  | 123 => ⟨S300000x128, .f32⟩
  | 124 => ⟨S300000x128, .f32⟩
  | 125 => ⟨S300000x128, .f32⟩
  | 126 => ⟨S_, .f32⟩
  | 127 => ⟨S300000, .f32⟩
  | _ => ⟨S10000x256, .f32⟩

abbrev hbmTy0_2 (i : Nat) : BufTy := match i % 128 with
  | 0 => ⟨S300000x1, .f32⟩
  | 1 => ⟨S_, .f32⟩
  | 2 => ⟨S300000x1, .f32⟩
  | 3 => ⟨S300000x1, .f32⟩
  | 4 => ⟨S300000x128, .f32⟩
  | 5 => ⟨S300000x128, .f32⟩
  | 6 => ⟨S_, .f32⟩
  | 7 => ⟨S300000x1, .f32⟩
  | 8 => ⟨S300000x1, .f32⟩
  | 9 => ⟨S300000x1, .f32⟩
  | 10 => ⟨S300000x128, .f32⟩
  | 11 => ⟨S300000x128, .f32⟩
  | 12 => ⟨S1x128, .f32⟩
  | 13 => ⟨S300000x128, .f32⟩
  | 14 => ⟨S300000x128, .f32⟩
  | 15 => ⟨S1x128, .f32⟩
  | 16 => ⟨S300000x128, .f32⟩
  | 17 => ⟨S300000x128, .f32⟩
  | _ => ⟨S10000x256, .f32⟩

abbrev hbmTy (i : Nat) : BufTy := match i / 128 with
  | 0 => hbmTy0_0 i
  | 1 => hbmTy0_1 i
  | 2 => hbmTy0_2 i
  | _ => ⟨S10000x256, .f32⟩

abbrev bufTy : (tb : Table) → Fin (tcTables nBuf tb) → BufTy
  | .hbm, ⟨i, _⟩ => hbmTy i
  | _, _ => ⟨S10000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_v0 : Ref sig .tc := ⟨.hbm, 30, rfl⟩
abbrev main_v1 : Ref sig .tc := ⟨.hbm, 31, rfl⟩
abbrev main_v2 : Ref sig .tc := ⟨.hbm, 32, rfl⟩
abbrev main_v3 : Ref sig .tc := ⟨.hbm, 33, rfl⟩
abbrev main_v4 : Ref sig .tc := ⟨.hbm, 34, rfl⟩
abbrev main_v5 : Ref sig .tc := ⟨.hbm, 35, rfl⟩
abbrev main_v6 : Ref sig .tc := ⟨.hbm, 36, rfl⟩
abbrev main_v7 : Ref sig .tc := ⟨.hbm, 37, rfl⟩
abbrev main_v8 : Ref sig .tc := ⟨.hbm, 38, rfl⟩
abbrev main_v9 : Ref sig .tc := ⟨.hbm, 39, rfl⟩
abbrev main_v10 : Ref sig .tc := ⟨.hbm, 40, rfl⟩
abbrev main_v11 : Ref sig .tc := ⟨.hbm, 41, rfl⟩
abbrev main_v12 : Ref sig .tc := ⟨.hbm, 42, rfl⟩
abbrev main_c : Ref sig .tc := ⟨.hbm, 43, rfl⟩
abbrev main_v13 : Ref sig .tc := ⟨.hbm, 44, rfl⟩
abbrev main_v14 : Ref sig .tc := ⟨.hbm, 45, rfl⟩
abbrev main_c_0 : Ref sig .tc := ⟨.hbm, 46, rfl⟩
abbrev main_v15 : Ref sig .tc := ⟨.hbm, 47, rfl⟩
abbrev main_v16 : Ref sig .tc := ⟨.hbm, 48, rfl⟩
abbrev main_v17 : Ref sig .tc := ⟨.hbm, 49, rfl⟩
abbrev main_v18 : Ref sig .tc := ⟨.hbm, 50, rfl⟩
abbrev main_v19 : Ref sig .tc := ⟨.hbm, 51, rfl⟩
abbrev main_c_1 : Ref sig .tc := ⟨.hbm, 52, rfl⟩
abbrev main_v20 : Ref sig .tc := ⟨.hbm, 53, rfl⟩
abbrev main_v21 : Ref sig .tc := ⟨.hbm, 54, rfl⟩
abbrev main_c_2 : Ref sig .tc := ⟨.hbm, 55, rfl⟩
abbrev main_v22 : Ref sig .tc := ⟨.hbm, 56, rfl⟩
abbrev main_v23 : Ref sig .tc := ⟨.hbm, 57, rfl⟩
abbrev main_v24 : Ref sig .tc := ⟨.hbm, 58, rfl⟩
abbrev main_v25 : Ref sig .tc := ⟨.hbm, 59, rfl⟩
abbrev main_v26 : Ref sig .tc := ⟨.hbm, 60, rfl⟩
abbrev main_v27 : Ref sig .tc := ⟨.hbm, 61, rfl⟩
abbrev main_v28 : Ref sig .tc := ⟨.hbm, 62, rfl⟩
abbrev main_v29 : Ref sig .tc := ⟨.hbm, 63, rfl⟩
abbrev main_c_3 : Ref sig .tc := ⟨.hbm, 64, rfl⟩
abbrev main_v30 : Ref sig .tc := ⟨.hbm, 65, rfl⟩
abbrev main_v31 : Ref sig .tc := ⟨.hbm, 66, rfl⟩
abbrev main_c_4 : Ref sig .tc := ⟨.hbm, 67, rfl⟩
abbrev main_v32 : Ref sig .tc := ⟨.hbm, 68, rfl⟩
abbrev main_v33 : Ref sig .tc := ⟨.hbm, 69, rfl⟩
abbrev main_v34 : Ref sig .tc := ⟨.hbm, 70, rfl⟩
abbrev main_v35 : Ref sig .tc := ⟨.hbm, 71, rfl⟩
abbrev main_v36 : Ref sig .tc := ⟨.hbm, 72, rfl⟩
abbrev main_v37 : Ref sig .tc := ⟨.hbm, 73, rfl⟩
abbrev main_v38 : Ref sig .tc := ⟨.hbm, 74, rfl⟩
abbrev main_cst : Ref sig .tc := ⟨.hbm, 75, rfl⟩
abbrev main_v39 : Ref sig .tc := ⟨.hbm, 76, rfl⟩
abbrev main_cst_5 : Ref sig .tc := ⟨.hbm, 77, rfl⟩
abbrev main_v40 : Ref sig .tc := ⟨.hbm, 78, rfl⟩
abbrev main_v41 : Ref sig .tc := ⟨.hbm, 79, rfl⟩
abbrev main_v42 : Ref sig .tc := ⟨.hbm, 80, rfl⟩
abbrev main_c_6 : Ref sig .tc := ⟨.hbm, 81, rfl⟩
abbrev main_v43 : Ref sig .tc := ⟨.hbm, 82, rfl⟩
abbrev main_v44 : Ref sig .tc := ⟨.hbm, 83, rfl⟩
abbrev main_c_7 : Ref sig .tc := ⟨.hbm, 84, rfl⟩
abbrev main_v45 : Ref sig .tc := ⟨.hbm, 85, rfl⟩
abbrev main_v46 : Ref sig .tc := ⟨.hbm, 86, rfl⟩
abbrev main_v47 : Ref sig .tc := ⟨.hbm, 87, rfl⟩
abbrev main_v48 : Ref sig .tc := ⟨.hbm, 88, rfl⟩
abbrev main_v49 : Ref sig .tc := ⟨.hbm, 89, rfl⟩
abbrev main_c_8 : Ref sig .tc := ⟨.hbm, 90, rfl⟩
abbrev main_v50 : Ref sig .tc := ⟨.hbm, 91, rfl⟩
abbrev main_v51 : Ref sig .tc := ⟨.hbm, 92, rfl⟩
abbrev main_c_9 : Ref sig .tc := ⟨.hbm, 93, rfl⟩
abbrev main_v52 : Ref sig .tc := ⟨.hbm, 94, rfl⟩
abbrev main_v53 : Ref sig .tc := ⟨.hbm, 95, rfl⟩
abbrev main_v54 : Ref sig .tc := ⟨.hbm, 96, rfl⟩
abbrev main_v55 : Ref sig .tc := ⟨.hbm, 97, rfl⟩
abbrev main_v56 : Ref sig .tc := ⟨.hbm, 98, rfl⟩
abbrev main_v57 : Ref sig .tc := ⟨.hbm, 99, rfl⟩
abbrev main_v58 : Ref sig .tc := ⟨.hbm, 100, rfl⟩
abbrev main_v59 : Ref sig .tc := ⟨.hbm, 101, rfl⟩
abbrev main_v60 : Ref sig .tc := ⟨.hbm, 102, rfl⟩
abbrev main_v61 : Ref sig .tc := ⟨.hbm, 103, rfl⟩
abbrev main_v62 : Ref sig .tc := ⟨.hbm, 104, rfl⟩
abbrev main_call0_cst : Ref sig .tc := ⟨.hbm, 105, rfl⟩
abbrev main_call0_v0 : Ref sig .tc := ⟨.hbm, 106, rfl⟩
abbrev main_v63 : Ref sig .tc := ⟨.hbm, 107, rfl⟩
abbrev main_v64 : Ref sig .tc := ⟨.hbm, 108, rfl⟩
abbrev main_v65 : Ref sig .tc := ⟨.hbm, 109, rfl⟩
abbrev main_v66 : Ref sig .tc := ⟨.hbm, 110, rfl⟩
abbrev main_v67 : Ref sig .tc := ⟨.hbm, 111, rfl⟩
abbrev main_cst_10 : Ref sig .tc := ⟨.hbm, 112, rfl⟩
abbrev main_v68 : Ref sig .tc := ⟨.hbm, 113, rfl⟩
abbrev main_v69 : Ref sig .tc := ⟨.hbm, 114, rfl⟩
abbrev main_v70 : Ref sig .tc := ⟨.hbm, 115, rfl⟩
abbrev main_cst_11 : Ref sig .tc := ⟨.hbm, 116, rfl⟩
abbrev main_v71 : Ref sig .tc := ⟨.hbm, 117, rfl⟩
abbrev main_cst_12 : Ref sig .tc := ⟨.hbm, 118, rfl⟩
abbrev main_v72 : Ref sig .tc := ⟨.hbm, 119, rfl⟩
abbrev main_v73 : Ref sig .tc := ⟨.hbm, 120, rfl⟩
abbrev main_v74 : Ref sig .tc := ⟨.hbm, 121, rfl⟩
abbrev main_cst_13 : Ref sig .tc := ⟨.hbm, 122, rfl⟩
abbrev main_v75 : Ref sig .tc := ⟨.hbm, 123, rfl⟩
abbrev main_v76 : Ref sig .tc := ⟨.hbm, 124, rfl⟩
abbrev main_v77 : Ref sig .tc := ⟨.hbm, 125, rfl⟩
abbrev main_v78 : Ref sig .tc := ⟨.hbm, 126, rfl⟩
abbrev main_v79 : Ref sig .tc := ⟨.hbm, 127, rfl⟩
abbrev main_v80 : Ref sig .tc := ⟨.hbm, 128, rfl⟩
abbrev main_v81 : Ref sig .tc := ⟨.hbm, 129, rfl⟩
abbrev main_v82 : Ref sig .tc := ⟨.hbm, 130, rfl⟩
abbrev main_cst_14 : Ref sig .tc := ⟨.hbm, 131, rfl⟩
abbrev main_v83 : Ref sig .tc := ⟨.hbm, 132, rfl⟩
abbrev main_v84 : Ref sig .tc := ⟨.hbm, 133, rfl⟩
abbrev main_cst_15 : Ref sig .tc := ⟨.hbm, 134, rfl⟩
abbrev main_v85 : Ref sig .tc := ⟨.hbm, 135, rfl⟩
abbrev main_v86 : Ref sig .tc := ⟨.hbm, 136, rfl⟩
abbrev main_v87 : Ref sig .tc := ⟨.hbm, 137, rfl⟩
abbrev main_v88 : Ref sig .tc := ⟨.hbm, 138, rfl⟩
abbrev main_v89 : Ref sig .tc := ⟨.hbm, 139, rfl⟩
abbrev main_cst_16 : Ref sig .tc := ⟨.hbm, 140, rfl⟩
abbrev main_v90 : Ref sig .tc := ⟨.hbm, 141, rfl⟩
abbrev main_v91 : Ref sig .tc := ⟨.hbm, 142, rfl⟩
abbrev main_cst_17 : Ref sig .tc := ⟨.hbm, 143, rfl⟩
abbrev main_v92 : Ref sig .tc := ⟨.hbm, 144, rfl⟩
abbrev main_v93 : Ref sig .tc := ⟨.hbm, 145, rfl⟩
abbrev main_v94 : Ref sig .tc := ⟨.hbm, 146, rfl⟩
abbrev main_v95 : Ref sig .tc := ⟨.hbm, 147, rfl⟩
abbrev main_cst_18 : Ref sig .tc := ⟨.hbm, 148, rfl⟩
abbrev main_v96 : Ref sig .tc := ⟨.hbm, 149, rfl⟩
abbrev main_v97 : Ref sig .tc := ⟨.hbm, 150, rfl⟩
abbrev main_v98 : Ref sig .tc := ⟨.hbm, 151, rfl⟩
abbrev main_v99 : Ref sig .tc := ⟨.hbm, 152, rfl⟩
abbrev main_v100 : Ref sig .tc := ⟨.hbm, 153, rfl⟩
abbrev main_v101 : Ref sig .tc := ⟨.hbm, 154, rfl⟩
abbrev main_v102 : Ref sig .tc := ⟨.hbm, 155, rfl⟩
abbrev main_v103 : Ref sig .tc := ⟨.hbm, 156, rfl⟩
abbrev main_v104 : Ref sig .tc := ⟨.hbm, 157, rfl⟩
abbrev main_v105 : Ref sig .tc := ⟨.hbm, 158, rfl⟩
abbrev main_v106 : Ref sig .tc := ⟨.hbm, 159, rfl⟩
abbrev main_v107 : Ref sig .tc := ⟨.hbm, 160, rfl⟩
abbrev main_v108 : Ref sig .tc := ⟨.hbm, 161, rfl⟩
abbrev main_v109 : Ref sig .tc := ⟨.hbm, 162, rfl⟩
abbrev main_v110 : Ref sig .tc := ⟨.hbm, 163, rfl⟩
abbrev main_call1_cst : Ref sig .tc := ⟨.hbm, 164, rfl⟩
abbrev main_call1_v0 : Ref sig .tc := ⟨.hbm, 165, rfl⟩
abbrev main_v111 : Ref sig .tc := ⟨.hbm, 166, rfl⟩
abbrev main_v112 : Ref sig .tc := ⟨.hbm, 167, rfl⟩
abbrev main_v113 : Ref sig .tc := ⟨.hbm, 168, rfl⟩
abbrev main_v114 : Ref sig .tc := ⟨.hbm, 169, rfl⟩
abbrev main_v115 : Ref sig .tc := ⟨.hbm, 170, rfl⟩
abbrev main_call2_cst : Ref sig .tc := ⟨.hbm, 171, rfl⟩
abbrev main_call2_v0 : Ref sig .tc := ⟨.hbm, 172, rfl⟩
abbrev main_v116 : Ref sig .tc := ⟨.hbm, 173, rfl⟩
abbrev main_v117 : Ref sig .tc := ⟨.hbm, 174, rfl⟩
abbrev main_v118 : Ref sig .tc := ⟨.hbm, 175, rfl⟩
abbrev main_v119 : Ref sig .tc := ⟨.hbm, 176, rfl⟩
abbrev main_v120 : Ref sig .tc := ⟨.hbm, 177, rfl⟩
abbrev main_v121 : Ref sig .tc := ⟨.hbm, 178, rfl⟩
abbrev main_cst_19 : Ref sig .tc := ⟨.hbm, 179, rfl⟩
abbrev main_v122 : Ref sig .tc := ⟨.hbm, 180, rfl⟩
abbrev main_v123 : Ref sig .tc := ⟨.hbm, 181, rfl⟩
abbrev main_cst_20 : Ref sig .tc := ⟨.hbm, 182, rfl⟩
abbrev main_v124 : Ref sig .tc := ⟨.hbm, 183, rfl⟩
abbrev main_v125 : Ref sig .tc := ⟨.hbm, 184, rfl⟩
abbrev main_v126 : Ref sig .tc := ⟨.hbm, 185, rfl⟩
abbrev main_v127 : Ref sig .tc := ⟨.hbm, 186, rfl⟩
abbrev main_v128 : Ref sig .tc := ⟨.hbm, 187, rfl⟩
abbrev main_cst_21 : Ref sig .tc := ⟨.hbm, 188, rfl⟩
abbrev main_v129 : Ref sig .tc := ⟨.hbm, 189, rfl⟩
abbrev main_v130 : Ref sig .tc := ⟨.hbm, 190, rfl⟩
abbrev main_cst_22 : Ref sig .tc := ⟨.hbm, 191, rfl⟩
abbrev main_v131 : Ref sig .tc := ⟨.hbm, 192, rfl⟩
abbrev main_v132 : Ref sig .tc := ⟨.hbm, 193, rfl⟩
abbrev main_v133 : Ref sig .tc := ⟨.hbm, 194, rfl⟩
abbrev main_v134 : Ref sig .tc := ⟨.hbm, 195, rfl⟩
abbrev main_cst_23 : Ref sig .tc := ⟨.hbm, 196, rfl⟩
abbrev main_v135 : Ref sig .tc := ⟨.hbm, 197, rfl⟩
abbrev main_v136 : Ref sig .tc := ⟨.hbm, 198, rfl⟩
abbrev main_v137 : Ref sig .tc := ⟨.hbm, 199, rfl⟩
abbrev main_v138 : Ref sig .tc := ⟨.hbm, 200, rfl⟩
abbrev main_v139 : Ref sig .tc := ⟨.hbm, 201, rfl⟩
abbrev main_v140 : Ref sig .tc := ⟨.hbm, 202, rfl⟩
abbrev main_v141 : Ref sig .tc := ⟨.hbm, 203, rfl⟩
abbrev main_v142 : Ref sig .tc := ⟨.hbm, 204, rfl⟩
abbrev main_v143 : Ref sig .tc := ⟨.hbm, 205, rfl⟩
abbrev main_v144 : Ref sig .tc := ⟨.hbm, 206, rfl⟩
abbrev main_v145 : Ref sig .tc := ⟨.hbm, 207, rfl⟩
abbrev main_v146 : Ref sig .tc := ⟨.hbm, 208, rfl⟩
abbrev main_v147 : Ref sig .tc := ⟨.hbm, 209, rfl⟩
abbrev main_v148 : Ref sig .tc := ⟨.hbm, 210, rfl⟩
abbrev main_v149 : Ref sig .tc := ⟨.hbm, 211, rfl⟩
abbrev main_v150 : Ref sig .tc := ⟨.hbm, 212, rfl⟩
abbrev main_v151 : Ref sig .tc := ⟨.hbm, 213, rfl⟩
abbrev main_v152 : Ref sig .tc := ⟨.hbm, 214, rfl⟩
abbrev main_c_24 : Ref sig .tc := ⟨.hbm, 215, rfl⟩
abbrev main_v153 : Ref sig .tc := ⟨.hbm, 216, rfl⟩
abbrev main_v154 : Ref sig .tc := ⟨.hbm, 217, rfl⟩
abbrev main_c_25 : Ref sig .tc := ⟨.hbm, 218, rfl⟩
abbrev main_v155 : Ref sig .tc := ⟨.hbm, 219, rfl⟩
abbrev main_v156 : Ref sig .tc := ⟨.hbm, 220, rfl⟩
abbrev main_v157 : Ref sig .tc := ⟨.hbm, 221, rfl⟩
abbrev main_v158 : Ref sig .tc := ⟨.hbm, 222, rfl⟩
abbrev main_v159 : Ref sig .tc := ⟨.hbm, 223, rfl⟩
abbrev main_c_26 : Ref sig .tc := ⟨.hbm, 224, rfl⟩
abbrev main_v160 : Ref sig .tc := ⟨.hbm, 225, rfl⟩
abbrev main_v161 : Ref sig .tc := ⟨.hbm, 226, rfl⟩
abbrev main_c_27 : Ref sig .tc := ⟨.hbm, 227, rfl⟩
abbrev main_v162 : Ref sig .tc := ⟨.hbm, 228, rfl⟩
abbrev main_v163 : Ref sig .tc := ⟨.hbm, 229, rfl⟩
abbrev main_v164 : Ref sig .tc := ⟨.hbm, 230, rfl⟩
abbrev main_v165 : Ref sig .tc := ⟨.hbm, 231, rfl⟩
abbrev main_v166 : Ref sig .tc := ⟨.hbm, 232, rfl⟩
abbrev main_v167 : Ref sig .tc := ⟨.hbm, 233, rfl⟩
abbrev main_v168 : Ref sig .tc := ⟨.hbm, 234, rfl⟩
abbrev main_v169 : Ref sig .tc := ⟨.hbm, 235, rfl⟩
abbrev main_v170 : Ref sig .tc := ⟨.hbm, 236, rfl⟩
abbrev main_v171 : Ref sig .tc := ⟨.hbm, 237, rfl⟩
abbrev main_call3_cst : Ref sig .tc := ⟨.hbm, 238, rfl⟩
abbrev main_call3_v0 : Ref sig .tc := ⟨.hbm, 239, rfl⟩
abbrev main_v172 : Ref sig .tc := ⟨.hbm, 240, rfl⟩
abbrev main_v173 : Ref sig .tc := ⟨.hbm, 241, rfl⟩
abbrev main_v174 : Ref sig .tc := ⟨.hbm, 242, rfl⟩
abbrev main_v175 : Ref sig .tc := ⟨.hbm, 243, rfl⟩
abbrev main_v176 : Ref sig .tc := ⟨.hbm, 244, rfl⟩
abbrev main_cst_28 : Ref sig .tc := ⟨.hbm, 245, rfl⟩
abbrev main_v177 : Ref sig .tc := ⟨.hbm, 246, rfl⟩
abbrev main_v178 : Ref sig .tc := ⟨.hbm, 247, rfl⟩
abbrev main_cst_29 : Ref sig .tc := ⟨.hbm, 248, rfl⟩
abbrev main_v179 : Ref sig .tc := ⟨.hbm, 249, rfl⟩
abbrev main_v180 : Ref sig .tc := ⟨.hbm, 250, rfl⟩
abbrev main_v181 : Ref sig .tc := ⟨.hbm, 251, rfl⟩
abbrev main_v182 : Ref sig .tc := ⟨.hbm, 252, rfl⟩
abbrev main_v183 : Ref sig .tc := ⟨.hbm, 253, rfl⟩
abbrev main_cst_30 : Ref sig .tc := ⟨.hbm, 254, rfl⟩
abbrev main_v184 : Ref sig .tc := ⟨.hbm, 255, rfl⟩
abbrev main_v185 : Ref sig .tc := ⟨.hbm, 256, rfl⟩
abbrev main_cst_31 : Ref sig .tc := ⟨.hbm, 257, rfl⟩
abbrev main_v186 : Ref sig .tc := ⟨.hbm, 258, rfl⟩
abbrev main_v187 : Ref sig .tc := ⟨.hbm, 259, rfl⟩
abbrev main_v188 : Ref sig .tc := ⟨.hbm, 260, rfl⟩
abbrev main_v189 : Ref sig .tc := ⟨.hbm, 261, rfl⟩
abbrev main_cst_32 : Ref sig .tc := ⟨.hbm, 262, rfl⟩
abbrev main_v190 : Ref sig .tc := ⟨.hbm, 263, rfl⟩
abbrev main_v191 : Ref sig .tc := ⟨.hbm, 264, rfl⟩
abbrev main_v192 : Ref sig .tc := ⟨.hbm, 265, rfl⟩
abbrev main_v193 : Ref sig .tc := ⟨.hbm, 266, rfl⟩
abbrev main_v194 : Ref sig .tc := ⟨.hbm, 267, rfl⟩
abbrev main_v195 : Ref sig .tc := ⟨.hbm, 268, rfl⟩
abbrev main_v196 : Ref sig .tc := ⟨.hbm, 269, rfl⟩
abbrev main_v197 : Ref sig .tc := ⟨.hbm, 270, rfl⟩
abbrev main_v198 : Ref sig .tc := ⟨.hbm, 271, rfl⟩
abbrev main_v199 : Ref sig .tc := ⟨.hbm, 272, rfl⟩
abbrev main_v200 : Ref sig .tc := ⟨.hbm, 273, rfl⟩

abbrev nD : Nat := 1
abbrev τ : Topo := Topo.v7x

variable {F : FTy → Type} [FloatOps F]

class Facts₀ : Prop where
  slices_S2x300000_S1x300000_0_0 : S2x300000.Slices ![0, 0] S1x300000
  shapeCasts_S1x300000_S300000 : S1x300000.ShapeCasts S300000
  slices_S2x300000_S1x300000_1_0 : S2x300000.Slices ![1, 0] S1x300000
  bcast_S24_S1x24_1 : S24.BroadcastsInDim S1x24 (![1] : Fin 1 → Fin S1x24.rank)
  bcast_S1x24_S10000x24_0_1 : S1x24.BroadcastsInDim S10000x24 (![0, 1] : Fin 2 → Fin S10000x24.rank)
  shapeCasts_S10000x24_S10000x8x3 : S10000x24.ShapeCasts S10000x8x3
  bcast_S10000x3_S10000x1x3_0_2 : S10000x3.BroadcastsInDim S10000x1x3 (![0, 2] : Fin 2 → Fin S10000x1x3.rank)
  bcast_S10000x1x3_S10000x8x3_0_1_2 : S10000x1x3.BroadcastsInDim S10000x8x3 (![0, 1, 2] : Fin 3 → Fin S10000x8x3.rank)
  bcast_S_S300000 : S_.BroadcastsInDim S300000 (![] : Fin 0 → Fin S300000.rank)
  bcast_S300000_S300000x1_0 : S300000.BroadcastsInDim S300000x1 (![0] : Fin 1 → Fin S300000x1.rank)
  bcast_S300000x3_S300000x1x3_0_2 : S300000x3.BroadcastsInDim S300000x1x3 (![0, 2] : Fin 2 → Fin S300000x1x3.rank)
  bcast_S300000x1x3_S300000x8x3_0_1_2 : S300000x1x3.BroadcastsInDim S300000x8x3 (![0, 1, 2] : Fin 3 → Fin S300000x8x3.rank)
  reducesTo_S300000x8x3_S300000x8_d2 : S300000x8x3.ReducesTo [2] S300000x8
  h_S_ : 0 < S_.numel
  bcast_S_S300000x8 : S_.BroadcastsInDim S300000x8 (![] : Fin 0 → Fin S300000x8.rank)
  shapeCasts_S300000x8x3_S300000x24 : S300000x8x3.ShapeCasts S300000x24
  concatenates_S300000x256_S300000x256_S300000x128_S300000x24_S300000x8_S300000x672_d1 : Shape.Concatenates [S300000x256, S300000x256, S300000x128, S300000x24, S300000x8] S300000x672 1
  bcast_S256_S1x256_1 : S256.BroadcastsInDim S1x256 (![1] : Fin 1 → Fin S1x256.rank)
  bcast_S1x256_S300000x256_0_1 : S1x256.BroadcastsInDim S300000x256 (![0, 1] : Fin 2 → Fin S300000x256.rank)
  bcast_S_S300000x256 : S_.BroadcastsInDim S300000x256 (![] : Fin 0 → Fin S300000x256.rank)
  bcast_S_S10000x256 : S_.BroadcastsInDim S10000x256 (![] : Fin 0 → Fin S10000x256.rank)
  bcast_S_S300000x1 : S_.BroadcastsInDim S300000x1 (![] : Fin 0 → Fin S300000x1.rank)
  bcast_S_S10000x1 : S_.BroadcastsInDim S10000x1 (![] : Fin 0 → Fin S10000x1.rank)
  bcast_S10000x1_S10000x256_0_1 : S10000x1.BroadcastsInDim S10000x256 (![0, 1] : Fin 2 → Fin S10000x256.rank)
  bcast_S10000_S10000x1_0 : S10000.BroadcastsInDim S10000x1 (![0] : Fin 1 → Fin S10000x1.rank)
  reducesTo_S10000x256_S10000_d1 : S10000x256.ReducesTo [1] S10000
  bcast_S1x256_S10000x256_0_1 : S1x256.BroadcastsInDim S10000x256 (![0, 1] : Fin 2 → Fin S10000x256.rank)
  bcast_S128_S1x128_1 : S128.BroadcastsInDim S1x128 (![1] : Fin 1 → Fin S1x128.rank)
  bcast_S1x128_S10000x128_0_1 : S1x128.BroadcastsInDim S10000x128 (![0, 1] : Fin 2 → Fin S10000x128.rank)
  concatenates_S300000x128_S300000x128_S300000x128_S300000x384_d1 : Shape.Concatenates [S300000x128, S300000x128, S300000x128] S300000x384 1
  bcast_S384_S1x384_1 : S384.BroadcastsInDim S1x384 (![1] : Fin 1 → Fin S1x384.rank)
  bcast_S1x384_S300000x384_0_1 : S1x384.BroadcastsInDim S300000x384 (![0, 1] : Fin 2 → Fin S300000x384.rank)
  bcast_S_S300000x384 : S_.BroadcastsInDim S300000x384 (![] : Fin 0 → Fin S300000x384.rank)
  bcast_S1x128_S300000x128_0_1 : S1x128.BroadcastsInDim S300000x128 (![0, 1] : Fin 2 → Fin S300000x128.rank)
  reducesTo_S300000x128_S300000_d1 : S300000x128.ReducesTo [1] S300000
  bcast_S300000x1_S300000x128_0_1 : S300000x1.BroadcastsInDim S300000x128 (![0, 1] : Fin 2 → Fin S300000x128.rank)
  dot_S10000x256_S256x24_S10000x24_1_0_0_1_n_n_wf : DotDims.WF S10000x256 S256x24 S10000x24 [1] [0] [0] [1] [] []
  dot_S10000x8x3_S10000x3x3_S10000x8x3_2_2_1_1_0_0_wf : DotDims.WF S10000x8x3 S10000x3x3 S10000x8x3 [2] [2] [1] [1] [0] [0]
  gather_S10000x8x3_S300000x1_S300000x8x3_12_0_n_n_0_1_183_wf : GatherDims.WF S10000x8x3 S300000x1 S300000x8x3 [1, 2] [0] [] [0] [] 1 ![1, 8, 3]
  gather_S10000x3_S300000x1_S300000x3_1_0_n_n_0_1_13_wf : GatherDims.WF S10000x3 S300000x1 S300000x3 [1] [0] [] [0] [] 1 ![1, 3]
  gather_S10000x3x3_S300000x1_S300000x3x3_12_0_n_n_0_1_133_wf : GatherDims.WF S10000x3x3 S300000x1 S300000x3x3 [1, 2] [0] [] [0] [] 1 ![1, 3, 3]
  dot_S300000x8x3_S300000x3x3_S300000x8x3_2_1_1_2_0_0_wf : DotDims.WF S300000x8x3 S300000x3x3 S300000x8x3 [2] [1] [1] [2] [0] [0]
  gather_S10000x256_S300000x1_S300000x256_1_0_n_n_0_1_1256_wf : GatherDims.WF S10000x256 S300000x1 S300000x256 [1] [0] [] [0] [] 1 ![1, 256]
  dot_S300000x672_S672x256_S300000x256_1_0_0_1_n_n_wf : DotDims.WF S300000x672 S672x256 S300000x256 [1] [0] [0] [1] [] []
  dot_S300000x256_S256x256_S300000x256_1_0_0_1_n_n_wf : DotDims.WF S300000x256 S256x256 S300000x256 [1] [0] [0] [1] [] []
  scatter_S10000x256_S300000x1_S300000x256_1_0_0_1_wf : ScatterDims.WF S10000x256 S300000x1 S300000x256 [1] [0] [0] 1
  scatter_S10000x1_S300000x1_S300000x1_1_0_0_1_wf : ScatterDims.WF S10000x1 S300000x1 S300000x1 [1] [0] [0] 1
  dot_S10000x256_S256x256_S10000x256_1_0_0_1_n_n_wf : DotDims.WF S10000x256 S256x256 S10000x256 [1] [0] [0] [1] [] []
  dot_S10000x256_S256x128_S10000x128_1_0_0_1_n_n_wf : DotDims.WF S10000x256 S256x128 S10000x128 [1] [0] [0] [1] [] []
  gather_S10000x128_S300000x1_S300000x128_1_0_n_n_0_1_1128_wf : GatherDims.WF S10000x128 S300000x1 S300000x128 [1] [0] [] [0] [] 1 ![1, 128]
  dot_S300000x384_S384x384_S300000x384_1_0_0_1_n_n_wf : DotDims.WF S300000x384 S384x384 S300000x384 [1] [0] [0] [1] [] []
  dot_S300000x384_S384x128_S300000x128_1_0_0_1_n_n_wf : DotDims.WF S300000x384 S384x128 S300000x128 [1] [0] [0] [1] [] []

variable [Facts₀]

def dot_S10000x256_S256x24_S10000x24_1_0_0_1_n_n : DotDims S10000x256 S256x24 S10000x24 where
  lhsContracting := [1]
  rhsContracting := [0]
  lhsNonContracting := [0]
  rhsNonContracting := [1]
  lhsBatch := []
  rhsBatch := []
  wf := dot_S10000x256_S256x24_S10000x24_1_0_0_1_n_n_wf
def dot_S10000x8x3_S10000x3x3_S10000x8x3_2_2_1_1_0_0 : DotDims S10000x8x3 S10000x3x3 S10000x8x3 where
  lhsContracting := [2]
  rhsContracting := [2]
  lhsNonContracting := [1]
  rhsNonContracting := [1]
  lhsBatch := [0]
  rhsBatch := [0]
  wf := dot_S10000x8x3_S10000x3x3_S10000x8x3_2_2_1_1_0_0_wf
def gather_S10000x8x3_S300000x1_S300000x8x3_12_0_n_n_0_1_183 : GatherDims S10000x8x3 S300000x1 S300000x8x3 where
  offsetDims := [1, 2]
  collapsedSliceDims := [0]
  operandBatchingDims := []
  startIndicesBatchingDims := []
  startIndexMap := [0]
  indexVectorDim := 1
  sliceSizes := ![1, 8, 3]
  wf := gather_S10000x8x3_S300000x1_S300000x8x3_12_0_n_n_0_1_183_wf
def gather_S10000x3_S300000x1_S300000x3_1_0_n_n_0_1_13 : GatherDims S10000x3 S300000x1 S300000x3 where
  offsetDims := [1]
  collapsedSliceDims := [0]
  operandBatchingDims := []
  startIndicesBatchingDims := []
  startIndexMap := [0]
  indexVectorDim := 1
  sliceSizes := ![1, 3]
  wf := gather_S10000x3_S300000x1_S300000x3_1_0_n_n_0_1_13_wf
def gather_S10000x3x3_S300000x1_S300000x3x3_12_0_n_n_0_1_133 : GatherDims S10000x3x3 S300000x1 S300000x3x3 where
  offsetDims := [1, 2]
  collapsedSliceDims := [0]
  operandBatchingDims := []
  startIndicesBatchingDims := []
  startIndexMap := [0]
  indexVectorDim := 1
  sliceSizes := ![1, 3, 3]
  wf := gather_S10000x3x3_S300000x1_S300000x3x3_12_0_n_n_0_1_133_wf
def dot_S300000x8x3_S300000x3x3_S300000x8x3_2_1_1_2_0_0 : DotDims S300000x8x3 S300000x3x3 S300000x8x3 where
  lhsContracting := [2]
  rhsContracting := [1]
  lhsNonContracting := [1]
  rhsNonContracting := [2]
  lhsBatch := [0]
  rhsBatch := [0]
  wf := dot_S300000x8x3_S300000x3x3_S300000x8x3_2_1_1_2_0_0_wf
def gather_S10000x256_S300000x1_S300000x256_1_0_n_n_0_1_1256 : GatherDims S10000x256 S300000x1 S300000x256 where
  offsetDims := [1]
  collapsedSliceDims := [0]
  operandBatchingDims := []
  startIndicesBatchingDims := []
  startIndexMap := [0]
  indexVectorDim := 1
  sliceSizes := ![1, 256]
  wf := gather_S10000x256_S300000x1_S300000x256_1_0_n_n_0_1_1256_wf
def dot_S300000x672_S672x256_S300000x256_1_0_0_1_n_n : DotDims S300000x672 S672x256 S300000x256 where
  lhsContracting := [1]
  rhsContracting := [0]
  lhsNonContracting := [0]
  rhsNonContracting := [1]
  lhsBatch := []
  rhsBatch := []
  wf := dot_S300000x672_S672x256_S300000x256_1_0_0_1_n_n_wf
def dot_S300000x256_S256x256_S300000x256_1_0_0_1_n_n : DotDims S300000x256 S256x256 S300000x256 where
  lhsContracting := [1]
  rhsContracting := [0]
  lhsNonContracting := [0]
  rhsNonContracting := [1]
  lhsBatch := []
  rhsBatch := []
  wf := dot_S300000x256_S256x256_S300000x256_1_0_0_1_n_n_wf
def scatter_S10000x256_S300000x1_S300000x256_1_0_0_1 : ScatterDims S10000x256 S300000x1 S300000x256 where
  updateWindowDims := [1]
  insertedWindowDims := [0]
  scatterDimsToOperandDims := [0]
  indexVectorDim := 1
  wf := scatter_S10000x256_S300000x1_S300000x256_1_0_0_1_wf
def scatter_S10000x1_S300000x1_S300000x1_1_0_0_1 : ScatterDims S10000x1 S300000x1 S300000x1 where
  updateWindowDims := [1]
  insertedWindowDims := [0]
  scatterDimsToOperandDims := [0]
  indexVectorDim := 1
  wf := scatter_S10000x1_S300000x1_S300000x1_1_0_0_1_wf
def dot_S10000x256_S256x256_S10000x256_1_0_0_1_n_n : DotDims S10000x256 S256x256 S10000x256 where
  lhsContracting := [1]
  rhsContracting := [0]
  lhsNonContracting := [0]
  rhsNonContracting := [1]
  lhsBatch := []
  rhsBatch := []
  wf := dot_S10000x256_S256x256_S10000x256_1_0_0_1_n_n_wf
def dot_S10000x256_S256x128_S10000x128_1_0_0_1_n_n : DotDims S10000x256 S256x128 S10000x128 where
  lhsContracting := [1]
  rhsContracting := [0]
  lhsNonContracting := [0]
  rhsNonContracting := [1]
  lhsBatch := []
  rhsBatch := []
  wf := dot_S10000x256_S256x128_S10000x128_1_0_0_1_n_n_wf
def gather_S10000x128_S300000x1_S300000x128_1_0_n_n_0_1_1128 : GatherDims S10000x128 S300000x1 S300000x128 where
  offsetDims := [1]
  collapsedSliceDims := [0]
  operandBatchingDims := []
  startIndicesBatchingDims := []
  startIndexMap := [0]
  indexVectorDim := 1
  sliceSizes := ![1, 128]
  wf := gather_S10000x128_S300000x1_S300000x128_1_0_n_n_0_1_1128_wf
def dot_S300000x384_S384x384_S300000x384_1_0_0_1_n_n : DotDims S300000x384 S384x384 S300000x384 where
  lhsContracting := [1]
  rhsContracting := [0]
  lhsNonContracting := [0]
  rhsNonContracting := [1]
  lhsBatch := []
  rhsBatch := []
  wf := dot_S300000x384_S384x384_S300000x384_1_0_0_1_n_n_wf
def dot_S300000x384_S384x128_S300000x128_1_0_0_1_n_n : DotDims S300000x384 S384x128 S300000x128 where
  lhsContracting := [1]
  rhsContracting := [0]
  lhsNonContracting := [0]
  rhsNonContracting := [1]
  lhsBatch := []
  rhsBatch := []
  wf := dot_S300000x384_S384x128_S300000x128_1_0_0_1_n_n_wf

class Facts : Prop extends Facts₀ where

variable [Facts]
-- ==== Proof.Whole.RefRun.lean ====
/-
  The reference program's run, cut into six stretches.

  The reference's @main is a straight line of 244 array operations.  Read as one composed term its results are far too
  large to write down (every intermediate that is used three times is copied three times, and the copies nest), so the
  line is cut where few values are alive: after the gathers, after the message network, after the aggregation, after
  the node transition, after the second pair of gathers.  Each stretch is a short line of its own; the whole line is
  their concatenation, and what a buffer holds after the whole line is what it holds after the last stretch run from
  the contents the earlier stretches leave.
-/
import proofs.«169663_j18897856103195_1_alg».proof.Proof.Whole.RefOps
import Idealize.ShloMosaic.Lib.StableHlo.Run

noncomputable section

namespace Cert.ReferenceIdeal.Whole

open Cert.ReferenceIdeal Cert.ReferenceIdeal.Gen Idealize.ShloMosaic Idealize.ShloMosaic.TcCoe Idealize.SL.Sem Idealize.ShloMosaic.StableHlo

variable {F : FTy → Type} [FloatOps F]

theorem forall_append {α : Type} {p : α → Prop} {l₁ l₂ : List α} (h₁ : l₁.Forall p) (h₂ : l₂.Forall p) : (l₁ ++ l₂).Forall p :=
  List.forall_iff_forall_mem.mpr fun x hx => (List.mem_append.mp hx).elim
    (List.forall_iff_forall_mem.mp h₁ x) (List.forall_iff_forall_mem.mp h₂ x)

theorem ops_sub : (ops : List (HloOp τ sig (Elt F))).Forall fun op => op.bufs ⊆ tcRefs τ sig :=
  forall_append opsA_sub (forall_append opsB_sub (forall_append opsC_sub (forall_append opsD_sub (forall_append opsE_sub opsF_sub))))

/-- What the buffers hold after two lines run one after the other. -/
theorem after_append (l₁ l₂ : List (HloOp τ sig (Elt F))) (V : Valuation τ sig (Elt F)) :
    after (l₁ ++ l₂) V = after l₂ (after l₁ V) := by
  induction l₁ generalizing V with
  | nil => rfl
  | cons op l ih => exact ih _

/-- No operation allocates: every result is determined. -/
theorem fresh_of_forall {l : List (HloOp τ sig (Elt F))} (h : l.Forall fun op => op.fresh = ∅) : ∀ op ∈ l, op.fresh = ∅ :=
  List.forall_iff_forall_mem.mp h

set_option maxRecDepth 8192 in
theorem opsA_fresh : (opsA : List (HloOp τ sig (Elt F))).Forall fun op => op.fresh = ∅ := by
  simp only [opsA, List.Forall]; exact ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem opsB_fresh : (opsB : List (HloOp τ sig (Elt F))).Forall fun op => op.fresh = ∅ := by
  simp only [opsB, List.Forall]; exact ⟨rfl, rfl, rfl, rfl, rfl, rfl, rfl, rfl, rfl, rfl, rfl, rfl⟩
set_option maxRecDepth 8192 in
theorem opsC_fresh : (opsC : List (HloOp τ sig (Elt F))).Forall fun op => op.fresh = ∅ := by
  simp only [opsC, List.Forall]; exact ⟨rfl, rfl, rfl, rfl, rfl, rfl, rfl, rfl, rfl, rfl, rfl, rfl, rfl, rfl, rfl⟩
set_option maxRecDepth 8192 in
theorem opsD_fresh : (opsD : List (HloOp τ sig (Elt F))).Forall fun op => op.fresh = ∅ := by
  simp only [opsD, List.Forall]; exact ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem opsE_fresh : (opsE : List (HloOp τ sig (Elt F))).Forall fun op => op.fresh = ∅ := by
  simp only [opsE, List.Forall]; exact ⟨rfl, rfl, rfl, rfl, rfl, rfl, rfl, rfl, rfl, rfl, rfl, rfl, rfl, rfl, rfl, rfl, rfl, rfl⟩
set_option maxRecDepth 8192 in
theorem opsF_fresh : (opsF : List (HloOp τ sig (Elt F))).Forall fun op => op.fresh = ∅ := by
  simp only [opsF, List.Forall]; exact ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

theorem ops_fresh : (ops : List (HloOp τ sig (Elt F))).Forall fun op => op.fresh = ∅ :=
  forall_append opsA_fresh (forall_append opsB_fresh (forall_append opsC_fresh (forall_append opsD_fresh (forall_append opsE_fresh opsF_fresh))))

/-- Every weakly fair execution of the reference terminates, and every buffer ends at the fold of the 244 operations
    over the launch contents. -/
theorem run_raw (m : (ℓ : Loc nD τ sig) → Buf (Elt F) ℓ) (ρ : Dev nD → PrngReg) :
    θ_run defs (onTc (τ := τ) (main (F := F))) ⟨m, fun _ => 0, ρ⟩ fun r =>
      ∀ (d : Dev nD) (b : Ref sig .tc), r.2.mem ((d.tc : Thread nD τ).loc b) = after ops (launchContents m d) (Proc.devRef .tc b) :=
  run_seq scopedRefs_eq scopedSems_eq defs main (fun _ => ops) main_eq (fun _ => ops_sub) m ρ
    (fun _ => fresh_of_forall ops_fresh)

end Cert.ReferenceIdeal.Whole

end
-- ==== Proof.Whole.RefKeep0.lean ====
/-
  Which buffers a stretch of the reference leaves alone.

  Every operation writes exactly one buffer, its result.  An argument is the result of no operation, the two index rows
  are results of the first stretch only, and the node result is a result of the fourth stretch only; so each of these
  is written by no operation of the stretches listed for it below, one inequality of references per operation.
-/
import proofs.«169663_j18897856103195_1_alg».proof.Proof.Whole.RefOps
import Idealize.ShloMosaic.Lib.StableHlo.Run

set_option maxRecDepth 16384

noncomputable section

namespace Cert.ReferenceIdeal.Whole

open Cert.ReferenceIdeal Cert.ReferenceIdeal.Gen Idealize.ShloMosaic Idealize.ShloMosaic.TcCoe Idealize.SL.Sem Idealize.ShloMosaic.StableHlo

variable {F : FTy → Type} [FloatOps F]

theorem nwA_arg0 : ∀ op ∈ (opsA : List (HloOp τ sig (Elt F))), Proc.devRef (τ := τ) .tc main_arg0 ∉ op.writes :=
  List.forall_iff_forall_mem.mp (by
    simp only [opsA, List.Forall, nullary_writes, unary_writes, binary_writes, ternary_writes, reshape_writes, nary_writes, Finset.mem_singleton]
    repeat' apply And.intro
    all_goals exact devRef_ne_of_ne (by decide))

theorem nwB_arg0 : ∀ op ∈ (opsB : List (HloOp τ sig (Elt F))), Proc.devRef (τ := τ) .tc main_arg0 ∉ op.writes :=
  List.forall_iff_forall_mem.mp (by
    simp only [opsB, List.Forall, nullary_writes, unary_writes, binary_writes, ternary_writes, reshape_writes, nary_writes, Finset.mem_singleton]
    repeat' apply And.intro
    all_goals exact devRef_ne_of_ne (by decide))

theorem nwC_arg0 : ∀ op ∈ (opsC : List (HloOp τ sig (Elt F))), Proc.devRef (τ := τ) .tc main_arg0 ∉ op.writes :=
  List.forall_iff_forall_mem.mp (by
    simp only [opsC, List.Forall, nullary_writes, unary_writes, binary_writes, ternary_writes, reshape_writes, nary_writes, Finset.mem_singleton]
    repeat' apply And.intro
    all_goals exact devRef_ne_of_ne (by decide))

theorem nwD_arg0 : ∀ op ∈ (opsD : List (HloOp τ sig (Elt F))), Proc.devRef (τ := τ) .tc main_arg0 ∉ op.writes :=
  List.forall_iff_forall_mem.mp (by
    simp only [opsD, List.Forall, nullary_writes, unary_writes, binary_writes, ternary_writes, reshape_writes, nary_writes, Finset.mem_singleton]
    repeat' apply And.intro
    all_goals exact devRef_ne_of_ne (by decide))

theorem nwE_arg0 : ∀ op ∈ (opsE : List (HloOp τ sig (Elt F))), Proc.devRef (τ := τ) .tc main_arg0 ∉ op.writes :=
  List.forall_iff_forall_mem.mp (by
    simp only [opsE, List.Forall, nullary_writes, unary_writes, binary_writes, ternary_writes, reshape_writes, nary_writes, Finset.mem_singleton]
    repeat' apply And.intro
    all_goals exact devRef_ne_of_ne (by decide))

theorem nwF_arg0 : ∀ op ∈ (opsF : List (HloOp τ sig (Elt F))), Proc.devRef (τ := τ) .tc main_arg0 ∉ op.writes :=
  List.forall_iff_forall_mem.mp (by
    simp only [opsF, List.Forall, nullary_writes, unary_writes, binary_writes, ternary_writes, reshape_writes, nary_writes, Finset.mem_singleton]
    repeat' apply And.intro
    all_goals exact devRef_ne_of_ne (by decide))

theorem nwA_arg1 : ∀ op ∈ (opsA : List (HloOp τ sig (Elt F))), Proc.devRef (τ := τ) .tc main_arg1 ∉ op.writes :=
  List.forall_iff_forall_mem.mp (by
    simp only [opsA, List.Forall, nullary_writes, unary_writes, binary_writes, ternary_writes, reshape_writes, nary_writes, Finset.mem_singleton]
    repeat' apply And.intro
    all_goals exact devRef_ne_of_ne (by decide))

theorem nwB_arg1 : ∀ op ∈ (opsB : List (HloOp τ sig (Elt F))), Proc.devRef (τ := τ) .tc main_arg1 ∉ op.writes :=
  List.forall_iff_forall_mem.mp (by
    simp only [opsB, List.Forall, nullary_writes, unary_writes, binary_writes, ternary_writes, reshape_writes, nary_writes, Finset.mem_singleton]
    repeat' apply And.intro
    all_goals exact devRef_ne_of_ne (by decide))

theorem nwC_arg1 : ∀ op ∈ (opsC : List (HloOp τ sig (Elt F))), Proc.devRef (τ := τ) .tc main_arg1 ∉ op.writes :=
  List.forall_iff_forall_mem.mp (by
    simp only [opsC, List.Forall, nullary_writes, unary_writes, binary_writes, ternary_writes, reshape_writes, nary_writes, Finset.mem_singleton]
    repeat' apply And.intro
    all_goals exact devRef_ne_of_ne (by decide))

theorem nwD_arg1 : ∀ op ∈ (opsD : List (HloOp τ sig (Elt F))), Proc.devRef (τ := τ) .tc main_arg1 ∉ op.writes :=
  List.forall_iff_forall_mem.mp (by
    simp only [opsD, List.Forall, nullary_writes, unary_writes, binary_writes, ternary_writes, reshape_writes, nary_writes, Finset.mem_singleton]
    repeat' apply And.intro
    all_goals exact devRef_ne_of_ne (by decide))

theorem nwE_arg1 : ∀ op ∈ (opsE : List (HloOp τ sig (Elt F))), Proc.devRef (τ := τ) .tc main_arg1 ∉ op.writes :=
  List.forall_iff_forall_mem.mp (by
    simp only [opsE, List.Forall, nullary_writes, unary_writes, binary_writes, ternary_writes, reshape_writes, nary_writes, Finset.mem_singleton]
    repeat' apply And.intro
    all_goals exact devRef_ne_of_ne (by decide))

theorem nwF_arg1 : ∀ op ∈ (opsF : List (HloOp τ sig (Elt F))), Proc.devRef (τ := τ) .tc main_arg1 ∉ op.writes :=
  List.forall_iff_forall_mem.mp (by
    simp only [opsF, List.Forall, nullary_writes, unary_writes, binary_writes, ternary_writes, reshape_writes, nary_writes, Finset.mem_singleton]
    repeat' apply And.intro
    all_goals exact devRef_ne_of_ne (by decide))

theorem nwA_arg2 : ∀ op ∈ (opsA : List (HloOp τ sig (Elt F))), Proc.devRef (τ := τ) .tc main_arg2 ∉ op.writes :=
  List.forall_iff_forall_mem.mp (by
    simp only [opsA, List.Forall, nullary_writes, unary_writes, binary_writes, ternary_writes, reshape_writes, nary_writes, Finset.mem_singleton]
    repeat' apply And.intro
    all_goals exact devRef_ne_of_ne (by decide))

theorem nwB_arg2 : ∀ op ∈ (opsB : List (HloOp τ sig (Elt F))), Proc.devRef (τ := τ) .tc main_arg2 ∉ op.writes :=
  List.forall_iff_forall_mem.mp (by
    simp only [opsB, List.Forall, nullary_writes, unary_writes, binary_writes, ternary_writes, reshape_writes, nary_writes, Finset.mem_singleton]
    repeat' apply And.intro
    all_goals exact devRef_ne_of_ne (by decide))

theorem nwC_arg2 : ∀ op ∈ (opsC : List (HloOp τ sig (Elt F))), Proc.devRef (τ := τ) .tc main_arg2 ∉ op.writes :=
  List.forall_iff_forall_mem.mp (by
    simp only [opsC, List.Forall, nullary_writes, unary_writes, binary_writes, ternary_writes, reshape_writes, nary_writes, Finset.mem_singleton]
    repeat' apply And.intro
    all_goals exact devRef_ne_of_ne (by decide))

theorem nwD_arg2 : ∀ op ∈ (opsD : List (HloOp τ sig (Elt F))), Proc.devRef (τ := τ) .tc main_arg2 ∉ op.writes :=
  List.forall_iff_forall_mem.mp (by
    simp only [opsD, List.Forall, nullary_writes, unary_writes, binary_writes, ternary_writes, reshape_writes, nary_writes, Finset.mem_singleton]
    repeat' apply And.intro
    all_goals exact devRef_ne_of_ne (by decide))

theorem nwE_arg2 : ∀ op ∈ (opsE : List (HloOp τ sig (Elt F))), Proc.devRef (τ := τ) .tc main_arg2 ∉ op.writes :=
  List.forall_iff_forall_mem.mp (by
    simp only [opsE, List.Forall, nullary_writes, unary_writes, binary_writes, ternary_writes, reshape_writes, nary_writes, Finset.mem_singleton]
    repeat' apply And.intro
    all_goals exact devRef_ne_of_ne (by decide))

theorem nwF_arg2 : ∀ op ∈ (opsF : List (HloOp τ sig (Elt F))), Proc.devRef (τ := τ) .tc main_arg2 ∉ op.writes :=
  List.forall_iff_forall_mem.mp (by
    simp only [opsF, List.Forall, nullary_writes, unary_writes, binary_writes, ternary_writes, reshape_writes, nary_writes, Finset.mem_singleton]
    repeat' apply And.intro
    all_goals exact devRef_ne_of_ne (by decide))

theorem nwA_arg3 : ∀ op ∈ (opsA : List (HloOp τ sig (Elt F))), Proc.devRef (τ := τ) .tc main_arg3 ∉ op.writes :=
  List.forall_iff_forall_mem.mp (by
    simp only [opsA, List.Forall, nullary_writes, unary_writes, binary_writes, ternary_writes, reshape_writes, nary_writes, Finset.mem_singleton]
    repeat' apply And.intro
    all_goals exact devRef_ne_of_ne (by decide))

theorem nwB_arg3 : ∀ op ∈ (opsB : List (HloOp τ sig (Elt F))), Proc.devRef (τ := τ) .tc main_arg3 ∉ op.writes :=
  List.forall_iff_forall_mem.mp (by
    simp only [opsB, List.Forall, nullary_writes, unary_writes, binary_writes, ternary_writes, reshape_writes, nary_writes, Finset.mem_singleton]
    repeat' apply And.intro
    all_goals exact devRef_ne_of_ne (by decide))

theorem nwC_arg3 : ∀ op ∈ (opsC : List (HloOp τ sig (Elt F))), Proc.devRef (τ := τ) .tc main_arg3 ∉ op.writes :=
  List.forall_iff_forall_mem.mp (by
    simp only [opsC, List.Forall, nullary_writes, unary_writes, binary_writes, ternary_writes, reshape_writes, nary_writes, Finset.mem_singleton]
    repeat' apply And.intro
    all_goals exact devRef_ne_of_ne (by decide))

theorem nwD_arg3 : ∀ op ∈ (opsD : List (HloOp τ sig (Elt F))), Proc.devRef (τ := τ) .tc main_arg3 ∉ op.writes :=
  List.forall_iff_forall_mem.mp (by
    simp only [opsD, List.Forall, nullary_writes, unary_writes, binary_writes, ternary_writes, reshape_writes, nary_writes, Finset.mem_singleton]
    repeat' apply And.intro
    all_goals exact devRef_ne_of_ne (by decide))

theorem nwE_arg3 : ∀ op ∈ (opsE : List (HloOp τ sig (Elt F))), Proc.devRef (τ := τ) .tc main_arg3 ∉ op.writes :=
  List.forall_iff_forall_mem.mp (by
    simp only [opsE, List.Forall, nullary_writes, unary_writes, binary_writes, ternary_writes, reshape_writes, nary_writes, Finset.mem_singleton]
    repeat' apply And.intro
    all_goals exact devRef_ne_of_ne (by decide))

theorem nwF_arg3 : ∀ op ∈ (opsF : List (HloOp τ sig (Elt F))), Proc.devRef (τ := τ) .tc main_arg3 ∉ op.writes :=
  List.forall_iff_forall_mem.mp (by
    simp only [opsF, List.Forall, nullary_writes, unary_writes, binary_writes, ternary_writes, reshape_writes, nary_writes, Finset.mem_singleton]
    repeat' apply And.intro
    all_goals exact devRef_ne_of_ne (by decide))

theorem nwA_arg4 : ∀ op ∈ (opsA : List (HloOp τ sig (Elt F))), Proc.devRef (τ := τ) .tc main_arg4 ∉ op.writes :=
  List.forall_iff_forall_mem.mp (by
    simp only [opsA, List.Forall, nullary_writes, unary_writes, binary_writes, ternary_writes, reshape_writes, nary_writes, Finset.mem_singleton]
    repeat' apply And.intro
    all_goals exact devRef_ne_of_ne (by decide))

theorem nwB_arg4 : ∀ op ∈ (opsB : List (HloOp τ sig (Elt F))), Proc.devRef (τ := τ) .tc main_arg4 ∉ op.writes :=
  List.forall_iff_forall_mem.mp (by
    simp only [opsB, List.Forall, nullary_writes, unary_writes, binary_writes, ternary_writes, reshape_writes, nary_writes, Finset.mem_singleton]
    repeat' apply And.intro
    all_goals exact devRef_ne_of_ne (by decide))

theorem nwC_arg4 : ∀ op ∈ (opsC : List (HloOp τ sig (Elt F))), Proc.devRef (τ := τ) .tc main_arg4 ∉ op.writes :=
  List.forall_iff_forall_mem.mp (by
    simp only [opsC, List.Forall, nullary_writes, unary_writes, binary_writes, ternary_writes, reshape_writes, nary_writes, Finset.mem_singleton]
    repeat' apply And.intro
    all_goals exact devRef_ne_of_ne (by decide))

theorem nwD_arg4 : ∀ op ∈ (opsD : List (HloOp τ sig (Elt F))), Proc.devRef (τ := τ) .tc main_arg4 ∉ op.writes :=
  List.forall_iff_forall_mem.mp (by
    simp only [opsD, List.Forall, nullary_writes, unary_writes, binary_writes, ternary_writes, reshape_writes, nary_writes, Finset.mem_singleton]
    repeat' apply And.intro
    all_goals exact devRef_ne_of_ne (by decide))

theorem nwE_arg4 : ∀ op ∈ (opsE : List (HloOp τ sig (Elt F))), Proc.devRef (τ := τ) .tc main_arg4 ∉ op.writes :=
  List.forall_iff_forall_mem.mp (by
    simp only [opsE, List.Forall, nullary_writes, unary_writes, binary_writes, ternary_writes, reshape_writes, nary_writes, Finset.mem_singleton]
    repeat' apply And.intro
    all_goals exact devRef_ne_of_ne (by decide))

theorem nwF_arg4 : ∀ op ∈ (opsF : List (HloOp τ sig (Elt F))), Proc.devRef (τ := τ) .tc main_arg4 ∉ op.writes :=
  List.forall_iff_forall_mem.mp (by
    simp only [opsF, List.Forall, nullary_writes, unary_writes, binary_writes, ternary_writes, reshape_writes, nary_writes, Finset.mem_singleton]
    repeat' apply And.intro
    all_goals exact devRef_ne_of_ne (by decide))

theorem nwA_arg5 : ∀ op ∈ (opsA : List (HloOp τ sig (Elt F))), Proc.devRef (τ := τ) .tc main_arg5 ∉ op.writes :=
  List.forall_iff_forall_mem.mp (by
    simp only [opsA, List.Forall, nullary_writes, unary_writes, binary_writes, ternary_writes, reshape_writes, nary_writes, Finset.mem_singleton]
    repeat' apply And.intro
    all_goals exact devRef_ne_of_ne (by decide))

theorem nwB_arg5 : ∀ op ∈ (opsB : List (HloOp τ sig (Elt F))), Proc.devRef (τ := τ) .tc main_arg5 ∉ op.writes :=
  List.forall_iff_forall_mem.mp (by
    simp only [opsB, List.Forall, nullary_writes, unary_writes, binary_writes, ternary_writes, reshape_writes, nary_writes, Finset.mem_singleton]
    repeat' apply And.intro
    all_goals exact devRef_ne_of_ne (by decide))

theorem nwC_arg5 : ∀ op ∈ (opsC : List (HloOp τ sig (Elt F))), Proc.devRef (τ := τ) .tc main_arg5 ∉ op.writes :=
  List.forall_iff_forall_mem.mp (by
    simp only [opsC, List.Forall, nullary_writes, unary_writes, binary_writes, ternary_writes, reshape_writes, nary_writes, Finset.mem_singleton]
    repeat' apply And.intro
    all_goals exact devRef_ne_of_ne (by decide))

theorem nwD_arg5 : ∀ op ∈ (opsD : List (HloOp τ sig (Elt F))), Proc.devRef (τ := τ) .tc main_arg5 ∉ op.writes :=
  List.forall_iff_forall_mem.mp (by
    simp only [opsD, List.Forall, nullary_writes, unary_writes, binary_writes, ternary_writes, reshape_writes, nary_writes, Finset.mem_singleton]
    repeat' apply And.intro
    all_goals exact devRef_ne_of_ne (by decide))

theorem nwE_arg5 : ∀ op ∈ (opsE : List (HloOp τ sig (Elt F))), Proc.devRef (τ := τ) .tc main_arg5 ∉ op.writes :=
  List.forall_iff_forall_mem.mp (by
    simp only [opsE, List.Forall, nullary_writes, unary_writes, binary_writes, ternary_writes, reshape_writes, nary_writes, Finset.mem_singleton]
    repeat' apply And.intro
    all_goals exact devRef_ne_of_ne (by decide))

theorem nwF_arg5 : ∀ op ∈ (opsF : List (HloOp τ sig (Elt F))), Proc.devRef (τ := τ) .tc main_arg5 ∉ op.writes :=
  List.forall_iff_forall_mem.mp (by
    simp only [opsF, List.Forall, nullary_writes, unary_writes, binary_writes, ternary_writes, reshape_writes, nary_writes, Finset.mem_singleton]
    repeat' apply And.intro
    all_goals exact devRef_ne_of_ne (by decide))

theorem nwA_arg6 : ∀ op ∈ (opsA : List (HloOp τ sig (Elt F))), Proc.devRef (τ := τ) .tc main_arg6 ∉ op.writes :=
  List.forall_iff_forall_mem.mp (by
    simp only [opsA, List.Forall, nullary_writes, unary_writes, binary_writes, ternary_writes, reshape_writes, nary_writes, Finset.mem_singleton]
    repeat' apply And.intro
    all_goals exact devRef_ne_of_ne (by decide))

theorem nwB_arg6 : ∀ op ∈ (opsB : List (HloOp τ sig (Elt F))), Proc.devRef (τ := τ) .tc main_arg6 ∉ op.writes :=
  List.forall_iff_forall_mem.mp (by
    simp only [opsB, List.Forall, nullary_writes, unary_writes, binary_writes, ternary_writes, reshape_writes, nary_writes, Finset.mem_singleton]
    repeat' apply And.intro
    all_goals exact devRef_ne_of_ne (by decide))

theorem nwC_arg6 : ∀ op ∈ (opsC : List (HloOp τ sig (Elt F))), Proc.devRef (τ := τ) .tc main_arg6 ∉ op.writes :=
  List.forall_iff_forall_mem.mp (by
    simp only [opsC, List.Forall, nullary_writes, unary_writes, binary_writes, ternary_writes, reshape_writes, nary_writes, Finset.mem_singleton]
    repeat' apply And.intro
    all_goals exact devRef_ne_of_ne (by decide))

theorem nwD_arg6 : ∀ op ∈ (opsD : List (HloOp τ sig (Elt F))), Proc.devRef (τ := τ) .tc main_arg6 ∉ op.writes :=
  List.forall_iff_forall_mem.mp (by
    simp only [opsD, List.Forall, nullary_writes, unary_writes, binary_writes, ternary_writes, reshape_writes, nary_writes, Finset.mem_singleton]
    repeat' apply And.intro
    all_goals exact devRef_ne_of_ne (by decide))

theorem nwE_arg6 : ∀ op ∈ (opsE : List (HloOp τ sig (Elt F))), Proc.devRef (τ := τ) .tc main_arg6 ∉ op.writes :=
  List.forall_iff_forall_mem.mp (by
    simp only [opsE, List.Forall, nullary_writes, unary_writes, binary_writes, ternary_writes, reshape_writes, nary_writes, Finset.mem_singleton]
    repeat' apply And.intro
    all_goals exact devRef_ne_of_ne (by decide))

theorem nwF_arg6 : ∀ op ∈ (opsF : List (HloOp τ sig (Elt F))), Proc.devRef (τ := τ) .tc main_arg6 ∉ op.writes :=
  List.forall_iff_forall_mem.mp (by
    simp only [opsF, List.Forall, nullary_writes, unary_writes, binary_writes, ternary_writes, reshape_writes, nary_writes, Finset.mem_singleton]
    repeat' apply And.intro
    all_goals exact devRef_ne_of_ne (by decide))

theorem nwA_arg7 : ∀ op ∈ (opsA : List (HloOp τ sig (Elt F))), Proc.devRef (τ := τ) .tc main_arg7 ∉ op.writes :=
  List.forall_iff_forall_mem.mp (by
    simp only [opsA, List.Forall, nullary_writes, unary_writes, binary_writes, ternary_writes, reshape_writes, nary_writes, Finset.mem_singleton]
    repeat' apply And.intro
    all_goals exact devRef_ne_of_ne (by decide))

theorem nwB_arg7 : ∀ op ∈ (opsB : List (HloOp τ sig (Elt F))), Proc.devRef (τ := τ) .tc main_arg7 ∉ op.writes :=
  List.forall_iff_forall_mem.mp (by
    simp only [opsB, List.Forall, nullary_writes, unary_writes, binary_writes, ternary_writes, reshape_writes, nary_writes, Finset.mem_singleton]
    repeat' apply And.intro
    all_goals exact devRef_ne_of_ne (by decide))

theorem nwC_arg7 : ∀ op ∈ (opsC : List (HloOp τ sig (Elt F))), Proc.devRef (τ := τ) .tc main_arg7 ∉ op.writes :=
  List.forall_iff_forall_mem.mp (by
    simp only [opsC, List.Forall, nullary_writes, unary_writes, binary_writes, ternary_writes, reshape_writes, nary_writes, Finset.mem_singleton]
    repeat' apply And.intro
    all_goals exact devRef_ne_of_ne (by decide))

theorem nwD_arg7 : ∀ op ∈ (opsD : List (HloOp τ sig (Elt F))), Proc.devRef (τ := τ) .tc main_arg7 ∉ op.writes :=
  List.forall_iff_forall_mem.mp (by
    simp only [opsD, List.Forall, nullary_writes, unary_writes, binary_writes, ternary_writes, reshape_writes, nary_writes, Finset.mem_singleton]
    repeat' apply And.intro
    all_goals exact devRef_ne_of_ne (by decide))

theorem nwE_arg7 : ∀ op ∈ (opsE : List (HloOp τ sig (Elt F))), Proc.devRef (τ := τ) .tc main_arg7 ∉ op.writes :=
  List.forall_iff_forall_mem.mp (by
    simp only [opsE, List.Forall, nullary_writes, unary_writes, binary_writes, ternary_writes, reshape_writes, nary_writes, Finset.mem_singleton]
    repeat' apply And.intro
    all_goals exact devRef_ne_of_ne (by decide))

theorem nwF_arg7 : ∀ op ∈ (opsF : List (HloOp τ sig (Elt F))), Proc.devRef (τ := τ) .tc main_arg7 ∉ op.writes :=
  List.forall_iff_forall_mem.mp (by
    simp only [opsF, List.Forall, nullary_writes, unary_writes, binary_writes, ternary_writes, reshape_writes, nary_writes, Finset.mem_singleton]
    repeat' apply And.intro
    all_goals exact devRef_ne_of_ne (by decide))

theorem nwA_arg8 : ∀ op ∈ (opsA : List (HloOp τ sig (Elt F))), Proc.devRef (τ := τ) .tc main_arg8 ∉ op.writes :=
  List.forall_iff_forall_mem.mp (by
    simp only [opsA, List.Forall, nullary_writes, unary_writes, binary_writes, ternary_writes, reshape_writes, nary_writes, Finset.mem_singleton]
    repeat' apply And.intro
    all_goals exact devRef_ne_of_ne (by decide))

theorem nwB_arg8 : ∀ op ∈ (opsB : List (HloOp τ sig (Elt F))), Proc.devRef (τ := τ) .tc main_arg8 ∉ op.writes :=
  List.forall_iff_forall_mem.mp (by
    simp only [opsB, List.Forall, nullary_writes, unary_writes, binary_writes, ternary_writes, reshape_writes, nary_writes, Finset.mem_singleton]
    repeat' apply And.intro
    all_goals exact devRef_ne_of_ne (by decide))

theorem nwC_arg8 : ∀ op ∈ (opsC : List (HloOp τ sig (Elt F))), Proc.devRef (τ := τ) .tc main_arg8 ∉ op.writes :=
  List.forall_iff_forall_mem.mp (by
    simp only [opsC, List.Forall, nullary_writes, unary_writes, binary_writes, ternary_writes, reshape_writes, nary_writes, Finset.mem_singleton]
    repeat' apply And.intro
    all_goals exact devRef_ne_of_ne (by decide))

theorem nwD_arg8 : ∀ op ∈ (opsD : List (HloOp τ sig (Elt F))), Proc.devRef (τ := τ) .tc main_arg8 ∉ op.writes :=
  List.forall_iff_forall_mem.mp (by
    simp only [opsD, List.Forall, nullary_writes, unary_writes, binary_writes, ternary_writes, reshape_writes, nary_writes, Finset.mem_singleton]
    repeat' apply And.intro
    all_goals exact devRef_ne_of_ne (by decide))

theorem nwE_arg8 : ∀ op ∈ (opsE : List (HloOp τ sig (Elt F))), Proc.devRef (τ := τ) .tc main_arg8 ∉ op.writes :=
  List.forall_iff_forall_mem.mp (by
    simp only [opsE, List.Forall, nullary_writes, unary_writes, binary_writes, ternary_writes, reshape_writes, nary_writes, Finset.mem_singleton]
    repeat' apply And.intro
    all_goals exact devRef_ne_of_ne (by decide))

theorem nwF_arg8 : ∀ op ∈ (opsF : List (HloOp τ sig (Elt F))), Proc.devRef (τ := τ) .tc main_arg8 ∉ op.writes :=
  List.forall_iff_forall_mem.mp (by
    simp only [opsF, List.Forall, nullary_writes, unary_writes, binary_writes, ternary_writes, reshape_writes, nary_writes, Finset.mem_singleton]
    repeat' apply And.intro
    all_goals exact devRef_ne_of_ne (by decide))

theorem nwA_arg9 : ∀ op ∈ (opsA : List (HloOp τ sig (Elt F))), Proc.devRef (τ := τ) .tc main_arg9 ∉ op.writes :=
  List.forall_iff_forall_mem.mp (by
    simp only [opsA, List.Forall, nullary_writes, unary_writes, binary_writes, ternary_writes, reshape_writes, nary_writes, Finset.mem_singleton]
    repeat' apply And.intro
    all_goals exact devRef_ne_of_ne (by decide))

theorem nwB_arg9 : ∀ op ∈ (opsB : List (HloOp τ sig (Elt F))), Proc.devRef (τ := τ) .tc main_arg9 ∉ op.writes :=
  List.forall_iff_forall_mem.mp (by
    simp only [opsB, List.Forall, nullary_writes, unary_writes, binary_writes, ternary_writes, reshape_writes, nary_writes, Finset.mem_singleton]
    repeat' apply And.intro
    all_goals exact devRef_ne_of_ne (by decide))

theorem nwC_arg9 : ∀ op ∈ (opsC : List (HloOp τ sig (Elt F))), Proc.devRef (τ := τ) .tc main_arg9 ∉ op.writes :=
  List.forall_iff_forall_mem.mp (by
    simp only [opsC, List.Forall, nullary_writes, unary_writes, binary_writes, ternary_writes, reshape_writes, nary_writes, Finset.mem_singleton]
    repeat' apply And.intro
    all_goals exact devRef_ne_of_ne (by decide))

theorem nwD_arg9 : ∀ op ∈ (opsD : List (HloOp τ sig (Elt F))), Proc.devRef (τ := τ) .tc main_arg9 ∉ op.writes :=
  List.forall_iff_forall_mem.mp (by
    simp only [opsD, List.Forall, nullary_writes, unary_writes, binary_writes, ternary_writes, reshape_writes, nary_writes, Finset.mem_singleton]
    repeat' apply And.intro
    all_goals exact devRef_ne_of_ne (by decide))

theorem nwE_arg9 : ∀ op ∈ (opsE : List (HloOp τ sig (Elt F))), Proc.devRef (τ := τ) .tc main_arg9 ∉ op.writes :=
  List.forall_iff_forall_mem.mp (by
    simp only [opsE, List.Forall, nullary_writes, unary_writes, binary_writes, ternary_writes, reshape_writes, nary_writes, Finset.mem_singleton]
    repeat' apply And.intro
    all_goals exact devRef_ne_of_ne (by decide))

theorem nwF_arg9 : ∀ op ∈ (opsF : List (HloOp τ sig (Elt F))), Proc.devRef (τ := τ) .tc main_arg9 ∉ op.writes :=
  List.forall_iff_forall_mem.mp (by
    simp only [opsF, List.Forall, nullary_writes, unary_writes, binary_writes, ternary_writes, reshape_writes, nary_writes, Finset.mem_singleton]
    repeat' apply And.intro
    all_goals exact devRef_ne_of_ne (by decide))

end Cert.ReferenceIdeal.Whole

end
-- ==== Proof.Whole.RefKeep1.lean ====
/-
  Which buffers a stretch of the reference leaves alone.

  Every operation writes exactly one buffer, its result.  An argument is the result of no operation, the two index rows
  are results of the first stretch only, and the node result is a result of the fourth stretch only; so each of these
  is written by no operation of the stretches listed for it below, one inequality of references per operation.
-/
import proofs.«169663_j18897856103195_1_alg».proof.Proof.Whole.RefOps
import Idealize.ShloMosaic.Lib.StableHlo.Run

set_option maxRecDepth 16384

noncomputable section

namespace Cert.ReferenceIdeal.Whole

open Cert.ReferenceIdeal Cert.ReferenceIdeal.Gen Idealize.ShloMosaic Idealize.ShloMosaic.TcCoe Idealize.SL.Sem Idealize.ShloMosaic.StableHlo

variable {F : FTy → Type} [FloatOps F]

theorem nwA_arg10 : ∀ op ∈ (opsA : List (HloOp τ sig (Elt F))), Proc.devRef (τ := τ) .tc main_arg10 ∉ op.writes :=
  List.forall_iff_forall_mem.mp (by
    simp only [opsA, List.Forall, nullary_writes, unary_writes, binary_writes, ternary_writes, reshape_writes, nary_writes, Finset.mem_singleton]
    repeat' apply And.intro
    all_goals exact devRef_ne_of_ne (by decide))

theorem nwB_arg10 : ∀ op ∈ (opsB : List (HloOp τ sig (Elt F))), Proc.devRef (τ := τ) .tc main_arg10 ∉ op.writes :=
  List.forall_iff_forall_mem.mp (by
    simp only [opsB, List.Forall, nullary_writes, unary_writes, binary_writes, ternary_writes, reshape_writes, nary_writes, Finset.mem_singleton]
    repeat' apply And.intro
    all_goals exact devRef_ne_of_ne (by decide))

theorem nwC_arg10 : ∀ op ∈ (opsC : List (HloOp τ sig (Elt F))), Proc.devRef (τ := τ) .tc main_arg10 ∉ op.writes :=
  List.forall_iff_forall_mem.mp (by
    simp only [opsC, List.Forall, nullary_writes, unary_writes, binary_writes, ternary_writes, reshape_writes, nary_writes, Finset.mem_singleton]
    repeat' apply And.intro
    all_goals exact devRef_ne_of_ne (by decide))

theorem nwD_arg10 : ∀ op ∈ (opsD : List (HloOp τ sig (Elt F))), Proc.devRef (τ := τ) .tc main_arg10 ∉ op.writes :=
  List.forall_iff_forall_mem.mp (by
    simp only [opsD, List.Forall, nullary_writes, unary_writes, binary_writes, ternary_writes, reshape_writes, nary_writes, Finset.mem_singleton]
    repeat' apply And.intro
    all_goals exact devRef_ne_of_ne (by decide))

theorem nwE_arg10 : ∀ op ∈ (opsE : List (HloOp τ sig (Elt F))), Proc.devRef (τ := τ) .tc main_arg10 ∉ op.writes :=
  List.forall_iff_forall_mem.mp (by
    simp only [opsE, List.Forall, nullary_writes, unary_writes, binary_writes, ternary_writes, reshape_writes, nary_writes, Finset.mem_singleton]
    repeat' apply And.intro
    all_goals exact devRef_ne_of_ne (by decide))

theorem nwF_arg10 : ∀ op ∈ (opsF : List (HloOp τ sig (Elt F))), Proc.devRef (τ := τ) .tc main_arg10 ∉ op.writes :=
  List.forall_iff_forall_mem.mp (by
    simp only [opsF, List.Forall, nullary_writes, unary_writes, binary_writes, ternary_writes, reshape_writes, nary_writes, Finset.mem_singleton]
    repeat' apply And.intro
    all_goals exact devRef_ne_of_ne (by decide))

theorem nwA_arg11 : ∀ op ∈ (opsA : List (HloOp τ sig (Elt F))), Proc.devRef (τ := τ) .tc main_arg11 ∉ op.writes :=
  List.forall_iff_forall_mem.mp (by
    simp only [opsA, List.Forall, nullary_writes, unary_writes, binary_writes, ternary_writes, reshape_writes, nary_writes, Finset.mem_singleton]
    repeat' apply And.intro
    all_goals exact devRef_ne_of_ne (by decide))

theorem nwB_arg11 : ∀ op ∈ (opsB : List (HloOp τ sig (Elt F))), Proc.devRef (τ := τ) .tc main_arg11 ∉ op.writes :=
  List.forall_iff_forall_mem.mp (by
    simp only [opsB, List.Forall, nullary_writes, unary_writes, binary_writes, ternary_writes, reshape_writes, nary_writes, Finset.mem_singleton]
    repeat' apply And.intro
    all_goals exact devRef_ne_of_ne (by decide))

theorem nwC_arg11 : ∀ op ∈ (opsC : List (HloOp τ sig (Elt F))), Proc.devRef (τ := τ) .tc main_arg11 ∉ op.writes :=
  List.forall_iff_forall_mem.mp (by
    simp only [opsC, List.Forall, nullary_writes, unary_writes, binary_writes, ternary_writes, reshape_writes, nary_writes, Finset.mem_singleton]
    repeat' apply And.intro
    all_goals exact devRef_ne_of_ne (by decide))

theorem nwD_arg11 : ∀ op ∈ (opsD : List (HloOp τ sig (Elt F))), Proc.devRef (τ := τ) .tc main_arg11 ∉ op.writes :=
  List.forall_iff_forall_mem.mp (by
    simp only [opsD, List.Forall, nullary_writes, unary_writes, binary_writes, ternary_writes, reshape_writes, nary_writes, Finset.mem_singleton]
    repeat' apply And.intro
    all_goals exact devRef_ne_of_ne (by decide))

theorem nwE_arg11 : ∀ op ∈ (opsE : List (HloOp τ sig (Elt F))), Proc.devRef (τ := τ) .tc main_arg11 ∉ op.writes :=
  List.forall_iff_forall_mem.mp (by
    simp only [opsE, List.Forall, nullary_writes, unary_writes, binary_writes, ternary_writes, reshape_writes, nary_writes, Finset.mem_singleton]
    repeat' apply And.intro
    all_goals exact devRef_ne_of_ne (by decide))

theorem nwF_arg11 : ∀ op ∈ (opsF : List (HloOp τ sig (Elt F))), Proc.devRef (τ := τ) .tc main_arg11 ∉ op.writes :=
  List.forall_iff_forall_mem.mp (by
    simp only [opsF, List.Forall, nullary_writes, unary_writes, binary_writes, ternary_writes, reshape_writes, nary_writes, Finset.mem_singleton]
    repeat' apply And.intro
    all_goals exact devRef_ne_of_ne (by decide))

theorem nwA_arg12 : ∀ op ∈ (opsA : List (HloOp τ sig (Elt F))), Proc.devRef (τ := τ) .tc main_arg12 ∉ op.writes :=
  List.forall_iff_forall_mem.mp (by
    simp only [opsA, List.Forall, nullary_writes, unary_writes, binary_writes, ternary_writes, reshape_writes, nary_writes, Finset.mem_singleton]
    repeat' apply And.intro
    all_goals exact devRef_ne_of_ne (by decide))

theorem nwB_arg12 : ∀ op ∈ (opsB : List (HloOp τ sig (Elt F))), Proc.devRef (τ := τ) .tc main_arg12 ∉ op.writes :=
  List.forall_iff_forall_mem.mp (by
    simp only [opsB, List.Forall, nullary_writes, unary_writes, binary_writes, ternary_writes, reshape_writes, nary_writes, Finset.mem_singleton]
    repeat' apply And.intro
    all_goals exact devRef_ne_of_ne (by decide))

theorem nwC_arg12 : ∀ op ∈ (opsC : List (HloOp τ sig (Elt F))), Proc.devRef (τ := τ) .tc main_arg12 ∉ op.writes :=
  List.forall_iff_forall_mem.mp (by
    simp only [opsC, List.Forall, nullary_writes, unary_writes, binary_writes, ternary_writes, reshape_writes, nary_writes, Finset.mem_singleton]
    repeat' apply And.intro
    all_goals exact devRef_ne_of_ne (by decide))

theorem nwD_arg12 : ∀ op ∈ (opsD : List (HloOp τ sig (Elt F))), Proc.devRef (τ := τ) .tc main_arg12 ∉ op.writes :=
  List.forall_iff_forall_mem.mp (by
    simp only [opsD, List.Forall, nullary_writes, unary_writes, binary_writes, ternary_writes, reshape_writes, nary_writes, Finset.mem_singleton]
    repeat' apply And.intro
    all_goals exact devRef_ne_of_ne (by decide))

theorem nwE_arg12 : ∀ op ∈ (opsE : List (HloOp τ sig (Elt F))), Proc.devRef (τ := τ) .tc main_arg12 ∉ op.writes :=
  List.forall_iff_forall_mem.mp (by
    simp only [opsE, List.Forall, nullary_writes, unary_writes, binary_writes, ternary_writes, reshape_writes, nary_writes, Finset.mem_singleton]
    repeat' apply And.intro
    all_goals exact devRef_ne_of_ne (by decide))

theorem nwF_arg12 : ∀ op ∈ (opsF : List (HloOp τ sig (Elt F))), Proc.devRef (τ := τ) .tc main_arg12 ∉ op.writes :=
  List.forall_iff_forall_mem.mp (by
    simp only [opsF, List.Forall, nullary_writes, unary_writes, binary_writes, ternary_writes, reshape_writes, nary_writes, Finset.mem_singleton]
    repeat' apply And.intro
    all_goals exact devRef_ne_of_ne (by decide))

theorem nwA_arg13 : ∀ op ∈ (opsA : List (HloOp τ sig (Elt F))), Proc.devRef (τ := τ) .tc main_arg13 ∉ op.writes :=
  List.forall_iff_forall_mem.mp (by
    simp only [opsA, List.Forall, nullary_writes, unary_writes, binary_writes, ternary_writes, reshape_writes, nary_writes, Finset.mem_singleton]
    repeat' apply And.intro
    all_goals exact devRef_ne_of_ne (by decide))

theorem nwB_arg13 : ∀ op ∈ (opsB : List (HloOp τ sig (Elt F))), Proc.devRef (τ := τ) .tc main_arg13 ∉ op.writes :=
  List.forall_iff_forall_mem.mp (by
    simp only [opsB, List.Forall, nullary_writes, unary_writes, binary_writes, ternary_writes, reshape_writes, nary_writes, Finset.mem_singleton]
    repeat' apply And.intro
    all_goals exact devRef_ne_of_ne (by decide))

theorem nwC_arg13 : ∀ op ∈ (opsC : List (HloOp τ sig (Elt F))), Proc.devRef (τ := τ) .tc main_arg13 ∉ op.writes :=
  List.forall_iff_forall_mem.mp (by
    simp only [opsC, List.Forall, nullary_writes, unary_writes, binary_writes, ternary_writes, reshape_writes, nary_writes, Finset.mem_singleton]
    repeat' apply And.intro
    all_goals exact devRef_ne_of_ne (by decide))

theorem nwD_arg13 : ∀ op ∈ (opsD : List (HloOp τ sig (Elt F))), Proc.devRef (τ := τ) .tc main_arg13 ∉ op.writes :=
  List.forall_iff_forall_mem.mp (by
    simp only [opsD, List.Forall, nullary_writes, unary_writes, binary_writes, ternary_writes, reshape_writes, nary_writes, Finset.mem_singleton]
    repeat' apply And.intro
    all_goals exact devRef_ne_of_ne (by decide))

theorem nwE_arg13 : ∀ op ∈ (opsE : List (HloOp τ sig (Elt F))), Proc.devRef (τ := τ) .tc main_arg13 ∉ op.writes :=
  List.forall_iff_forall_mem.mp (by
    simp only [opsE, List.Forall, nullary_writes, unary_writes, binary_writes, ternary_writes, reshape_writes, nary_writes, Finset.mem_singleton]
    repeat' apply And.intro
    all_goals exact devRef_ne_of_ne (by decide))

theorem nwF_arg13 : ∀ op ∈ (opsF : List (HloOp τ sig (Elt F))), Proc.devRef (τ := τ) .tc main_arg13 ∉ op.writes :=
  List.forall_iff_forall_mem.mp (by
    simp only [opsF, List.Forall, nullary_writes, unary_writes, binary_writes, ternary_writes, reshape_writes, nary_writes, Finset.mem_singleton]
    repeat' apply And.intro
    all_goals exact devRef_ne_of_ne (by decide))

theorem nwA_arg14 : ∀ op ∈ (opsA : List (HloOp τ sig (Elt F))), Proc.devRef (τ := τ) .tc main_arg14 ∉ op.writes :=
  List.forall_iff_forall_mem.mp (by
    simp only [opsA, List.Forall, nullary_writes, unary_writes, binary_writes, ternary_writes, reshape_writes, nary_writes, Finset.mem_singleton]
    repeat' apply And.intro
    all_goals exact devRef_ne_of_ne (by decide))

theorem nwB_arg14 : ∀ op ∈ (opsB : List (HloOp τ sig (Elt F))), Proc.devRef (τ := τ) .tc main_arg14 ∉ op.writes :=
  List.forall_iff_forall_mem.mp (by
    simp only [opsB, List.Forall, nullary_writes, unary_writes, binary_writes, ternary_writes, reshape_writes, nary_writes, Finset.mem_singleton]
    repeat' apply And.intro
    all_goals exact devRef_ne_of_ne (by decide))

theorem nwC_arg14 : ∀ op ∈ (opsC : List (HloOp τ sig (Elt F))), Proc.devRef (τ := τ) .tc main_arg14 ∉ op.writes :=
  List.forall_iff_forall_mem.mp (by
    simp only [opsC, List.Forall, nullary_writes, unary_writes, binary_writes, ternary_writes, reshape_writes, nary_writes, Finset.mem_singleton]
    repeat' apply And.intro
    all_goals exact devRef_ne_of_ne (by decide))

theorem nwD_arg14 : ∀ op ∈ (opsD : List (HloOp τ sig (Elt F))), Proc.devRef (τ := τ) .tc main_arg14 ∉ op.writes :=
  List.forall_iff_forall_mem.mp (by
    simp only [opsD, List.Forall, nullary_writes, unary_writes, binary_writes, ternary_writes, reshape_writes, nary_writes, Finset.mem_singleton]
    repeat' apply And.intro
    all_goals exact devRef_ne_of_ne (by decide))

theorem nwE_arg14 : ∀ op ∈ (opsE : List (HloOp τ sig (Elt F))), Proc.devRef (τ := τ) .tc main_arg14 ∉ op.writes :=
  List.forall_iff_forall_mem.mp (by
    simp only [opsE, List.Forall, nullary_writes, unary_writes, binary_writes, ternary_writes, reshape_writes, nary_writes, Finset.mem_singleton]
    repeat' apply And.intro
    all_goals exact devRef_ne_of_ne (by decide))

theorem nwF_arg14 : ∀ op ∈ (opsF : List (HloOp τ sig (Elt F))), Proc.devRef (τ := τ) .tc main_arg14 ∉ op.writes :=
  List.forall_iff_forall_mem.mp (by
    simp only [opsF, List.Forall, nullary_writes, unary_writes, binary_writes, ternary_writes, reshape_writes, nary_writes, Finset.mem_singleton]
    repeat' apply And.intro
    all_goals exact devRef_ne_of_ne (by decide))

theorem nwA_arg15 : ∀ op ∈ (opsA : List (HloOp τ sig (Elt F))), Proc.devRef (τ := τ) .tc main_arg15 ∉ op.writes :=
  List.forall_iff_forall_mem.mp (by
    simp only [opsA, List.Forall, nullary_writes, unary_writes, binary_writes, ternary_writes, reshape_writes, nary_writes, Finset.mem_singleton]
    repeat' apply And.intro
    all_goals exact devRef_ne_of_ne (by decide))

theorem nwB_arg15 : ∀ op ∈ (opsB : List (HloOp τ sig (Elt F))), Proc.devRef (τ := τ) .tc main_arg15 ∉ op.writes :=
  List.forall_iff_forall_mem.mp (by
    simp only [opsB, List.Forall, nullary_writes, unary_writes, binary_writes, ternary_writes, reshape_writes, nary_writes, Finset.mem_singleton]
    repeat' apply And.intro
    all_goals exact devRef_ne_of_ne (by decide))

theorem nwC_arg15 : ∀ op ∈ (opsC : List (HloOp τ sig (Elt F))), Proc.devRef (τ := τ) .tc main_arg15 ∉ op.writes :=
  List.forall_iff_forall_mem.mp (by
    simp only [opsC, List.Forall, nullary_writes, unary_writes, binary_writes, ternary_writes, reshape_writes, nary_writes, Finset.mem_singleton]
    repeat' apply And.intro
    all_goals exact devRef_ne_of_ne (by decide))

theorem nwD_arg15 : ∀ op ∈ (opsD : List (HloOp τ sig (Elt F))), Proc.devRef (τ := τ) .tc main_arg15 ∉ op.writes :=
  List.forall_iff_forall_mem.mp (by
    simp only [opsD, List.Forall, nullary_writes, unary_writes, binary_writes, ternary_writes, reshape_writes, nary_writes, Finset.mem_singleton]
    repeat' apply And.intro
    all_goals exact devRef_ne_of_ne (by decide))

theorem nwE_arg15 : ∀ op ∈ (opsE : List (HloOp τ sig (Elt F))), Proc.devRef (τ := τ) .tc main_arg15 ∉ op.writes :=
  List.forall_iff_forall_mem.mp (by
    simp only [opsE, List.Forall, nullary_writes, unary_writes, binary_writes, ternary_writes, reshape_writes, nary_writes, Finset.mem_singleton]
    repeat' apply And.intro
    all_goals exact devRef_ne_of_ne (by decide))

theorem nwF_arg15 : ∀ op ∈ (opsF : List (HloOp τ sig (Elt F))), Proc.devRef (τ := τ) .tc main_arg15 ∉ op.writes :=
  List.forall_iff_forall_mem.mp (by
    simp only [opsF, List.Forall, nullary_writes, unary_writes, binary_writes, ternary_writes, reshape_writes, nary_writes, Finset.mem_singleton]
    repeat' apply And.intro
    all_goals exact devRef_ne_of_ne (by decide))

theorem nwA_arg16 : ∀ op ∈ (opsA : List (HloOp τ sig (Elt F))), Proc.devRef (τ := τ) .tc main_arg16 ∉ op.writes :=
  List.forall_iff_forall_mem.mp (by
    simp only [opsA, List.Forall, nullary_writes, unary_writes, binary_writes, ternary_writes, reshape_writes, nary_writes, Finset.mem_singleton]
    repeat' apply And.intro
    all_goals exact devRef_ne_of_ne (by decide))

theorem nwB_arg16 : ∀ op ∈ (opsB : List (HloOp τ sig (Elt F))), Proc.devRef (τ := τ) .tc main_arg16 ∉ op.writes :=
  List.forall_iff_forall_mem.mp (by
    simp only [opsB, List.Forall, nullary_writes, unary_writes, binary_writes, ternary_writes, reshape_writes, nary_writes, Finset.mem_singleton]
    repeat' apply And.intro
    all_goals exact devRef_ne_of_ne (by decide))

theorem nwC_arg16 : ∀ op ∈ (opsC : List (HloOp τ sig (Elt F))), Proc.devRef (τ := τ) .tc main_arg16 ∉ op.writes :=
  List.forall_iff_forall_mem.mp (by
    simp only [opsC, List.Forall, nullary_writes, unary_writes, binary_writes, ternary_writes, reshape_writes, nary_writes, Finset.mem_singleton]
    repeat' apply And.intro
    all_goals exact devRef_ne_of_ne (by decide))

theorem nwD_arg16 : ∀ op ∈ (opsD : List (HloOp τ sig (Elt F))), Proc.devRef (τ := τ) .tc main_arg16 ∉ op.writes :=
  List.forall_iff_forall_mem.mp (by
    simp only [opsD, List.Forall, nullary_writes, unary_writes, binary_writes, ternary_writes, reshape_writes, nary_writes, Finset.mem_singleton]
    repeat' apply And.intro
    all_goals exact devRef_ne_of_ne (by decide))

theorem nwE_arg16 : ∀ op ∈ (opsE : List (HloOp τ sig (Elt F))), Proc.devRef (τ := τ) .tc main_arg16 ∉ op.writes :=
  List.forall_iff_forall_mem.mp (by
    simp only [opsE, List.Forall, nullary_writes, unary_writes, binary_writes, ternary_writes, reshape_writes, nary_writes, Finset.mem_singleton]
    repeat' apply And.intro
    all_goals exact devRef_ne_of_ne (by decide))

theorem nwF_arg16 : ∀ op ∈ (opsF : List (HloOp τ sig (Elt F))), Proc.devRef (τ := τ) .tc main_arg16 ∉ op.writes :=
  List.forall_iff_forall_mem.mp (by
    simp only [opsF, List.Forall, nullary_writes, unary_writes, binary_writes, ternary_writes, reshape_writes, nary_writes, Finset.mem_singleton]
    repeat' apply And.intro
    all_goals exact devRef_ne_of_ne (by decide))

theorem nwA_arg17 : ∀ op ∈ (opsA : List (HloOp τ sig (Elt F))), Proc.devRef (τ := τ) .tc main_arg17 ∉ op.writes :=
  List.forall_iff_forall_mem.mp (by
    simp only [opsA, List.Forall, nullary_writes, unary_writes, binary_writes, ternary_writes, reshape_writes, nary_writes, Finset.mem_singleton]
    repeat' apply And.intro
    all_goals exact devRef_ne_of_ne (by decide))

theorem nwB_arg17 : ∀ op ∈ (opsB : List (HloOp τ sig (Elt F))), Proc.devRef (τ := τ) .tc main_arg17 ∉ op.writes :=
  List.forall_iff_forall_mem.mp (by
    simp only [opsB, List.Forall, nullary_writes, unary_writes, binary_writes, ternary_writes, reshape_writes, nary_writes, Finset.mem_singleton]
    repeat' apply And.intro
    all_goals exact devRef_ne_of_ne (by decide))

theorem nwC_arg17 : ∀ op ∈ (opsC : List (HloOp τ sig (Elt F))), Proc.devRef (τ := τ) .tc main_arg17 ∉ op.writes :=
  List.forall_iff_forall_mem.mp (by
    simp only [opsC, List.Forall, nullary_writes, unary_writes, binary_writes, ternary_writes, reshape_writes, nary_writes, Finset.mem_singleton]
    repeat' apply And.intro
    all_goals exact devRef_ne_of_ne (by decide))

theorem nwD_arg17 : ∀ op ∈ (opsD : List (HloOp τ sig (Elt F))), Proc.devRef (τ := τ) .tc main_arg17 ∉ op.writes :=
  List.forall_iff_forall_mem.mp (by
    simp only [opsD, List.Forall, nullary_writes, unary_writes, binary_writes, ternary_writes, reshape_writes, nary_writes, Finset.mem_singleton]
    repeat' apply And.intro
    all_goals exact devRef_ne_of_ne (by decide))

theorem nwE_arg17 : ∀ op ∈ (opsE : List (HloOp τ sig (Elt F))), Proc.devRef (τ := τ) .tc main_arg17 ∉ op.writes :=
  List.forall_iff_forall_mem.mp (by
    simp only [opsE, List.Forall, nullary_writes, unary_writes, binary_writes, ternary_writes, reshape_writes, nary_writes, Finset.mem_singleton]
    repeat' apply And.intro
    all_goals exact devRef_ne_of_ne (by decide))

theorem nwF_arg17 : ∀ op ∈ (opsF : List (HloOp τ sig (Elt F))), Proc.devRef (τ := τ) .tc main_arg17 ∉ op.writes :=
  List.forall_iff_forall_mem.mp (by
    simp only [opsF, List.Forall, nullary_writes, unary_writes, binary_writes, ternary_writes, reshape_writes, nary_writes, Finset.mem_singleton]
    repeat' apply And.intro
    all_goals exact devRef_ne_of_ne (by decide))

theorem nwA_arg18 : ∀ op ∈ (opsA : List (HloOp τ sig (Elt F))), Proc.devRef (τ := τ) .tc main_arg18 ∉ op.writes :=
  List.forall_iff_forall_mem.mp (by
    simp only [opsA, List.Forall, nullary_writes, unary_writes, binary_writes, ternary_writes, reshape_writes, nary_writes, Finset.mem_singleton]
    repeat' apply And.intro
    all_goals exact devRef_ne_of_ne (by decide))

theorem nwB_arg18 : ∀ op ∈ (opsB : List (HloOp τ sig (Elt F))), Proc.devRef (τ := τ) .tc main_arg18 ∉ op.writes :=
  List.forall_iff_forall_mem.mp (by
    simp only [opsB, List.Forall, nullary_writes, unary_writes, binary_writes, ternary_writes, reshape_writes, nary_writes, Finset.mem_singleton]
    repeat' apply And.intro
    all_goals exact devRef_ne_of_ne (by decide))

theorem nwC_arg18 : ∀ op ∈ (opsC : List (HloOp τ sig (Elt F))), Proc.devRef (τ := τ) .tc main_arg18 ∉ op.writes :=
  List.forall_iff_forall_mem.mp (by
    simp only [opsC, List.Forall, nullary_writes, unary_writes, binary_writes, ternary_writes, reshape_writes, nary_writes, Finset.mem_singleton]
    repeat' apply And.intro
    all_goals exact devRef_ne_of_ne (by decide))

theorem nwD_arg18 : ∀ op ∈ (opsD : List (HloOp τ sig (Elt F))), Proc.devRef (τ := τ) .tc main_arg18 ∉ op.writes :=
  List.forall_iff_forall_mem.mp (by
    simp only [opsD, List.Forall, nullary_writes, unary_writes, binary_writes, ternary_writes, reshape_writes, nary_writes, Finset.mem_singleton]
    repeat' apply And.intro
    all_goals exact devRef_ne_of_ne (by decide))

theorem nwE_arg18 : ∀ op ∈ (opsE : List (HloOp τ sig (Elt F))), Proc.devRef (τ := τ) .tc main_arg18 ∉ op.writes :=
  List.forall_iff_forall_mem.mp (by
    simp only [opsE, List.Forall, nullary_writes, unary_writes, binary_writes, ternary_writes, reshape_writes, nary_writes, Finset.mem_singleton]
    repeat' apply And.intro
    all_goals exact devRef_ne_of_ne (by decide))

theorem nwF_arg18 : ∀ op ∈ (opsF : List (HloOp τ sig (Elt F))), Proc.devRef (τ := τ) .tc main_arg18 ∉ op.writes :=
  List.forall_iff_forall_mem.mp (by
    simp only [opsF, List.Forall, nullary_writes, unary_writes, binary_writes, ternary_writes, reshape_writes, nary_writes, Finset.mem_singleton]
    repeat' apply And.intro
    all_goals exact devRef_ne_of_ne (by decide))

theorem nwA_arg19 : ∀ op ∈ (opsA : List (HloOp τ sig (Elt F))), Proc.devRef (τ := τ) .tc main_arg19 ∉ op.writes :=
  List.forall_iff_forall_mem.mp (by
    simp only [opsA, List.Forall, nullary_writes, unary_writes, binary_writes, ternary_writes, reshape_writes, nary_writes, Finset.mem_singleton]
    repeat' apply And.intro
    all_goals exact devRef_ne_of_ne (by decide))

theorem nwB_arg19 : ∀ op ∈ (opsB : List (HloOp τ sig (Elt F))), Proc.devRef (τ := τ) .tc main_arg19 ∉ op.writes :=
  List.forall_iff_forall_mem.mp (by
    simp only [opsB, List.Forall, nullary_writes, unary_writes, binary_writes, ternary_writes, reshape_writes, nary_writes, Finset.mem_singleton]
    repeat' apply And.intro
    all_goals exact devRef_ne_of_ne (by decide))

theorem nwC_arg19 : ∀ op ∈ (opsC : List (HloOp τ sig (Elt F))), Proc.devRef (τ := τ) .tc main_arg19 ∉ op.writes :=
  List.forall_iff_forall_mem.mp (by
    simp only [opsC, List.Forall, nullary_writes, unary_writes, binary_writes, ternary_writes, reshape_writes, nary_writes, Finset.mem_singleton]
    repeat' apply And.intro
    all_goals exact devRef_ne_of_ne (by decide))

theorem nwD_arg19 : ∀ op ∈ (opsD : List (HloOp τ sig (Elt F))), Proc.devRef (τ := τ) .tc main_arg19 ∉ op.writes :=
  List.forall_iff_forall_mem.mp (by
    simp only [opsD, List.Forall, nullary_writes, unary_writes, binary_writes, ternary_writes, reshape_writes, nary_writes, Finset.mem_singleton]
    repeat' apply And.intro
    all_goals exact devRef_ne_of_ne (by decide))

theorem nwE_arg19 : ∀ op ∈ (opsE : List (HloOp τ sig (Elt F))), Proc.devRef (τ := τ) .tc main_arg19 ∉ op.writes :=
  List.forall_iff_forall_mem.mp (by
    simp only [opsE, List.Forall, nullary_writes, unary_writes, binary_writes, ternary_writes, reshape_writes, nary_writes, Finset.mem_singleton]
    repeat' apply And.intro
    all_goals exact devRef_ne_of_ne (by decide))

theorem nwF_arg19 : ∀ op ∈ (opsF : List (HloOp τ sig (Elt F))), Proc.devRef (τ := τ) .tc main_arg19 ∉ op.writes :=
  List.forall_iff_forall_mem.mp (by
    simp only [opsF, List.Forall, nullary_writes, unary_writes, binary_writes, ternary_writes, reshape_writes, nary_writes, Finset.mem_singleton]
    repeat' apply And.intro
    all_goals exact devRef_ne_of_ne (by decide))

end Cert.ReferenceIdeal.Whole

end
-- ==== Proof.Whole.RefKeep2.lean ====
/-
  Which buffers a stretch of the reference leaves alone.

  Every operation writes exactly one buffer, its result.  An argument is the result of no operation, the two index rows
  are results of the first stretch only, and the node result is a result of the fourth stretch only; so each of these
  is written by no operation of the stretches listed for it below, one inequality of references per operation.
-/
import proofs.«169663_j18897856103195_1_alg».proof.Proof.Whole.RefOps
import Idealize.ShloMosaic.Lib.StableHlo.Run

set_option maxRecDepth 16384

noncomputable section

namespace Cert.ReferenceIdeal.Whole

open Cert.ReferenceIdeal Cert.ReferenceIdeal.Gen Idealize.ShloMosaic Idealize.ShloMosaic.TcCoe Idealize.SL.Sem Idealize.ShloMosaic.StableHlo

variable {F : FTy → Type} [FloatOps F]

theorem nwA_arg20 : ∀ op ∈ (opsA : List (HloOp τ sig (Elt F))), Proc.devRef (τ := τ) .tc main_arg20 ∉ op.writes :=
  List.forall_iff_forall_mem.mp (by
    simp only [opsA, List.Forall, nullary_writes, unary_writes, binary_writes, ternary_writes, reshape_writes, nary_writes, Finset.mem_singleton]
    repeat' apply And.intro
    all_goals exact devRef_ne_of_ne (by decide))

theorem nwB_arg20 : ∀ op ∈ (opsB : List (HloOp τ sig (Elt F))), Proc.devRef (τ := τ) .tc main_arg20 ∉ op.writes :=
  List.forall_iff_forall_mem.mp (by
    simp only [opsB, List.Forall, nullary_writes, unary_writes, binary_writes, ternary_writes, reshape_writes, nary_writes, Finset.mem_singleton]
    repeat' apply And.intro
    all_goals exact devRef_ne_of_ne (by decide))

theorem nwC_arg20 : ∀ op ∈ (opsC : List (HloOp τ sig (Elt F))), Proc.devRef (τ := τ) .tc main_arg20 ∉ op.writes :=
  List.forall_iff_forall_mem.mp (by
    simp only [opsC, List.Forall, nullary_writes, unary_writes, binary_writes, ternary_writes, reshape_writes, nary_writes, Finset.mem_singleton]
    repeat' apply And.intro
    all_goals exact devRef_ne_of_ne (by decide))

theorem nwD_arg20 : ∀ op ∈ (opsD : List (HloOp τ sig (Elt F))), Proc.devRef (τ := τ) .tc main_arg20 ∉ op.writes :=
  List.forall_iff_forall_mem.mp (by
    simp only [opsD, List.Forall, nullary_writes, unary_writes, binary_writes, ternary_writes, reshape_writes, nary_writes, Finset.mem_singleton]
    repeat' apply And.intro
    all_goals exact devRef_ne_of_ne (by decide))

theorem nwE_arg20 : ∀ op ∈ (opsE : List (HloOp τ sig (Elt F))), Proc.devRef (τ := τ) .tc main_arg20 ∉ op.writes :=
  List.forall_iff_forall_mem.mp (by
    simp only [opsE, List.Forall, nullary_writes, unary_writes, binary_writes, ternary_writes, reshape_writes, nary_writes, Finset.mem_singleton]
    repeat' apply And.intro
    all_goals exact devRef_ne_of_ne (by decide))

theorem nwF_arg20 : ∀ op ∈ (opsF : List (HloOp τ sig (Elt F))), Proc.devRef (τ := τ) .tc main_arg20 ∉ op.writes :=
  List.forall_iff_forall_mem.mp (by
    simp only [opsF, List.Forall, nullary_writes, unary_writes, binary_writes, ternary_writes, reshape_writes, nary_writes, Finset.mem_singleton]
    repeat' apply And.intro
    all_goals exact devRef_ne_of_ne (by decide))

theorem nwA_arg21 : ∀ op ∈ (opsA : List (HloOp τ sig (Elt F))), Proc.devRef (τ := τ) .tc main_arg21 ∉ op.writes :=
  List.forall_iff_forall_mem.mp (by
    simp only [opsA, List.Forall, nullary_writes, unary_writes, binary_writes, ternary_writes, reshape_writes, nary_writes, Finset.mem_singleton]
    repeat' apply And.intro
    all_goals exact devRef_ne_of_ne (by decide))

theorem nwB_arg21 : ∀ op ∈ (opsB : List (HloOp τ sig (Elt F))), Proc.devRef (τ := τ) .tc main_arg21 ∉ op.writes :=
  List.forall_iff_forall_mem.mp (by
    simp only [opsB, List.Forall, nullary_writes, unary_writes, binary_writes, ternary_writes, reshape_writes, nary_writes, Finset.mem_singleton]
    repeat' apply And.intro
    all_goals exact devRef_ne_of_ne (by decide))

theorem nwC_arg21 : ∀ op ∈ (opsC : List (HloOp τ sig (Elt F))), Proc.devRef (τ := τ) .tc main_arg21 ∉ op.writes :=
  List.forall_iff_forall_mem.mp (by
    simp only [opsC, List.Forall, nullary_writes, unary_writes, binary_writes, ternary_writes, reshape_writes, nary_writes, Finset.mem_singleton]
    repeat' apply And.intro
    all_goals exact devRef_ne_of_ne (by decide))

theorem nwD_arg21 : ∀ op ∈ (opsD : List (HloOp τ sig (Elt F))), Proc.devRef (τ := τ) .tc main_arg21 ∉ op.writes :=
  List.forall_iff_forall_mem.mp (by
    simp only [opsD, List.Forall, nullary_writes, unary_writes, binary_writes, ternary_writes, reshape_writes, nary_writes, Finset.mem_singleton]
    repeat' apply And.intro
    all_goals exact devRef_ne_of_ne (by decide))

theorem nwE_arg21 : ∀ op ∈ (opsE : List (HloOp τ sig (Elt F))), Proc.devRef (τ := τ) .tc main_arg21 ∉ op.writes :=
  List.forall_iff_forall_mem.mp (by
    simp only [opsE, List.Forall, nullary_writes, unary_writes, binary_writes, ternary_writes, reshape_writes, nary_writes, Finset.mem_singleton]
    repeat' apply And.intro
    all_goals exact devRef_ne_of_ne (by decide))

theorem nwF_arg21 : ∀ op ∈ (opsF : List (HloOp τ sig (Elt F))), Proc.devRef (τ := τ) .tc main_arg21 ∉ op.writes :=
  List.forall_iff_forall_mem.mp (by
    simp only [opsF, List.Forall, nullary_writes, unary_writes, binary_writes, ternary_writes, reshape_writes, nary_writes, Finset.mem_singleton]
    repeat' apply And.intro
    all_goals exact devRef_ne_of_ne (by decide))

theorem nwA_arg22 : ∀ op ∈ (opsA : List (HloOp τ sig (Elt F))), Proc.devRef (τ := τ) .tc main_arg22 ∉ op.writes :=
  List.forall_iff_forall_mem.mp (by
    simp only [opsA, List.Forall, nullary_writes, unary_writes, binary_writes, ternary_writes, reshape_writes, nary_writes, Finset.mem_singleton]
    repeat' apply And.intro
    all_goals exact devRef_ne_of_ne (by decide))

theorem nwB_arg22 : ∀ op ∈ (opsB : List (HloOp τ sig (Elt F))), Proc.devRef (τ := τ) .tc main_arg22 ∉ op.writes :=
  List.forall_iff_forall_mem.mp (by
    simp only [opsB, List.Forall, nullary_writes, unary_writes, binary_writes, ternary_writes, reshape_writes, nary_writes, Finset.mem_singleton]
    repeat' apply And.intro
    all_goals exact devRef_ne_of_ne (by decide))

theorem nwC_arg22 : ∀ op ∈ (opsC : List (HloOp τ sig (Elt F))), Proc.devRef (τ := τ) .tc main_arg22 ∉ op.writes :=
  List.forall_iff_forall_mem.mp (by
    simp only [opsC, List.Forall, nullary_writes, unary_writes, binary_writes, ternary_writes, reshape_writes, nary_writes, Finset.mem_singleton]
    repeat' apply And.intro
    all_goals exact devRef_ne_of_ne (by decide))

theorem nwD_arg22 : ∀ op ∈ (opsD : List (HloOp τ sig (Elt F))), Proc.devRef (τ := τ) .tc main_arg22 ∉ op.writes :=
  List.forall_iff_forall_mem.mp (by
    simp only [opsD, List.Forall, nullary_writes, unary_writes, binary_writes, ternary_writes, reshape_writes, nary_writes, Finset.mem_singleton]
    repeat' apply And.intro
    all_goals exact devRef_ne_of_ne (by decide))

theorem nwE_arg22 : ∀ op ∈ (opsE : List (HloOp τ sig (Elt F))), Proc.devRef (τ := τ) .tc main_arg22 ∉ op.writes :=
  List.forall_iff_forall_mem.mp (by
    simp only [opsE, List.Forall, nullary_writes, unary_writes, binary_writes, ternary_writes, reshape_writes, nary_writes, Finset.mem_singleton]
    repeat' apply And.intro
    all_goals exact devRef_ne_of_ne (by decide))

theorem nwF_arg22 : ∀ op ∈ (opsF : List (HloOp τ sig (Elt F))), Proc.devRef (τ := τ) .tc main_arg22 ∉ op.writes :=
  List.forall_iff_forall_mem.mp (by
    simp only [opsF, List.Forall, nullary_writes, unary_writes, binary_writes, ternary_writes, reshape_writes, nary_writes, Finset.mem_singleton]
    repeat' apply And.intro
    all_goals exact devRef_ne_of_ne (by decide))

theorem nwA_arg23 : ∀ op ∈ (opsA : List (HloOp τ sig (Elt F))), Proc.devRef (τ := τ) .tc main_arg23 ∉ op.writes :=
  List.forall_iff_forall_mem.mp (by
    simp only [opsA, List.Forall, nullary_writes, unary_writes, binary_writes, ternary_writes, reshape_writes, nary_writes, Finset.mem_singleton]
    repeat' apply And.intro
    all_goals exact devRef_ne_of_ne (by decide))

theorem nwB_arg23 : ∀ op ∈ (opsB : List (HloOp τ sig (Elt F))), Proc.devRef (τ := τ) .tc main_arg23 ∉ op.writes :=
  List.forall_iff_forall_mem.mp (by
    simp only [opsB, List.Forall, nullary_writes, unary_writes, binary_writes, ternary_writes, reshape_writes, nary_writes, Finset.mem_singleton]
    repeat' apply And.intro
    all_goals exact devRef_ne_of_ne (by decide))

theorem nwC_arg23 : ∀ op ∈ (opsC : List (HloOp τ sig (Elt F))), Proc.devRef (τ := τ) .tc main_arg23 ∉ op.writes :=
  List.forall_iff_forall_mem.mp (by
    simp only [opsC, List.Forall, nullary_writes, unary_writes, binary_writes, ternary_writes, reshape_writes, nary_writes, Finset.mem_singleton]
    repeat' apply And.intro
    all_goals exact devRef_ne_of_ne (by decide))

theorem nwD_arg23 : ∀ op ∈ (opsD : List (HloOp τ sig (Elt F))), Proc.devRef (τ := τ) .tc main_arg23 ∉ op.writes :=
  List.forall_iff_forall_mem.mp (by
    simp only [opsD, List.Forall, nullary_writes, unary_writes, binary_writes, ternary_writes, reshape_writes, nary_writes, Finset.mem_singleton]
    repeat' apply And.intro
    all_goals exact devRef_ne_of_ne (by decide))

theorem nwE_arg23 : ∀ op ∈ (opsE : List (HloOp τ sig (Elt F))), Proc.devRef (τ := τ) .tc main_arg23 ∉ op.writes :=
  List.forall_iff_forall_mem.mp (by
    simp only [opsE, List.Forall, nullary_writes, unary_writes, binary_writes, ternary_writes, reshape_writes, nary_writes, Finset.mem_singleton]
    repeat' apply And.intro
    all_goals exact devRef_ne_of_ne (by decide))

theorem nwF_arg23 : ∀ op ∈ (opsF : List (HloOp τ sig (Elt F))), Proc.devRef (τ := τ) .tc main_arg23 ∉ op.writes :=
  List.forall_iff_forall_mem.mp (by
    simp only [opsF, List.Forall, nullary_writes, unary_writes, binary_writes, ternary_writes, reshape_writes, nary_writes, Finset.mem_singleton]
    repeat' apply And.intro
    all_goals exact devRef_ne_of_ne (by decide))

theorem nwA_arg24 : ∀ op ∈ (opsA : List (HloOp τ sig (Elt F))), Proc.devRef (τ := τ) .tc main_arg24 ∉ op.writes :=
  List.forall_iff_forall_mem.mp (by
    simp only [opsA, List.Forall, nullary_writes, unary_writes, binary_writes, ternary_writes, reshape_writes, nary_writes, Finset.mem_singleton]
    repeat' apply And.intro
    all_goals exact devRef_ne_of_ne (by decide))

theorem nwB_arg24 : ∀ op ∈ (opsB : List (HloOp τ sig (Elt F))), Proc.devRef (τ := τ) .tc main_arg24 ∉ op.writes :=
  List.forall_iff_forall_mem.mp (by
    simp only [opsB, List.Forall, nullary_writes, unary_writes, binary_writes, ternary_writes, reshape_writes, nary_writes, Finset.mem_singleton]
    repeat' apply And.intro
    all_goals exact devRef_ne_of_ne (by decide))

theorem nwC_arg24 : ∀ op ∈ (opsC : List (HloOp τ sig (Elt F))), Proc.devRef (τ := τ) .tc main_arg24 ∉ op.writes :=
  List.forall_iff_forall_mem.mp (by
    simp only [opsC, List.Forall, nullary_writes, unary_writes, binary_writes, ternary_writes, reshape_writes, nary_writes, Finset.mem_singleton]
    repeat' apply And.intro
    all_goals exact devRef_ne_of_ne (by decide))

theorem nwD_arg24 : ∀ op ∈ (opsD : List (HloOp τ sig (Elt F))), Proc.devRef (τ := τ) .tc main_arg24 ∉ op.writes :=
  List.forall_iff_forall_mem.mp (by
    simp only [opsD, List.Forall, nullary_writes, unary_writes, binary_writes, ternary_writes, reshape_writes, nary_writes, Finset.mem_singleton]
    repeat' apply And.intro
    all_goals exact devRef_ne_of_ne (by decide))

theorem nwE_arg24 : ∀ op ∈ (opsE : List (HloOp τ sig (Elt F))), Proc.devRef (τ := τ) .tc main_arg24 ∉ op.writes :=
  List.forall_iff_forall_mem.mp (by
    simp only [opsE, List.Forall, nullary_writes, unary_writes, binary_writes, ternary_writes, reshape_writes, nary_writes, Finset.mem_singleton]
    repeat' apply And.intro
    all_goals exact devRef_ne_of_ne (by decide))

theorem nwF_arg24 : ∀ op ∈ (opsF : List (HloOp τ sig (Elt F))), Proc.devRef (τ := τ) .tc main_arg24 ∉ op.writes :=
  List.forall_iff_forall_mem.mp (by
    simp only [opsF, List.Forall, nullary_writes, unary_writes, binary_writes, ternary_writes, reshape_writes, nary_writes, Finset.mem_singleton]
    repeat' apply And.intro
    all_goals exact devRef_ne_of_ne (by decide))

theorem nwA_arg25 : ∀ op ∈ (opsA : List (HloOp τ sig (Elt F))), Proc.devRef (τ := τ) .tc main_arg25 ∉ op.writes :=
  List.forall_iff_forall_mem.mp (by
    simp only [opsA, List.Forall, nullary_writes, unary_writes, binary_writes, ternary_writes, reshape_writes, nary_writes, Finset.mem_singleton]
    repeat' apply And.intro
    all_goals exact devRef_ne_of_ne (by decide))

theorem nwB_arg25 : ∀ op ∈ (opsB : List (HloOp τ sig (Elt F))), Proc.devRef (τ := τ) .tc main_arg25 ∉ op.writes :=
  List.forall_iff_forall_mem.mp (by
    simp only [opsB, List.Forall, nullary_writes, unary_writes, binary_writes, ternary_writes, reshape_writes, nary_writes, Finset.mem_singleton]
    repeat' apply And.intro
    all_goals exact devRef_ne_of_ne (by decide))

theorem nwC_arg25 : ∀ op ∈ (opsC : List (HloOp τ sig (Elt F))), Proc.devRef (τ := τ) .tc main_arg25 ∉ op.writes :=
  List.forall_iff_forall_mem.mp (by
    simp only [opsC, List.Forall, nullary_writes, unary_writes, binary_writes, ternary_writes, reshape_writes, nary_writes, Finset.mem_singleton]
    repeat' apply And.intro
    all_goals exact devRef_ne_of_ne (by decide))

theorem nwD_arg25 : ∀ op ∈ (opsD : List (HloOp τ sig (Elt F))), Proc.devRef (τ := τ) .tc main_arg25 ∉ op.writes :=
  List.forall_iff_forall_mem.mp (by
    simp only [opsD, List.Forall, nullary_writes, unary_writes, binary_writes, ternary_writes, reshape_writes, nary_writes, Finset.mem_singleton]
    repeat' apply And.intro
    all_goals exact devRef_ne_of_ne (by decide))

theorem nwE_arg25 : ∀ op ∈ (opsE : List (HloOp τ sig (Elt F))), Proc.devRef (τ := τ) .tc main_arg25 ∉ op.writes :=
  List.forall_iff_forall_mem.mp (by
    simp only [opsE, List.Forall, nullary_writes, unary_writes, binary_writes, ternary_writes, reshape_writes, nary_writes, Finset.mem_singleton]
    repeat' apply And.intro
    all_goals exact devRef_ne_of_ne (by decide))

theorem nwF_arg25 : ∀ op ∈ (opsF : List (HloOp τ sig (Elt F))), Proc.devRef (τ := τ) .tc main_arg25 ∉ op.writes :=
  List.forall_iff_forall_mem.mp (by
    simp only [opsF, List.Forall, nullary_writes, unary_writes, binary_writes, ternary_writes, reshape_writes, nary_writes, Finset.mem_singleton]
    repeat' apply And.intro
    all_goals exact devRef_ne_of_ne (by decide))

theorem nwA_arg26 : ∀ op ∈ (opsA : List (HloOp τ sig (Elt F))), Proc.devRef (τ := τ) .tc main_arg26 ∉ op.writes :=
  List.forall_iff_forall_mem.mp (by
    simp only [opsA, List.Forall, nullary_writes, unary_writes, binary_writes, ternary_writes, reshape_writes, nary_writes, Finset.mem_singleton]
    repeat' apply And.intro
    all_goals exact devRef_ne_of_ne (by decide))

theorem nwB_arg26 : ∀ op ∈ (opsB : List (HloOp τ sig (Elt F))), Proc.devRef (τ := τ) .tc main_arg26 ∉ op.writes :=
  List.forall_iff_forall_mem.mp (by
    simp only [opsB, List.Forall, nullary_writes, unary_writes, binary_writes, ternary_writes, reshape_writes, nary_writes, Finset.mem_singleton]
    repeat' apply And.intro
    all_goals exact devRef_ne_of_ne (by decide))

theorem nwC_arg26 : ∀ op ∈ (opsC : List (HloOp τ sig (Elt F))), Proc.devRef (τ := τ) .tc main_arg26 ∉ op.writes :=
  List.forall_iff_forall_mem.mp (by
    simp only [opsC, List.Forall, nullary_writes, unary_writes, binary_writes, ternary_writes, reshape_writes, nary_writes, Finset.mem_singleton]
    repeat' apply And.intro
    all_goals exact devRef_ne_of_ne (by decide))

theorem nwD_arg26 : ∀ op ∈ (opsD : List (HloOp τ sig (Elt F))), Proc.devRef (τ := τ) .tc main_arg26 ∉ op.writes :=
  List.forall_iff_forall_mem.mp (by
    simp only [opsD, List.Forall, nullary_writes, unary_writes, binary_writes, ternary_writes, reshape_writes, nary_writes, Finset.mem_singleton]
    repeat' apply And.intro
    all_goals exact devRef_ne_of_ne (by decide))

theorem nwE_arg26 : ∀ op ∈ (opsE : List (HloOp τ sig (Elt F))), Proc.devRef (τ := τ) .tc main_arg26 ∉ op.writes :=
  List.forall_iff_forall_mem.mp (by
    simp only [opsE, List.Forall, nullary_writes, unary_writes, binary_writes, ternary_writes, reshape_writes, nary_writes, Finset.mem_singleton]
    repeat' apply And.intro
    all_goals exact devRef_ne_of_ne (by decide))

theorem nwF_arg26 : ∀ op ∈ (opsF : List (HloOp τ sig (Elt F))), Proc.devRef (τ := τ) .tc main_arg26 ∉ op.writes :=
  List.forall_iff_forall_mem.mp (by
    simp only [opsF, List.Forall, nullary_writes, unary_writes, binary_writes, ternary_writes, reshape_writes, nary_writes, Finset.mem_singleton]
    repeat' apply And.intro
    all_goals exact devRef_ne_of_ne (by decide))

theorem nwA_arg27 : ∀ op ∈ (opsA : List (HloOp τ sig (Elt F))), Proc.devRef (τ := τ) .tc main_arg27 ∉ op.writes :=
  List.forall_iff_forall_mem.mp (by
    simp only [opsA, List.Forall, nullary_writes, unary_writes, binary_writes, ternary_writes, reshape_writes, nary_writes, Finset.mem_singleton]
    repeat' apply And.intro
    all_goals exact devRef_ne_of_ne (by decide))

theorem nwB_arg27 : ∀ op ∈ (opsB : List (HloOp τ sig (Elt F))), Proc.devRef (τ := τ) .tc main_arg27 ∉ op.writes :=
  List.forall_iff_forall_mem.mp (by
    simp only [opsB, List.Forall, nullary_writes, unary_writes, binary_writes, ternary_writes, reshape_writes, nary_writes, Finset.mem_singleton]
    repeat' apply And.intro
    all_goals exact devRef_ne_of_ne (by decide))

theorem nwC_arg27 : ∀ op ∈ (opsC : List (HloOp τ sig (Elt F))), Proc.devRef (τ := τ) .tc main_arg27 ∉ op.writes :=
  List.forall_iff_forall_mem.mp (by
    simp only [opsC, List.Forall, nullary_writes, unary_writes, binary_writes, ternary_writes, reshape_writes, nary_writes, Finset.mem_singleton]
    repeat' apply And.intro
    all_goals exact devRef_ne_of_ne (by decide))

theorem nwD_arg27 : ∀ op ∈ (opsD : List (HloOp τ sig (Elt F))), Proc.devRef (τ := τ) .tc main_arg27 ∉ op.writes :=
  List.forall_iff_forall_mem.mp (by
    simp only [opsD, List.Forall, nullary_writes, unary_writes, binary_writes, ternary_writes, reshape_writes, nary_writes, Finset.mem_singleton]
    repeat' apply And.intro
    all_goals exact devRef_ne_of_ne (by decide))

theorem nwE_arg27 : ∀ op ∈ (opsE : List (HloOp τ sig (Elt F))), Proc.devRef (τ := τ) .tc main_arg27 ∉ op.writes :=
  List.forall_iff_forall_mem.mp (by
    simp only [opsE, List.Forall, nullary_writes, unary_writes, binary_writes, ternary_writes, reshape_writes, nary_writes, Finset.mem_singleton]
    repeat' apply And.intro
    all_goals exact devRef_ne_of_ne (by decide))

theorem nwF_arg27 : ∀ op ∈ (opsF : List (HloOp τ sig (Elt F))), Proc.devRef (τ := τ) .tc main_arg27 ∉ op.writes :=
  List.forall_iff_forall_mem.mp (by
    simp only [opsF, List.Forall, nullary_writes, unary_writes, binary_writes, ternary_writes, reshape_writes, nary_writes, Finset.mem_singleton]
    repeat' apply And.intro
    all_goals exact devRef_ne_of_ne (by decide))

theorem nwA_arg28 : ∀ op ∈ (opsA : List (HloOp τ sig (Elt F))), Proc.devRef (τ := τ) .tc main_arg28 ∉ op.writes :=
  List.forall_iff_forall_mem.mp (by
    simp only [opsA, List.Forall, nullary_writes, unary_writes, binary_writes, ternary_writes, reshape_writes, nary_writes, Finset.mem_singleton]
    repeat' apply And.intro
    all_goals exact devRef_ne_of_ne (by decide))

theorem nwB_arg28 : ∀ op ∈ (opsB : List (HloOp τ sig (Elt F))), Proc.devRef (τ := τ) .tc main_arg28 ∉ op.writes :=
  List.forall_iff_forall_mem.mp (by
    simp only [opsB, List.Forall, nullary_writes, unary_writes, binary_writes, ternary_writes, reshape_writes, nary_writes, Finset.mem_singleton]
    repeat' apply And.intro
    all_goals exact devRef_ne_of_ne (by decide))

theorem nwC_arg28 : ∀ op ∈ (opsC : List (HloOp τ sig (Elt F))), Proc.devRef (τ := τ) .tc main_arg28 ∉ op.writes :=
  List.forall_iff_forall_mem.mp (by
    simp only [opsC, List.Forall, nullary_writes, unary_writes, binary_writes, ternary_writes, reshape_writes, nary_writes, Finset.mem_singleton]
    repeat' apply And.intro
    all_goals exact devRef_ne_of_ne (by decide))

theorem nwD_arg28 : ∀ op ∈ (opsD : List (HloOp τ sig (Elt F))), Proc.devRef (τ := τ) .tc main_arg28 ∉ op.writes :=
  List.forall_iff_forall_mem.mp (by
    simp only [opsD, List.Forall, nullary_writes, unary_writes, binary_writes, ternary_writes, reshape_writes, nary_writes, Finset.mem_singleton]
    repeat' apply And.intro
    all_goals exact devRef_ne_of_ne (by decide))

theorem nwE_arg28 : ∀ op ∈ (opsE : List (HloOp τ sig (Elt F))), Proc.devRef (τ := τ) .tc main_arg28 ∉ op.writes :=
  List.forall_iff_forall_mem.mp (by
    simp only [opsE, List.Forall, nullary_writes, unary_writes, binary_writes, ternary_writes, reshape_writes, nary_writes, Finset.mem_singleton]
    repeat' apply And.intro
    all_goals exact devRef_ne_of_ne (by decide))

theorem nwF_arg28 : ∀ op ∈ (opsF : List (HloOp τ sig (Elt F))), Proc.devRef (τ := τ) .tc main_arg28 ∉ op.writes :=
  List.forall_iff_forall_mem.mp (by
    simp only [opsF, List.Forall, nullary_writes, unary_writes, binary_writes, ternary_writes, reshape_writes, nary_writes, Finset.mem_singleton]
    repeat' apply And.intro
    all_goals exact devRef_ne_of_ne (by decide))

theorem nwA_arg29 : ∀ op ∈ (opsA : List (HloOp τ sig (Elt F))), Proc.devRef (τ := τ) .tc main_arg29 ∉ op.writes :=
  List.forall_iff_forall_mem.mp (by
    simp only [opsA, List.Forall, nullary_writes, unary_writes, binary_writes, ternary_writes, reshape_writes, nary_writes, Finset.mem_singleton]
    repeat' apply And.intro
    all_goals exact devRef_ne_of_ne (by decide))

theorem nwB_arg29 : ∀ op ∈ (opsB : List (HloOp τ sig (Elt F))), Proc.devRef (τ := τ) .tc main_arg29 ∉ op.writes :=
  List.forall_iff_forall_mem.mp (by
    simp only [opsB, List.Forall, nullary_writes, unary_writes, binary_writes, ternary_writes, reshape_writes, nary_writes, Finset.mem_singleton]
    repeat' apply And.intro
    all_goals exact devRef_ne_of_ne (by decide))

theorem nwC_arg29 : ∀ op ∈ (opsC : List (HloOp τ sig (Elt F))), Proc.devRef (τ := τ) .tc main_arg29 ∉ op.writes :=
  List.forall_iff_forall_mem.mp (by
    simp only [opsC, List.Forall, nullary_writes, unary_writes, binary_writes, ternary_writes, reshape_writes, nary_writes, Finset.mem_singleton]
    repeat' apply And.intro
    all_goals exact devRef_ne_of_ne (by decide))

theorem nwD_arg29 : ∀ op ∈ (opsD : List (HloOp τ sig (Elt F))), Proc.devRef (τ := τ) .tc main_arg29 ∉ op.writes :=
  List.forall_iff_forall_mem.mp (by
    simp only [opsD, List.Forall, nullary_writes, unary_writes, binary_writes, ternary_writes, reshape_writes, nary_writes, Finset.mem_singleton]
    repeat' apply And.intro
    all_goals exact devRef_ne_of_ne (by decide))

theorem nwE_arg29 : ∀ op ∈ (opsE : List (HloOp τ sig (Elt F))), Proc.devRef (τ := τ) .tc main_arg29 ∉ op.writes :=
  List.forall_iff_forall_mem.mp (by
    simp only [opsE, List.Forall, nullary_writes, unary_writes, binary_writes, ternary_writes, reshape_writes, nary_writes, Finset.mem_singleton]
    repeat' apply And.intro
    all_goals exact devRef_ne_of_ne (by decide))

theorem nwF_arg29 : ∀ op ∈ (opsF : List (HloOp τ sig (Elt F))), Proc.devRef (τ := τ) .tc main_arg29 ∉ op.writes :=
  List.forall_iff_forall_mem.mp (by
    simp only [opsF, List.Forall, nullary_writes, unary_writes, binary_writes, ternary_writes, reshape_writes, nary_writes, Finset.mem_singleton]
    repeat' apply And.intro
    all_goals exact devRef_ne_of_ne (by decide))

theorem nwB_v1 : ∀ op ∈ (opsB : List (HloOp τ sig (Elt F))), Proc.devRef (τ := τ) .tc main_v1 ∉ op.writes :=
  List.forall_iff_forall_mem.mp (by
    simp only [opsB, List.Forall, nullary_writes, unary_writes, binary_writes, ternary_writes, reshape_writes, nary_writes, Finset.mem_singleton]
    repeat' apply And.intro
    all_goals exact devRef_ne_of_ne (by decide))

theorem nwC_v1 : ∀ op ∈ (opsC : List (HloOp τ sig (Elt F))), Proc.devRef (τ := τ) .tc main_v1 ∉ op.writes :=
  List.forall_iff_forall_mem.mp (by
    simp only [opsC, List.Forall, nullary_writes, unary_writes, binary_writes, ternary_writes, reshape_writes, nary_writes, Finset.mem_singleton]
    repeat' apply And.intro
    all_goals exact devRef_ne_of_ne (by decide))

theorem nwD_v1 : ∀ op ∈ (opsD : List (HloOp τ sig (Elt F))), Proc.devRef (τ := τ) .tc main_v1 ∉ op.writes :=
  List.forall_iff_forall_mem.mp (by
    simp only [opsD, List.Forall, nullary_writes, unary_writes, binary_writes, ternary_writes, reshape_writes, nary_writes, Finset.mem_singleton]
    repeat' apply And.intro
    all_goals exact devRef_ne_of_ne (by decide))

theorem nwB_v3 : ∀ op ∈ (opsB : List (HloOp τ sig (Elt F))), Proc.devRef (τ := τ) .tc main_v3 ∉ op.writes :=
  List.forall_iff_forall_mem.mp (by
    simp only [opsB, List.Forall, nullary_writes, unary_writes, binary_writes, ternary_writes, reshape_writes, nary_writes, Finset.mem_singleton]
    repeat' apply And.intro
    all_goals exact devRef_ne_of_ne (by decide))

theorem nwC_v3 : ∀ op ∈ (opsC : List (HloOp τ sig (Elt F))), Proc.devRef (τ := τ) .tc main_v3 ∉ op.writes :=
  List.forall_iff_forall_mem.mp (by
    simp only [opsC, List.Forall, nullary_writes, unary_writes, binary_writes, ternary_writes, reshape_writes, nary_writes, Finset.mem_singleton]
    repeat' apply And.intro
    all_goals exact devRef_ne_of_ne (by decide))

theorem nwD_v3 : ∀ op ∈ (opsD : List (HloOp τ sig (Elt F))), Proc.devRef (τ := τ) .tc main_v3 ∉ op.writes :=
  List.forall_iff_forall_mem.mp (by
    simp only [opsD, List.Forall, nullary_writes, unary_writes, binary_writes, ternary_writes, reshape_writes, nary_writes, Finset.mem_singleton]
    repeat' apply And.intro
    all_goals exact devRef_ne_of_ne (by decide))

theorem nwE_v148 : ∀ op ∈ (opsE : List (HloOp τ sig (Elt F))), Proc.devRef (τ := τ) .tc main_v148 ∉ op.writes :=
  List.forall_iff_forall_mem.mp (by
    simp only [opsE, List.Forall, nullary_writes, unary_writes, binary_writes, ternary_writes, reshape_writes, nary_writes, Finset.mem_singleton]
    repeat' apply And.intro
    all_goals exact devRef_ne_of_ne (by decide))

theorem nwF_v148 : ∀ op ∈ (opsF : List (HloOp τ sig (Elt F))), Proc.devRef (τ := τ) .tc main_v148 ∉ op.writes :=
  List.forall_iff_forall_mem.mp (by
    simp only [opsF, List.Forall, nullary_writes, unary_writes, binary_writes, ternary_writes, reshape_writes, nary_writes, Finset.mem_singleton]
    repeat' apply And.intro
    all_goals exact devRef_ne_of_ne (by decide))

end Cert.ReferenceIdeal.Whole

end
-- ==== Proof.Whole.RefStages.lean ====
/-
  The reference's six stretches, one at a time.

  For each stretch: given what the buffers it reads hold on entry — an argument, or a stage of the reference already
  identified — the buffer it is read for holds the reference's stage of the same name on exit.  A stage is by definition
  its operation applied to the stages of its operands, so each statement unfolds to the stretch's own operations.
-/
import proofs.«169663_j18897856103195_1_alg».proof.Proof.Whole.RefOps
import proofs.«169663_j18897856103195_1_alg».proof.Proof.ReferenceRead
import Idealize.ShloMosaic.Lib.StableHlo.Run

set_option maxRecDepth 16384

noncomputable section

namespace Cert.ReferenceIdeal.Whole

open Cert.ReferenceIdeal Cert.ReferenceIdeal.Gen Idealize.ShloMosaic Idealize.ShloMosaic.TcCoe Idealize.SL.Sem Idealize.ShloMosaic.StableHlo

/-- The gathered source rows. -/
theorem stageA_v49 (V : Valuation τ sig (Elt Ideal)) (x0 : (⟨S10000x256, .f32⟩ : BufTy).Contents (Elt Ideal)) (x2 : (⟨S2x300000, .i32⟩ : BufTy).Contents (Elt Ideal))
    (ha0 : V (Proc.devRef .tc main_arg0) = x0)
    (ha2 : V (Proc.devRef .tc main_arg2) = x2) :
    after opsA V (Proc.devRef .tc main_v49) = Cert.ReferenceIdeal.Read.val_main_v49 (F := Ideal) x0 x2 := by
  after_results_simp
  rw [ha0, ha2]
  rfl
/-- The gathered destination rows. -/
theorem stageA_v56 (V : Valuation τ sig (Elt Ideal)) (x0 : (⟨S10000x256, .f32⟩ : BufTy).Contents (Elt Ideal)) (x2 : (⟨S2x300000, .i32⟩ : BufTy).Contents (Elt Ideal))
    (ha0 : V (Proc.devRef .tc main_arg0) = x0)
    (ha2 : V (Proc.devRef .tc main_arg2) = x2) :
    after opsA V (Proc.devRef .tc main_v56) = Cert.ReferenceIdeal.Read.val_main_v56 (F := Ideal) x0 x2 := by
  after_results_simp
  rw [ha0, ha2]
  rfl
/-- The invariant points, 24 to a row. -/
theorem stageA_v57 (V : Valuation τ sig (Elt Ideal)) (x0 : (⟨S10000x256, .f32⟩ : BufTy).Contents (Elt Ideal)) (x2 : (⟨S2x300000, .i32⟩ : BufTy).Contents (Elt Ideal)) (x3 : (⟨S10000x3x3, .f32⟩ : BufTy).Contents (Elt Ideal)) (x4 : (⟨S10000x3, .f32⟩ : BufTy).Contents (Elt Ideal)) (x6 : (⟨S256x24, .f32⟩ : BufTy).Contents (Elt Ideal)) (x7 : (⟨S24, .f32⟩ : BufTy).Contents (Elt Ideal))
    (ha0 : V (Proc.devRef .tc main_arg0) = x0)
    (ha2 : V (Proc.devRef .tc main_arg2) = x2)
    (ha3 : V (Proc.devRef .tc main_arg3) = x3)
    (ha4 : V (Proc.devRef .tc main_arg4) = x4)
    (ha6 : V (Proc.devRef .tc main_arg6) = x6)
    (ha7 : V (Proc.devRef .tc main_arg7) = x7) :
    after opsA V (Proc.devRef .tc main_v57) = Cert.ReferenceIdeal.Read.val_main_v57 (F := Ideal) x0 x2 x3 x4 x6 x7 := by
  after_results_simp
  rw [ha0, ha2, ha3, ha4, ha6, ha7]
  rfl
/-- The eight distances. -/
theorem stageA_v42 (V : Valuation τ sig (Elt Ideal)) (x0 : (⟨S10000x256, .f32⟩ : BufTy).Contents (Elt Ideal)) (x2 : (⟨S2x300000, .i32⟩ : BufTy).Contents (Elt Ideal)) (x3 : (⟨S10000x3x3, .f32⟩ : BufTy).Contents (Elt Ideal)) (x4 : (⟨S10000x3, .f32⟩ : BufTy).Contents (Elt Ideal)) (x6 : (⟨S256x24, .f32⟩ : BufTy).Contents (Elt Ideal)) (x7 : (⟨S24, .f32⟩ : BufTy).Contents (Elt Ideal))
    (ha0 : V (Proc.devRef .tc main_arg0) = x0)
    (ha2 : V (Proc.devRef .tc main_arg2) = x2)
    (ha3 : V (Proc.devRef .tc main_arg3) = x3)
    (ha4 : V (Proc.devRef .tc main_arg4) = x4)
    (ha6 : V (Proc.devRef .tc main_arg6) = x6)
    (ha7 : V (Proc.devRef .tc main_arg7) = x7) :
    after opsA V (Proc.devRef .tc main_v42) = Cert.ReferenceIdeal.Read.val_main_v42 (F := Ideal) x0 x2 x3 x4 x6 x7 := by
  after_results_simp
  rw [ha0, ha2, ha3, ha4, ha6, ha7]
  rfl
/-- The source row of the edge list. -/
theorem stageA_v1 (V : Valuation τ sig (Elt Ideal)) (x2 : (⟨S2x300000, .i32⟩ : BufTy).Contents (Elt Ideal))
    (ha2 : V (Proc.devRef .tc main_arg2) = x2) :
    after opsA V (Proc.devRef .tc main_v1) = Cert.ReferenceIdeal.Read.val_main_v1 (F := Ideal) x2 := by
  after_results_simp
  rw [ha2]
  rfl
/-- The destination row of the edge list. -/
theorem stageA_v3 (V : Valuation τ sig (Elt Ideal)) (x2 : (⟨S2x300000, .i32⟩ : BufTy).Contents (Elt Ideal))
    (ha2 : V (Proc.devRef .tc main_arg2) = x2) :
    after opsA V (Proc.devRef .tc main_v3) = Cert.ReferenceIdeal.Read.val_main_v3 (F := Ideal) x2 := by
  after_results_simp
  rw [ha2]
  rfl
/-- The messages. -/
theorem stageB_v67 (V : Valuation τ sig (Elt Ideal)) (x0 : (⟨S10000x256, .f32⟩ : BufTy).Contents (Elt Ideal)) (x1 : (⟨S300000x128, .f32⟩ : BufTy).Contents (Elt Ideal)) (x2 : (⟨S2x300000, .i32⟩ : BufTy).Contents (Elt Ideal)) (x3 : (⟨S10000x3x3, .f32⟩ : BufTy).Contents (Elt Ideal)) (x4 : (⟨S10000x3, .f32⟩ : BufTy).Contents (Elt Ideal)) (x6 : (⟨S256x24, .f32⟩ : BufTy).Contents (Elt Ideal)) (x7 : (⟨S24, .f32⟩ : BufTy).Contents (Elt Ideal)) (x8 : (⟨S672x256, .f32⟩ : BufTy).Contents (Elt Ideal)) (x9 : (⟨S256, .f32⟩ : BufTy).Contents (Elt Ideal)) (x10 : (⟨S256x256, .f32⟩ : BufTy).Contents (Elt Ideal)) (x11 : (⟨S256, .f32⟩ : BufTy).Contents (Elt Ideal))
    (h49 : V (Proc.devRef .tc main_v49) = Cert.ReferenceIdeal.Read.val_main_v49 (F := Ideal) x0 x2)
    (h56 : V (Proc.devRef .tc main_v56) = Cert.ReferenceIdeal.Read.val_main_v56 (F := Ideal) x0 x2)
    (ha1 : V (Proc.devRef .tc main_arg1) = x1)
    (h57 : V (Proc.devRef .tc main_v57) = Cert.ReferenceIdeal.Read.val_main_v57 (F := Ideal) x0 x2 x3 x4 x6 x7)
    (h42 : V (Proc.devRef .tc main_v42) = Cert.ReferenceIdeal.Read.val_main_v42 (F := Ideal) x0 x2 x3 x4 x6 x7)
    (ha8 : V (Proc.devRef .tc main_arg8) = x8)
    (ha9 : V (Proc.devRef .tc main_arg9) = x9)
    (ha10 : V (Proc.devRef .tc main_arg10) = x10)
    (ha11 : V (Proc.devRef .tc main_arg11) = x11) :
    after opsB V (Proc.devRef .tc main_v67) = Cert.ReferenceIdeal.Read.val_main_v67 (F := Ideal) x0 x1 x2 x3 x4 x6 x7 x8 x9 x10 x11 := by
  after_results_simp
  have e0 : V (Proc.devRef .tc (![main_v49, main_v56, main_arg1, main_v57, main_v42] 0)) = _ := h49
  have e1 : V (Proc.devRef .tc (![main_v49, main_v56, main_arg1, main_v57, main_v42] 1)) = _ := h56
  have e2 : V (Proc.devRef .tc (![main_v49, main_v56, main_arg1, main_v57, main_v42] 2)) = _ := ha1
  have e3 : V (Proc.devRef .tc (![main_v49, main_v56, main_arg1, main_v57, main_v42] 3)) = _ := h57
  have e4 : V (Proc.devRef .tc (![main_v49, main_v56, main_arg1, main_v57, main_v42] 4)) = _ := h42
  rw [e0, e1, e2, e3, e4, ha8, ha9, ha10, ha11]
  rfl
/-- The mean message per node. -/
theorem stageC_v78 (V : Valuation τ sig (Elt Ideal)) (x0 : (⟨S10000x256, .f32⟩ : BufTy).Contents (Elt Ideal)) (x1 : (⟨S300000x128, .f32⟩ : BufTy).Contents (Elt Ideal)) (x2 : (⟨S2x300000, .i32⟩ : BufTy).Contents (Elt Ideal)) (x3 : (⟨S10000x3x3, .f32⟩ : BufTy).Contents (Elt Ideal)) (x4 : (⟨S10000x3, .f32⟩ : BufTy).Contents (Elt Ideal)) (x6 : (⟨S256x24, .f32⟩ : BufTy).Contents (Elt Ideal)) (x7 : (⟨S24, .f32⟩ : BufTy).Contents (Elt Ideal)) (x8 : (⟨S672x256, .f32⟩ : BufTy).Contents (Elt Ideal)) (x9 : (⟨S256, .f32⟩ : BufTy).Contents (Elt Ideal)) (x10 : (⟨S256x256, .f32⟩ : BufTy).Contents (Elt Ideal)) (x11 : (⟨S256, .f32⟩ : BufTy).Contents (Elt Ideal))
    (h67 : V (Proc.devRef .tc main_v67) = Cert.ReferenceIdeal.Read.val_main_v67 (F := Ideal) x0 x1 x2 x3 x4 x6 x7 x8 x9 x10 x11)
    (h3 : V (Proc.devRef .tc main_v3) = Cert.ReferenceIdeal.Read.val_main_v3 (F := Ideal) x2) :
    after opsC V (Proc.devRef .tc main_v78) = Cert.ReferenceIdeal.Read.val_main_v78 (F := Ideal) x0 x1 x2 x3 x4 x6 x7 x8 x9 x10 x11 := by
  after_results_simp
  rw [h67, h3]
  rfl
set_option maxHeartbeats 8000000 in
/-- The node result. -/
theorem stageD_v148 (V : Valuation τ sig (Elt Ideal)) (x0 : (⟨S10000x256, .f32⟩ : BufTy).Contents (Elt Ideal)) (x1 : (⟨S300000x128, .f32⟩ : BufTy).Contents (Elt Ideal)) (x2 : (⟨S2x300000, .i32⟩ : BufTy).Contents (Elt Ideal)) (x3 : (⟨S10000x3x3, .f32⟩ : BufTy).Contents (Elt Ideal)) (x4 : (⟨S10000x3, .f32⟩ : BufTy).Contents (Elt Ideal)) (x5 : (⟨S10000, .f32⟩ : BufTy).Contents (Elt Ideal)) (x6 : (⟨S256x24, .f32⟩ : BufTy).Contents (Elt Ideal)) (x7 : (⟨S24, .f32⟩ : BufTy).Contents (Elt Ideal)) (x8 : (⟨S672x256, .f32⟩ : BufTy).Contents (Elt Ideal)) (x9 : (⟨S256, .f32⟩ : BufTy).Contents (Elt Ideal)) (x10 : (⟨S256x256, .f32⟩ : BufTy).Contents (Elt Ideal)) (x11 : (⟨S256, .f32⟩ : BufTy).Contents (Elt Ideal)) (x12 : (⟨S256, .f32⟩ : BufTy).Contents (Elt Ideal)) (x13 : (⟨S256, .f32⟩ : BufTy).Contents (Elt Ideal)) (x14 : (⟨S256x256, .f32⟩ : BufTy).Contents (Elt Ideal)) (x15 : (⟨S256, .f32⟩ : BufTy).Contents (Elt Ideal)) (x16 : (⟨S256x256, .f32⟩ : BufTy).Contents (Elt Ideal)) (x17 : (⟨S256, .f32⟩ : BufTy).Contents (Elt Ideal)) (x18 : (⟨S256x256, .f32⟩ : BufTy).Contents (Elt Ideal)) (x19 : (⟨S256, .f32⟩ : BufTy).Contents (Elt Ideal)) (x20 : (⟨S256, .f32⟩ : BufTy).Contents (Elt Ideal)) (x21 : (⟨S256, .f32⟩ : BufTy).Contents (Elt Ideal))
    (h78 : V (Proc.devRef .tc main_v78) = Cert.ReferenceIdeal.Read.val_main_v78 (F := Ideal) x0 x1 x2 x3 x4 x6 x7 x8 x9 x10 x11)
    (ha0 : V (Proc.devRef .tc main_arg0) = x0)
    (ha5 : V (Proc.devRef .tc main_arg5) = x5)
    (ha12 : V (Proc.devRef .tc main_arg12) = x12)
    (ha13 : V (Proc.devRef .tc main_arg13) = x13)
    (ha14 : V (Proc.devRef .tc main_arg14) = x14)
    (ha15 : V (Proc.devRef .tc main_arg15) = x15)
    (ha16 : V (Proc.devRef .tc main_arg16) = x16)
    (ha17 : V (Proc.devRef .tc main_arg17) = x17)
    (ha18 : V (Proc.devRef .tc main_arg18) = x18)
    (ha19 : V (Proc.devRef .tc main_arg19) = x19)
    (ha20 : V (Proc.devRef .tc main_arg20) = x20)
    (ha21 : V (Proc.devRef .tc main_arg21) = x21) :
    after opsD V (Proc.devRef .tc main_v148) = Cert.ReferenceIdeal.Read.val_main_v148 (F := Ideal) x0 x1 x2 x3 x4 x5 x6 x7 x8 x9 x10 x11 x12 x13 x14 x15 x16 x17 x18 x19 x20 x21 := by
  after_results_simp
  rw [h78, ha0, ha5, ha12, ha13, ha14, ha15, ha16, ha17, ha18, ha19, ha20, ha21]
  rfl
set_option maxHeartbeats 8000000 in
/-- The projected node rows. -/
theorem stageD_v152 (V : Valuation τ sig (Elt Ideal)) (x0 : (⟨S10000x256, .f32⟩ : BufTy).Contents (Elt Ideal)) (x1 : (⟨S300000x128, .f32⟩ : BufTy).Contents (Elt Ideal)) (x2 : (⟨S2x300000, .i32⟩ : BufTy).Contents (Elt Ideal)) (x3 : (⟨S10000x3x3, .f32⟩ : BufTy).Contents (Elt Ideal)) (x4 : (⟨S10000x3, .f32⟩ : BufTy).Contents (Elt Ideal)) (x5 : (⟨S10000, .f32⟩ : BufTy).Contents (Elt Ideal)) (x6 : (⟨S256x24, .f32⟩ : BufTy).Contents (Elt Ideal)) (x7 : (⟨S24, .f32⟩ : BufTy).Contents (Elt Ideal)) (x8 : (⟨S672x256, .f32⟩ : BufTy).Contents (Elt Ideal)) (x9 : (⟨S256, .f32⟩ : BufTy).Contents (Elt Ideal)) (x10 : (⟨S256x256, .f32⟩ : BufTy).Contents (Elt Ideal)) (x11 : (⟨S256, .f32⟩ : BufTy).Contents (Elt Ideal)) (x12 : (⟨S256, .f32⟩ : BufTy).Contents (Elt Ideal)) (x13 : (⟨S256, .f32⟩ : BufTy).Contents (Elt Ideal)) (x14 : (⟨S256x256, .f32⟩ : BufTy).Contents (Elt Ideal)) (x15 : (⟨S256, .f32⟩ : BufTy).Contents (Elt Ideal)) (x16 : (⟨S256x256, .f32⟩ : BufTy).Contents (Elt Ideal)) (x17 : (⟨S256, .f32⟩ : BufTy).Contents (Elt Ideal)) (x18 : (⟨S256x256, .f32⟩ : BufTy).Contents (Elt Ideal)) (x19 : (⟨S256, .f32⟩ : BufTy).Contents (Elt Ideal)) (x20 : (⟨S256, .f32⟩ : BufTy).Contents (Elt Ideal)) (x21 : (⟨S256, .f32⟩ : BufTy).Contents (Elt Ideal)) (x22 : (⟨S256x128, .f32⟩ : BufTy).Contents (Elt Ideal)) (x23 : (⟨S128, .f32⟩ : BufTy).Contents (Elt Ideal))
    (h78 : V (Proc.devRef .tc main_v78) = Cert.ReferenceIdeal.Read.val_main_v78 (F := Ideal) x0 x1 x2 x3 x4 x6 x7 x8 x9 x10 x11)
    (ha0 : V (Proc.devRef .tc main_arg0) = x0)
    (ha5 : V (Proc.devRef .tc main_arg5) = x5)
    (ha12 : V (Proc.devRef .tc main_arg12) = x12)
    (ha13 : V (Proc.devRef .tc main_arg13) = x13)
    (ha14 : V (Proc.devRef .tc main_arg14) = x14)
    (ha15 : V (Proc.devRef .tc main_arg15) = x15)
    (ha16 : V (Proc.devRef .tc main_arg16) = x16)
    (ha17 : V (Proc.devRef .tc main_arg17) = x17)
    (ha18 : V (Proc.devRef .tc main_arg18) = x18)
    (ha19 : V (Proc.devRef .tc main_arg19) = x19)
    (ha20 : V (Proc.devRef .tc main_arg20) = x20)
    (ha21 : V (Proc.devRef .tc main_arg21) = x21)
    (ha22 : V (Proc.devRef .tc main_arg22) = x22)
    (ha23 : V (Proc.devRef .tc main_arg23) = x23) :
    after opsD V (Proc.devRef .tc main_v152) = Cert.ReferenceIdeal.Read.val_main_v152 (F := Ideal) x0 x1 x2 x3 x4 x5 x6 x7 x8 x9 x10 x11 x12 x13 x14 x15 x16 x17 x18 x19 x20 x21 x22 x23 := by
  after_results_simp
  rw [h78, ha0, ha5, ha12, ha13, ha14, ha15, ha16, ha17, ha18, ha19, ha20, ha21, ha22, ha23]
  rfl
/-- The projected rows of the source nodes. -/
theorem stageE_v159 (V : Valuation τ sig (Elt Ideal)) (x0 : (⟨S10000x256, .f32⟩ : BufTy).Contents (Elt Ideal)) (x1 : (⟨S300000x128, .f32⟩ : BufTy).Contents (Elt Ideal)) (x2 : (⟨S2x300000, .i32⟩ : BufTy).Contents (Elt Ideal)) (x3 : (⟨S10000x3x3, .f32⟩ : BufTy).Contents (Elt Ideal)) (x4 : (⟨S10000x3, .f32⟩ : BufTy).Contents (Elt Ideal)) (x5 : (⟨S10000, .f32⟩ : BufTy).Contents (Elt Ideal)) (x6 : (⟨S256x24, .f32⟩ : BufTy).Contents (Elt Ideal)) (x7 : (⟨S24, .f32⟩ : BufTy).Contents (Elt Ideal)) (x8 : (⟨S672x256, .f32⟩ : BufTy).Contents (Elt Ideal)) (x9 : (⟨S256, .f32⟩ : BufTy).Contents (Elt Ideal)) (x10 : (⟨S256x256, .f32⟩ : BufTy).Contents (Elt Ideal)) (x11 : (⟨S256, .f32⟩ : BufTy).Contents (Elt Ideal)) (x12 : (⟨S256, .f32⟩ : BufTy).Contents (Elt Ideal)) (x13 : (⟨S256, .f32⟩ : BufTy).Contents (Elt Ideal)) (x14 : (⟨S256x256, .f32⟩ : BufTy).Contents (Elt Ideal)) (x15 : (⟨S256, .f32⟩ : BufTy).Contents (Elt Ideal)) (x16 : (⟨S256x256, .f32⟩ : BufTy).Contents (Elt Ideal)) (x17 : (⟨S256, .f32⟩ : BufTy).Contents (Elt Ideal)) (x18 : (⟨S256x256, .f32⟩ : BufTy).Contents (Elt Ideal)) (x19 : (⟨S256, .f32⟩ : BufTy).Contents (Elt Ideal)) (x20 : (⟨S256, .f32⟩ : BufTy).Contents (Elt Ideal)) (x21 : (⟨S256, .f32⟩ : BufTy).Contents (Elt Ideal)) (x22 : (⟨S256x128, .f32⟩ : BufTy).Contents (Elt Ideal)) (x23 : (⟨S128, .f32⟩ : BufTy).Contents (Elt Ideal))
    (h152 : V (Proc.devRef .tc main_v152) = Cert.ReferenceIdeal.Read.val_main_v152 (F := Ideal) x0 x1 x2 x3 x4 x5 x6 x7 x8 x9 x10 x11 x12 x13 x14 x15 x16 x17 x18 x19 x20 x21 x22 x23)
    (h1 : V (Proc.devRef .tc main_v1) = Cert.ReferenceIdeal.Read.val_main_v1 (F := Ideal) x2) :
    after opsE V (Proc.devRef .tc main_v159) = Cert.ReferenceIdeal.Read.val_main_v159 (F := Ideal) x0 x1 x2 x3 x4 x5 x6 x7 x8 x9 x10 x11 x12 x13 x14 x15 x16 x17 x18 x19 x20 x21 x22 x23 := by
  after_results_simp
  rw [h152, h1]
  rfl
/-- The projected rows of the destination nodes. -/
theorem stageE_v166 (V : Valuation τ sig (Elt Ideal)) (x0 : (⟨S10000x256, .f32⟩ : BufTy).Contents (Elt Ideal)) (x1 : (⟨S300000x128, .f32⟩ : BufTy).Contents (Elt Ideal)) (x2 : (⟨S2x300000, .i32⟩ : BufTy).Contents (Elt Ideal)) (x3 : (⟨S10000x3x3, .f32⟩ : BufTy).Contents (Elt Ideal)) (x4 : (⟨S10000x3, .f32⟩ : BufTy).Contents (Elt Ideal)) (x5 : (⟨S10000, .f32⟩ : BufTy).Contents (Elt Ideal)) (x6 : (⟨S256x24, .f32⟩ : BufTy).Contents (Elt Ideal)) (x7 : (⟨S24, .f32⟩ : BufTy).Contents (Elt Ideal)) (x8 : (⟨S672x256, .f32⟩ : BufTy).Contents (Elt Ideal)) (x9 : (⟨S256, .f32⟩ : BufTy).Contents (Elt Ideal)) (x10 : (⟨S256x256, .f32⟩ : BufTy).Contents (Elt Ideal)) (x11 : (⟨S256, .f32⟩ : BufTy).Contents (Elt Ideal)) (x12 : (⟨S256, .f32⟩ : BufTy).Contents (Elt Ideal)) (x13 : (⟨S256, .f32⟩ : BufTy).Contents (Elt Ideal)) (x14 : (⟨S256x256, .f32⟩ : BufTy).Contents (Elt Ideal)) (x15 : (⟨S256, .f32⟩ : BufTy).Contents (Elt Ideal)) (x16 : (⟨S256x256, .f32⟩ : BufTy).Contents (Elt Ideal)) (x17 : (⟨S256, .f32⟩ : BufTy).Contents (Elt Ideal)) (x18 : (⟨S256x256, .f32⟩ : BufTy).Contents (Elt Ideal)) (x19 : (⟨S256, .f32⟩ : BufTy).Contents (Elt Ideal)) (x20 : (⟨S256, .f32⟩ : BufTy).Contents (Elt Ideal)) (x21 : (⟨S256, .f32⟩ : BufTy).Contents (Elt Ideal)) (x22 : (⟨S256x128, .f32⟩ : BufTy).Contents (Elt Ideal)) (x23 : (⟨S128, .f32⟩ : BufTy).Contents (Elt Ideal))
    (h152 : V (Proc.devRef .tc main_v152) = Cert.ReferenceIdeal.Read.val_main_v152 (F := Ideal) x0 x1 x2 x3 x4 x5 x6 x7 x8 x9 x10 x11 x12 x13 x14 x15 x16 x17 x18 x19 x20 x21 x22 x23)
    (h3 : V (Proc.devRef .tc main_v3) = Cert.ReferenceIdeal.Read.val_main_v3 (F := Ideal) x2) :
    after opsE V (Proc.devRef .tc main_v166) = Cert.ReferenceIdeal.Read.val_main_v166 (F := Ideal) x0 x1 x2 x3 x4 x5 x6 x7 x8 x9 x10 x11 x12 x13 x14 x15 x16 x17 x18 x19 x20 x21 x22 x23 := by
  after_results_simp
  rw [h152, h3]
  rfl
/-- The edge result. -/
theorem stageF_v200 (V : Valuation τ sig (Elt Ideal)) (x0 : (⟨S10000x256, .f32⟩ : BufTy).Contents (Elt Ideal)) (x1 : (⟨S300000x128, .f32⟩ : BufTy).Contents (Elt Ideal)) (x2 : (⟨S2x300000, .i32⟩ : BufTy).Contents (Elt Ideal)) (x3 : (⟨S10000x3x3, .f32⟩ : BufTy).Contents (Elt Ideal)) (x4 : (⟨S10000x3, .f32⟩ : BufTy).Contents (Elt Ideal)) (x5 : (⟨S10000, .f32⟩ : BufTy).Contents (Elt Ideal)) (x6 : (⟨S256x24, .f32⟩ : BufTy).Contents (Elt Ideal)) (x7 : (⟨S24, .f32⟩ : BufTy).Contents (Elt Ideal)) (x8 : (⟨S672x256, .f32⟩ : BufTy).Contents (Elt Ideal)) (x9 : (⟨S256, .f32⟩ : BufTy).Contents (Elt Ideal)) (x10 : (⟨S256x256, .f32⟩ : BufTy).Contents (Elt Ideal)) (x11 : (⟨S256, .f32⟩ : BufTy).Contents (Elt Ideal)) (x12 : (⟨S256, .f32⟩ : BufTy).Contents (Elt Ideal)) (x13 : (⟨S256, .f32⟩ : BufTy).Contents (Elt Ideal)) (x14 : (⟨S256x256, .f32⟩ : BufTy).Contents (Elt Ideal)) (x15 : (⟨S256, .f32⟩ : BufTy).Contents (Elt Ideal)) (x16 : (⟨S256x256, .f32⟩ : BufTy).Contents (Elt Ideal)) (x17 : (⟨S256, .f32⟩ : BufTy).Contents (Elt Ideal)) (x18 : (⟨S256x256, .f32⟩ : BufTy).Contents (Elt Ideal)) (x19 : (⟨S256, .f32⟩ : BufTy).Contents (Elt Ideal)) (x20 : (⟨S256, .f32⟩ : BufTy).Contents (Elt Ideal)) (x21 : (⟨S256, .f32⟩ : BufTy).Contents (Elt Ideal)) (x22 : (⟨S256x128, .f32⟩ : BufTy).Contents (Elt Ideal)) (x23 : (⟨S128, .f32⟩ : BufTy).Contents (Elt Ideal)) (x24 : (⟨S384x384, .f32⟩ : BufTy).Contents (Elt Ideal)) (x25 : (⟨S384, .f32⟩ : BufTy).Contents (Elt Ideal)) (x26 : (⟨S384x128, .f32⟩ : BufTy).Contents (Elt Ideal)) (x27 : (⟨S128, .f32⟩ : BufTy).Contents (Elt Ideal)) (x28 : (⟨S128, .f32⟩ : BufTy).Contents (Elt Ideal)) (x29 : (⟨S128, .f32⟩ : BufTy).Contents (Elt Ideal))
    (h159 : V (Proc.devRef .tc main_v159) = Cert.ReferenceIdeal.Read.val_main_v159 (F := Ideal) x0 x1 x2 x3 x4 x5 x6 x7 x8 x9 x10 x11 x12 x13 x14 x15 x16 x17 x18 x19 x20 x21 x22 x23)
    (h166 : V (Proc.devRef .tc main_v166) = Cert.ReferenceIdeal.Read.val_main_v166 (F := Ideal) x0 x1 x2 x3 x4 x5 x6 x7 x8 x9 x10 x11 x12 x13 x14 x15 x16 x17 x18 x19 x20 x21 x22 x23)
    (ha1 : V (Proc.devRef .tc main_arg1) = x1)
    (ha24 : V (Proc.devRef .tc main_arg24) = x24)
    (ha25 : V (Proc.devRef .tc main_arg25) = x25)
    (ha26 : V (Proc.devRef .tc main_arg26) = x26)
    (ha27 : V (Proc.devRef .tc main_arg27) = x27)
    (ha28 : V (Proc.devRef .tc main_arg28) = x28)
    (ha29 : V (Proc.devRef .tc main_arg29) = x29) :
    after opsF V (Proc.devRef .tc main_v200) = Cert.ReferenceIdeal.Read.val_main_v200 (F := Ideal) x0 x1 x2 x3 x4 x5 x6 x7 x8 x9 x10 x11 x12 x13 x14 x15 x16 x17 x18 x19 x20 x21 x22 x23 x24 x25 x26 x27 x28 x29 := by
  after_results_simp
  have e0 : V (Proc.devRef .tc (![main_v159, main_v166, main_arg1] 0)) = _ := h159
  have e1 : V (Proc.devRef .tc (![main_v159, main_v166, main_arg1] 1)) = _ := h166
  have e2 : V (Proc.devRef .tc (![main_v159, main_v166, main_arg1] 2)) = _ := ha1
  rw [e0, e1, e2, ha24, ha25, ha26, ha27, ha28, ha29]
  rfl

end Cert.ReferenceIdeal.Whole

end
-- ==== Proof.Whole.RefTotal.lean ====
/-
  The reference's two results and its arguments after the whole line.

  Stretch by stretch: an argument is written by no stretch, so at every cut it still holds the launch contents; the
  values alive at a cut are the reference's stages of the launch arguments; hence after the last stretch the node result
  and the edge result hold the reference's two final stages of the launch arguments.
-/
import proofs.«169663_j18897856103195_1_alg».proof.Proof.Whole.RefRun
import proofs.«169663_j18897856103195_1_alg».proof.Proof.Whole.RefKeep0
import proofs.«169663_j18897856103195_1_alg».proof.Proof.Whole.RefKeep1
import proofs.«169663_j18897856103195_1_alg».proof.Proof.Whole.RefKeep2
import proofs.«169663_j18897856103195_1_alg».proof.Proof.Whole.RefStages
import proofs.«169663_j18897856103195_1_alg».proof.Proof.ReferenceRead
import Idealize.ShloMosaic.Lib.StableHlo.Run

set_option maxRecDepth 16384

noncomputable section

namespace Cert.ReferenceIdeal.Whole

open Cert.ReferenceIdeal Cert.ReferenceIdeal.Gen Idealize.ShloMosaic Idealize.ShloMosaic.TcCoe Idealize.SL.Sem Idealize.ShloMosaic.StableHlo

variable (V0 : Valuation τ sig (Elt Ideal))

/-! ## The arguments at every cut -/

theorem kA_arg0 : (after opsA V0) (Proc.devRef .tc main_arg0) = V0 (Proc.devRef .tc main_arg0) :=
  after_of_forall_not_mem opsA V0 nwA_arg0
theorem kB_arg0 : (after opsB (after opsA V0)) (Proc.devRef .tc main_arg0) = V0 (Proc.devRef .tc main_arg0) :=
  (after_of_forall_not_mem opsB (after opsA V0) nwB_arg0).trans (kA_arg0 V0)
theorem kC_arg0 : (after opsC (after opsB (after opsA V0))) (Proc.devRef .tc main_arg0) = V0 (Proc.devRef .tc main_arg0) :=
  (after_of_forall_not_mem opsC (after opsB (after opsA V0)) nwC_arg0).trans (kB_arg0 V0)
theorem kD_arg0 : (after opsD (after opsC (after opsB (after opsA V0)))) (Proc.devRef .tc main_arg0) = V0 (Proc.devRef .tc main_arg0) :=
  (after_of_forall_not_mem opsD (after opsC (after opsB (after opsA V0))) nwD_arg0).trans (kC_arg0 V0)
theorem kE_arg0 : (after opsE (after opsD (after opsC (after opsB (after opsA V0))))) (Proc.devRef .tc main_arg0) = V0 (Proc.devRef .tc main_arg0) :=
  (after_of_forall_not_mem opsE (after opsD (after opsC (after opsB (after opsA V0)))) nwE_arg0).trans (kD_arg0 V0)
theorem kF_arg0 : (after opsF (after opsE (after opsD (after opsC (after opsB (after opsA V0)))))) (Proc.devRef .tc main_arg0) = V0 (Proc.devRef .tc main_arg0) :=
  (after_of_forall_not_mem opsF (after opsE (after opsD (after opsC (after opsB (after opsA V0))))) nwF_arg0).trans (kE_arg0 V0)
theorem kA_arg1 : (after opsA V0) (Proc.devRef .tc main_arg1) = V0 (Proc.devRef .tc main_arg1) :=
  after_of_forall_not_mem opsA V0 nwA_arg1
theorem kB_arg1 : (after opsB (after opsA V0)) (Proc.devRef .tc main_arg1) = V0 (Proc.devRef .tc main_arg1) :=
  (after_of_forall_not_mem opsB (after opsA V0) nwB_arg1).trans (kA_arg1 V0)
theorem kC_arg1 : (after opsC (after opsB (after opsA V0))) (Proc.devRef .tc main_arg1) = V0 (Proc.devRef .tc main_arg1) :=
  (after_of_forall_not_mem opsC (after opsB (after opsA V0)) nwC_arg1).trans (kB_arg1 V0)
theorem kD_arg1 : (after opsD (after opsC (after opsB (after opsA V0)))) (Proc.devRef .tc main_arg1) = V0 (Proc.devRef .tc main_arg1) :=
  (after_of_forall_not_mem opsD (after opsC (after opsB (after opsA V0))) nwD_arg1).trans (kC_arg1 V0)
theorem kE_arg1 : (after opsE (after opsD (after opsC (after opsB (after opsA V0))))) (Proc.devRef .tc main_arg1) = V0 (Proc.devRef .tc main_arg1) :=
  (after_of_forall_not_mem opsE (after opsD (after opsC (after opsB (after opsA V0)))) nwE_arg1).trans (kD_arg1 V0)
theorem kF_arg1 : (after opsF (after opsE (after opsD (after opsC (after opsB (after opsA V0)))))) (Proc.devRef .tc main_arg1) = V0 (Proc.devRef .tc main_arg1) :=
  (after_of_forall_not_mem opsF (after opsE (after opsD (after opsC (after opsB (after opsA V0))))) nwF_arg1).trans (kE_arg1 V0)
theorem kA_arg2 : (after opsA V0) (Proc.devRef .tc main_arg2) = V0 (Proc.devRef .tc main_arg2) :=
  after_of_forall_not_mem opsA V0 nwA_arg2
theorem kB_arg2 : (after opsB (after opsA V0)) (Proc.devRef .tc main_arg2) = V0 (Proc.devRef .tc main_arg2) :=
  (after_of_forall_not_mem opsB (after opsA V0) nwB_arg2).trans (kA_arg2 V0)
theorem kC_arg2 : (after opsC (after opsB (after opsA V0))) (Proc.devRef .tc main_arg2) = V0 (Proc.devRef .tc main_arg2) :=
  (after_of_forall_not_mem opsC (after opsB (after opsA V0)) nwC_arg2).trans (kB_arg2 V0)
theorem kD_arg2 : (after opsD (after opsC (after opsB (after opsA V0)))) (Proc.devRef .tc main_arg2) = V0 (Proc.devRef .tc main_arg2) :=
  (after_of_forall_not_mem opsD (after opsC (after opsB (after opsA V0))) nwD_arg2).trans (kC_arg2 V0)
theorem kE_arg2 : (after opsE (after opsD (after opsC (after opsB (after opsA V0))))) (Proc.devRef .tc main_arg2) = V0 (Proc.devRef .tc main_arg2) :=
  (after_of_forall_not_mem opsE (after opsD (after opsC (after opsB (after opsA V0)))) nwE_arg2).trans (kD_arg2 V0)
theorem kF_arg2 : (after opsF (after opsE (after opsD (after opsC (after opsB (after opsA V0)))))) (Proc.devRef .tc main_arg2) = V0 (Proc.devRef .tc main_arg2) :=
  (after_of_forall_not_mem opsF (after opsE (after opsD (after opsC (after opsB (after opsA V0))))) nwF_arg2).trans (kE_arg2 V0)
theorem kA_arg3 : (after opsA V0) (Proc.devRef .tc main_arg3) = V0 (Proc.devRef .tc main_arg3) :=
  after_of_forall_not_mem opsA V0 nwA_arg3
theorem kB_arg3 : (after opsB (after opsA V0)) (Proc.devRef .tc main_arg3) = V0 (Proc.devRef .tc main_arg3) :=
  (after_of_forall_not_mem opsB (after opsA V0) nwB_arg3).trans (kA_arg3 V0)
theorem kC_arg3 : (after opsC (after opsB (after opsA V0))) (Proc.devRef .tc main_arg3) = V0 (Proc.devRef .tc main_arg3) :=
  (after_of_forall_not_mem opsC (after opsB (after opsA V0)) nwC_arg3).trans (kB_arg3 V0)
theorem kD_arg3 : (after opsD (after opsC (after opsB (after opsA V0)))) (Proc.devRef .tc main_arg3) = V0 (Proc.devRef .tc main_arg3) :=
  (after_of_forall_not_mem opsD (after opsC (after opsB (after opsA V0))) nwD_arg3).trans (kC_arg3 V0)
theorem kE_arg3 : (after opsE (after opsD (after opsC (after opsB (after opsA V0))))) (Proc.devRef .tc main_arg3) = V0 (Proc.devRef .tc main_arg3) :=
  (after_of_forall_not_mem opsE (after opsD (after opsC (after opsB (after opsA V0)))) nwE_arg3).trans (kD_arg3 V0)
theorem kF_arg3 : (after opsF (after opsE (after opsD (after opsC (after opsB (after opsA V0)))))) (Proc.devRef .tc main_arg3) = V0 (Proc.devRef .tc main_arg3) :=
  (after_of_forall_not_mem opsF (after opsE (after opsD (after opsC (after opsB (after opsA V0))))) nwF_arg3).trans (kE_arg3 V0)
theorem kA_arg4 : (after opsA V0) (Proc.devRef .tc main_arg4) = V0 (Proc.devRef .tc main_arg4) :=
  after_of_forall_not_mem opsA V0 nwA_arg4
theorem kB_arg4 : (after opsB (after opsA V0)) (Proc.devRef .tc main_arg4) = V0 (Proc.devRef .tc main_arg4) :=
  (after_of_forall_not_mem opsB (after opsA V0) nwB_arg4).trans (kA_arg4 V0)
theorem kC_arg4 : (after opsC (after opsB (after opsA V0))) (Proc.devRef .tc main_arg4) = V0 (Proc.devRef .tc main_arg4) :=
  (after_of_forall_not_mem opsC (after opsB (after opsA V0)) nwC_arg4).trans (kB_arg4 V0)
theorem kD_arg4 : (after opsD (after opsC (after opsB (after opsA V0)))) (Proc.devRef .tc main_arg4) = V0 (Proc.devRef .tc main_arg4) :=
  (after_of_forall_not_mem opsD (after opsC (after opsB (after opsA V0))) nwD_arg4).trans (kC_arg4 V0)
theorem kE_arg4 : (after opsE (after opsD (after opsC (after opsB (after opsA V0))))) (Proc.devRef .tc main_arg4) = V0 (Proc.devRef .tc main_arg4) :=
  (after_of_forall_not_mem opsE (after opsD (after opsC (after opsB (after opsA V0)))) nwE_arg4).trans (kD_arg4 V0)
theorem kF_arg4 : (after opsF (after opsE (after opsD (after opsC (after opsB (after opsA V0)))))) (Proc.devRef .tc main_arg4) = V0 (Proc.devRef .tc main_arg4) :=
  (after_of_forall_not_mem opsF (after opsE (after opsD (after opsC (after opsB (after opsA V0))))) nwF_arg4).trans (kE_arg4 V0)
theorem kA_arg5 : (after opsA V0) (Proc.devRef .tc main_arg5) = V0 (Proc.devRef .tc main_arg5) :=
  after_of_forall_not_mem opsA V0 nwA_arg5
theorem kB_arg5 : (after opsB (after opsA V0)) (Proc.devRef .tc main_arg5) = V0 (Proc.devRef .tc main_arg5) :=
  (after_of_forall_not_mem opsB (after opsA V0) nwB_arg5).trans (kA_arg5 V0)
theorem kC_arg5 : (after opsC (after opsB (after opsA V0))) (Proc.devRef .tc main_arg5) = V0 (Proc.devRef .tc main_arg5) :=
  (after_of_forall_not_mem opsC (after opsB (after opsA V0)) nwC_arg5).trans (kB_arg5 V0)
theorem kD_arg5 : (after opsD (after opsC (after opsB (after opsA V0)))) (Proc.devRef .tc main_arg5) = V0 (Proc.devRef .tc main_arg5) :=
  (after_of_forall_not_mem opsD (after opsC (after opsB (after opsA V0))) nwD_arg5).trans (kC_arg5 V0)
theorem kE_arg5 : (after opsE (after opsD (after opsC (after opsB (after opsA V0))))) (Proc.devRef .tc main_arg5) = V0 (Proc.devRef .tc main_arg5) :=
  (after_of_forall_not_mem opsE (after opsD (after opsC (after opsB (after opsA V0)))) nwE_arg5).trans (kD_arg5 V0)
theorem kF_arg5 : (after opsF (after opsE (after opsD (after opsC (after opsB (after opsA V0)))))) (Proc.devRef .tc main_arg5) = V0 (Proc.devRef .tc main_arg5) :=
  (after_of_forall_not_mem opsF (after opsE (after opsD (after opsC (after opsB (after opsA V0))))) nwF_arg5).trans (kE_arg5 V0)
theorem kA_arg6 : (after opsA V0) (Proc.devRef .tc main_arg6) = V0 (Proc.devRef .tc main_arg6) :=
  after_of_forall_not_mem opsA V0 nwA_arg6
theorem kB_arg6 : (after opsB (after opsA V0)) (Proc.devRef .tc main_arg6) = V0 (Proc.devRef .tc main_arg6) :=
  (after_of_forall_not_mem opsB (after opsA V0) nwB_arg6).trans (kA_arg6 V0)
theorem kC_arg6 : (after opsC (after opsB (after opsA V0))) (Proc.devRef .tc main_arg6) = V0 (Proc.devRef .tc main_arg6) :=
  (after_of_forall_not_mem opsC (after opsB (after opsA V0)) nwC_arg6).trans (kB_arg6 V0)
theorem kD_arg6 : (after opsD (after opsC (after opsB (after opsA V0)))) (Proc.devRef .tc main_arg6) = V0 (Proc.devRef .tc main_arg6) :=
  (after_of_forall_not_mem opsD (after opsC (after opsB (after opsA V0))) nwD_arg6).trans (kC_arg6 V0)
theorem kE_arg6 : (after opsE (after opsD (after opsC (after opsB (after opsA V0))))) (Proc.devRef .tc main_arg6) = V0 (Proc.devRef .tc main_arg6) :=
  (after_of_forall_not_mem opsE (after opsD (after opsC (after opsB (after opsA V0)))) nwE_arg6).trans (kD_arg6 V0)
theorem kF_arg6 : (after opsF (after opsE (after opsD (after opsC (after opsB (after opsA V0)))))) (Proc.devRef .tc main_arg6) = V0 (Proc.devRef .tc main_arg6) :=
  (after_of_forall_not_mem opsF (after opsE (after opsD (after opsC (after opsB (after opsA V0))))) nwF_arg6).trans (kE_arg6 V0)
theorem kA_arg7 : (after opsA V0) (Proc.devRef .tc main_arg7) = V0 (Proc.devRef .tc main_arg7) :=
  after_of_forall_not_mem opsA V0 nwA_arg7
theorem kB_arg7 : (after opsB (after opsA V0)) (Proc.devRef .tc main_arg7) = V0 (Proc.devRef .tc main_arg7) :=
  (after_of_forall_not_mem opsB (after opsA V0) nwB_arg7).trans (kA_arg7 V0)
theorem kC_arg7 : (after opsC (after opsB (after opsA V0))) (Proc.devRef .tc main_arg7) = V0 (Proc.devRef .tc main_arg7) :=
  (after_of_forall_not_mem opsC (after opsB (after opsA V0)) nwC_arg7).trans (kB_arg7 V0)
theorem kD_arg7 : (after opsD (after opsC (after opsB (after opsA V0)))) (Proc.devRef .tc main_arg7) = V0 (Proc.devRef .tc main_arg7) :=
  (after_of_forall_not_mem opsD (after opsC (after opsB (after opsA V0))) nwD_arg7).trans (kC_arg7 V0)
theorem kE_arg7 : (after opsE (after opsD (after opsC (after opsB (after opsA V0))))) (Proc.devRef .tc main_arg7) = V0 (Proc.devRef .tc main_arg7) :=
  (after_of_forall_not_mem opsE (after opsD (after opsC (after opsB (after opsA V0)))) nwE_arg7).trans (kD_arg7 V0)
theorem kF_arg7 : (after opsF (after opsE (after opsD (after opsC (after opsB (after opsA V0)))))) (Proc.devRef .tc main_arg7) = V0 (Proc.devRef .tc main_arg7) :=
  (after_of_forall_not_mem opsF (after opsE (after opsD (after opsC (after opsB (after opsA V0))))) nwF_arg7).trans (kE_arg7 V0)
theorem kA_arg8 : (after opsA V0) (Proc.devRef .tc main_arg8) = V0 (Proc.devRef .tc main_arg8) :=
  after_of_forall_not_mem opsA V0 nwA_arg8
theorem kB_arg8 : (after opsB (after opsA V0)) (Proc.devRef .tc main_arg8) = V0 (Proc.devRef .tc main_arg8) :=
  (after_of_forall_not_mem opsB (after opsA V0) nwB_arg8).trans (kA_arg8 V0)
theorem kC_arg8 : (after opsC (after opsB (after opsA V0))) (Proc.devRef .tc main_arg8) = V0 (Proc.devRef .tc main_arg8) :=
  (after_of_forall_not_mem opsC (after opsB (after opsA V0)) nwC_arg8).trans (kB_arg8 V0)
theorem kD_arg8 : (after opsD (after opsC (after opsB (after opsA V0)))) (Proc.devRef .tc main_arg8) = V0 (Proc.devRef .tc main_arg8) :=
  (after_of_forall_not_mem opsD (after opsC (after opsB (after opsA V0))) nwD_arg8).trans (kC_arg8 V0)
theorem kE_arg8 : (after opsE (after opsD (after opsC (after opsB (after opsA V0))))) (Proc.devRef .tc main_arg8) = V0 (Proc.devRef .tc main_arg8) :=
  (after_of_forall_not_mem opsE (after opsD (after opsC (after opsB (after opsA V0)))) nwE_arg8).trans (kD_arg8 V0)
theorem kF_arg8 : (after opsF (after opsE (after opsD (after opsC (after opsB (after opsA V0)))))) (Proc.devRef .tc main_arg8) = V0 (Proc.devRef .tc main_arg8) :=
  (after_of_forall_not_mem opsF (after opsE (after opsD (after opsC (after opsB (after opsA V0))))) nwF_arg8).trans (kE_arg8 V0)
theorem kA_arg9 : (after opsA V0) (Proc.devRef .tc main_arg9) = V0 (Proc.devRef .tc main_arg9) :=
  after_of_forall_not_mem opsA V0 nwA_arg9
theorem kB_arg9 : (after opsB (after opsA V0)) (Proc.devRef .tc main_arg9) = V0 (Proc.devRef .tc main_arg9) :=
  (after_of_forall_not_mem opsB (after opsA V0) nwB_arg9).trans (kA_arg9 V0)
theorem kC_arg9 : (after opsC (after opsB (after opsA V0))) (Proc.devRef .tc main_arg9) = V0 (Proc.devRef .tc main_arg9) :=
  (after_of_forall_not_mem opsC (after opsB (after opsA V0)) nwC_arg9).trans (kB_arg9 V0)
theorem kD_arg9 : (after opsD (after opsC (after opsB (after opsA V0)))) (Proc.devRef .tc main_arg9) = V0 (Proc.devRef .tc main_arg9) :=
  (after_of_forall_not_mem opsD (after opsC (after opsB (after opsA V0))) nwD_arg9).trans (kC_arg9 V0)
theorem kE_arg9 : (after opsE (after opsD (after opsC (after opsB (after opsA V0))))) (Proc.devRef .tc main_arg9) = V0 (Proc.devRef .tc main_arg9) :=
  (after_of_forall_not_mem opsE (after opsD (after opsC (after opsB (after opsA V0)))) nwE_arg9).trans (kD_arg9 V0)
theorem kF_arg9 : (after opsF (after opsE (after opsD (after opsC (after opsB (after opsA V0)))))) (Proc.devRef .tc main_arg9) = V0 (Proc.devRef .tc main_arg9) :=
  (after_of_forall_not_mem opsF (after opsE (after opsD (after opsC (after opsB (after opsA V0))))) nwF_arg9).trans (kE_arg9 V0)
theorem kA_arg10 : (after opsA V0) (Proc.devRef .tc main_arg10) = V0 (Proc.devRef .tc main_arg10) :=
  after_of_forall_not_mem opsA V0 nwA_arg10
theorem kB_arg10 : (after opsB (after opsA V0)) (Proc.devRef .tc main_arg10) = V0 (Proc.devRef .tc main_arg10) :=
  (after_of_forall_not_mem opsB (after opsA V0) nwB_arg10).trans (kA_arg10 V0)
theorem kC_arg10 : (after opsC (after opsB (after opsA V0))) (Proc.devRef .tc main_arg10) = V0 (Proc.devRef .tc main_arg10) :=
  (after_of_forall_not_mem opsC (after opsB (after opsA V0)) nwC_arg10).trans (kB_arg10 V0)
theorem kD_arg10 : (after opsD (after opsC (after opsB (after opsA V0)))) (Proc.devRef .tc main_arg10) = V0 (Proc.devRef .tc main_arg10) :=
  (after_of_forall_not_mem opsD (after opsC (after opsB (after opsA V0))) nwD_arg10).trans (kC_arg10 V0)
theorem kE_arg10 : (after opsE (after opsD (after opsC (after opsB (after opsA V0))))) (Proc.devRef .tc main_arg10) = V0 (Proc.devRef .tc main_arg10) :=
  (after_of_forall_not_mem opsE (after opsD (after opsC (after opsB (after opsA V0)))) nwE_arg10).trans (kD_arg10 V0)
theorem kF_arg10 : (after opsF (after opsE (after opsD (after opsC (after opsB (after opsA V0)))))) (Proc.devRef .tc main_arg10) = V0 (Proc.devRef .tc main_arg10) :=
  (after_of_forall_not_mem opsF (after opsE (after opsD (after opsC (after opsB (after opsA V0))))) nwF_arg10).trans (kE_arg10 V0)
theorem kA_arg11 : (after opsA V0) (Proc.devRef .tc main_arg11) = V0 (Proc.devRef .tc main_arg11) :=
  after_of_forall_not_mem opsA V0 nwA_arg11
theorem kB_arg11 : (after opsB (after opsA V0)) (Proc.devRef .tc main_arg11) = V0 (Proc.devRef .tc main_arg11) :=
  (after_of_forall_not_mem opsB (after opsA V0) nwB_arg11).trans (kA_arg11 V0)
theorem kC_arg11 : (after opsC (after opsB (after opsA V0))) (Proc.devRef .tc main_arg11) = V0 (Proc.devRef .tc main_arg11) :=
  (after_of_forall_not_mem opsC (after opsB (after opsA V0)) nwC_arg11).trans (kB_arg11 V0)
theorem kD_arg11 : (after opsD (after opsC (after opsB (after opsA V0)))) (Proc.devRef .tc main_arg11) = V0 (Proc.devRef .tc main_arg11) :=
  (after_of_forall_not_mem opsD (after opsC (after opsB (after opsA V0))) nwD_arg11).trans (kC_arg11 V0)
theorem kE_arg11 : (after opsE (after opsD (after opsC (after opsB (after opsA V0))))) (Proc.devRef .tc main_arg11) = V0 (Proc.devRef .tc main_arg11) :=
  (after_of_forall_not_mem opsE (after opsD (after opsC (after opsB (after opsA V0)))) nwE_arg11).trans (kD_arg11 V0)
theorem kF_arg11 : (after opsF (after opsE (after opsD (after opsC (after opsB (after opsA V0)))))) (Proc.devRef .tc main_arg11) = V0 (Proc.devRef .tc main_arg11) :=
  (after_of_forall_not_mem opsF (after opsE (after opsD (after opsC (after opsB (after opsA V0))))) nwF_arg11).trans (kE_arg11 V0)
theorem kA_arg12 : (after opsA V0) (Proc.devRef .tc main_arg12) = V0 (Proc.devRef .tc main_arg12) :=
  after_of_forall_not_mem opsA V0 nwA_arg12
theorem kB_arg12 : (after opsB (after opsA V0)) (Proc.devRef .tc main_arg12) = V0 (Proc.devRef .tc main_arg12) :=
  (after_of_forall_not_mem opsB (after opsA V0) nwB_arg12).trans (kA_arg12 V0)
theorem kC_arg12 : (after opsC (after opsB (after opsA V0))) (Proc.devRef .tc main_arg12) = V0 (Proc.devRef .tc main_arg12) :=
  (after_of_forall_not_mem opsC (after opsB (after opsA V0)) nwC_arg12).trans (kB_arg12 V0)
theorem kD_arg12 : (after opsD (after opsC (after opsB (after opsA V0)))) (Proc.devRef .tc main_arg12) = V0 (Proc.devRef .tc main_arg12) :=
  (after_of_forall_not_mem opsD (after opsC (after opsB (after opsA V0))) nwD_arg12).trans (kC_arg12 V0)
theorem kE_arg12 : (after opsE (after opsD (after opsC (after opsB (after opsA V0))))) (Proc.devRef .tc main_arg12) = V0 (Proc.devRef .tc main_arg12) :=
  (after_of_forall_not_mem opsE (after opsD (after opsC (after opsB (after opsA V0)))) nwE_arg12).trans (kD_arg12 V0)
theorem kF_arg12 : (after opsF (after opsE (after opsD (after opsC (after opsB (after opsA V0)))))) (Proc.devRef .tc main_arg12) = V0 (Proc.devRef .tc main_arg12) :=
  (after_of_forall_not_mem opsF (after opsE (after opsD (after opsC (after opsB (after opsA V0))))) nwF_arg12).trans (kE_arg12 V0)
theorem kA_arg13 : (after opsA V0) (Proc.devRef .tc main_arg13) = V0 (Proc.devRef .tc main_arg13) :=
  after_of_forall_not_mem opsA V0 nwA_arg13
theorem kB_arg13 : (after opsB (after opsA V0)) (Proc.devRef .tc main_arg13) = V0 (Proc.devRef .tc main_arg13) :=
  (after_of_forall_not_mem opsB (after opsA V0) nwB_arg13).trans (kA_arg13 V0)
theorem kC_arg13 : (after opsC (after opsB (after opsA V0))) (Proc.devRef .tc main_arg13) = V0 (Proc.devRef .tc main_arg13) :=
  (after_of_forall_not_mem opsC (after opsB (after opsA V0)) nwC_arg13).trans (kB_arg13 V0)
theorem kD_arg13 : (after opsD (after opsC (after opsB (after opsA V0)))) (Proc.devRef .tc main_arg13) = V0 (Proc.devRef .tc main_arg13) :=
  (after_of_forall_not_mem opsD (after opsC (after opsB (after opsA V0))) nwD_arg13).trans (kC_arg13 V0)
theorem kE_arg13 : (after opsE (after opsD (after opsC (after opsB (after opsA V0))))) (Proc.devRef .tc main_arg13) = V0 (Proc.devRef .tc main_arg13) :=
  (after_of_forall_not_mem opsE (after opsD (after opsC (after opsB (after opsA V0)))) nwE_arg13).trans (kD_arg13 V0)
theorem kF_arg13 : (after opsF (after opsE (after opsD (after opsC (after opsB (after opsA V0)))))) (Proc.devRef .tc main_arg13) = V0 (Proc.devRef .tc main_arg13) :=
  (after_of_forall_not_mem opsF (after opsE (after opsD (after opsC (after opsB (after opsA V0))))) nwF_arg13).trans (kE_arg13 V0)
theorem kA_arg14 : (after opsA V0) (Proc.devRef .tc main_arg14) = V0 (Proc.devRef .tc main_arg14) :=
  after_of_forall_not_mem opsA V0 nwA_arg14
theorem kB_arg14 : (after opsB (after opsA V0)) (Proc.devRef .tc main_arg14) = V0 (Proc.devRef .tc main_arg14) :=
  (after_of_forall_not_mem opsB (after opsA V0) nwB_arg14).trans (kA_arg14 V0)
theorem kC_arg14 : (after opsC (after opsB (after opsA V0))) (Proc.devRef .tc main_arg14) = V0 (Proc.devRef .tc main_arg14) :=
  (after_of_forall_not_mem opsC (after opsB (after opsA V0)) nwC_arg14).trans (kB_arg14 V0)
theorem kD_arg14 : (after opsD (after opsC (after opsB (after opsA V0)))) (Proc.devRef .tc main_arg14) = V0 (Proc.devRef .tc main_arg14) :=
  (after_of_forall_not_mem opsD (after opsC (after opsB (after opsA V0))) nwD_arg14).trans (kC_arg14 V0)
theorem kE_arg14 : (after opsE (after opsD (after opsC (after opsB (after opsA V0))))) (Proc.devRef .tc main_arg14) = V0 (Proc.devRef .tc main_arg14) :=
  (after_of_forall_not_mem opsE (after opsD (after opsC (after opsB (after opsA V0)))) nwE_arg14).trans (kD_arg14 V0)
theorem kF_arg14 : (after opsF (after opsE (after opsD (after opsC (after opsB (after opsA V0)))))) (Proc.devRef .tc main_arg14) = V0 (Proc.devRef .tc main_arg14) :=
  (after_of_forall_not_mem opsF (after opsE (after opsD (after opsC (after opsB (after opsA V0))))) nwF_arg14).trans (kE_arg14 V0)
theorem kA_arg15 : (after opsA V0) (Proc.devRef .tc main_arg15) = V0 (Proc.devRef .tc main_arg15) :=
  after_of_forall_not_mem opsA V0 nwA_arg15
theorem kB_arg15 : (after opsB (after opsA V0)) (Proc.devRef .tc main_arg15) = V0 (Proc.devRef .tc main_arg15) :=
  (after_of_forall_not_mem opsB (after opsA V0) nwB_arg15).trans (kA_arg15 V0)
theorem kC_arg15 : (after opsC (after opsB (after opsA V0))) (Proc.devRef .tc main_arg15) = V0 (Proc.devRef .tc main_arg15) :=
  (after_of_forall_not_mem opsC (after opsB (after opsA V0)) nwC_arg15).trans (kB_arg15 V0)
theorem kD_arg15 : (after opsD (after opsC (after opsB (after opsA V0)))) (Proc.devRef .tc main_arg15) = V0 (Proc.devRef .tc main_arg15) :=
  (after_of_forall_not_mem opsD (after opsC (after opsB (after opsA V0))) nwD_arg15).trans (kC_arg15 V0)
theorem kE_arg15 : (after opsE (after opsD (after opsC (after opsB (after opsA V0))))) (Proc.devRef .tc main_arg15) = V0 (Proc.devRef .tc main_arg15) :=
  (after_of_forall_not_mem opsE (after opsD (after opsC (after opsB (after opsA V0)))) nwE_arg15).trans (kD_arg15 V0)
theorem kF_arg15 : (after opsF (after opsE (after opsD (after opsC (after opsB (after opsA V0)))))) (Proc.devRef .tc main_arg15) = V0 (Proc.devRef .tc main_arg15) :=
  (after_of_forall_not_mem opsF (after opsE (after opsD (after opsC (after opsB (after opsA V0))))) nwF_arg15).trans (kE_arg15 V0)
theorem kA_arg16 : (after opsA V0) (Proc.devRef .tc main_arg16) = V0 (Proc.devRef .tc main_arg16) :=
  after_of_forall_not_mem opsA V0 nwA_arg16
theorem kB_arg16 : (after opsB (after opsA V0)) (Proc.devRef .tc main_arg16) = V0 (Proc.devRef .tc main_arg16) :=
  (after_of_forall_not_mem opsB (after opsA V0) nwB_arg16).trans (kA_arg16 V0)
theorem kC_arg16 : (after opsC (after opsB (after opsA V0))) (Proc.devRef .tc main_arg16) = V0 (Proc.devRef .tc main_arg16) :=
  (after_of_forall_not_mem opsC (after opsB (after opsA V0)) nwC_arg16).trans (kB_arg16 V0)
theorem kD_arg16 : (after opsD (after opsC (after opsB (after opsA V0)))) (Proc.devRef .tc main_arg16) = V0 (Proc.devRef .tc main_arg16) :=
  (after_of_forall_not_mem opsD (after opsC (after opsB (after opsA V0))) nwD_arg16).trans (kC_arg16 V0)
theorem kE_arg16 : (after opsE (after opsD (after opsC (after opsB (after opsA V0))))) (Proc.devRef .tc main_arg16) = V0 (Proc.devRef .tc main_arg16) :=
  (after_of_forall_not_mem opsE (after opsD (after opsC (after opsB (after opsA V0)))) nwE_arg16).trans (kD_arg16 V0)
theorem kF_arg16 : (after opsF (after opsE (after opsD (after opsC (after opsB (after opsA V0)))))) (Proc.devRef .tc main_arg16) = V0 (Proc.devRef .tc main_arg16) :=
  (after_of_forall_not_mem opsF (after opsE (after opsD (after opsC (after opsB (after opsA V0))))) nwF_arg16).trans (kE_arg16 V0)
theorem kA_arg17 : (after opsA V0) (Proc.devRef .tc main_arg17) = V0 (Proc.devRef .tc main_arg17) :=
  after_of_forall_not_mem opsA V0 nwA_arg17
theorem kB_arg17 : (after opsB (after opsA V0)) (Proc.devRef .tc main_arg17) = V0 (Proc.devRef .tc main_arg17) :=
  (after_of_forall_not_mem opsB (after opsA V0) nwB_arg17).trans (kA_arg17 V0)
theorem kC_arg17 : (after opsC (after opsB (after opsA V0))) (Proc.devRef .tc main_arg17) = V0 (Proc.devRef .tc main_arg17) :=
  (after_of_forall_not_mem opsC (after opsB (after opsA V0)) nwC_arg17).trans (kB_arg17 V0)
theorem kD_arg17 : (after opsD (after opsC (after opsB (after opsA V0)))) (Proc.devRef .tc main_arg17) = V0 (Proc.devRef .tc main_arg17) :=
  (after_of_forall_not_mem opsD (after opsC (after opsB (after opsA V0))) nwD_arg17).trans (kC_arg17 V0)
theorem kE_arg17 : (after opsE (after opsD (after opsC (after opsB (after opsA V0))))) (Proc.devRef .tc main_arg17) = V0 (Proc.devRef .tc main_arg17) :=
  (after_of_forall_not_mem opsE (after opsD (after opsC (after opsB (after opsA V0)))) nwE_arg17).trans (kD_arg17 V0)
theorem kF_arg17 : (after opsF (after opsE (after opsD (after opsC (after opsB (after opsA V0)))))) (Proc.devRef .tc main_arg17) = V0 (Proc.devRef .tc main_arg17) :=
  (after_of_forall_not_mem opsF (after opsE (after opsD (after opsC (after opsB (after opsA V0))))) nwF_arg17).trans (kE_arg17 V0)
theorem kA_arg18 : (after opsA V0) (Proc.devRef .tc main_arg18) = V0 (Proc.devRef .tc main_arg18) :=
  after_of_forall_not_mem opsA V0 nwA_arg18
theorem kB_arg18 : (after opsB (after opsA V0)) (Proc.devRef .tc main_arg18) = V0 (Proc.devRef .tc main_arg18) :=
  (after_of_forall_not_mem opsB (after opsA V0) nwB_arg18).trans (kA_arg18 V0)
theorem kC_arg18 : (after opsC (after opsB (after opsA V0))) (Proc.devRef .tc main_arg18) = V0 (Proc.devRef .tc main_arg18) :=
  (after_of_forall_not_mem opsC (after opsB (after opsA V0)) nwC_arg18).trans (kB_arg18 V0)
theorem kD_arg18 : (after opsD (after opsC (after opsB (after opsA V0)))) (Proc.devRef .tc main_arg18) = V0 (Proc.devRef .tc main_arg18) :=
  (after_of_forall_not_mem opsD (after opsC (after opsB (after opsA V0))) nwD_arg18).trans (kC_arg18 V0)
theorem kE_arg18 : (after opsE (after opsD (after opsC (after opsB (after opsA V0))))) (Proc.devRef .tc main_arg18) = V0 (Proc.devRef .tc main_arg18) :=
  (after_of_forall_not_mem opsE (after opsD (after opsC (after opsB (after opsA V0)))) nwE_arg18).trans (kD_arg18 V0)
theorem kF_arg18 : (after opsF (after opsE (after opsD (after opsC (after opsB (after opsA V0)))))) (Proc.devRef .tc main_arg18) = V0 (Proc.devRef .tc main_arg18) :=
  (after_of_forall_not_mem opsF (after opsE (after opsD (after opsC (after opsB (after opsA V0))))) nwF_arg18).trans (kE_arg18 V0)
theorem kA_arg19 : (after opsA V0) (Proc.devRef .tc main_arg19) = V0 (Proc.devRef .tc main_arg19) :=
  after_of_forall_not_mem opsA V0 nwA_arg19
theorem kB_arg19 : (after opsB (after opsA V0)) (Proc.devRef .tc main_arg19) = V0 (Proc.devRef .tc main_arg19) :=
  (after_of_forall_not_mem opsB (after opsA V0) nwB_arg19).trans (kA_arg19 V0)
theorem kC_arg19 : (after opsC (after opsB (after opsA V0))) (Proc.devRef .tc main_arg19) = V0 (Proc.devRef .tc main_arg19) :=
  (after_of_forall_not_mem opsC (after opsB (after opsA V0)) nwC_arg19).trans (kB_arg19 V0)
theorem kD_arg19 : (after opsD (after opsC (after opsB (after opsA V0)))) (Proc.devRef .tc main_arg19) = V0 (Proc.devRef .tc main_arg19) :=
  (after_of_forall_not_mem opsD (after opsC (after opsB (after opsA V0))) nwD_arg19).trans (kC_arg19 V0)
theorem kE_arg19 : (after opsE (after opsD (after opsC (after opsB (after opsA V0))))) (Proc.devRef .tc main_arg19) = V0 (Proc.devRef .tc main_arg19) :=
  (after_of_forall_not_mem opsE (after opsD (after opsC (after opsB (after opsA V0)))) nwE_arg19).trans (kD_arg19 V0)
theorem kF_arg19 : (after opsF (after opsE (after opsD (after opsC (after opsB (after opsA V0)))))) (Proc.devRef .tc main_arg19) = V0 (Proc.devRef .tc main_arg19) :=
  (after_of_forall_not_mem opsF (after opsE (after opsD (after opsC (after opsB (after opsA V0))))) nwF_arg19).trans (kE_arg19 V0)
theorem kA_arg20 : (after opsA V0) (Proc.devRef .tc main_arg20) = V0 (Proc.devRef .tc main_arg20) :=
  after_of_forall_not_mem opsA V0 nwA_arg20
theorem kB_arg20 : (after opsB (after opsA V0)) (Proc.devRef .tc main_arg20) = V0 (Proc.devRef .tc main_arg20) :=
  (after_of_forall_not_mem opsB (after opsA V0) nwB_arg20).trans (kA_arg20 V0)
theorem kC_arg20 : (after opsC (after opsB (after opsA V0))) (Proc.devRef .tc main_arg20) = V0 (Proc.devRef .tc main_arg20) :=
  (after_of_forall_not_mem opsC (after opsB (after opsA V0)) nwC_arg20).trans (kB_arg20 V0)
theorem kD_arg20 : (after opsD (after opsC (after opsB (after opsA V0)))) (Proc.devRef .tc main_arg20) = V0 (Proc.devRef .tc main_arg20) :=
  (after_of_forall_not_mem opsD (after opsC (after opsB (after opsA V0))) nwD_arg20).trans (kC_arg20 V0)
theorem kE_arg20 : (after opsE (after opsD (after opsC (after opsB (after opsA V0))))) (Proc.devRef .tc main_arg20) = V0 (Proc.devRef .tc main_arg20) :=
  (after_of_forall_not_mem opsE (after opsD (after opsC (after opsB (after opsA V0)))) nwE_arg20).trans (kD_arg20 V0)
theorem kF_arg20 : (after opsF (after opsE (after opsD (after opsC (after opsB (after opsA V0)))))) (Proc.devRef .tc main_arg20) = V0 (Proc.devRef .tc main_arg20) :=
  (after_of_forall_not_mem opsF (after opsE (after opsD (after opsC (after opsB (after opsA V0))))) nwF_arg20).trans (kE_arg20 V0)
theorem kA_arg21 : (after opsA V0) (Proc.devRef .tc main_arg21) = V0 (Proc.devRef .tc main_arg21) :=
  after_of_forall_not_mem opsA V0 nwA_arg21
theorem kB_arg21 : (after opsB (after opsA V0)) (Proc.devRef .tc main_arg21) = V0 (Proc.devRef .tc main_arg21) :=
  (after_of_forall_not_mem opsB (after opsA V0) nwB_arg21).trans (kA_arg21 V0)
theorem kC_arg21 : (after opsC (after opsB (after opsA V0))) (Proc.devRef .tc main_arg21) = V0 (Proc.devRef .tc main_arg21) :=
  (after_of_forall_not_mem opsC (after opsB (after opsA V0)) nwC_arg21).trans (kB_arg21 V0)
theorem kD_arg21 : (after opsD (after opsC (after opsB (after opsA V0)))) (Proc.devRef .tc main_arg21) = V0 (Proc.devRef .tc main_arg21) :=
  (after_of_forall_not_mem opsD (after opsC (after opsB (after opsA V0))) nwD_arg21).trans (kC_arg21 V0)
theorem kE_arg21 : (after opsE (after opsD (after opsC (after opsB (after opsA V0))))) (Proc.devRef .tc main_arg21) = V0 (Proc.devRef .tc main_arg21) :=
  (after_of_forall_not_mem opsE (after opsD (after opsC (after opsB (after opsA V0)))) nwE_arg21).trans (kD_arg21 V0)
theorem kF_arg21 : (after opsF (after opsE (after opsD (after opsC (after opsB (after opsA V0)))))) (Proc.devRef .tc main_arg21) = V0 (Proc.devRef .tc main_arg21) :=
  (after_of_forall_not_mem opsF (after opsE (after opsD (after opsC (after opsB (after opsA V0))))) nwF_arg21).trans (kE_arg21 V0)
theorem kA_arg22 : (after opsA V0) (Proc.devRef .tc main_arg22) = V0 (Proc.devRef .tc main_arg22) :=
  after_of_forall_not_mem opsA V0 nwA_arg22
theorem kB_arg22 : (after opsB (after opsA V0)) (Proc.devRef .tc main_arg22) = V0 (Proc.devRef .tc main_arg22) :=
  (after_of_forall_not_mem opsB (after opsA V0) nwB_arg22).trans (kA_arg22 V0)
theorem kC_arg22 : (after opsC (after opsB (after opsA V0))) (Proc.devRef .tc main_arg22) = V0 (Proc.devRef .tc main_arg22) :=
  (after_of_forall_not_mem opsC (after opsB (after opsA V0)) nwC_arg22).trans (kB_arg22 V0)
theorem kD_arg22 : (after opsD (after opsC (after opsB (after opsA V0)))) (Proc.devRef .tc main_arg22) = V0 (Proc.devRef .tc main_arg22) :=
  (after_of_forall_not_mem opsD (after opsC (after opsB (after opsA V0))) nwD_arg22).trans (kC_arg22 V0)
theorem kE_arg22 : (after opsE (after opsD (after opsC (after opsB (after opsA V0))))) (Proc.devRef .tc main_arg22) = V0 (Proc.devRef .tc main_arg22) :=
  (after_of_forall_not_mem opsE (after opsD (after opsC (after opsB (after opsA V0)))) nwE_arg22).trans (kD_arg22 V0)
theorem kF_arg22 : (after opsF (after opsE (after opsD (after opsC (after opsB (after opsA V0)))))) (Proc.devRef .tc main_arg22) = V0 (Proc.devRef .tc main_arg22) :=
  (after_of_forall_not_mem opsF (after opsE (after opsD (after opsC (after opsB (after opsA V0))))) nwF_arg22).trans (kE_arg22 V0)
theorem kA_arg23 : (after opsA V0) (Proc.devRef .tc main_arg23) = V0 (Proc.devRef .tc main_arg23) :=
  after_of_forall_not_mem opsA V0 nwA_arg23
theorem kB_arg23 : (after opsB (after opsA V0)) (Proc.devRef .tc main_arg23) = V0 (Proc.devRef .tc main_arg23) :=
  (after_of_forall_not_mem opsB (after opsA V0) nwB_arg23).trans (kA_arg23 V0)
theorem kC_arg23 : (after opsC (after opsB (after opsA V0))) (Proc.devRef .tc main_arg23) = V0 (Proc.devRef .tc main_arg23) :=
  (after_of_forall_not_mem opsC (after opsB (after opsA V0)) nwC_arg23).trans (kB_arg23 V0)
theorem kD_arg23 : (after opsD (after opsC (after opsB (after opsA V0)))) (Proc.devRef .tc main_arg23) = V0 (Proc.devRef .tc main_arg23) :=
  (after_of_forall_not_mem opsD (after opsC (after opsB (after opsA V0))) nwD_arg23).trans (kC_arg23 V0)
theorem kE_arg23 : (after opsE (after opsD (after opsC (after opsB (after opsA V0))))) (Proc.devRef .tc main_arg23) = V0 (Proc.devRef .tc main_arg23) :=
  (after_of_forall_not_mem opsE (after opsD (after opsC (after opsB (after opsA V0)))) nwE_arg23).trans (kD_arg23 V0)
theorem kF_arg23 : (after opsF (after opsE (after opsD (after opsC (after opsB (after opsA V0)))))) (Proc.devRef .tc main_arg23) = V0 (Proc.devRef .tc main_arg23) :=
  (after_of_forall_not_mem opsF (after opsE (after opsD (after opsC (after opsB (after opsA V0))))) nwF_arg23).trans (kE_arg23 V0)
theorem kA_arg24 : (after opsA V0) (Proc.devRef .tc main_arg24) = V0 (Proc.devRef .tc main_arg24) :=
  after_of_forall_not_mem opsA V0 nwA_arg24
theorem kB_arg24 : (after opsB (after opsA V0)) (Proc.devRef .tc main_arg24) = V0 (Proc.devRef .tc main_arg24) :=
  (after_of_forall_not_mem opsB (after opsA V0) nwB_arg24).trans (kA_arg24 V0)
theorem kC_arg24 : (after opsC (after opsB (after opsA V0))) (Proc.devRef .tc main_arg24) = V0 (Proc.devRef .tc main_arg24) :=
  (after_of_forall_not_mem opsC (after opsB (after opsA V0)) nwC_arg24).trans (kB_arg24 V0)
theorem kD_arg24 : (after opsD (after opsC (after opsB (after opsA V0)))) (Proc.devRef .tc main_arg24) = V0 (Proc.devRef .tc main_arg24) :=
  (after_of_forall_not_mem opsD (after opsC (after opsB (after opsA V0))) nwD_arg24).trans (kC_arg24 V0)
theorem kE_arg24 : (after opsE (after opsD (after opsC (after opsB (after opsA V0))))) (Proc.devRef .tc main_arg24) = V0 (Proc.devRef .tc main_arg24) :=
  (after_of_forall_not_mem opsE (after opsD (after opsC (after opsB (after opsA V0)))) nwE_arg24).trans (kD_arg24 V0)
theorem kF_arg24 : (after opsF (after opsE (after opsD (after opsC (after opsB (after opsA V0)))))) (Proc.devRef .tc main_arg24) = V0 (Proc.devRef .tc main_arg24) :=
  (after_of_forall_not_mem opsF (after opsE (after opsD (after opsC (after opsB (after opsA V0))))) nwF_arg24).trans (kE_arg24 V0)
theorem kA_arg25 : (after opsA V0) (Proc.devRef .tc main_arg25) = V0 (Proc.devRef .tc main_arg25) :=
  after_of_forall_not_mem opsA V0 nwA_arg25
theorem kB_arg25 : (after opsB (after opsA V0)) (Proc.devRef .tc main_arg25) = V0 (Proc.devRef .tc main_arg25) :=
  (after_of_forall_not_mem opsB (after opsA V0) nwB_arg25).trans (kA_arg25 V0)
theorem kC_arg25 : (after opsC (after opsB (after opsA V0))) (Proc.devRef .tc main_arg25) = V0 (Proc.devRef .tc main_arg25) :=
  (after_of_forall_not_mem opsC (after opsB (after opsA V0)) nwC_arg25).trans (kB_arg25 V0)
theorem kD_arg25 : (after opsD (after opsC (after opsB (after opsA V0)))) (Proc.devRef .tc main_arg25) = V0 (Proc.devRef .tc main_arg25) :=
  (after_of_forall_not_mem opsD (after opsC (after opsB (after opsA V0))) nwD_arg25).trans (kC_arg25 V0)
theorem kE_arg25 : (after opsE (after opsD (after opsC (after opsB (after opsA V0))))) (Proc.devRef .tc main_arg25) = V0 (Proc.devRef .tc main_arg25) :=
  (after_of_forall_not_mem opsE (after opsD (after opsC (after opsB (after opsA V0)))) nwE_arg25).trans (kD_arg25 V0)
theorem kF_arg25 : (after opsF (after opsE (after opsD (after opsC (after opsB (after opsA V0)))))) (Proc.devRef .tc main_arg25) = V0 (Proc.devRef .tc main_arg25) :=
  (after_of_forall_not_mem opsF (after opsE (after opsD (after opsC (after opsB (after opsA V0))))) nwF_arg25).trans (kE_arg25 V0)
theorem kA_arg26 : (after opsA V0) (Proc.devRef .tc main_arg26) = V0 (Proc.devRef .tc main_arg26) :=
  after_of_forall_not_mem opsA V0 nwA_arg26
theorem kB_arg26 : (after opsB (after opsA V0)) (Proc.devRef .tc main_arg26) = V0 (Proc.devRef .tc main_arg26) :=
  (after_of_forall_not_mem opsB (after opsA V0) nwB_arg26).trans (kA_arg26 V0)
theorem kC_arg26 : (after opsC (after opsB (after opsA V0))) (Proc.devRef .tc main_arg26) = V0 (Proc.devRef .tc main_arg26) :=
  (after_of_forall_not_mem opsC (after opsB (after opsA V0)) nwC_arg26).trans (kB_arg26 V0)
theorem kD_arg26 : (after opsD (after opsC (after opsB (after opsA V0)))) (Proc.devRef .tc main_arg26) = V0 (Proc.devRef .tc main_arg26) :=
  (after_of_forall_not_mem opsD (after opsC (after opsB (after opsA V0))) nwD_arg26).trans (kC_arg26 V0)
theorem kE_arg26 : (after opsE (after opsD (after opsC (after opsB (after opsA V0))))) (Proc.devRef .tc main_arg26) = V0 (Proc.devRef .tc main_arg26) :=
  (after_of_forall_not_mem opsE (after opsD (after opsC (after opsB (after opsA V0)))) nwE_arg26).trans (kD_arg26 V0)
theorem kF_arg26 : (after opsF (after opsE (after opsD (after opsC (after opsB (after opsA V0)))))) (Proc.devRef .tc main_arg26) = V0 (Proc.devRef .tc main_arg26) :=
  (after_of_forall_not_mem opsF (after opsE (after opsD (after opsC (after opsB (after opsA V0))))) nwF_arg26).trans (kE_arg26 V0)
theorem kA_arg27 : (after opsA V0) (Proc.devRef .tc main_arg27) = V0 (Proc.devRef .tc main_arg27) :=
  after_of_forall_not_mem opsA V0 nwA_arg27
theorem kB_arg27 : (after opsB (after opsA V0)) (Proc.devRef .tc main_arg27) = V0 (Proc.devRef .tc main_arg27) :=
  (after_of_forall_not_mem opsB (after opsA V0) nwB_arg27).trans (kA_arg27 V0)
theorem kC_arg27 : (after opsC (after opsB (after opsA V0))) (Proc.devRef .tc main_arg27) = V0 (Proc.devRef .tc main_arg27) :=
  (after_of_forall_not_mem opsC (after opsB (after opsA V0)) nwC_arg27).trans (kB_arg27 V0)
theorem kD_arg27 : (after opsD (after opsC (after opsB (after opsA V0)))) (Proc.devRef .tc main_arg27) = V0 (Proc.devRef .tc main_arg27) :=
  (after_of_forall_not_mem opsD (after opsC (after opsB (after opsA V0))) nwD_arg27).trans (kC_arg27 V0)
theorem kE_arg27 : (after opsE (after opsD (after opsC (after opsB (after opsA V0))))) (Proc.devRef .tc main_arg27) = V0 (Proc.devRef .tc main_arg27) :=
  (after_of_forall_not_mem opsE (after opsD (after opsC (after opsB (after opsA V0)))) nwE_arg27).trans (kD_arg27 V0)
theorem kF_arg27 : (after opsF (after opsE (after opsD (after opsC (after opsB (after opsA V0)))))) (Proc.devRef .tc main_arg27) = V0 (Proc.devRef .tc main_arg27) :=
  (after_of_forall_not_mem opsF (after opsE (after opsD (after opsC (after opsB (after opsA V0))))) nwF_arg27).trans (kE_arg27 V0)
theorem kA_arg28 : (after opsA V0) (Proc.devRef .tc main_arg28) = V0 (Proc.devRef .tc main_arg28) :=
  after_of_forall_not_mem opsA V0 nwA_arg28
theorem kB_arg28 : (after opsB (after opsA V0)) (Proc.devRef .tc main_arg28) = V0 (Proc.devRef .tc main_arg28) :=
  (after_of_forall_not_mem opsB (after opsA V0) nwB_arg28).trans (kA_arg28 V0)
theorem kC_arg28 : (after opsC (after opsB (after opsA V0))) (Proc.devRef .tc main_arg28) = V0 (Proc.devRef .tc main_arg28) :=
  (after_of_forall_not_mem opsC (after opsB (after opsA V0)) nwC_arg28).trans (kB_arg28 V0)
theorem kD_arg28 : (after opsD (after opsC (after opsB (after opsA V0)))) (Proc.devRef .tc main_arg28) = V0 (Proc.devRef .tc main_arg28) :=
  (after_of_forall_not_mem opsD (after opsC (after opsB (after opsA V0))) nwD_arg28).trans (kC_arg28 V0)
theorem kE_arg28 : (after opsE (after opsD (after opsC (after opsB (after opsA V0))))) (Proc.devRef .tc main_arg28) = V0 (Proc.devRef .tc main_arg28) :=
  (after_of_forall_not_mem opsE (after opsD (after opsC (after opsB (after opsA V0)))) nwE_arg28).trans (kD_arg28 V0)
theorem kF_arg28 : (after opsF (after opsE (after opsD (after opsC (after opsB (after opsA V0)))))) (Proc.devRef .tc main_arg28) = V0 (Proc.devRef .tc main_arg28) :=
  (after_of_forall_not_mem opsF (after opsE (after opsD (after opsC (after opsB (after opsA V0))))) nwF_arg28).trans (kE_arg28 V0)
theorem kA_arg29 : (after opsA V0) (Proc.devRef .tc main_arg29) = V0 (Proc.devRef .tc main_arg29) :=
  after_of_forall_not_mem opsA V0 nwA_arg29
theorem kB_arg29 : (after opsB (after opsA V0)) (Proc.devRef .tc main_arg29) = V0 (Proc.devRef .tc main_arg29) :=
  (after_of_forall_not_mem opsB (after opsA V0) nwB_arg29).trans (kA_arg29 V0)
theorem kC_arg29 : (after opsC (after opsB (after opsA V0))) (Proc.devRef .tc main_arg29) = V0 (Proc.devRef .tc main_arg29) :=
  (after_of_forall_not_mem opsC (after opsB (after opsA V0)) nwC_arg29).trans (kB_arg29 V0)
theorem kD_arg29 : (after opsD (after opsC (after opsB (after opsA V0)))) (Proc.devRef .tc main_arg29) = V0 (Proc.devRef .tc main_arg29) :=
  (after_of_forall_not_mem opsD (after opsC (after opsB (after opsA V0))) nwD_arg29).trans (kC_arg29 V0)
theorem kE_arg29 : (after opsE (after opsD (after opsC (after opsB (after opsA V0))))) (Proc.devRef .tc main_arg29) = V0 (Proc.devRef .tc main_arg29) :=
  (after_of_forall_not_mem opsE (after opsD (after opsC (after opsB (after opsA V0)))) nwE_arg29).trans (kD_arg29 V0)
theorem kF_arg29 : (after opsF (after opsE (after opsD (after opsC (after opsB (after opsA V0)))))) (Proc.devRef .tc main_arg29) = V0 (Proc.devRef .tc main_arg29) :=
  (after_of_forall_not_mem opsF (after opsE (after opsD (after opsC (after opsB (after opsA V0))))) nwF_arg29).trans (kE_arg29 V0)

/-! ## The values alive at each cut -/

theorem cutA_v49 : (after opsA V0) (Proc.devRef .tc main_v49) = Cert.ReferenceIdeal.Read.val_main_v49 (F := Ideal) (V0 (Proc.devRef .tc main_arg0)) (V0 (Proc.devRef .tc main_arg2)) := stageA_v49 V0 (V0 (Proc.devRef .tc main_arg0)) (V0 (Proc.devRef .tc main_arg2)) rfl rfl
theorem cutA_v56 : (after opsA V0) (Proc.devRef .tc main_v56) = Cert.ReferenceIdeal.Read.val_main_v56 (F := Ideal) (V0 (Proc.devRef .tc main_arg0)) (V0 (Proc.devRef .tc main_arg2)) := stageA_v56 V0 (V0 (Proc.devRef .tc main_arg0)) (V0 (Proc.devRef .tc main_arg2)) rfl rfl
theorem cutA_v57 : (after opsA V0) (Proc.devRef .tc main_v57) = Cert.ReferenceIdeal.Read.val_main_v57 (F := Ideal) (V0 (Proc.devRef .tc main_arg0)) (V0 (Proc.devRef .tc main_arg2)) (V0 (Proc.devRef .tc main_arg3)) (V0 (Proc.devRef .tc main_arg4)) (V0 (Proc.devRef .tc main_arg6)) (V0 (Proc.devRef .tc main_arg7)) := stageA_v57 V0 (V0 (Proc.devRef .tc main_arg0)) (V0 (Proc.devRef .tc main_arg2)) (V0 (Proc.devRef .tc main_arg3)) (V0 (Proc.devRef .tc main_arg4)) (V0 (Proc.devRef .tc main_arg6)) (V0 (Proc.devRef .tc main_arg7)) rfl rfl rfl rfl rfl rfl
theorem cutA_v42 : (after opsA V0) (Proc.devRef .tc main_v42) = Cert.ReferenceIdeal.Read.val_main_v42 (F := Ideal) (V0 (Proc.devRef .tc main_arg0)) (V0 (Proc.devRef .tc main_arg2)) (V0 (Proc.devRef .tc main_arg3)) (V0 (Proc.devRef .tc main_arg4)) (V0 (Proc.devRef .tc main_arg6)) (V0 (Proc.devRef .tc main_arg7)) := stageA_v42 V0 (V0 (Proc.devRef .tc main_arg0)) (V0 (Proc.devRef .tc main_arg2)) (V0 (Proc.devRef .tc main_arg3)) (V0 (Proc.devRef .tc main_arg4)) (V0 (Proc.devRef .tc main_arg6)) (V0 (Proc.devRef .tc main_arg7)) rfl rfl rfl rfl rfl rfl
theorem cutA_v1 : (after opsA V0) (Proc.devRef .tc main_v1) = Cert.ReferenceIdeal.Read.val_main_v1 (F := Ideal) (V0 (Proc.devRef .tc main_arg2)) := stageA_v1 V0 (V0 (Proc.devRef .tc main_arg2)) rfl
theorem cutA_v3 : (after opsA V0) (Proc.devRef .tc main_v3) = Cert.ReferenceIdeal.Read.val_main_v3 (F := Ideal) (V0 (Proc.devRef .tc main_arg2)) := stageA_v3 V0 (V0 (Proc.devRef .tc main_arg2)) rfl

theorem cutB_v67 : (after opsB (after opsA V0)) (Proc.devRef .tc main_v67) = Cert.ReferenceIdeal.Read.val_main_v67 (F := Ideal) (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) :=
  stageB_v67 (after opsA V0) (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) (cutA_v49 V0) (cutA_v56 V0) (kA_arg1 V0) (cutA_v57 V0) (cutA_v42 V0) (kA_arg8 V0) (kA_arg9 V0) (kA_arg10 V0) (kA_arg11 V0)
theorem cutB_v1 : (after opsB (after opsA V0)) (Proc.devRef .tc main_v1) = Cert.ReferenceIdeal.Read.val_main_v1 (F := Ideal) (V0 (Proc.devRef .tc main_arg2)) :=
  (after_of_forall_not_mem opsB (after opsA V0) nwB_v1).trans (cutA_v1 V0)
theorem cutB_v3 : (after opsB (after opsA V0)) (Proc.devRef .tc main_v3) = Cert.ReferenceIdeal.Read.val_main_v3 (F := Ideal) (V0 (Proc.devRef .tc main_arg2)) :=
  (after_of_forall_not_mem opsB (after opsA V0) nwB_v3).trans (cutA_v3 V0)

theorem cutC_v78 : (after opsC (after opsB (after opsA V0))) (Proc.devRef .tc main_v78) = Cert.ReferenceIdeal.Read.val_main_v78 (F := Ideal) (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) :=
  stageC_v78 (after opsB (after opsA V0)) (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) (cutB_v67 V0) (cutB_v3 V0)
theorem cutC_v1 : (after opsC (after opsB (after opsA V0))) (Proc.devRef .tc main_v1) = Cert.ReferenceIdeal.Read.val_main_v1 (F := Ideal) (V0 (Proc.devRef .tc main_arg2)) :=
  (after_of_forall_not_mem opsC (after opsB (after opsA V0)) nwC_v1).trans (cutB_v1 V0)
theorem cutC_v3 : (after opsC (after opsB (after opsA V0))) (Proc.devRef .tc main_v3) = Cert.ReferenceIdeal.Read.val_main_v3 (F := Ideal) (V0 (Proc.devRef .tc main_arg2)) :=
  (after_of_forall_not_mem opsC (after opsB (after opsA V0)) nwC_v3).trans (cutB_v3 V0)

theorem cutD_v148 : (after opsD (after opsC (after opsB (after opsA V0)))) (Proc.devRef .tc main_v148) = Cert.ReferenceIdeal.Read.val_main_v148 (F := Ideal) (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) (V0 (Proc.devRef .tc main_arg12)) (V0 (Proc.devRef .tc main_arg13)) (V0 (Proc.devRef .tc main_arg14)) (V0 (Proc.devRef .tc main_arg15)) (V0 (Proc.devRef .tc main_arg16)) (V0 (Proc.devRef .tc main_arg17)) (V0 (Proc.devRef .tc main_arg18)) (V0 (Proc.devRef .tc main_arg19)) (V0 (Proc.devRef .tc main_arg20)) (V0 (Proc.devRef .tc main_arg21)) :=
  stageD_v148 (after opsC (after opsB (after opsA V0))) (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) (V0 (Proc.devRef .tc main_arg12)) (V0 (Proc.devRef .tc main_arg13)) (V0 (Proc.devRef .tc main_arg14)) (V0 (Proc.devRef .tc main_arg15)) (V0 (Proc.devRef .tc main_arg16)) (V0 (Proc.devRef .tc main_arg17)) (V0 (Proc.devRef .tc main_arg18)) (V0 (Proc.devRef .tc main_arg19)) (V0 (Proc.devRef .tc main_arg20)) (V0 (Proc.devRef .tc main_arg21)) (cutC_v78 V0) (kC_arg0 V0) (kC_arg5 V0) (kC_arg12 V0) (kC_arg13 V0) (kC_arg14 V0) (kC_arg15 V0) (kC_arg16 V0) (kC_arg17 V0) (kC_arg18 V0) (kC_arg19 V0) (kC_arg20 V0) (kC_arg21 V0)
theorem cutD_v152 : (after opsD (after opsC (after opsB (after opsA V0)))) (Proc.devRef .tc main_v152) = Cert.ReferenceIdeal.Read.val_main_v152 (F := Ideal) (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) (V0 (Proc.devRef .tc main_arg12)) (V0 (Proc.devRef .tc main_arg13)) (V0 (Proc.devRef .tc main_arg14)) (V0 (Proc.devRef .tc main_arg15)) (V0 (Proc.devRef .tc main_arg16)) (V0 (Proc.devRef .tc main_arg17)) (V0 (Proc.devRef .tc main_arg18)) (V0 (Proc.devRef .tc main_arg19)) (V0 (Proc.devRef .tc main_arg20)) (V0 (Proc.devRef .tc main_arg21)) (V0 (Proc.devRef .tc main_arg22)) (V0 (Proc.devRef .tc main_arg23)) :=
  stageD_v152 (after opsC (after opsB (after opsA V0))) (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) (V0 (Proc.devRef .tc main_arg12)) (V0 (Proc.devRef .tc main_arg13)) (V0 (Proc.devRef .tc main_arg14)) (V0 (Proc.devRef .tc main_arg15)) (V0 (Proc.devRef .tc main_arg16)) (V0 (Proc.devRef .tc main_arg17)) (V0 (Proc.devRef .tc main_arg18)) (V0 (Proc.devRef .tc main_arg19)) (V0 (Proc.devRef .tc main_arg20)) (V0 (Proc.devRef .tc main_arg21)) (V0 (Proc.devRef .tc main_arg22)) (V0 (Proc.devRef .tc main_arg23)) (cutC_v78 V0) (kC_arg0 V0) (kC_arg5 V0) (kC_arg12 V0) (kC_arg13 V0) (kC_arg14 V0) (kC_arg15 V0) (kC_arg16 V0) (kC_arg17 V0) (kC_arg18 V0) (kC_arg19 V0) (kC_arg20 V0) (kC_arg21 V0) (kC_arg22 V0) (kC_arg23 V0)
theorem cutD_v1 : (after opsD (after opsC (after opsB (after opsA V0)))) (Proc.devRef .tc main_v1) = Cert.ReferenceIdeal.Read.val_main_v1 (F := Ideal) (V0 (Proc.devRef .tc main_arg2)) :=
  (after_of_forall_not_mem opsD (after opsC (after opsB (after opsA V0))) nwD_v1).trans (cutC_v1 V0)
theorem cutD_v3 : (after opsD (after opsC (after opsB (after opsA V0)))) (Proc.devRef .tc main_v3) = Cert.ReferenceIdeal.Read.val_main_v3 (F := Ideal) (V0 (Proc.devRef .tc main_arg2)) :=
  (after_of_forall_not_mem opsD (after opsC (after opsB (after opsA V0))) nwD_v3).trans (cutC_v3 V0)

theorem cutE_v159 : (after opsE (after opsD (after opsC (after opsB (after opsA V0))))) (Proc.devRef .tc main_v159) = Cert.ReferenceIdeal.Read.val_main_v159 (F := Ideal) (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) (V0 (Proc.devRef .tc main_arg12)) (V0 (Proc.devRef .tc main_arg13)) (V0 (Proc.devRef .tc main_arg14)) (V0 (Proc.devRef .tc main_arg15)) (V0 (Proc.devRef .tc main_arg16)) (V0 (Proc.devRef .tc main_arg17)) (V0 (Proc.devRef .tc main_arg18)) (V0 (Proc.devRef .tc main_arg19)) (V0 (Proc.devRef .tc main_arg20)) (V0 (Proc.devRef .tc main_arg21)) (V0 (Proc.devRef .tc main_arg22)) (V0 (Proc.devRef .tc main_arg23)) :=
  stageE_v159 (after opsD (after opsC (after opsB (after opsA V0)))) (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) (V0 (Proc.devRef .tc main_arg12)) (V0 (Proc.devRef .tc main_arg13)) (V0 (Proc.devRef .tc main_arg14)) (V0 (Proc.devRef .tc main_arg15)) (V0 (Proc.devRef .tc main_arg16)) (V0 (Proc.devRef .tc main_arg17)) (V0 (Proc.devRef .tc main_arg18)) (V0 (Proc.devRef .tc main_arg19)) (V0 (Proc.devRef .tc main_arg20)) (V0 (Proc.devRef .tc main_arg21)) (V0 (Proc.devRef .tc main_arg22)) (V0 (Proc.devRef .tc main_arg23)) (cutD_v152 V0) (cutD_v1 V0)
theorem cutE_v166 : (after opsE (after opsD (after opsC (after opsB (after opsA V0))))) (Proc.devRef .tc main_v166) = Cert.ReferenceIdeal.Read.val_main_v166 (F := Ideal) (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) (V0 (Proc.devRef .tc main_arg12)) (V0 (Proc.devRef .tc main_arg13)) (V0 (Proc.devRef .tc main_arg14)) (V0 (Proc.devRef .tc main_arg15)) (V0 (Proc.devRef .tc main_arg16)) (V0 (Proc.devRef .tc main_arg17)) (V0 (Proc.devRef .tc main_arg18)) (V0 (Proc.devRef .tc main_arg19)) (V0 (Proc.devRef .tc main_arg20)) (V0 (Proc.devRef .tc main_arg21)) (V0 (Proc.devRef .tc main_arg22)) (V0 (Proc.devRef .tc main_arg23)) :=
  stageE_v166 (after opsD (after opsC (after opsB (after opsA V0)))) (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) (V0 (Proc.devRef .tc main_arg12)) (V0 (Proc.devRef .tc main_arg13)) (V0 (Proc.devRef .tc main_arg14)) (V0 (Proc.devRef .tc main_arg15)) (V0 (Proc.devRef .tc main_arg16)) (V0 (Proc.devRef .tc main_arg17)) (V0 (Proc.devRef .tc main_arg18)) (V0 (Proc.devRef .tc main_arg19)) (V0 (Proc.devRef .tc main_arg20)) (V0 (Proc.devRef .tc main_arg21)) (V0 (Proc.devRef .tc main_arg22)) (V0 (Proc.devRef .tc main_arg23)) (cutD_v152 V0) (cutD_v3 V0)
theorem cutE_v148 : (after opsE (after opsD (after opsC (after opsB (after opsA V0))))) (Proc.devRef .tc main_v148) = Cert.ReferenceIdeal.Read.val_main_v148 (F := Ideal) (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) (V0 (Proc.devRef .tc main_arg12)) (V0 (Proc.devRef .tc main_arg13)) (V0 (Proc.devRef .tc main_arg14)) (V0 (Proc.devRef .tc main_arg15)) (V0 (Proc.devRef .tc main_arg16)) (V0 (Proc.devRef .tc main_arg17)) (V0 (Proc.devRef .tc main_arg18)) (V0 (Proc.devRef .tc main_arg19)) (V0 (Proc.devRef .tc main_arg20)) (V0 (Proc.devRef .tc main_arg21)) :=
  (after_of_forall_not_mem opsE (after opsD (after opsC (after opsB (after opsA V0)))) nwE_v148).trans (cutD_v148 V0)

theorem cutF_v200 : (after opsF (after opsE (after opsD (after opsC (after opsB (after opsA V0)))))) (Proc.devRef .tc main_v200) = Cert.ReferenceIdeal.Read.val_main_v200 (F := Ideal) (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) (V0 (Proc.devRef .tc main_arg12)) (V0 (Proc.devRef .tc main_arg13)) (V0 (Proc.devRef .tc main_arg14)) (V0 (Proc.devRef .tc main_arg15)) (V0 (Proc.devRef .tc main_arg16)) (V0 (Proc.devRef .tc main_arg17)) (V0 (Proc.devRef .tc main_arg18)) (V0 (Proc.devRef .tc main_arg19)) (V0 (Proc.devRef .tc main_arg20)) (V0 (Proc.devRef .tc main_arg21)) (V0 (Proc.devRef .tc main_arg22)) (V0 (Proc.devRef .tc main_arg23)) (V0 (Proc.devRef .tc main_arg24)) (V0 (Proc.devRef .tc main_arg25)) (V0 (Proc.devRef .tc main_arg26)) (V0 (Proc.devRef .tc main_arg27)) (V0 (Proc.devRef .tc main_arg28)) (V0 (Proc.devRef .tc main_arg29)) :=
  stageF_v200 (after opsE (after opsD (after opsC (after opsB (after opsA V0))))) (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) (V0 (Proc.devRef .tc main_arg12)) (V0 (Proc.devRef .tc main_arg13)) (V0 (Proc.devRef .tc main_arg14)) (V0 (Proc.devRef .tc main_arg15)) (V0 (Proc.devRef .tc main_arg16)) (V0 (Proc.devRef .tc main_arg17)) (V0 (Proc.devRef .tc main_arg18)) (V0 (Proc.devRef .tc main_arg19)) (V0 (Proc.devRef .tc main_arg20)) (V0 (Proc.devRef .tc main_arg21)) (V0 (Proc.devRef .tc main_arg22)) (V0 (Proc.devRef .tc main_arg23)) (V0 (Proc.devRef .tc main_arg24)) (V0 (Proc.devRef .tc main_arg25)) (V0 (Proc.devRef .tc main_arg26)) (V0 (Proc.devRef .tc main_arg27)) (V0 (Proc.devRef .tc main_arg28)) (V0 (Proc.devRef .tc main_arg29)) (cutE_v159 V0) (cutE_v166 V0) (kE_arg1 V0) (kE_arg24 V0) (kE_arg25 V0) (kE_arg26 V0) (kE_arg27 V0) (kE_arg28 V0) (kE_arg29 V0)
theorem cutF_v148 : (after opsF (after opsE (after opsD (after opsC (after opsB (after opsA V0)))))) (Proc.devRef .tc main_v148) = Cert.ReferenceIdeal.Read.val_main_v148 (F := Ideal) (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) (V0 (Proc.devRef .tc main_arg12)) (V0 (Proc.devRef .tc main_arg13)) (V0 (Proc.devRef .tc main_arg14)) (V0 (Proc.devRef .tc main_arg15)) (V0 (Proc.devRef .tc main_arg16)) (V0 (Proc.devRef .tc main_arg17)) (V0 (Proc.devRef .tc main_arg18)) (V0 (Proc.devRef .tc main_arg19)) (V0 (Proc.devRef .tc main_arg20)) (V0 (Proc.devRef .tc main_arg21)) :=
  (after_of_forall_not_mem opsF (after opsE (after opsD (after opsC (after opsB (after opsA V0))))) nwF_v148).trans (cutE_v148 V0)

/-! ## The whole line -/

theorem after_ops : after (ops (F := Ideal)) V0 = (after opsF (after opsE (after opsD (after opsC (after opsB (after opsA V0)))))) := by
  show after (opsA ++ (opsB ++ (opsC ++ (opsD ++ (opsE ++ opsF))))) V0 = _
  rw [after_append, after_append, after_append, after_append, after_append]

theorem total_node : after (ops (F := Ideal)) V0 (Proc.devRef .tc main_v148) = Cert.ReferenceIdeal.Read.val_main_v148 (F := Ideal) (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) (V0 (Proc.devRef .tc main_arg12)) (V0 (Proc.devRef .tc main_arg13)) (V0 (Proc.devRef .tc main_arg14)) (V0 (Proc.devRef .tc main_arg15)) (V0 (Proc.devRef .tc main_arg16)) (V0 (Proc.devRef .tc main_arg17)) (V0 (Proc.devRef .tc main_arg18)) (V0 (Proc.devRef .tc main_arg19)) (V0 (Proc.devRef .tc main_arg20)) (V0 (Proc.devRef .tc main_arg21)) := by
  rw [after_ops]; exact cutF_v148 V0
theorem total_edge : after (ops (F := Ideal)) V0 (Proc.devRef .tc main_v200) = Cert.ReferenceIdeal.Read.val_main_v200 (F := Ideal) (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) (V0 (Proc.devRef .tc main_arg12)) (V0 (Proc.devRef .tc main_arg13)) (V0 (Proc.devRef .tc main_arg14)) (V0 (Proc.devRef .tc main_arg15)) (V0 (Proc.devRef .tc main_arg16)) (V0 (Proc.devRef .tc main_arg17)) (V0 (Proc.devRef .tc main_arg18)) (V0 (Proc.devRef .tc main_arg19)) (V0 (Proc.devRef .tc main_arg20)) (V0 (Proc.devRef .tc main_arg21)) (V0 (Proc.devRef .tc main_arg22)) (V0 (Proc.devRef .tc main_arg23)) (V0 (Proc.devRef .tc main_arg24)) (V0 (Proc.devRef .tc main_arg25)) (V0 (Proc.devRef .tc main_arg26)) (V0 (Proc.devRef .tc main_arg27)) (V0 (Proc.devRef .tc main_arg28)) (V0 (Proc.devRef .tc main_arg29)) := by
  rw [after_ops]; exact cutF_v200 V0
theorem total_arg0 : after (ops (F := Ideal)) V0 (Proc.devRef .tc main_arg0) = V0 (Proc.devRef .tc main_arg0) := by
  rw [after_ops]; exact kF_arg0 V0
theorem total_arg1 : after (ops (F := Ideal)) V0 (Proc.devRef .tc main_arg1) = V0 (Proc.devRef .tc main_arg1) := by
  rw [after_ops]; exact kF_arg1 V0
theorem total_arg2 : after (ops (F := Ideal)) V0 (Proc.devRef .tc main_arg2) = V0 (Proc.devRef .tc main_arg2) := by
  rw [after_ops]; exact kF_arg2 V0
theorem total_arg3 : after (ops (F := Ideal)) V0 (Proc.devRef .tc main_arg3) = V0 (Proc.devRef .tc main_arg3) := by
  rw [after_ops]; exact kF_arg3 V0
theorem total_arg4 : after (ops (F := Ideal)) V0 (Proc.devRef .tc main_arg4) = V0 (Proc.devRef .tc main_arg4) := by
  rw [after_ops]; exact kF_arg4 V0
theorem total_arg5 : after (ops (F := Ideal)) V0 (Proc.devRef .tc main_arg5) = V0 (Proc.devRef .tc main_arg5) := by
  rw [after_ops]; exact kF_arg5 V0
theorem total_arg6 : after (ops (F := Ideal)) V0 (Proc.devRef .tc main_arg6) = V0 (Proc.devRef .tc main_arg6) := by
  rw [after_ops]; exact kF_arg6 V0
theorem total_arg7 : after (ops (F := Ideal)) V0 (Proc.devRef .tc main_arg7) = V0 (Proc.devRef .tc main_arg7) := by
  rw [after_ops]; exact kF_arg7 V0
theorem total_arg8 : after (ops (F := Ideal)) V0 (Proc.devRef .tc main_arg8) = V0 (Proc.devRef .tc main_arg8) := by
  rw [after_ops]; exact kF_arg8 V0
theorem total_arg9 : after (ops (F := Ideal)) V0 (Proc.devRef .tc main_arg9) = V0 (Proc.devRef .tc main_arg9) := by
  rw [after_ops]; exact kF_arg9 V0
theorem total_arg10 : after (ops (F := Ideal)) V0 (Proc.devRef .tc main_arg10) = V0 (Proc.devRef .tc main_arg10) := by
  rw [after_ops]; exact kF_arg10 V0
theorem total_arg11 : after (ops (F := Ideal)) V0 (Proc.devRef .tc main_arg11) = V0 (Proc.devRef .tc main_arg11) := by
  rw [after_ops]; exact kF_arg11 V0
theorem total_arg12 : after (ops (F := Ideal)) V0 (Proc.devRef .tc main_arg12) = V0 (Proc.devRef .tc main_arg12) := by
  rw [after_ops]; exact kF_arg12 V0
theorem total_arg13 : after (ops (F := Ideal)) V0 (Proc.devRef .tc main_arg13) = V0 (Proc.devRef .tc main_arg13) := by
  rw [after_ops]; exact kF_arg13 V0
theorem total_arg14 : after (ops (F := Ideal)) V0 (Proc.devRef .tc main_arg14) = V0 (Proc.devRef .tc main_arg14) := by
  rw [after_ops]; exact kF_arg14 V0
theorem total_arg15 : after (ops (F := Ideal)) V0 (Proc.devRef .tc main_arg15) = V0 (Proc.devRef .tc main_arg15) := by
  rw [after_ops]; exact kF_arg15 V0
theorem total_arg16 : after (ops (F := Ideal)) V0 (Proc.devRef .tc main_arg16) = V0 (Proc.devRef .tc main_arg16) := by
  rw [after_ops]; exact kF_arg16 V0
theorem total_arg17 : after (ops (F := Ideal)) V0 (Proc.devRef .tc main_arg17) = V0 (Proc.devRef .tc main_arg17) := by
  rw [after_ops]; exact kF_arg17 V0
theorem total_arg18 : after (ops (F := Ideal)) V0 (Proc.devRef .tc main_arg18) = V0 (Proc.devRef .tc main_arg18) := by
  rw [after_ops]; exact kF_arg18 V0
theorem total_arg19 : after (ops (F := Ideal)) V0 (Proc.devRef .tc main_arg19) = V0 (Proc.devRef .tc main_arg19) := by
  rw [after_ops]; exact kF_arg19 V0
theorem total_arg20 : after (ops (F := Ideal)) V0 (Proc.devRef .tc main_arg20) = V0 (Proc.devRef .tc main_arg20) := by
  rw [after_ops]; exact kF_arg20 V0
theorem total_arg21 : after (ops (F := Ideal)) V0 (Proc.devRef .tc main_arg21) = V0 (Proc.devRef .tc main_arg21) := by
  rw [after_ops]; exact kF_arg21 V0
theorem total_arg22 : after (ops (F := Ideal)) V0 (Proc.devRef .tc main_arg22) = V0 (Proc.devRef .tc main_arg22) := by
  rw [after_ops]; exact kF_arg22 V0
theorem total_arg23 : after (ops (F := Ideal)) V0 (Proc.devRef .tc main_arg23) = V0 (Proc.devRef .tc main_arg23) := by
  rw [after_ops]; exact kF_arg23 V0
theorem total_arg24 : after (ops (F := Ideal)) V0 (Proc.devRef .tc main_arg24) = V0 (Proc.devRef .tc main_arg24) := by
  rw [after_ops]; exact kF_arg24 V0
theorem total_arg25 : after (ops (F := Ideal)) V0 (Proc.devRef .tc main_arg25) = V0 (Proc.devRef .tc main_arg25) := by
  rw [after_ops]; exact kF_arg25 V0
theorem total_arg26 : after (ops (F := Ideal)) V0 (Proc.devRef .tc main_arg26) = V0 (Proc.devRef .tc main_arg26) := by
  rw [after_ops]; exact kF_arg26 V0
theorem total_arg27 : after (ops (F := Ideal)) V0 (Proc.devRef .tc main_arg27) = V0 (Proc.devRef .tc main_arg27) := by
  rw [after_ops]; exact kF_arg27 V0
theorem total_arg28 : after (ops (F := Ideal)) V0 (Proc.devRef .tc main_arg28) = V0 (Proc.devRef .tc main_arg28) := by
  rw [after_ops]; exact kF_arg28 V0
theorem total_arg29 : after (ops (F := Ideal)) V0 (Proc.devRef .tc main_arg29) = V0 (Proc.devRef .tc main_arg29) := by
  rw [after_ops]; exact kF_arg29 V0

/-- Every weakly fair execution of the reference terminates; the node result and the edge result end at the
    reference's two final stages of the launch arguments, and every argument ends as launched. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v148) = Cert.ReferenceIdeal.Read.val_main_v148 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21))
      ∧ r.2.mem ((c.tc : Thread nD τ).loc main_v200) = Cert.ReferenceIdeal.Read.val_main_v200 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25)) (m ((c.tc : Thread nD τ).loc main_arg26)) (m ((c.tc : Thread nD τ).loc main_arg27)) (m ((c.tc : Thread nD τ).loc main_arg28)) (m ((c.tc : Thread nD τ).loc main_arg29))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)
      ∧ r.2.mem ((c.tc : Thread nD τ).loc main_arg28) = m ((c.tc : Thread nD τ).loc main_arg28)
      ∧ r.2.mem ((c.tc : Thread nD τ).loc main_arg29) = m ((c.tc : Thread nD τ).loc main_arg29) :=
  (θ_run defs _ _).mono (fun _ h c => ⟨(h c main_v148).trans (total_node (launchContents m c)),
      (h c main_v200).trans (total_edge (launchContents m c)),
      (h c main_arg0).trans (total_arg0 (launchContents m c)),
      (h c main_arg1).trans (total_arg1 (launchContents m c)),
      (h c main_arg2).trans (total_arg2 (launchContents m c)),
      (h c main_arg3).trans (total_arg3 (launchContents m c)),
      (h c main_arg4).trans (total_arg4 (launchContents m c)),
      (h c main_arg5).trans (total_arg5 (launchContents m c)),
      (h c main_arg6).trans (total_arg6 (launchContents m c)),
      (h c main_arg7).trans (total_arg7 (launchContents m c)),
      (h c main_arg8).trans (total_arg8 (launchContents m c)),
      (h c main_arg9).trans (total_arg9 (launchContents m c)),
      (h c main_arg10).trans (total_arg10 (launchContents m c)),
      (h c main_arg11).trans (total_arg11 (launchContents m c)),
      (h c main_arg12).trans (total_arg12 (launchContents m c)),
      (h c main_arg13).trans (total_arg13 (launchContents m c)),
      (h c main_arg14).trans (total_arg14 (launchContents m c)),
      (h c main_arg15).trans (total_arg15 (launchContents m c)),
      (h c main_arg16).trans (total_arg16 (launchContents m c)),
      (h c main_arg17).trans (total_arg17 (launchContents m c)),
      (h c main_arg18).trans (total_arg18 (launchContents m c)),
      (h c main_arg19).trans (total_arg19 (launchContents m c)),
      (h c main_arg20).trans (total_arg20 (launchContents m c)),
      (h c main_arg21).trans (total_arg21 (launchContents m c)),
      (h c main_arg22).trans (total_arg22 (launchContents m c)),
      (h c main_arg23).trans (total_arg23 (launchContents m c)),
      (h c main_arg24).trans (total_arg24 (launchContents m c)),
      (h c main_arg25).trans (total_arg25 (launchContents m c)),
      (h c main_arg26).trans (total_arg26 (launchContents m c)),
      (h c main_arg27).trans (total_arg27 (launchContents m c)),
      (h c main_arg28).trans (total_arg28 (launchContents m c)),
      (h c main_arg29).trans (total_arg29 (launchContents m c))⟩)
    (run_raw (F := Ideal) m ρ)

end Cert.ReferenceIdeal.Whole

end
-- ==== Proof.RunValues.lean ====
/-
  The idealized kernel's whole run, with its two result arrays named.

  @main is six segments: a stretch of host operations, the per-edge message kernel, a second stretch (the
  scatter-add of the messages onto their destination nodes and the division by the in-degree), the node-transition
  kernel, a third stretch (the two gathers of the projected node rows), and the edge-transition kernel.  The
  buffer contents at the six boundaries are the fold `W0 … W6` of the generated frame; here the same launch over the
  same segments is read at a stronger post: the node result is `W6` at the node kernel's first output array, the
  edge result `W6` at the edge kernel's output array, and the thirty argument arrays end as launched.
-/
import proofs.«169663_j18897856103195_1_alg».proof.Proof.Gen.KernelIdeal.Frame

set_option maxRecDepth 16384

noncomputable section

namespace Cert.KernelIdeal.Whole

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates without a fault; at the end the two result buffers hold what the
    last boundary's contents `W6` say, and every argument array is as launched. -/
theorem run_values : θ_run defs (onTc (τ := τ) (main (F := F))) ⟨m, fun _ => 0, ρ⟩ (fun r => ∀ c : Dev nD,
      r.2.mem ((c.tc : Thread nD τ).loc main_v81_0) = W6 m ρ c (Proc.devRef .tc main_v81_0)
      ∧ r.2.mem ((c.tc : Thread nD τ).loc main_v100) = W6 m ρ c (Proc.devRef .tc main_v100)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)
      ∧ r.2.mem ((c.tc : Thread nD τ).loc main_arg28) = m ((c.tc : Thread nD τ).loc main_arg28)
      ∧ r.2.mem ((c.tc : Thread nD τ).loc main_arg29) = m ((c.tc : Thread nD τ).loc main_arg29)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v81_0 (by decide)),
       h c _ (mem_uc main_v100 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c),
       (h c _ (mem_uc main_arg8 (by decide))).trans (W6_main_arg8 m ρ c),
       (h c _ (mem_uc main_arg9 (by decide))).trans (W6_main_arg9 m ρ c),
       (h c _ (mem_uc main_arg10 (by decide))).trans (W6_main_arg10 m ρ c),
       (h c _ (mem_uc main_arg11 (by decide))).trans (W6_main_arg11 m ρ c),
       (h c _ (mem_uc main_arg12 (by decide))).trans (W6_main_arg12 m ρ c),
       (h c _ (mem_uc main_arg13 (by decide))).trans (W6_main_arg13 m ρ c),
       (h c _ (mem_uc main_arg14 (by decide))).trans (W6_main_arg14 m ρ c),
       (h c _ (mem_uc main_arg15 (by decide))).trans (W6_main_arg15 m ρ c),
       (h c _ (mem_uc main_arg16 (by decide))).trans (W6_main_arg16 m ρ c),
       (h c _ (mem_uc main_arg17 (by decide))).trans (W6_main_arg17 m ρ c),
       (h c _ (mem_uc main_arg18 (by decide))).trans (W6_main_arg18 m ρ c),
       (h c _ (mem_uc main_arg19 (by decide))).trans (W6_main_arg19 m ρ c),
       (h c _ (mem_uc main_arg20 (by decide))).trans (W6_main_arg20 m ρ c),
       (h c _ (mem_uc main_arg21 (by decide))).trans (W6_main_arg21 m ρ c),
       (h c _ (mem_uc main_arg22 (by decide))).trans (W6_main_arg22 m ρ c),
       (h c _ (mem_uc main_arg23 (by decide))).trans (W6_main_arg23 m ρ c),
       (h c _ (mem_uc main_arg24 (by decide))).trans (W6_main_arg24 m ρ c),
       (h c _ (mem_uc main_arg25 (by decide))).trans (W6_main_arg25 m ρ c),
       (h c _ (mem_uc main_arg26 (by decide))).trans (W6_main_arg26 m ρ c),
       (h c _ (mem_uc main_arg27 (by decide))).trans (W6_main_arg27 m ρ c),
       (h c _ (mem_uc main_arg28 (by decide))).trans (W6_main_arg28 m ρ c),
       (h c _ (mem_uc main_arg29 (by decide))).trans (W6_main_arg29 m ρ c)⟩)

end Cert.KernelIdeal.Whole

end
-- ==== Proof.Whole.Entry0.lean ====
/-
  What the message kernel finds in its nine input arrays.

  Before the first kernel @main slices the edge list into its source and destination rows, projects the node
  features to eight local points per node and carries them into the global frame, gathers the source point cloud, the
  destination translation and rotation, expresses each source point in the destination's frame, takes its eight
  distances, and gathers the source and destination feature rows.  The reference performs the same operations on the
  same arguments, so each array is the reference's intermediate of the same name; the two bias vectors are handed to
  the kernel as single rows.
-/
import proofs.«169663_j18897856103195_1_alg».proof.Proof.Gen.KernelIdeal.Frame
import proofs.«169663_j18897856103195_1_alg».proof.Proof.ReferenceRead
import Idealize.ShloMosaic.Lib.StableHlo.Run
import Idealize.ShloMosaic.Lib.ValueIdx
import Idealize.ShloMosaic.Lib.ValueLayout
import Idealize.ShloMosaic.Lib.Pipeline.Value

set_option maxRecDepth 16384

noncomputable section

namespace Cert.KernelIdeal.Whole

open Idealize.ShloMosaic Idealize.ShloMosaic.TcCoe Idealize.SL.Sem Idealize.ShloMosaic.ValueIdx Idealize.ShloMosaic.StableHlo
open Idealize.ShloMosaic.Pipeline (Dat Cfg Window)
open Cert.KernelIdeal Cert.KernelIdeal.Gen

variable (m : (ℓ : Loc nD τ sig) → Buf (Elt Ideal) ℓ) (ρ : Dev nD → PrngReg)

/-- The gathered source rows of the node features. -/
theorem entry0_src (c : Dev nD) : V1 m ρ c main_v50 = Cert.ReferenceIdeal.Read.val_main_v49 (F := Ideal) (m ((c.tc : Thread nD τ).loc main_arg0)) (m ((c.tc : Thread nD τ).loc main_arg2)) := by
  show StableHlo.after hostOps0 (W0 m ρ c) (Proc.devRef .tc main_v50) = _
  after_results_simp
  rfl

/-- The gathered destination rows of the node features. -/
theorem entry0_dst (c : Dev nD) : V1 m ρ c main_v57 = Cert.ReferenceIdeal.Read.val_main_v56 (F := Ideal) (m ((c.tc : Thread nD τ).loc main_arg0)) (m ((c.tc : Thread nD τ).loc main_arg2)) := by
  show StableHlo.after hostOps0 (W0 m ρ c) (Proc.devRef .tc main_v57) = _
  after_results_simp
  rfl

/-- The edge features are an argument. -/
theorem entry0_z (c : Dev nD) : V1 m ρ c main_arg1 = (m ((c.tc : Thread nD τ).loc main_arg1)) := by
  show StableHlo.after hostOps0 (W0 m ρ c) (Proc.devRef .tc main_arg1) = _
  after_results_simp

/-- The invariant points, 24 to a row. -/
theorem entry0_pts (c : Dev nD) : V1 m ρ c main_v43 = Cert.ReferenceIdeal.Read.val_main_v57 (F := Ideal) (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg6)) (m ((c.tc : Thread nD τ).loc main_arg7)) := by
  show StableHlo.after hostOps0 (W0 m ρ c) (Proc.devRef .tc main_v43) = _
  after_results_simp
  rfl

/-- The eight distances of an edge. -/
theorem entry0_dist (c : Dev nD) : V1 m ρ c main_v42 = Cert.ReferenceIdeal.Read.val_main_v42 (F := Ideal) (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg6)) (m ((c.tc : Thread nD τ).loc main_arg7)) := by
  show StableHlo.after hostOps0 (W0 m ρ c) (Proc.devRef .tc main_v42) = _
  after_results_simp
  rfl

theorem entry0_w1 (c : Dev nD) : V1 m ρ c main_arg8 = (m ((c.tc : Thread nD τ).loc main_arg8)) := by
  show StableHlo.after hostOps0 (W0 m ρ c) (Proc.devRef .tc main_arg8) = _
  after_results_simp

theorem entry0_w2 (c : Dev nD) : V1 m ρ c main_arg10 = (m ((c.tc : Thread nD τ).loc main_arg10)) := by
  show StableHlo.after hostOps0 (W0 m ρ c) (Proc.devRef .tc main_arg10) = _
  after_results_simp

/-- The first bias, as a single row. -/
theorem entry0_b1 (c : Dev nD) (j : Fin 256) : V1 m ρ c main_v58 (ix2 (0 : Fin 1) j) = (m ((c.tc : Thread nD τ).loc main_arg9)) (ix1 j) := by
  have e : V1 m ρ c main_v58 = shapeCast S1x256 (m ((c.tc : Thread nD τ).loc main_arg9)) shapeCasts_S256_S1x256 := by
    show StableHlo.after hostOps0 (W0 m ρ c) (Proc.devRef .tc main_v58) = _
    after_results_simp
    rfl
  rw [e]
  exact shapeCast_a_1a_apply _ _ 0 j

/-- The second bias, as a single row. -/
theorem entry0_b2 (c : Dev nD) (j : Fin 256) : V1 m ρ c main_v59 (ix2 (0 : Fin 1) j) = (m ((c.tc : Thread nD τ).loc main_arg11)) (ix1 j) := by
  have e : V1 m ρ c main_v59 = shapeCast S1x256 (m ((c.tc : Thread nD τ).loc main_arg11)) shapeCasts_S256_S1x256 := by
    show StableHlo.after hostOps0 (W0 m ρ c) (Proc.devRef .tc main_v59) = _
    after_results_simp
    rfl
  rw [e]
  exact shapeCast_a_1a_apply _ _ 0 j

end Cert.KernelIdeal.Whole

end
-- ==== Proof.Whole.Carry.lean ====
/-
  The buffers that only pass through.

  An argument array is written by no host operation and by no kernel, and the two index rows cut from the edge list
  are written once, before the first kernel; so at every later boundary of @main each of them still holds what it
  held: the argument as launched, the index row the reference's slice of the same argument.
-/
import proofs.«169663_j18897856103195_1_alg».proof.Proof.Gen.KernelIdeal.Frame
import proofs.«169663_j18897856103195_1_alg».proof.Proof.ReferenceRead
import Idealize.ShloMosaic.Lib.StableHlo.Run
import Idealize.ShloMosaic.Lib.ValueIdx
import Idealize.ShloMosaic.Lib.ValueLayout
import Idealize.ShloMosaic.Lib.Pipeline.Value

set_option maxRecDepth 16384

noncomputable section

namespace Cert.KernelIdeal.Whole

open Idealize.ShloMosaic Idealize.ShloMosaic.TcCoe Idealize.SL.Sem Idealize.ShloMosaic.ValueIdx Idealize.ShloMosaic.StableHlo
open Idealize.ShloMosaic.Pipeline (Dat Cfg Window)
open Cert.KernelIdeal Cert.KernelIdeal.Gen

variable (m : (ℓ : Loc nD τ sig) → Buf (Elt Ideal) ℓ) (ρ : Dev nD → PrngReg)

/-! ## After the first kernel -/

theorem w2_arg5 (c : Dev nD) : W2 m ρ c (Proc.devRef .tc main_arg5) = (m ((c.tc : Thread nD τ).loc main_arg5)) :=
  (W2_of_ne m ρ c main_arg5 (by decide)).trans ((show W1 m ρ c (Proc.devRef .tc main_arg5) = _ from by
      show StableHlo.after hostOps0 (W0 m ρ c) (Proc.devRef .tc main_arg5) = _
      after_results_simp))

theorem w2_arg12 (c : Dev nD) : W2 m ρ c (Proc.devRef .tc main_arg12) = (m ((c.tc : Thread nD τ).loc main_arg12)) :=
  (W2_of_ne m ρ c main_arg12 (by decide)).trans ((show W1 m ρ c (Proc.devRef .tc main_arg12) = _ from by
      show StableHlo.after hostOps0 (W0 m ρ c) (Proc.devRef .tc main_arg12) = _
      after_results_simp))

theorem w2_arg13 (c : Dev nD) : W2 m ρ c (Proc.devRef .tc main_arg13) = (m ((c.tc : Thread nD τ).loc main_arg13)) :=
  (W2_of_ne m ρ c main_arg13 (by decide)).trans ((show W1 m ρ c (Proc.devRef .tc main_arg13) = _ from by
      show StableHlo.after hostOps0 (W0 m ρ c) (Proc.devRef .tc main_arg13) = _
      after_results_simp))

theorem w2_arg15 (c : Dev nD) : W2 m ρ c (Proc.devRef .tc main_arg15) = (m ((c.tc : Thread nD τ).loc main_arg15)) :=
  (W2_of_ne m ρ c main_arg15 (by decide)).trans ((show W1 m ρ c (Proc.devRef .tc main_arg15) = _ from by
      show StableHlo.after hostOps0 (W0 m ρ c) (Proc.devRef .tc main_arg15) = _
      after_results_simp))

theorem w2_arg17 (c : Dev nD) : W2 m ρ c (Proc.devRef .tc main_arg17) = (m ((c.tc : Thread nD τ).loc main_arg17)) :=
  (W2_of_ne m ρ c main_arg17 (by decide)).trans ((show W1 m ρ c (Proc.devRef .tc main_arg17) = _ from by
      show StableHlo.after hostOps0 (W0 m ρ c) (Proc.devRef .tc main_arg17) = _
      after_results_simp))

theorem w2_arg19 (c : Dev nD) : W2 m ρ c (Proc.devRef .tc main_arg19) = (m ((c.tc : Thread nD τ).loc main_arg19)) :=
  (W2_of_ne m ρ c main_arg19 (by decide)).trans ((show W1 m ρ c (Proc.devRef .tc main_arg19) = _ from by
      show StableHlo.after hostOps0 (W0 m ρ c) (Proc.devRef .tc main_arg19) = _
      after_results_simp))

theorem w2_arg20 (c : Dev nD) : W2 m ρ c (Proc.devRef .tc main_arg20) = (m ((c.tc : Thread nD τ).loc main_arg20)) :=
  (W2_of_ne m ρ c main_arg20 (by decide)).trans ((show W1 m ρ c (Proc.devRef .tc main_arg20) = _ from by
      show StableHlo.after hostOps0 (W0 m ρ c) (Proc.devRef .tc main_arg20) = _
      after_results_simp))

theorem w2_arg21 (c : Dev nD) : W2 m ρ c (Proc.devRef .tc main_arg21) = (m ((c.tc : Thread nD τ).loc main_arg21)) :=
  (W2_of_ne m ρ c main_arg21 (by decide)).trans ((show W1 m ρ c (Proc.devRef .tc main_arg21) = _ from by
      show StableHlo.after hostOps0 (W0 m ρ c) (Proc.devRef .tc main_arg21) = _
      after_results_simp))

theorem w2_arg23 (c : Dev nD) : W2 m ρ c (Proc.devRef .tc main_arg23) = (m ((c.tc : Thread nD τ).loc main_arg23)) :=
  (W2_of_ne m ρ c main_arg23 (by decide)).trans ((show W1 m ρ c (Proc.devRef .tc main_arg23) = _ from by
      show StableHlo.after hostOps0 (W0 m ρ c) (Proc.devRef .tc main_arg23) = _
      after_results_simp))

theorem w2_arg0 (c : Dev nD) : W2 m ρ c (Proc.devRef .tc main_arg0) = (m ((c.tc : Thread nD τ).loc main_arg0)) :=
  (W2_of_ne m ρ c main_arg0 (by decide)).trans ((show W1 m ρ c (Proc.devRef .tc main_arg0) = _ from by
      show StableHlo.after hostOps0 (W0 m ρ c) (Proc.devRef .tc main_arg0) = _
      after_results_simp))

theorem w2_arg14 (c : Dev nD) : W2 m ρ c (Proc.devRef .tc main_arg14) = (m ((c.tc : Thread nD τ).loc main_arg14)) :=
  (W2_of_ne m ρ c main_arg14 (by decide)).trans ((show W1 m ρ c (Proc.devRef .tc main_arg14) = _ from by
      show StableHlo.after hostOps0 (W0 m ρ c) (Proc.devRef .tc main_arg14) = _
      after_results_simp))

theorem w2_arg16 (c : Dev nD) : W2 m ρ c (Proc.devRef .tc main_arg16) = (m ((c.tc : Thread nD τ).loc main_arg16)) :=
  (W2_of_ne m ρ c main_arg16 (by decide)).trans ((show W1 m ρ c (Proc.devRef .tc main_arg16) = _ from by
      show StableHlo.after hostOps0 (W0 m ρ c) (Proc.devRef .tc main_arg16) = _
      after_results_simp))

theorem w2_arg18 (c : Dev nD) : W2 m ρ c (Proc.devRef .tc main_arg18) = (m ((c.tc : Thread nD τ).loc main_arg18)) :=
  (W2_of_ne m ρ c main_arg18 (by decide)).trans ((show W1 m ρ c (Proc.devRef .tc main_arg18) = _ from by
      show StableHlo.after hostOps0 (W0 m ρ c) (Proc.devRef .tc main_arg18) = _
      after_results_simp))

theorem w2_arg22 (c : Dev nD) : W2 m ρ c (Proc.devRef .tc main_arg22) = (m ((c.tc : Thread nD τ).loc main_arg22)) :=
  (W2_of_ne m ρ c main_arg22 (by decide)).trans ((show W1 m ρ c (Proc.devRef .tc main_arg22) = _ from by
      show StableHlo.after hostOps0 (W0 m ρ c) (Proc.devRef .tc main_arg22) = _
      after_results_simp))

theorem w2_arg25 (c : Dev nD) : W2 m ρ c (Proc.devRef .tc main_arg25) = (m ((c.tc : Thread nD τ).loc main_arg25)) :=
  (W2_of_ne m ρ c main_arg25 (by decide)).trans ((show W1 m ρ c (Proc.devRef .tc main_arg25) = _ from by
      show StableHlo.after hostOps0 (W0 m ρ c) (Proc.devRef .tc main_arg25) = _
      after_results_simp))

theorem w2_arg27 (c : Dev nD) : W2 m ρ c (Proc.devRef .tc main_arg27) = (m ((c.tc : Thread nD τ).loc main_arg27)) :=
  (W2_of_ne m ρ c main_arg27 (by decide)).trans ((show W1 m ρ c (Proc.devRef .tc main_arg27) = _ from by
      show StableHlo.after hostOps0 (W0 m ρ c) (Proc.devRef .tc main_arg27) = _
      after_results_simp))

theorem w2_arg28 (c : Dev nD) : W2 m ρ c (Proc.devRef .tc main_arg28) = (m ((c.tc : Thread nD τ).loc main_arg28)) :=
  (W2_of_ne m ρ c main_arg28 (by decide)).trans ((show W1 m ρ c (Proc.devRef .tc main_arg28) = _ from by
      show StableHlo.after hostOps0 (W0 m ρ c) (Proc.devRef .tc main_arg28) = _
      after_results_simp))

theorem w2_arg29 (c : Dev nD) : W2 m ρ c (Proc.devRef .tc main_arg29) = (m ((c.tc : Thread nD τ).loc main_arg29)) :=
  (W2_of_ne m ρ c main_arg29 (by decide)).trans ((show W1 m ρ c (Proc.devRef .tc main_arg29) = _ from by
      show StableHlo.after hostOps0 (W0 m ρ c) (Proc.devRef .tc main_arg29) = _
      after_results_simp))

theorem w2_arg24 (c : Dev nD) : W2 m ρ c (Proc.devRef .tc main_arg24) = (m ((c.tc : Thread nD τ).loc main_arg24)) :=
  (W2_of_ne m ρ c main_arg24 (by decide)).trans ((show W1 m ρ c (Proc.devRef .tc main_arg24) = _ from by
      show StableHlo.after hostOps0 (W0 m ρ c) (Proc.devRef .tc main_arg24) = _
      after_results_simp))

theorem w2_arg26 (c : Dev nD) : W2 m ρ c (Proc.devRef .tc main_arg26) = (m ((c.tc : Thread nD τ).loc main_arg26)) :=
  (W2_of_ne m ρ c main_arg26 (by decide)).trans ((show W1 m ρ c (Proc.devRef .tc main_arg26) = _ from by
      show StableHlo.after hostOps0 (W0 m ρ c) (Proc.devRef .tc main_arg26) = _
      after_results_simp))

/-- The edge features are the first kernel's third input array: it leaves them as it found them. -/
theorem w2_arg1 (c : Dev nD) : W2 m ρ c (Proc.devRef .tc main_arg1) = (m ((c.tc : Thread nD τ).loc main_arg1)) :=
  (W2_arr m ρ c 2).trans ((((dat0 (V1 m ρ) c).arrAt_in 2 rfl _).trans (A_eq0 (V1 m ρ) c 2)).trans ((show W1 m ρ c (Proc.devRef .tc main_arg1) = _ from by
      show StableHlo.after hostOps0 (W0 m ρ c) (Proc.devRef .tc main_arg1) = _
      after_results_simp)))

/-- The source row of the edge list. -/
theorem w2_src (c : Dev nD) : W2 m ρ c (Proc.devRef .tc main_v1) = Cert.ReferenceIdeal.Read.val_main_v1 (F := Ideal) (m ((c.tc : Thread nD τ).loc main_arg2)) :=
  (W2_of_ne m ρ c main_v1 (by decide)).trans (by
    show StableHlo.after hostOps0 (W0 m ρ c) (Proc.devRef .tc main_v1) = _
    after_results_simp
    rfl)

/-- The destination row of the edge list. -/
theorem w2_dst (c : Dev nD) : W2 m ρ c (Proc.devRef .tc main_v3) = Cert.ReferenceIdeal.Read.val_main_v3 (F := Ideal) (m ((c.tc : Thread nD τ).loc main_arg2)) :=
  (W2_of_ne m ρ c main_v3 (by decide)).trans (by
    show StableHlo.after hostOps0 (W0 m ρ c) (Proc.devRef .tc main_v3) = _
    after_results_simp
    rfl)

/-! ## Through the second stretch of host operations -/

theorem w3_arg0 (c : Dev nD) : W3 m ρ c (Proc.devRef .tc main_arg0) = (m ((c.tc : Thread nD τ).loc main_arg0)) := by
  refine Eq.trans ?_ (w2_arg0 m ρ c)
  show StableHlo.after hostOps1 (W2 m ρ c) (Proc.devRef .tc main_arg0) = _
  after_results_simp

theorem w3_arg14 (c : Dev nD) : W3 m ρ c (Proc.devRef .tc main_arg14) = (m ((c.tc : Thread nD τ).loc main_arg14)) := by
  refine Eq.trans ?_ (w2_arg14 m ρ c)
  show StableHlo.after hostOps1 (W2 m ρ c) (Proc.devRef .tc main_arg14) = _
  after_results_simp

theorem w3_arg16 (c : Dev nD) : W3 m ρ c (Proc.devRef .tc main_arg16) = (m ((c.tc : Thread nD τ).loc main_arg16)) := by
  refine Eq.trans ?_ (w2_arg16 m ρ c)
  show StableHlo.after hostOps1 (W2 m ρ c) (Proc.devRef .tc main_arg16) = _
  after_results_simp

theorem w3_arg18 (c : Dev nD) : W3 m ρ c (Proc.devRef .tc main_arg18) = (m ((c.tc : Thread nD τ).loc main_arg18)) := by
  refine Eq.trans ?_ (w2_arg18 m ρ c)
  show StableHlo.after hostOps1 (W2 m ρ c) (Proc.devRef .tc main_arg18) = _
  after_results_simp

theorem w3_arg22 (c : Dev nD) : W3 m ρ c (Proc.devRef .tc main_arg22) = (m ((c.tc : Thread nD τ).loc main_arg22)) := by
  refine Eq.trans ?_ (w2_arg22 m ρ c)
  show StableHlo.after hostOps1 (W2 m ρ c) (Proc.devRef .tc main_arg22) = _
  after_results_simp

theorem w3_arg25 (c : Dev nD) : W3 m ρ c (Proc.devRef .tc main_arg25) = (m ((c.tc : Thread nD τ).loc main_arg25)) := by
  refine Eq.trans ?_ (w2_arg25 m ρ c)
  show StableHlo.after hostOps1 (W2 m ρ c) (Proc.devRef .tc main_arg25) = _
  after_results_simp

theorem w3_arg27 (c : Dev nD) : W3 m ρ c (Proc.devRef .tc main_arg27) = (m ((c.tc : Thread nD τ).loc main_arg27)) := by
  refine Eq.trans ?_ (w2_arg27 m ρ c)
  show StableHlo.after hostOps1 (W2 m ρ c) (Proc.devRef .tc main_arg27) = _
  after_results_simp

theorem w3_arg28 (c : Dev nD) : W3 m ρ c (Proc.devRef .tc main_arg28) = (m ((c.tc : Thread nD τ).loc main_arg28)) := by
  refine Eq.trans ?_ (w2_arg28 m ρ c)
  show StableHlo.after hostOps1 (W2 m ρ c) (Proc.devRef .tc main_arg28) = _
  after_results_simp

theorem w3_arg29 (c : Dev nD) : W3 m ρ c (Proc.devRef .tc main_arg29) = (m ((c.tc : Thread nD τ).loc main_arg29)) := by
  refine Eq.trans ?_ (w2_arg29 m ρ c)
  show StableHlo.after hostOps1 (W2 m ρ c) (Proc.devRef .tc main_arg29) = _
  after_results_simp

theorem w3_arg1 (c : Dev nD) : W3 m ρ c (Proc.devRef .tc main_arg1) = (m ((c.tc : Thread nD τ).loc main_arg1)) := by
  refine Eq.trans ?_ (w2_arg1 m ρ c)
  show StableHlo.after hostOps1 (W2 m ρ c) (Proc.devRef .tc main_arg1) = _
  after_results_simp

theorem w3_arg24 (c : Dev nD) : W3 m ρ c (Proc.devRef .tc main_arg24) = (m ((c.tc : Thread nD τ).loc main_arg24)) := by
  refine Eq.trans ?_ (w2_arg24 m ρ c)
  show StableHlo.after hostOps1 (W2 m ρ c) (Proc.devRef .tc main_arg24) = _
  after_results_simp

theorem w3_arg26 (c : Dev nD) : W3 m ρ c (Proc.devRef .tc main_arg26) = (m ((c.tc : Thread nD τ).loc main_arg26)) := by
  refine Eq.trans ?_ (w2_arg26 m ρ c)
  show StableHlo.after hostOps1 (W2 m ρ c) (Proc.devRef .tc main_arg26) = _
  after_results_simp

theorem w3_src (c : Dev nD) : W3 m ρ c (Proc.devRef .tc main_v1) = Cert.ReferenceIdeal.Read.val_main_v1 (F := Ideal) (m ((c.tc : Thread nD τ).loc main_arg2)) := by
  refine Eq.trans ?_ (w2_src m ρ c)
  show StableHlo.after hostOps1 (W2 m ρ c) (Proc.devRef .tc main_v1) = _
  after_results_simp

theorem w3_dst (c : Dev nD) : W3 m ρ c (Proc.devRef .tc main_v3) = Cert.ReferenceIdeal.Read.val_main_v3 (F := Ideal) (m ((c.tc : Thread nD τ).loc main_arg2)) := by
  refine Eq.trans ?_ (w2_dst m ρ c)
  show StableHlo.after hostOps1 (W2 m ρ c) (Proc.devRef .tc main_v3) = _
  after_results_simp

/-! ## After the second kernel -/

theorem w4_arg25 (c : Dev nD) : W4 m ρ c (Proc.devRef .tc main_arg25) = (m ((c.tc : Thread nD τ).loc main_arg25)) :=
  (W4_of_ne m ρ c main_arg25 (by decide)).trans (w3_arg25 m ρ c)

theorem w4_arg27 (c : Dev nD) : W4 m ρ c (Proc.devRef .tc main_arg27) = (m ((c.tc : Thread nD τ).loc main_arg27)) :=
  (W4_of_ne m ρ c main_arg27 (by decide)).trans (w3_arg27 m ρ c)

theorem w4_arg28 (c : Dev nD) : W4 m ρ c (Proc.devRef .tc main_arg28) = (m ((c.tc : Thread nD τ).loc main_arg28)) :=
  (W4_of_ne m ρ c main_arg28 (by decide)).trans (w3_arg28 m ρ c)

theorem w4_arg29 (c : Dev nD) : W4 m ρ c (Proc.devRef .tc main_arg29) = (m ((c.tc : Thread nD τ).loc main_arg29)) :=
  (W4_of_ne m ρ c main_arg29 (by decide)).trans (w3_arg29 m ρ c)

theorem w4_arg1 (c : Dev nD) : W4 m ρ c (Proc.devRef .tc main_arg1) = (m ((c.tc : Thread nD τ).loc main_arg1)) :=
  (W4_of_ne m ρ c main_arg1 (by decide)).trans (w3_arg1 m ρ c)

theorem w4_arg24 (c : Dev nD) : W4 m ρ c (Proc.devRef .tc main_arg24) = (m ((c.tc : Thread nD τ).loc main_arg24)) :=
  (W4_of_ne m ρ c main_arg24 (by decide)).trans (w3_arg24 m ρ c)

theorem w4_arg26 (c : Dev nD) : W4 m ρ c (Proc.devRef .tc main_arg26) = (m ((c.tc : Thread nD τ).loc main_arg26)) :=
  (W4_of_ne m ρ c main_arg26 (by decide)).trans (w3_arg26 m ρ c)

theorem w4_src (c : Dev nD) : W4 m ρ c (Proc.devRef .tc main_v1) = Cert.ReferenceIdeal.Read.val_main_v1 (F := Ideal) (m ((c.tc : Thread nD τ).loc main_arg2)) :=
  (W4_of_ne m ρ c main_v1 (by decide)).trans (w3_src m ρ c)

theorem w4_dst (c : Dev nD) : W4 m ρ c (Proc.devRef .tc main_v3) = Cert.ReferenceIdeal.Read.val_main_v3 (F := Ideal) (m ((c.tc : Thread nD τ).loc main_arg2)) :=
  (W4_of_ne m ρ c main_v3 (by decide)).trans (w3_dst m ρ c)

/-! ## Through the third stretch of host operations -/

theorem w5_arg1 (c : Dev nD) : W5 m ρ c (Proc.devRef .tc main_arg1) = (m ((c.tc : Thread nD τ).loc main_arg1)) := by
  refine Eq.trans ?_ (w4_arg1 m ρ c)
  show StableHlo.after hostOps2 (W4 m ρ c) (Proc.devRef .tc main_arg1) = _
  after_results_simp

theorem w5_arg24 (c : Dev nD) : W5 m ρ c (Proc.devRef .tc main_arg24) = (m ((c.tc : Thread nD τ).loc main_arg24)) := by
  refine Eq.trans ?_ (w4_arg24 m ρ c)
  show StableHlo.after hostOps2 (W4 m ρ c) (Proc.devRef .tc main_arg24) = _
  after_results_simp

theorem w5_arg26 (c : Dev nD) : W5 m ρ c (Proc.devRef .tc main_arg26) = (m ((c.tc : Thread nD τ).loc main_arg26)) := by
  refine Eq.trans ?_ (w4_arg26 m ρ c)
  show StableHlo.after hostOps2 (W4 m ρ c) (Proc.devRef .tc main_arg26) = _
  after_results_simp

end Cert.KernelIdeal.Whole

end
-- ==== Proof.NodeInputs.lean ====
/-
  What the node-transition kernel is given: one equation per input window, between the array the window reads and the
  reference's value of the same meaning.
-/
import proofs.«169663_j18897856103195_1_alg».proof.Proof.Gen.KernelIdeal.Frame
import proofs.«169663_j18897856103195_1_alg».proof.Proof.ReferenceRead
import Idealize.ShloMosaic.Lib.ValueIdx

set_option maxRecDepth 16384

noncomputable section

namespace Cert.KernelIdeal.NodeTransition

open Idealize.ShloMosaic Idealize.ShloMosaic.TcCoe Idealize.SL.Sem Idealize.ShloMosaic.ValueIdx
open Idealize.ShloMosaic.Pipeline (Dat Cfg Window)
open Cert.KernelIdeal Cert.KernelIdeal.Gen

variable (V : (c : Dev nD) → (b : Ref sig .tc) → Buf (Elt Ideal) ((c : Thread nD τ).loc b))

/-- The hypotheses shared by the two outputs: each input window's array is the reference's corresponding value (the node
    features, the mean message, the mask as a column, the scale and shift vectors and the biases as single rows, the
    weight matrices). -/
structure Inputs (c : Dev nD) (x0 : (⟨S10000x256, .f32⟩ : BufTy).Contents (Elt Ideal)) (x1 : (⟨S300000x128, .f32⟩ : BufTy).Contents (Elt Ideal)) (x2 : (⟨S2x300000, .i32⟩ : BufTy).Contents (Elt Ideal)) (x3 : (⟨S10000x3x3, .f32⟩ : BufTy).Contents (Elt Ideal)) (x4 : (⟨S10000x3, .f32⟩ : BufTy).Contents (Elt Ideal)) (x5 : (⟨S10000, .f32⟩ : BufTy).Contents (Elt Ideal)) (x6 : (⟨S256x24, .f32⟩ : BufTy).Contents (Elt Ideal)) (x7 : (⟨S24, .f32⟩ : BufTy).Contents (Elt Ideal)) (x8 : (⟨S672x256, .f32⟩ : BufTy).Contents (Elt Ideal)) (x9 : (⟨S256, .f32⟩ : BufTy).Contents (Elt Ideal)) (x10 : (⟨S256x256, .f32⟩ : BufTy).Contents (Elt Ideal)) (x11 : (⟨S256, .f32⟩ : BufTy).Contents (Elt Ideal)) (x12 : (⟨S256, .f32⟩ : BufTy).Contents (Elt Ideal)) (x13 : (⟨S256, .f32⟩ : BufTy).Contents (Elt Ideal)) (x14 : (⟨S256x256, .f32⟩ : BufTy).Contents (Elt Ideal)) (x15 : (⟨S256, .f32⟩ : BufTy).Contents (Elt Ideal)) (x16 : (⟨S256x256, .f32⟩ : BufTy).Contents (Elt Ideal)) (x17 : (⟨S256, .f32⟩ : BufTy).Contents (Elt Ideal)) (x18 : (⟨S256x256, .f32⟩ : BufTy).Contents (Elt Ideal)) (x19 : (⟨S256, .f32⟩ : BufTy).Contents (Elt Ideal)) (x20 : (⟨S256, .f32⟩ : BufTy).Contents (Elt Ideal)) (x21 : (⟨S256, .f32⟩ : BufTy).Contents (Elt Ideal)) (x22 : (⟨S256x128, .f32⟩ : BufTy).Contents (Elt Ideal)) (x23 : (⟨S128, .f32⟩ : BufTy).Contents (Elt Ideal)) : Prop where
  h0 : V c (Pipeline.arrRef spec1 0) = x0
  h1 : V c (Pipeline.arrRef spec1 1) = Cert.ReferenceIdeal.Read.val_main_v78 (F := Ideal) x0 x1 x2 x3 x4 x6 x7 x8 x9 x10 x11
  h2 : ∀ r : Fin 10000, V c (Pipeline.arrRef spec1 2) (ix2 r (0 : Fin 1)) = x5 (ix1 r)
  h3 : ∀ j : Fin 256, V c (Pipeline.arrRef spec1 3) (ix2 (0 : Fin 1) j) = x12 (ix1 j)
  h4 : ∀ j : Fin 256, V c (Pipeline.arrRef spec1 4) (ix2 (0 : Fin 1) j) = x13 (ix1 j)
  h5 : V c (Pipeline.arrRef spec1 5) = x14
  h6 : ∀ j : Fin 256, V c (Pipeline.arrRef spec1 6) (ix2 (0 : Fin 1) j) = x15 (ix1 j)
  h7 : V c (Pipeline.arrRef spec1 7) = x16
  h8 : ∀ j : Fin 256, V c (Pipeline.arrRef spec1 8) (ix2 (0 : Fin 1) j) = x17 (ix1 j)
  h9 : V c (Pipeline.arrRef spec1 9) = x18
  h10 : ∀ j : Fin 256, V c (Pipeline.arrRef spec1 10) (ix2 (0 : Fin 1) j) = x19 (ix1 j)
  h11 : ∀ j : Fin 256, V c (Pipeline.arrRef spec1 11) (ix2 (0 : Fin 1) j) = x20 (ix1 j)
  h12 : ∀ j : Fin 256, V c (Pipeline.arrRef spec1 12) (ix2 (0 : Fin 1) j) = x21 (ix1 j)
  h13 : V c (Pipeline.arrRef spec1 13) = x22
  h14 : ∀ j : Fin 128, V c (Pipeline.arrRef spec1 14) (ix2 (0 : Fin 1) j) = x23 (ix1 j)

end Cert.KernelIdeal.NodeTransition

end
-- ==== Proof.Whole.Entry1.lean ====
/-
  What the node-transition kernel finds in its fifteen input arrays.

  Between the first and the second kernel @main adds every edge's message onto its destination node, counts each
  node's incoming edges the same way, and divides the sum by the count clamped below at one; the reference does the
  same to its own message array, which the first kernel's array is assumed here to equal.  The remaining inputs are
  arguments: the node features and the weight matrices as they are, the mask as a column, the scale, shift and bias
  vectors as single rows.
-/
import proofs.«169663_j18897856103195_1_alg».proof.Proof.Gen.KernelIdeal.Frame
import proofs.«169663_j18897856103195_1_alg».proof.Proof.ReferenceRead
import proofs.«169663_j18897856103195_1_alg».proof.Proof.Whole.Entry0
import proofs.«169663_j18897856103195_1_alg».proof.Proof.Whole.Carry
import proofs.«169663_j18897856103195_1_alg».proof.Proof.NodeInputs
import Idealize.ShloMosaic.Lib.StableHlo.Run
import Idealize.ShloMosaic.Lib.ValueIdx
import Idealize.ShloMosaic.Lib.ValueLayout
import Idealize.ShloMosaic.Lib.Pipeline.Value

set_option maxRecDepth 16384

noncomputable section

namespace Cert.KernelIdeal.Whole

open Idealize.ShloMosaic Idealize.ShloMosaic.TcCoe Idealize.SL.Sem Idealize.ShloMosaic.ValueIdx Idealize.ShloMosaic.StableHlo
open Idealize.ShloMosaic.Pipeline (Dat Cfg Window)
open Cert.KernelIdeal Cert.KernelIdeal.Gen

variable (m : (ℓ : Loc nD τ sig) → Buf (Elt Ideal) ℓ) (ρ : Dev nD → PrngReg)

/-- The mean message per node: the scatter-added messages over the clamped in-degree. -/
theorem entry1_upd (c : Dev nD)
    (hmsg : W2 m ρ c (Proc.devRef .tc main_v60) = Cert.ReferenceIdeal.Read.val_main_v67 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11))) :
    V3 m ρ c main_v71 = Cert.ReferenceIdeal.Read.val_main_v78 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) := by
  show StableHlo.after hostOps1 (W2 m ρ c) (Proc.devRef .tc main_v71) = _
  after_results_simp
  rw [hmsg, w2_dst m ρ c]
  rfl

theorem entry1_x (c : Dev nD) : V3 m ρ c main_arg0 = (m ((c.tc : Thread nD τ).loc main_arg0)) := w3_arg0 m ρ c

/-- The mask, as a column. -/
theorem entry1_mask (c : Dev nD) (r : Fin 10000) : V3 m ρ c main_v72 (ix2 r (0 : Fin 1)) = (m ((c.tc : Thread nD τ).loc main_arg5)) (ix1 r) := by
  have e : V3 m ρ c main_v72 = shapeCast S10000x1 (m ((c.tc : Thread nD τ).loc main_arg5)) shapeCasts_S10000_S10000x1 := by
    show StableHlo.after hostOps1 (W2 m ρ c) (Proc.devRef .tc main_v72) = _
    after_results_simp
    rw [w2_arg5 m ρ c]
    rfl
  rw [e]
  refine shapeCast_apply (s := S10000) (t := S10000x1) _ _ _ (ix1 r) ?_
  rw [Shape.rowMajor_val_two, Shape.rowMajor_val_one]
  show r.val = r.val * 1 + 0
  omega

/-- The first normalisation's scale, as a single row. -/
theorem entry1_g1 (c : Dev nD) (j : Fin 256) : V3 m ρ c main_v73 (ix2 (0 : Fin 1) j) = (m ((c.tc : Thread nD τ).loc main_arg12)) (ix1 j) := by
  have e : V3 m ρ c main_v73 = shapeCast S1x256 (m ((c.tc : Thread nD τ).loc main_arg12)) shapeCasts_S256_S1x256 := by
    show StableHlo.after hostOps1 (W2 m ρ c) (Proc.devRef .tc main_v73) = _
    after_results_simp
    rw [w2_arg12 m ρ c]
    rfl
  rw [e]
  exact shapeCast_a_1a_apply _ _ 0 j

/-- The first normalisation's shift, as a single row. -/
theorem entry1_s1 (c : Dev nD) (j : Fin 256) : V3 m ρ c main_v74 (ix2 (0 : Fin 1) j) = (m ((c.tc : Thread nD τ).loc main_arg13)) (ix1 j) := by
  have e : V3 m ρ c main_v74 = shapeCast S1x256 (m ((c.tc : Thread nD τ).loc main_arg13)) shapeCasts_S256_S1x256 := by
    show StableHlo.after hostOps1 (W2 m ρ c) (Proc.devRef .tc main_v74) = _
    after_results_simp
    rw [w2_arg13 m ρ c]
    rfl
  rw [e]
  exact shapeCast_a_1a_apply _ _ 0 j

theorem entry1_wt1 (c : Dev nD) : V3 m ρ c main_arg14 = (m ((c.tc : Thread nD τ).loc main_arg14)) := w3_arg14 m ρ c

/-- The first dense layer's bias, as a single row. -/
theorem entry1_bt1 (c : Dev nD) (j : Fin 256) : V3 m ρ c main_v75 (ix2 (0 : Fin 1) j) = (m ((c.tc : Thread nD τ).loc main_arg15)) (ix1 j) := by
  have e : V3 m ρ c main_v75 = shapeCast S1x256 (m ((c.tc : Thread nD τ).loc main_arg15)) shapeCasts_S256_S1x256 := by
    show StableHlo.after hostOps1 (W2 m ρ c) (Proc.devRef .tc main_v75) = _
    after_results_simp
    rw [w2_arg15 m ρ c]
    rfl
  rw [e]
  exact shapeCast_a_1a_apply _ _ 0 j

theorem entry1_wt2 (c : Dev nD) : V3 m ρ c main_arg16 = (m ((c.tc : Thread nD τ).loc main_arg16)) := w3_arg16 m ρ c

/-- The second dense layer's bias, as a single row. -/
theorem entry1_bt2 (c : Dev nD) (j : Fin 256) : V3 m ρ c main_v76 (ix2 (0 : Fin 1) j) = (m ((c.tc : Thread nD τ).loc main_arg17)) (ix1 j) := by
  have e : V3 m ρ c main_v76 = shapeCast S1x256 (m ((c.tc : Thread nD τ).loc main_arg17)) shapeCasts_S256_S1x256 := by
    show StableHlo.after hostOps1 (W2 m ρ c) (Proc.devRef .tc main_v76) = _
    after_results_simp
    rw [w2_arg17 m ρ c]
    rfl
  rw [e]
  exact shapeCast_a_1a_apply _ _ 0 j

theorem entry1_wt3 (c : Dev nD) : V3 m ρ c main_arg18 = (m ((c.tc : Thread nD τ).loc main_arg18)) := w3_arg18 m ρ c

/-- The third dense layer's bias, as a single row. -/
theorem entry1_bt3 (c : Dev nD) (j : Fin 256) : V3 m ρ c main_v77 (ix2 (0 : Fin 1) j) = (m ((c.tc : Thread nD τ).loc main_arg19)) (ix1 j) := by
  have e : V3 m ρ c main_v77 = shapeCast S1x256 (m ((c.tc : Thread nD τ).loc main_arg19)) shapeCasts_S256_S1x256 := by
    show StableHlo.after hostOps1 (W2 m ρ c) (Proc.devRef .tc main_v77) = _
    after_results_simp
    rw [w2_arg19 m ρ c]
    rfl
  rw [e]
  exact shapeCast_a_1a_apply _ _ 0 j

/-- The second normalisation's scale, as a single row. -/
theorem entry1_g2 (c : Dev nD) (j : Fin 256) : V3 m ρ c main_v78 (ix2 (0 : Fin 1) j) = (m ((c.tc : Thread nD τ).loc main_arg20)) (ix1 j) := by
  have e : V3 m ρ c main_v78 = shapeCast S1x256 (m ((c.tc : Thread nD τ).loc main_arg20)) shapeCasts_S256_S1x256 := by
    show StableHlo.after hostOps1 (W2 m ρ c) (Proc.devRef .tc main_v78) = _
    after_results_simp
    rw [w2_arg20 m ρ c]
    rfl
  rw [e]
  exact shapeCast_a_1a_apply _ _ 0 j

/-- The second normalisation's shift, as a single row. -/
theorem entry1_s2 (c : Dev nD) (j : Fin 256) : V3 m ρ c main_v79 (ix2 (0 : Fin 1) j) = (m ((c.tc : Thread nD τ).loc main_arg21)) (ix1 j) := by
  have e : V3 m ρ c main_v79 = shapeCast S1x256 (m ((c.tc : Thread nD τ).loc main_arg21)) shapeCasts_S256_S1x256 := by
    show StableHlo.after hostOps1 (W2 m ρ c) (Proc.devRef .tc main_v79) = _
    after_results_simp
    rw [w2_arg21 m ρ c]
    rfl
  rw [e]
  exact shapeCast_a_1a_apply _ _ 0 j

theorem entry1_we0 (c : Dev nD) : V3 m ρ c main_arg22 = (m ((c.tc : Thread nD τ).loc main_arg22)) := w3_arg22 m ρ c

/-- The projection's bias, as a single row. -/
theorem entry1_be0 (c : Dev nD) (j : Fin 128) : V3 m ρ c main_v80 (ix2 (0 : Fin 1) j) = (m ((c.tc : Thread nD τ).loc main_arg23)) (ix1 j) := by
  have e : V3 m ρ c main_v80 = shapeCast S1x128 (m ((c.tc : Thread nD τ).loc main_arg23)) shapeCasts_S128_S1x128 := by
    show StableHlo.after hostOps1 (W2 m ρ c) (Proc.devRef .tc main_v80) = _
    after_results_simp
    rw [w2_arg23 m ρ c]
    rfl
  rw [e]
  exact shapeCast_a_1a_apply _ _ 0 j

/-- All fifteen together. -/
theorem entry1 (c : Dev nD)
    (hmsg : W2 m ρ c (Proc.devRef .tc main_v60) = Cert.ReferenceIdeal.Read.val_main_v67 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11))) :
    Cert.KernelIdeal.NodeTransition.Inputs (V3 m ρ) c (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) where
  h0 := entry1_x m ρ c
  h1 := entry1_upd m ρ c hmsg
  h2 := entry1_mask m ρ c
  h3 := entry1_g1 m ρ c
  h4 := entry1_s1 m ρ c
  h5 := entry1_wt1 m ρ c
  h6 := entry1_bt1 m ρ c
  h7 := entry1_wt2 m ρ c
  h8 := entry1_bt2 m ρ c
  h9 := entry1_wt3 m ρ c
  h10 := entry1_bt3 m ρ c
  h11 := entry1_g2 m ρ c
  h12 := entry1_s2 m ρ c
  h13 := entry1_we0 m ρ c
  h14 := entry1_be0 m ρ c

end Cert.KernelIdeal.Whole

end
-- ==== Proof.Whole.Entry2.lean ====
/-
  What the edge-transition kernel finds in its nine input arrays, and where the two results end.

  Between the second and the third kernel @main gathers, for every edge, the projected row of its source node and of
  its destination node; the reference gathers the same rows of its own projected array, which the second kernel's
  second output is assumed here to equal.  The remaining inputs are arguments.  The node result is the second kernel's
  first output, which nothing later writes; the edge result is the third kernel's output.
-/
import proofs.«169663_j18897856103195_1_alg».proof.Proof.Gen.KernelIdeal.Frame
import proofs.«169663_j18897856103195_1_alg».proof.Proof.ReferenceRead
import proofs.«169663_j18897856103195_1_alg».proof.Proof.Whole.Carry
import Idealize.ShloMosaic.Lib.StableHlo.Run
import Idealize.ShloMosaic.Lib.ValueIdx
import Idealize.ShloMosaic.Lib.ValueLayout
import Idealize.ShloMosaic.Lib.Pipeline.Value

set_option maxRecDepth 16384

noncomputable section

namespace Cert.KernelIdeal.Whole

open Idealize.ShloMosaic Idealize.ShloMosaic.TcCoe Idealize.SL.Sem Idealize.ShloMosaic.ValueIdx Idealize.ShloMosaic.StableHlo
open Idealize.ShloMosaic.Pipeline (Dat Cfg Window)
open Cert.KernelIdeal Cert.KernelIdeal.Gen

variable (m : (ℓ : Loc nD τ sig) → Buf (Elt Ideal) ℓ) (ρ : Dev nD → PrngReg)

/-- The projected rows of the source nodes. -/
theorem entry2_src (c : Dev nD)
    (hproj : W4 m ρ c (Proc.devRef .tc main_v81_1) = Cert.ReferenceIdeal.Read.val_main_v152 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23))) :
    V5 m ρ c main_v88 = Cert.ReferenceIdeal.Read.val_main_v159 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) := by
  show StableHlo.after hostOps2 (W4 m ρ c) (Proc.devRef .tc main_v88) = _
  after_results_simp
  rw [hproj, w4_src m ρ c]
  rfl

/-- The projected rows of the destination nodes. -/
theorem entry2_dst (c : Dev nD)
    (hproj : W4 m ρ c (Proc.devRef .tc main_v81_1) = Cert.ReferenceIdeal.Read.val_main_v152 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23))) :
    V5 m ρ c main_v95 = Cert.ReferenceIdeal.Read.val_main_v166 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) := by
  show StableHlo.after hostOps2 (W4 m ρ c) (Proc.devRef .tc main_v95) = _
  after_results_simp
  rw [hproj, w4_dst m ρ c]
  rfl

theorem entry2_z (c : Dev nD) : V5 m ρ c main_arg1 = (m ((c.tc : Thread nD τ).loc main_arg1)) := w5_arg1 m ρ c
theorem entry2_we1 (c : Dev nD) : V5 m ρ c main_arg24 = (m ((c.tc : Thread nD τ).loc main_arg24)) := w5_arg24 m ρ c
theorem entry2_wef (c : Dev nD) : V5 m ρ c main_arg26 = (m ((c.tc : Thread nD τ).loc main_arg26)) := w5_arg26 m ρ c

/-- The first dense layer's bias, as a single row. -/
theorem entry2_be1 (c : Dev nD) (j : Fin 384) : V5 m ρ c main_v96 (ix2 (0 : Fin 1) j) = (m ((c.tc : Thread nD τ).loc main_arg25)) (ix1 j) := by
  have e : V5 m ρ c main_v96 = shapeCast S1x384 (m ((c.tc : Thread nD τ).loc main_arg25)) shapeCasts_S384_S1x384 := by
    show StableHlo.after hostOps2 (W4 m ρ c) (Proc.devRef .tc main_v96) = _
    after_results_simp
    rw [w4_arg25 m ρ c]
    rfl
  rw [e]
  exact shapeCast_a_1a_apply _ _ 0 j

/-- The second dense layer's bias, as a single row. -/
theorem entry2_bef (c : Dev nD) (j : Fin 128) : V5 m ρ c main_v97 (ix2 (0 : Fin 1) j) = (m ((c.tc : Thread nD τ).loc main_arg27)) (ix1 j) := by
  have e : V5 m ρ c main_v97 = shapeCast S1x128 (m ((c.tc : Thread nD τ).loc main_arg27)) shapeCasts_S128_S1x128 := by
    show StableHlo.after hostOps2 (W4 m ρ c) (Proc.devRef .tc main_v97) = _
    after_results_simp
    rw [w4_arg27 m ρ c]
    rfl
  rw [e]
  exact shapeCast_a_1a_apply _ _ 0 j

/-- The normalisation's scale, as a single row. -/
theorem entry2_g3 (c : Dev nD) (j : Fin 128) : V5 m ρ c main_v98 (ix2 (0 : Fin 1) j) = (m ((c.tc : Thread nD τ).loc main_arg28)) (ix1 j) := by
  have e : V5 m ρ c main_v98 = shapeCast S1x128 (m ((c.tc : Thread nD τ).loc main_arg28)) shapeCasts_S128_S1x128 := by
    show StableHlo.after hostOps2 (W4 m ρ c) (Proc.devRef .tc main_v98) = _
    after_results_simp
    rw [w4_arg28 m ρ c]
    rfl
  rw [e]
  exact shapeCast_a_1a_apply _ _ 0 j

/-- The normalisation's shift, as a single row. -/
theorem entry2_s3 (c : Dev nD) (j : Fin 128) : V5 m ρ c main_v99 (ix2 (0 : Fin 1) j) = (m ((c.tc : Thread nD τ).loc main_arg29)) (ix1 j) := by
  have e : V5 m ρ c main_v99 = shapeCast S1x128 (m ((c.tc : Thread nD τ).loc main_arg29)) shapeCasts_S128_S1x128 := by
    show StableHlo.after hostOps2 (W4 m ρ c) (Proc.devRef .tc main_v99) = _
    after_results_simp
    rw [w4_arg29 m ρ c]
    rfl
  rw [e]
  exact shapeCast_a_1a_apply _ _ 0 j

/-- The node result buffer at the end: the second kernel's first output, untouched afterwards. -/
theorem node_result (c : Dev nD) :
    W6 m ρ c (Proc.devRef .tc main_v81_0) = (dat1 (V3 m ρ) c).arrAt 15 cfg1.N :=
  calc W6 m ρ c (Proc.devRef .tc main_v81_0)
    _ = W5 m ρ c (Proc.devRef .tc main_v81_0) := W6_of_ne m ρ c main_v81_0 (by decide)
    _ = W4 m ρ c (Proc.devRef .tc main_v81_0) := by
          show StableHlo.after hostOps2 (W4 m ρ c) (Proc.devRef .tc main_v81_0) = _
          after_results_simp
    _ = (dat1 (V3 m ρ) c).arrAt 15 cfg1.N := W4_arr m ρ c 15

/-- The second kernel's second output array at its exit. -/
theorem proj_array (c : Dev nD) :
    W4 m ρ c (Proc.devRef .tc main_v81_1) = (dat1 (V3 m ρ) c).arrAt 16 cfg1.N := W4_arr m ρ c 16

/-- The first kernel's output array at its exit. -/
theorem msg_array (c : Dev nD) :
    W2 m ρ c (Proc.devRef .tc main_v60) = (dat0 (V1 m ρ) c).arrAt 9 cfg0.N := W2_arr m ρ c 9

/-- The edge result buffer at the end: the third kernel's output. -/
theorem edge_result (c : Dev nD) :
    W6 m ρ c (Proc.devRef .tc main_v100) = (dat2 (V5 m ρ) c).arrAt 9 cfg2.N := W6_arr m ρ c 9

end Cert.KernelIdeal.Whole

end
-- ==== Proof.EdgeMessage.Join.lean ====
/-
  Five row pieces laid side by side, read at an entry.

  Five arrays with the same number `n` of rows and 256, 256, 128, 24 and 8 columns, joined along the column axis,
  form an array of 672 columns.  Column `k` of the joined row belongs to exactly one piece, decided by where `k`
  falls among the running totals 256, 512, 640, 664, and is that piece's column `k` less the columns before it.
  Row `r` of the join depends on row `r` of each piece only: so if the pieces of one join agree, row for row, with
  the pieces of another, the two joins agree on that row.
-/
import Idealize.ShloMosaic.Lib.ValueIdx
import Idealize.ShloMosaic.Lib.Pipeline.Value

namespace Cert.KernelIdeal.EdgeMessage.Join

open Idealize.ShloMosaic Idealize.ShloMosaic.ValueIdx

variable {α : Type}

/-- The shape of an `n`-row, `m`-column array. -/
abbrev Sh (n m : Nat) : Shape := ⟨2, ![n, m]⟩

/-- The five pieces of a join of `n`-row arrays, with their shapes, in order. -/
abbrev pieces {n : Nat} (a0 : (Sh n 256).Idx → α) (a1 : (Sh n 256).Idx → α) (a2 : (Sh n 128).Idx → α)
    (a3 : (Sh n 24).Idx → α) (a4 : (Sh n 8).Idx → α) : List ((s : Shape) × (s.Idx → α)) :=
  [⟨Sh n 256, a0⟩, ⟨Sh n 256, a1⟩, ⟨Sh n 128, a2⟩, ⟨Sh n 24, a3⟩, ⟨Sh n 8, a4⟩]

/-- Entry `(r, k)` of the join is the entry of the piece whose column span holds `k`. -/
theorem join_apply {n : Nat} (a0 : (Sh n 256).Idx → α) (a1 : (Sh n 256).Idx → α) (a2 : (Sh n 128).Idx → α)
    (a3 : (Sh n 24).Idx → α) (a4 : (Sh n 8).Idx → α)
    (h : Shape.Concatenates ((pieces a0 a1 a2 a3 a4).map (·.1)) (Sh n 672) 1) (r : Fin n) (k : Fin 672) :
    concatenate (Sh n 672) 1 (pieces a0 a1 a2 a3 a4) h (ix2 r k) =
      if h0 : k.val < 256 then a0 (ix2 r ⟨k.val, h0⟩)
      else if h1 : k.val < 512 then a1 (ix2 r ⟨k.val - 256, by omega⟩)
      else if h2 : k.val < 640 then a2 (ix2 r ⟨k.val - 512, by omega⟩)
      else if h3 : k.val < 664 then a3 (ix2 r ⟨k.val - 640, by omega⟩)
      else a4 (ix2 r ⟨k.val - 664, by have := k.isLt; omega⟩) := by
  have hk := k.isLt
  split
  · next h0 =>
    exact concatenate_apply_piece 1 _ h (ix2 r k) 0 (by show 0 < 5; omega) _ a0 rfl rfl 0 (by rfl) (ix2 r ⟨k.val, h0⟩)
      (fun b hb => match b with
        | ⟨0, _⟩ => rfl
        | ⟨1, _⟩ => absurd rfl hb)
      (by show 0 + k.val = k.val; omega)
  split
  · next h0 h1 =>
    exact concatenate_apply_piece 1 _ h (ix2 r k) 1 (by show 1 < 5; omega) _ a1 rfl rfl 256 (by rfl) (ix2 r ⟨k.val - 256, by omega⟩)
      (fun b hb => match b with
        | ⟨0, _⟩ => rfl
        | ⟨1, _⟩ => absurd rfl hb)
      (by show 256 + (k.val - 256) = k.val; omega)
  split
  · next h0 h1 h2 =>
    exact concatenate_apply_piece 1 _ h (ix2 r k) 2 (by show 2 < 5; omega) _ a2 rfl rfl 512 (by rfl) (ix2 r ⟨k.val - 512, by omega⟩)
      (fun b hb => match b with
        | ⟨0, _⟩ => rfl
        | ⟨1, _⟩ => absurd rfl hb)
      (by show 512 + (k.val - 512) = k.val; omega)
  split
  · next h0 h1 h2 h3 =>
    exact concatenate_apply_piece 1 _ h (ix2 r k) 3 (by show 3 < 5; omega) _ a3 rfl rfl 640 (by rfl) (ix2 r ⟨k.val - 640, by omega⟩)
      (fun b hb => match b with
        | ⟨0, _⟩ => rfl
        | ⟨1, _⟩ => absurd rfl hb)
      (by show 640 + (k.val - 640) = k.val; omega)
  · next h0 h1 h2 h3 =>
    exact concatenate_apply_piece 1 _ h (ix2 r k) 4 (by show 4 < 5; omega) _ a4 rfl rfl 664 (by rfl) (ix2 r ⟨k.val - 664, by omega⟩)
      (fun b hb => match b with
        | ⟨0, _⟩ => rfl
        | ⟨1, _⟩ => absurd rfl hb)
      (by show 664 + (k.val - 664) = k.val; omega)

/-- Two joins whose pieces agree on a pair of rows agree on that pair of rows. -/
theorem join_row_congr {n N : Nat} (a0 : (Sh n 256).Idx → α) (a1 : (Sh n 256).Idx → α) (a2 : (Sh n 128).Idx → α)
    (a3 : (Sh n 24).Idx → α) (a4 : (Sh n 8).Idx → α)
    (A0 : (Sh N 256).Idx → α) (A1 : (Sh N 256).Idx → α) (A2 : (Sh N 128).Idx → α)
    (A3 : (Sh N 24).Idx → α) (A4 : (Sh N 8).Idx → α)
    (h : Shape.Concatenates ((pieces a0 a1 a2 a3 a4).map (·.1)) (Sh n 672) 1)
    (H : Shape.Concatenates ((pieces A0 A1 A2 A3 A4).map (·.1)) (Sh N 672) 1)
    (r : Fin n) (R : Fin N)
    (e0 : ∀ c : Fin 256, a0 (ix2 r c) = A0 (ix2 R c)) (e1 : ∀ c : Fin 256, a1 (ix2 r c) = A1 (ix2 R c))
    (e2 : ∀ c : Fin 128, a2 (ix2 r c) = A2 (ix2 R c)) (e3 : ∀ c : Fin 24, a3 (ix2 r c) = A3 (ix2 R c))
    (e4 : ∀ c : Fin 8, a4 (ix2 r c) = A4 (ix2 R c)) (k : Fin 672) :
    concatenate (Sh n 672) 1 (pieces a0 a1 a2 a3 a4) h (ix2 r k)
      = concatenate (Sh N 672) 1 (pieces A0 A1 A2 A3 A4) H (ix2 R k) := by
  rw [join_apply a0 a1 a2 a3 a4 h r k, join_apply A0 A1 A2 A3 A4 H R k]
  split
  · exact e0 _
  split
  · exact e1 _
  split
  · exact e2 _
  split
  · exact e3 _
  · exact e4 _

end Cert.KernelIdeal.EdgeMessage.Join
-- ==== Proof.EdgeMessage.Spec.lean ====
/-
  One row of the message, as a function of the row's pieces.

  Given five arrays of `N` rows (256, 256, 128, 24 and 8 columns), two weight matrices (672 × 256 and 256 × 256)
  and two bias vectors of 256 entries, the message at row `R`, column `j` is

      ∑ k2, max ((∑ k, join (R, k) · W1 (k, k2)) + b1 k2) 0 · W2 (k2, j)  +  b2 j,

  where `join` is the five arrays laid side by side.  Only row `R` of each piece enters: two families of pieces that
  agree on a pair of rows, with weights and biases that agree entry for entry, give the same message on that pair.
  The zero the hidden row is clamped at is kept as the 32-bit word both programs print; it is never evaluated.
-/
import proofs.«169663_j18897856103195_1_alg».proof.Proof.EdgeMessage.Join
import Idealize.ShloMosaic.PureOps.Ideal.Laws

noncomputable section

namespace Cert.KernelIdeal.EdgeMessage.Spec

open Idealize.ShloMosaic Idealize.ShloMosaic.ValueIdx
open Cert.KernelIdeal.EdgeMessage.Join

/-- That five arrays of `N` rows with 256, 256, 128, 24 and 8 columns join into one of 672 columns. -/
abbrev Joins (N : Nat) : Prop :=
  Shape.Concatenates [Sh N 256, Sh N 256, Sh N 128, Sh N 24, Sh N 8] (Sh N 672) 1

/-- The message at row `R`, column `j`. -/
def rowForm {N : Nat} (A0 : (Sh N 256).Idx → EReal) (A1 : (Sh N 256).Idx → EReal) (A2 : (Sh N 128).Idx → EReal)
    (A3 : (Sh N 24).Idx → EReal) (A4 : (Sh N 8).Idx → EReal) (H : Joins N)
    (W1 : (Sh 672 256).Idx → EReal) (b1 : Fin 256 → EReal) (W2 : (Sh 256 256).Idx → EReal) (b2 : Fin 256 → EReal)
    (R : Fin N) (j : Fin 256) : EReal :=
  (∑ k2 : Fin 256, max ((∑ k : Fin 672, concatenate (Sh N 672) 1 (pieces A0 A1 A2 A3 A4) H (ix2 R k) * W1 (ix2 k k2)) + b1 k2)
      (Ideal.ofBits .f32 0x00000000#32) * W2 (ix2 k2 j)) + b2 j

/-- The message on a row depends on that row of the pieces, and on the weights and biases, entry by entry. -/
theorem rowForm_congr {n N : Nat}
    (a0 : (Sh n 256).Idx → EReal) (a1 : (Sh n 256).Idx → EReal) (a2 : (Sh n 128).Idx → EReal)
    (a3 : (Sh n 24).Idx → EReal) (a4 : (Sh n 8).Idx → EReal) (h : Joins n)
    (w1 : (Sh 672 256).Idx → EReal) (c1 : Fin 256 → EReal) (w2 : (Sh 256 256).Idx → EReal) (c2 : Fin 256 → EReal)
    (A0 : (Sh N 256).Idx → EReal) (A1 : (Sh N 256).Idx → EReal) (A2 : (Sh N 128).Idx → EReal)
    (A3 : (Sh N 24).Idx → EReal) (A4 : (Sh N 8).Idx → EReal) (H : Joins N)
    (W1 : (Sh 672 256).Idx → EReal) (b1 : Fin 256 → EReal) (W2 : (Sh 256 256).Idx → EReal) (b2 : Fin 256 → EReal)
    (r : Fin n) (R : Fin N)
    (e0 : ∀ c : Fin 256, a0 (ix2 r c) = A0 (ix2 R c)) (e1 : ∀ c : Fin 256, a1 (ix2 r c) = A1 (ix2 R c))
    (e2 : ∀ c : Fin 128, a2 (ix2 r c) = A2 (ix2 R c)) (e3 : ∀ c : Fin 24, a3 (ix2 r c) = A3 (ix2 R c))
    (e4 : ∀ c : Fin 8, a4 (ix2 r c) = A4 (ix2 R c))
    (eW1 : ∀ (k : Fin 672) (k2 : Fin 256), w1 (ix2 k k2) = W1 (ix2 k k2)) (eb1 : ∀ k2 : Fin 256, c1 k2 = b1 k2)
    (eW2 : ∀ (k2 : Fin 256) (j : Fin 256), w2 (ix2 k2 j) = W2 (ix2 k2 j)) (eb2 : ∀ j : Fin 256, c2 j = b2 j)
    (j : Fin 256) :
    rowForm a0 a1 a2 a3 a4 h w1 c1 w2 c2 r j = rowForm A0 A1 A2 A3 A4 H W1 b1 W2 b2 R j := by
  unfold rowForm
  rw [eb2 j]
  refine congrArg (· + b2 j) (Finset.sum_congr rfl fun k2 _ => ?_)
  rw [eW2 k2 j, eb1 k2]
  refine congrArg (· * W2 (ix2 k2 j)) (congrArg (max · (Ideal.ofBits .f32 0x00000000#32)) ?_)
  refine congrArg (· + b1 k2) (Finset.sum_congr rfl fun k _ => ?_)
  rw [eW1 k k2, join_row_congr a0 a1 a2 a3 a4 A0 A1 A2 A3 A4 h H r R e0 e1 e2 e3 e4 k]

end Cert.KernelIdeal.EdgeMessage.Spec

end
-- ==== Proof.EdgeMessage.Reference.lean ====
/-
  The reference's message at an entry.

  The reference joins the two gathered node-feature arrays, the edge features, the flattened invariant points and
  the distances into rows of 672 entries, takes the product with the first weight matrix, adds the first bias laid
  along every row, takes the maximum with zero, takes the product with the second weight matrix and adds the second
  bias.  Read at row `R`, column `j`, stage by stage, this is the message formula on row `R` of those five arrays:
  a product's entry is the sum over the contracted axis of left `(R, k)` times right `(k, j)`, and a bias vector
  broadcast to a one-row array and then down the rows reads its entry `j`.
-/
import proofs.«169663_j18897856103195_1_alg».proof.Proof.ReferenceRead
import proofs.«169663_j18897856103195_1_alg».proof.Proof.EdgeMessage.Spec
import Idealize.ShloMosaic.Lib.ValueIdx
import Idealize.ShloMosaic.PureOps.Ideal.Laws

set_option maxRecDepth 16384

noncomputable section

namespace Cert.KernelIdeal.EdgeMessage.Reference

open Idealize.ShloMosaic Idealize.ShloMosaic.ValueIdx
open Cert.ReferenceIdeal Cert.ReferenceIdeal.Gen Cert.ReferenceIdeal.Read

/-- The reference's message array at `(R, j)` is the message formula on row `R` of the five arrays it joins. -/
theorem v67_rowForm (x0 : (⟨S10000x256, .f32⟩ : BufTy).Contents (Elt Ideal)) (x1 : (⟨S300000x128, .f32⟩ : BufTy).Contents (Elt Ideal)) (x2 : (⟨S2x300000, .i32⟩ : BufTy).Contents (Elt Ideal)) (x3 : (⟨S10000x3x3, .f32⟩ : BufTy).Contents (Elt Ideal)) (x4 : (⟨S10000x3, .f32⟩ : BufTy).Contents (Elt Ideal)) (x6 : (⟨S256x24, .f32⟩ : BufTy).Contents (Elt Ideal)) (x7 : (⟨S24, .f32⟩ : BufTy).Contents (Elt Ideal)) (x8 : (⟨S672x256, .f32⟩ : BufTy).Contents (Elt Ideal)) (x9 : (⟨S256, .f32⟩ : BufTy).Contents (Elt Ideal)) (x10 : (⟨S256x256, .f32⟩ : BufTy).Contents (Elt Ideal)) (x11 : (⟨S256, .f32⟩ : BufTy).Contents (Elt Ideal))
    (R : Fin 300000) (j : Fin 256) :
    val_main_v67 (F := Ideal) x0 x1 x2 x3 x4 x6 x7 x8 x9 x10 x11 (ix2 R j)
      = Spec.rowForm (val_main_v49 (F := Ideal) x0 x2) (val_main_v56 (F := Ideal) x0 x2) x1
          (val_main_v57 (F := Ideal) x0 x2 x3 x4 x6 x7) (val_main_v42 (F := Ideal) x0 x2 x3 x4 x6 x7)
          concatenates_S300000x256_S300000x256_S300000x128_S300000x24_S300000x8_S300000x672_d1
          x8 (fun k2 => x9 (ix1 k2)) x10 (fun q => x11 (ix1 q)) R j := by
  have i65 : idx_main_v65 (idx_main_v66 (ix2 R j)) = ix1 j := funext fun a => Fin.ext (by
    match a with
    | ⟨0, _⟩ => rfl)
  rw [val_main_v67_apply, val_main_v64_apply, val_main_v66_apply, val_main_v65_apply, i65, Ideal.addf_def]
  unfold Spec.rowForm
  refine congrArg (· + x11 (ix1 j)) (Finset.sum_congr rfl fun k2 _ => ?_)
  have il : lidx_main_v64 (ix2 R j) k2 = ix2 R k2 := funext fun a => Fin.ext (by
    match a with
    | ⟨0, _⟩ => rfl
    | ⟨1, _⟩ => rfl)
  have ir : ridx_main_v64 (ix2 R j) k2 = ix2 k2 j := funext fun a => Fin.ext (by
    match a with
    | ⟨0, _⟩ => rfl
    | ⟨1, _⟩ => rfl)
  have i60 : idx_main_v60 (idx_main_v61 (ix2 R k2)) = ix1 k2 := funext fun a => Fin.ext (by
    match a with
    | ⟨0, _⟩ => rfl)
  rw [il, ir, val_main_v63_apply, val_main_v62_apply, val_main_v59_apply, val_main_v61_apply, val_main_v60_apply,
    val_main_call0_v0_apply, val_main_call0_cst_apply, i60, Ideal.maximumf_def, Ideal.addf_def]
  refine congrArg (· * x10 (ix2 k2 j)) (congrArg (max · (Ideal.ofBits .f32 0x00000000#32)) ?_)
  refine congrArg (· + x9 (ix1 k2)) (Finset.sum_congr rfl fun k _ => ?_)
  have il2 : lidx_main_v59 (ix2 R k2) k = ix2 R k := funext fun a => Fin.ext (by
    match a with
    | ⟨0, _⟩ => rfl
    | ⟨1, _⟩ => rfl)
  have ir2 : ridx_main_v59 (ix2 R k2) k = ix2 k k2 := funext fun a => Fin.ext (by
    match a with
    | ⟨0, _⟩ => rfl
    | ⟨1, _⟩ => rfl)
  rw [il2, ir2]
  unfold val_main_v58
  rfl

end Cert.KernelIdeal.EdgeMessage.Reference

end
-- ==== Proof.EdgeMessage.Payload.lean ====
/-
  The message kernel's body at one entry.

  The body joins the five row pieces into rows of 672 entries, multiplies by the first weight matrix, adds the
  first bias row, clamps below at zero, multiplies by the second weight matrix and adds the second bias row.  Entry
  `(r, j)` of the result depends on row `r` of the join alone: it is the sum over the 256 hidden columns `k2` of
  the clamped hidden entry `(r, k2)` times the second weight `(k2, j)`, plus the second bias at `j`; the hidden
  entry is the sum over the 672 joined columns `k` of the join's `(r, k)` times the first weight `(k, k2)`, plus
  the first bias at `k2`.  A matrix product accumulated into zero is just the sum, and a one-row array laid down
  every row reads its one row.
-/
import proofs.«169663_j18897856103195_1_alg».proof.Proof.Gen.KernelIdeal.Skeleton
import proofs.«169663_j18897856103195_1_alg».proof.Proof.EdgeMessage.Spec
import Idealize.ShloMosaic.Lib.ValueIdx
import Idealize.ShloMosaic.Lib.Pipeline.Value
import Idealize.ShloMosaic.PureOps.Ideal.Laws

set_option maxRecDepth 16384

noncomputable section

namespace Cert.KernelIdeal.EdgeMessage.Payload

open Idealize.ShloMosaic Idealize.ShloMosaic.ValueIdx
open Cert.KernelIdeal Cert.KernelIdeal.Gen

/-! ## Which operand entries a product's entry reads -/

theorem lhs1_0 (i : S3000x256.Idx) (q : dot_S3000x672_S672x256_S3000x256_1_0_0_1_n_n.contr.Idx) : (dot_S3000x672_S672x256_S3000x256_1_0_0_1_n_n.lhsIdx i q 0).val = (i 0).val := by
  unfold DotDims.lhsIdx
  rw [dif_neg (show ¬(0 : Fin S3000x672.rank) ∈ dot_S3000x672_S672x256_S3000x256_1_0_0_1_n_n.lhsBatch by decide), dif_pos (show (0 : Fin S3000x672.rank) ∈ dot_S3000x672_S672x256_S3000x256_1_0_0_1_n_n.lhsNonContracting by decide)]
  rfl
theorem lhs1_1 (i : S3000x256.Idx) (q : dot_S3000x672_S672x256_S3000x256_1_0_0_1_n_n.contr.Idx) : (dot_S3000x672_S672x256_S3000x256_1_0_0_1_n_n.lhsIdx i q 1).val = (q ⟨0, by decide⟩).val :=
  dot_S3000x672_S672x256_S3000x256_1_0_0_1_n_n.lhsIdx_val_of_single rfl i q
theorem rhs1_0 (i : S3000x256.Idx) (q : dot_S3000x672_S672x256_S3000x256_1_0_0_1_n_n.contr.Idx) : (dot_S3000x672_S672x256_S3000x256_1_0_0_1_n_n.rhsIdx i q 0).val = (q ⟨0, by decide⟩).val :=
  dot_S3000x672_S672x256_S3000x256_1_0_0_1_n_n.rhsIdx_val_of_single rfl i q
theorem rhs1_1 (i : S3000x256.Idx) (q : dot_S3000x672_S672x256_S3000x256_1_0_0_1_n_n.contr.Idx) : (dot_S3000x672_S672x256_S3000x256_1_0_0_1_n_n.rhsIdx i q 1).val = (i 1).val := by
  unfold DotDims.rhsIdx
  rw [dif_neg (show ¬(1 : Fin S672x256.rank) ∈ dot_S3000x672_S672x256_S3000x256_1_0_0_1_n_n.rhsBatch by decide), dif_pos (show (1 : Fin S672x256.rank) ∈ dot_S3000x672_S672x256_S3000x256_1_0_0_1_n_n.rhsNonContracting by decide)]
  rfl

theorem lhs2_0 (i : S3000x256.Idx) (q : dot_S3000x256_S256x256_S3000x256_1_0_0_1_n_n.contr.Idx) : (dot_S3000x256_S256x256_S3000x256_1_0_0_1_n_n.lhsIdx i q 0).val = (i 0).val := by
  unfold DotDims.lhsIdx
  rw [dif_neg (show ¬(0 : Fin S3000x256.rank) ∈ dot_S3000x256_S256x256_S3000x256_1_0_0_1_n_n.lhsBatch by decide), dif_pos (show (0 : Fin S3000x256.rank) ∈ dot_S3000x256_S256x256_S3000x256_1_0_0_1_n_n.lhsNonContracting by decide)]
  rfl
theorem lhs2_1 (i : S3000x256.Idx) (q : dot_S3000x256_S256x256_S3000x256_1_0_0_1_n_n.contr.Idx) : (dot_S3000x256_S256x256_S3000x256_1_0_0_1_n_n.lhsIdx i q 1).val = (q ⟨0, by decide⟩).val :=
  dot_S3000x256_S256x256_S3000x256_1_0_0_1_n_n.lhsIdx_val_of_single rfl i q
theorem rhs2_0 (i : S3000x256.Idx) (q : dot_S3000x256_S256x256_S3000x256_1_0_0_1_n_n.contr.Idx) : (dot_S3000x256_S256x256_S3000x256_1_0_0_1_n_n.rhsIdx i q 0).val = (q ⟨0, by decide⟩).val :=
  dot_S3000x256_S256x256_S3000x256_1_0_0_1_n_n.rhsIdx_val_of_single rfl i q
theorem rhs2_1 (i : S3000x256.Idx) (q : dot_S3000x256_S256x256_S3000x256_1_0_0_1_n_n.contr.Idx) : (dot_S3000x256_S256x256_S3000x256_1_0_0_1_n_n.rhsIdx i q 1).val = (i 1).val := by
  unfold DotDims.rhsIdx
  rw [dif_neg (show ¬(1 : Fin S256x256.rank) ∈ dot_S3000x256_S256x256_S3000x256_1_0_0_1_n_n.rhsBatch by decide), dif_pos (show (1 : Fin S256x256.rank) ∈ dot_S3000x256_S256x256_S3000x256_1_0_0_1_n_n.rhsNonContracting by decide)]
  rfl

/-! ## The two products, the bias rows, and the body -/

/-- The first product at an entry: row `r` of the left operand against column `j` of the right, over 672 terms. -/
theorem mm1_apply (x : FVec Ideal S3000x672 .f32) (w : FVec Ideal S672x256 .f32) (r : Fin 3000) (j : Fin 256) :
    matmul dot_S3000x672_S672x256_S3000x256_1_0_0_1_n_n none x w (constant (F := Ideal) S3000x256 .f32 0x00000000#32) (ix2 r j)
      = ∑ k : Fin 672, x (ix2 r k) * w (ix2 k j) := by
  refine (Ideal.matmul_constant_zero_apply dot_S3000x672_S672x256_S3000x256_1_0_0_1_n_n none x w (ix2 r j)).trans ?_
  rw [← Equiv.sum_comp (contrEquiv1 dot_S3000x672_S672x256_S3000x256_1_0_0_1_n_n 672 rfl rfl).symm]
  refine Finset.sum_congr rfl fun k _ => ?_
  have hk := contrEquiv1_symm_val dot_S3000x672_S672x256_S3000x256_1_0_0_1_n_n 672 rfl rfl k
  have el : dot_S3000x672_S672x256_S3000x256_1_0_0_1_n_n.lhsIdx (ix2 r j) ((contrEquiv1 dot_S3000x672_S672x256_S3000x256_1_0_0_1_n_n 672 rfl rfl).symm k) = ix2 r k := funext fun a => Fin.ext (by
    match a with
    | ⟨0, _⟩ => exact lhs1_0 _ _
    | ⟨1, _⟩ => exact (lhs1_1 _ _).trans hk)
  have er : dot_S3000x672_S672x256_S3000x256_1_0_0_1_n_n.rhsIdx (ix2 r j) ((contrEquiv1 dot_S3000x672_S672x256_S3000x256_1_0_0_1_n_n 672 rfl rfl).symm k) = ix2 k j := funext fun a => Fin.ext (by
    match a with
    | ⟨0, _⟩ => exact (rhs1_0 _ _).trans hk
    | ⟨1, _⟩ => exact rhs1_1 _ _)
  rw [el, er]

/-- The second product at an entry, over 256 terms. -/
theorem mm2_apply (x : FVec Ideal S3000x256 .f32) (w : FVec Ideal S256x256 .f32) (r : Fin 3000) (j : Fin 256) :
    matmul dot_S3000x256_S256x256_S3000x256_1_0_0_1_n_n none x w (constant (F := Ideal) S3000x256 .f32 0x00000000#32) (ix2 r j)
      = ∑ k : Fin 256, x (ix2 r k) * w (ix2 k j) := by
  refine (Ideal.matmul_constant_zero_apply dot_S3000x256_S256x256_S3000x256_1_0_0_1_n_n none x w (ix2 r j)).trans ?_
  rw [← Equiv.sum_comp (contrEquiv1 dot_S3000x256_S256x256_S3000x256_1_0_0_1_n_n 256 rfl rfl).symm]
  refine Finset.sum_congr rfl fun k _ => ?_
  have hk := contrEquiv1_symm_val dot_S3000x256_S256x256_S3000x256_1_0_0_1_n_n 256 rfl rfl k
  have el : dot_S3000x256_S256x256_S3000x256_1_0_0_1_n_n.lhsIdx (ix2 r j) ((contrEquiv1 dot_S3000x256_S256x256_S3000x256_1_0_0_1_n_n 256 rfl rfl).symm k) = ix2 r k := funext fun a => Fin.ext (by
    match a with
    | ⟨0, _⟩ => exact lhs2_0 _ _
    | ⟨1, _⟩ => exact (lhs2_1 _ _).trans hk)
  have er : dot_S3000x256_S256x256_S3000x256_1_0_0_1_n_n.rhsIdx (ix2 r j) ((contrEquiv1 dot_S3000x256_S256x256_S3000x256_1_0_0_1_n_n 256 rfl rfl).symm k) = ix2 k j := funext fun a => Fin.ext (by
    match a with
    | ⟨0, _⟩ => exact (rhs2_0 _ _).trans hk
    | ⟨1, _⟩ => exact rhs2_1 _ _)
  rw [el, er]

/-- A one-row array laid down all 3000 rows reads, at `(r, j)`, its entry `(0, j)`. -/
theorem row_apply (b : FVec Ideal S1x256 .f32) (r : Fin 3000) (j : Fin 256) :
    broadcastTo S3000x256 b broadcasts_S1x256_S3000x256 (ix2 r j) = b (ix2 (0 : Fin 1) j) :=
  broadcastTo_apply b broadcasts_S1x256_S3000x256 (ix2 r j) (ix2 (0 : Fin 1) j) (fun a => match a with
    | ⟨0, _⟩ => by show (0 : Nat) = if (1 : Nat) = 1 then 0 else r.val; rw [if_pos rfl]
    | ⟨1, _⟩ => by show j.val = if (256 : Nat) = 1 then 0 else j.val; rw [if_neg (by decide)])

/-- The join of the five row pieces, as the body forms it: four of the pieces pass through a cast to their own
    shape, which changes nothing. -/
abbrev joined (v0 : Vec Ideal S3000x256 .f32) (v2 : Vec Ideal S3000x256 .f32) (v4 : Vec Ideal S3000x128 .f32)
    (v5 : Vec Ideal S3000x24 .f32) (v7 : Vec Ideal S3000x8 .f32) : FVec Ideal S3000x672 .f32 :=
  concatenate S3000x672 1 [⟨S3000x256, shapeCast S3000x256 v0 shapeCasts_S3000x256_S3000x256⟩,
      ⟨S3000x256, shapeCast S3000x256 v2 shapeCasts_S3000x256_S3000x256⟩, ⟨S3000x128, v4⟩,
      ⟨S3000x24, shapeCast S3000x24 v5 shapeCasts_S3000x24_S3000x24⟩, ⟨S3000x8, shapeCast S3000x8 v7 shapeCasts_S3000x8_S3000x8⟩]
    concatenates_S3000x256_S3000x256_S3000x128_S3000x24_S3000x8_S3000x672_d1

/-- The body's result at entry `(r, j)`. -/
theorem pay_apply (v0 : Vec Ideal S3000x256 .f32) (v2 : Vec Ideal S3000x256 .f32) (v4 : Vec Ideal S3000x128 .f32)
    (v5 : Vec Ideal S3000x24 .f32) (v7 : Vec Ideal S3000x8 .f32) (v10 : Vec Ideal S672x256 .f32) (v12 : Vec Ideal S1x256 .f32)
    (v18 : Vec Ideal S256x256 .f32) (v20 : Vec Ideal S1x256 .f32) (r : Fin 3000) (j : Fin 256) :
    k0_pay1 (F := Ideal) v0 v2 v4 v5 v7 v10 v12 v18 v20 (ix2 r j)
      = (∑ k2 : Fin 256, max ((∑ k : Fin 672, joined v0 v2 v4 v5 v7 (ix2 r k) * v10 (ix2 k k2)) + v12 (ix2 (0 : Fin 1) k2))
            (Ideal.ofBits .f32 0x00000000#32) * v18 (ix2 k2 j)) + v20 (ix2 (0 : Fin 1) j) := by
  unfold k0_pay1
  simp only [shapeCast_self v12, shapeCast_self v20]
  refine (congrArg₂ (· + ·) (mm2_apply _ v18 r j) (row_apply v20 r j)).trans ?_
  refine congrArg (· + v20 (ix2 (0 : Fin 1) j)) (Finset.sum_congr rfl fun k2 _ => congrArg (· * v18 (ix2 k2 j)) ?_)
  refine congrArg (max · (Ideal.ofBits .f32 0x00000000#32)) ?_
  exact congrArg₂ (· + ·) (mm1_apply (joined v0 v2 v4 v5 v7) v10 r k2) (row_apply v12 r k2)

/-- The same, named: the body's result at `(r, j)` is the message formula on row `r` of its loaded blocks, the
    biases read off their single rows. -/
theorem pay_rowForm (v0 : Vec Ideal S3000x256 .f32) (v2 : Vec Ideal S3000x256 .f32) (v4 : Vec Ideal S3000x128 .f32)
    (v5 : Vec Ideal S3000x24 .f32) (v7 : Vec Ideal S3000x8 .f32) (v10 : Vec Ideal S672x256 .f32) (v12 : Vec Ideal S1x256 .f32)
    (v18 : Vec Ideal S256x256 .f32) (v20 : Vec Ideal S1x256 .f32) (r : Fin 3000) (j : Fin 256) :
    k0_pay1 (F := Ideal) v0 v2 v4 v5 v7 v10 v12 v18 v20 (ix2 r j)
      = Spec.rowForm (shapeCast S3000x256 v0 shapeCasts_S3000x256_S3000x256) (shapeCast S3000x256 v2 shapeCasts_S3000x256_S3000x256) v4
          (shapeCast S3000x24 v5 shapeCasts_S3000x24_S3000x24) (shapeCast S3000x8 v7 shapeCasts_S3000x8_S3000x8)
          concatenates_S3000x256_S3000x256_S3000x128_S3000x24_S3000x8_S3000x672_d1
          v10 (fun k2 => v12 (ix2 (0 : Fin 1) k2)) v18 (fun j => v20 (ix2 (0 : Fin 1) j)) r j :=
  pay_apply v0 v2 v4 v5 v7 v10 v12 v18 v20 r j

end Cert.KernelIdeal.EdgeMessage.Payload

end
-- ==== Proof.EdgeMessage.Blocks.lean ====
/-
  The input windows' blocks, read off their arrays.

  The grid has 100 points.  At point `t` each of the five row-blocked input windows holds rows
  `3000 t … 3000 t + 2999` of its array with all its columns, and the two weight matrices and the two bias rows are
  held whole at every point.  A block's coordinate in the array is the block index times the block size plus the
  coordinate inside the block; the block indices are decided once over the grid.
-/
import proofs.«169663_j18897856103195_1_alg».proof.Proof.Gen.KernelIdeal.Frame
import Idealize.ShloMosaic.Lib.ValueIdx
import Idealize.ShloMosaic.Lib.Pipeline.Value

set_option maxRecDepth 16384

noncomputable section

namespace Cert.KernelIdeal.EdgeMessage.Blocks

open Idealize.ShloMosaic Idealize.ShloMosaic.TcCoe Idealize.SL.Sem Idealize.ShloMosaic.ValueIdx
open Idealize.ShloMosaic.Pipeline (Dat Cfg Window)
open Cert.KernelIdeal Cert.KernelIdeal.Gen

variable (V : (c : Dev nD) → (b : Ref sig .tc) → Buf (Elt Ideal) ((c : Thread nD τ).loc b))

/-- The body loads and stores its buffers whole: at offsets zero. -/
theorem hz : (![0, 0] : Fin 2 → Nat) = fun _ => 0 := funext fun a => by fin_cases a <;> rfl

/-- The printed index maps, decided once over the 100 grid points: the five row-blocked inputs and the output sit at
    block `(t, 0)`, the weights and bias rows at block `(0, 0)`. -/
theorem idx_facts : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_3.index t (0 : Fin 2) = t.val ∧ win0_3.index t (1 : Fin 2) = 0)
    ∧ (win0_4.index t (0 : Fin 2) = t.val ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0)
    ∧ (win0_8.index t (0 : Fin 2) = 0 ∧ win0_8.index t (1 : Fin 2) = 0)
    ∧ (win0_9.index t (0 : Fin 2) = t.val ∧ win0_9.index t (1 : Fin 2) = 0) :=
  (by decide +kernel : ∀ t : Fin grid0.N, _)

/-- A grid point is below 100. -/
theorem point_lt (t : Fin cfg0.N) : t.val < 100 := lt_of_lt_of_eq t.isLt N_0

/-! ## Each input window's block, read off its array -/

/-- Window 0's block at point `t` is rows `3000 t … 3000 t + 2999` of its array, all 256 columns. -/
theorem blk0_apply (c : Dev nD) (t : Fin cfg0.N) (y : S3000x256.Idx) (i : S300000x256.Idx)
    (h0 : (i 0).val = 3000 * t.val + (y 0).val) (h1 : (i 1).val = (y 1).val) :
    (iblk0 V c 0 t : Vec Ideal S3000x256 .f32) y = (V c (Pipeline.arrRef spec0 0) : S300000x256.Idx → EReal) i := by
  have hi := (idx_facts t).1
  unfold iblk0
  rw [View.read_apply]
  show (V c (Pipeline.arrRef spec0 0) : S300000x256.Idx → EReal) _ = (V c (Pipeline.arrRef spec0 0) : S300000x256.Idx → EReal) i
  refine congrArg (V c (Pipeline.arrRef spec0 0) : S300000x256.Idx → EReal) (funext fun a => Fin.ext ?_)
  match a with
  | ⟨0, _⟩ => show win0_0.index t 0 * 3000 + 1 * (y 0).val = (i 0).val; rw [hi.1, h0]; omega
  | ⟨1, _⟩ => show win0_0.index t 1 * 256 + 1 * (y 1).val = (i 1).val; rw [hi.2, h1]; omega

/-- Window 1's block at point `t` is rows `3000 t … 3000 t + 2999` of its array, all 256 columns. -/
theorem blk1_apply (c : Dev nD) (t : Fin cfg0.N) (y : S3000x256.Idx) (i : S300000x256.Idx)
    (h0 : (i 0).val = 3000 * t.val + (y 0).val) (h1 : (i 1).val = (y 1).val) :
    (iblk0 V c 1 t : Vec Ideal S3000x256 .f32) y = (V c (Pipeline.arrRef spec0 1) : S300000x256.Idx → EReal) i := by
  have hi := (idx_facts t).2.1
  unfold iblk0
  rw [View.read_apply]
  show (V c (Pipeline.arrRef spec0 1) : S300000x256.Idx → EReal) _ = (V c (Pipeline.arrRef spec0 1) : S300000x256.Idx → EReal) i
  refine congrArg (V c (Pipeline.arrRef spec0 1) : S300000x256.Idx → EReal) (funext fun a => Fin.ext ?_)
  match a with
  | ⟨0, _⟩ => show win0_1.index t 0 * 3000 + 1 * (y 0).val = (i 0).val; rw [hi.1, h0]; omega
  | ⟨1, _⟩ => show win0_1.index t 1 * 256 + 1 * (y 1).val = (i 1).val; rw [hi.2, h1]; omega

/-- Window 2's block at point `t` is rows `3000 t … 3000 t + 2999` of its array, all 128 columns. -/
theorem blk2_apply (c : Dev nD) (t : Fin cfg0.N) (y : S3000x128.Idx) (i : S300000x128.Idx)
    (h0 : (i 0).val = 3000 * t.val + (y 0).val) (h1 : (i 1).val = (y 1).val) :
    (iblk0 V c 2 t : Vec Ideal S3000x128 .f32) y = (V c (Pipeline.arrRef spec0 2) : S300000x128.Idx → EReal) i := by
  have hi := (idx_facts t).2.2.1
  unfold iblk0
  rw [View.read_apply]
  show (V c (Pipeline.arrRef spec0 2) : S300000x128.Idx → EReal) _ = (V c (Pipeline.arrRef spec0 2) : S300000x128.Idx → EReal) i
  refine congrArg (V c (Pipeline.arrRef spec0 2) : S300000x128.Idx → EReal) (funext fun a => Fin.ext ?_)
  match a with
  | ⟨0, _⟩ => show win0_2.index t 0 * 3000 + 1 * (y 0).val = (i 0).val; rw [hi.1, h0]; omega
  | ⟨1, _⟩ => show win0_2.index t 1 * 128 + 1 * (y 1).val = (i 1).val; rw [hi.2, h1]; omega

/-- Window 3's block at point `t` is rows `3000 t … 3000 t + 2999` of its array, all 24 columns. -/
theorem blk3_apply (c : Dev nD) (t : Fin cfg0.N) (y : S3000x24.Idx) (i : S300000x24.Idx)
    (h0 : (i 0).val = 3000 * t.val + (y 0).val) (h1 : (i 1).val = (y 1).val) :
    (iblk0 V c 3 t : Vec Ideal S3000x24 .f32) y = (V c (Pipeline.arrRef spec0 3) : S300000x24.Idx → EReal) i := by
  have hi := (idx_facts t).2.2.2.1
  unfold iblk0
  rw [View.read_apply]
  show (V c (Pipeline.arrRef spec0 3) : S300000x24.Idx → EReal) _ = (V c (Pipeline.arrRef spec0 3) : S300000x24.Idx → EReal) i
  refine congrArg (V c (Pipeline.arrRef spec0 3) : S300000x24.Idx → EReal) (funext fun a => Fin.ext ?_)
  match a with
  | ⟨0, _⟩ => show win0_3.index t 0 * 3000 + 1 * (y 0).val = (i 0).val; rw [hi.1, h0]; omega
  | ⟨1, _⟩ => show win0_3.index t 1 * 24 + 1 * (y 1).val = (i 1).val; rw [hi.2, h1]; omega

/-- Window 4's block at point `t` is rows `3000 t … 3000 t + 2999` of its array, all 8 columns. -/
theorem blk4_apply (c : Dev nD) (t : Fin cfg0.N) (y : S3000x8.Idx) (i : S300000x8.Idx)
    (h0 : (i 0).val = 3000 * t.val + (y 0).val) (h1 : (i 1).val = (y 1).val) :
    (iblk0 V c 4 t : Vec Ideal S3000x8 .f32) y = (V c (Pipeline.arrRef spec0 4) : S300000x8.Idx → EReal) i := by
  have hi := (idx_facts t).2.2.2.2.1
  unfold iblk0
  rw [View.read_apply]
  show (V c (Pipeline.arrRef spec0 4) : S300000x8.Idx → EReal) _ = (V c (Pipeline.arrRef spec0 4) : S300000x8.Idx → EReal) i
  refine congrArg (V c (Pipeline.arrRef spec0 4) : S300000x8.Idx → EReal) (funext fun a => Fin.ext ?_)
  match a with
  | ⟨0, _⟩ => show win0_4.index t 0 * 3000 + 1 * (y 0).val = (i 0).val; rw [hi.1, h0]; omega
  | ⟨1, _⟩ => show win0_4.index t 1 * 8 + 1 * (y 1).val = (i 1).val; rw [hi.2, h1]; omega

/-- Window 5's block at every point is its whole array. -/
theorem blk5_apply (c : Dev nD) (t : Fin cfg0.N) (y : S672x256.Idx) :
    (iblk0 V c 5 t : Vec Ideal S672x256 .f32) y = (V c (Pipeline.arrRef spec0 5) : S672x256.Idx → EReal) y := by
  have hi := (idx_facts t).2.2.2.2.2.1
  unfold iblk0
  rw [View.read_apply]
  show (V c (Pipeline.arrRef spec0 5) : S672x256.Idx → EReal) _ = (V c (Pipeline.arrRef spec0 5) : S672x256.Idx → EReal) y
  refine congrArg (V c (Pipeline.arrRef spec0 5) : S672x256.Idx → EReal) (funext fun a => Fin.ext ?_)
  match a with
  | ⟨0, _⟩ => show win0_5.index t 0 * 672 + 1 * (y 0).val = (y 0).val; rw [hi.1]; omega
  | ⟨1, _⟩ => show win0_5.index t 1 * 256 + 1 * (y 1).val = (y 1).val; rw [hi.2]; omega

/-- Window 6's block at every point is its whole array. -/
theorem blk6_apply (c : Dev nD) (t : Fin cfg0.N) (y : S1x256.Idx) :
    (iblk0 V c 6 t : Vec Ideal S1x256 .f32) y = (V c (Pipeline.arrRef spec0 6) : S1x256.Idx → EReal) y := by
  have hi := (idx_facts t).2.2.2.2.2.2.1
  unfold iblk0
  rw [View.read_apply]
  show (V c (Pipeline.arrRef spec0 6) : S1x256.Idx → EReal) _ = (V c (Pipeline.arrRef spec0 6) : S1x256.Idx → EReal) y
  refine congrArg (V c (Pipeline.arrRef spec0 6) : S1x256.Idx → EReal) (funext fun a => Fin.ext ?_)
  match a with
  | ⟨0, _⟩ => show win0_6.index t 0 * 1 + 1 * (y 0).val = (y 0).val; rw [hi.1]; omega
  | ⟨1, _⟩ => show win0_6.index t 1 * 256 + 1 * (y 1).val = (y 1).val; rw [hi.2]; omega

/-- Window 7's block at every point is its whole array. -/
theorem blk7_apply (c : Dev nD) (t : Fin cfg0.N) (y : S256x256.Idx) :
    (iblk0 V c 7 t : Vec Ideal S256x256 .f32) y = (V c (Pipeline.arrRef spec0 7) : S256x256.Idx → EReal) y := by
  have hi := (idx_facts t).2.2.2.2.2.2.2.1
  unfold iblk0
  rw [View.read_apply]
  show (V c (Pipeline.arrRef spec0 7) : S256x256.Idx → EReal) _ = (V c (Pipeline.arrRef spec0 7) : S256x256.Idx → EReal) y
  refine congrArg (V c (Pipeline.arrRef spec0 7) : S256x256.Idx → EReal) (funext fun a => Fin.ext ?_)
  match a with
  | ⟨0, _⟩ => show win0_7.index t 0 * 256 + 1 * (y 0).val = (y 0).val; rw [hi.1]; omega
  | ⟨1, _⟩ => show win0_7.index t 1 * 256 + 1 * (y 1).val = (y 1).val; rw [hi.2]; omega

/-- Window 8's block at every point is its whole array. -/
theorem blk8_apply (c : Dev nD) (t : Fin cfg0.N) (y : S1x256.Idx) :
    (iblk0 V c 8 t : Vec Ideal S1x256 .f32) y = (V c (Pipeline.arrRef spec0 8) : S1x256.Idx → EReal) y := by
  have hi := (idx_facts t).2.2.2.2.2.2.2.2.1
  unfold iblk0
  rw [View.read_apply]
  show (V c (Pipeline.arrRef spec0 8) : S1x256.Idx → EReal) _ = (V c (Pipeline.arrRef spec0 8) : S1x256.Idx → EReal) y
  refine congrArg (V c (Pipeline.arrRef spec0 8) : S1x256.Idx → EReal) (funext fun a => Fin.ext ?_)
  match a with
  | ⟨0, _⟩ => show win0_8.index t 0 * 1 + 1 * (y 0).val = (y 0).val; rw [hi.1]; omega
  | ⟨1, _⟩ => show win0_8.index t 1 * 256 + 1 * (y 1).val = (y 1).val; rw [hi.2]; omega

end Cert.KernelIdeal.EdgeMessage.Blocks

end
-- ==== Proof.EdgeMessage.Array.lean ====
/-
  From the blocks to the whole message array.

  At point `t` the output window's block is rows `3000 t … 3000 t + 2999` of the message array.  The body's result on
  local row `r` is the message formula on row `r` of the loaded blocks, which is row `3000 t + r` of the arrays: so
  what point `t` writes back is block `t` of the message formula over the whole arrays.  Row `R` lies in the block of
  point `R / 3000`, so the blocks cover the array, and the array the kernel leaves is the formula everywhere.
-/
import proofs.«169663_j18897856103195_1_alg».proof.Proof.Gen.KernelIdeal.Frame
import proofs.«169663_j18897856103195_1_alg».proof.Proof.EdgeMessage.Spec
import proofs.«169663_j18897856103195_1_alg».proof.Proof.EdgeMessage.Payload
import proofs.«169663_j18897856103195_1_alg».proof.Proof.EdgeMessage.Blocks
import Idealize.ShloMosaic.Lib.ValueIdx
import Idealize.ShloMosaic.Lib.Pipeline.Value

set_option maxRecDepth 16384

noncomputable section

namespace Cert.KernelIdeal.EdgeMessage.Array

open Idealize.ShloMosaic Idealize.ShloMosaic.TcCoe Idealize.SL.Sem Idealize.ShloMosaic.ValueIdx
open Idealize.ShloMosaic.Pipeline (Dat Cfg Window)
open Cert.KernelIdeal Cert.KernelIdeal.Gen
open Cert.KernelIdeal.EdgeMessage.Blocks

variable (V : (c : Dev nD) → (b : Ref sig .tc) → Buf (Elt Ideal) ((c : Thread nD τ).loc b))

/-! ## What a point writes back -/

/-- Point `t` writes back block `t` of any array `G` that is, row by row, the message formula over the input
    windows' arrays as the region finds them. -/
theorem flushed_eq (c : Dev nD) (t : Fin cfg0.N) (G : S300000x256.Idx → EReal) (H : Spec.Joins 300000)
    (hG : ∀ (R : Fin 300000) (j : Fin 256), G (ix2 R j) =
      Spec.rowForm (V c (Pipeline.arrRef spec0 0) : S300000x256.Idx → EReal) (V c (Pipeline.arrRef spec0 1) : S300000x256.Idx → EReal) (V c (Pipeline.arrRef spec0 2) : S300000x128.Idx → EReal)
        (V c (Pipeline.arrRef spec0 3) : S300000x24.Idx → EReal) (V c (Pipeline.arrRef spec0 4) : S300000x8.Idx → EReal) H
        (V c (Pipeline.arrRef spec0 5) : S672x256.Idx → EReal) (fun k2 => (V c (Pipeline.arrRef spec0 6) : S1x256.Idx → EReal) (ix2 (0 : Fin 1) k2))
        (V c (Pipeline.arrRef spec0 7) : S256x256.Idx → EReal) (fun j => (V c (Pipeline.arrRef spec0 8) : S1x256.Idx → EReal) (ix2 (0 : Fin 1) j)) R j) :
    (dat0 (F := Ideal) V c).flushed 9 t = ((cfg0.win 9).blk t).view.read (Elt Ideal) G := by
  show (cfg0.win 9).cut (grid0.coords t) ((dat0 (F := Ideal) V c).after 9 t) = _
  rw [after0_9]
  unfold out0_9
  rw [View.canon_unit_zero hz]
  simp only [View.ld_unit_zero (S := S3000x256) hz, View.ld_unit_zero (S := S3000x128) hz, View.ld_unit_zero (S := S3000x24) hz,
    View.ld_unit_zero (S := S3000x8) hz, View.ld_unit_zero (S := S672x256) hz, View.ld_unit_zero (S := S1x256) hz,
    View.ld_unit_zero (S := S256x256) hz]
  funext y
  obtain ⟨r, j, rfl⟩ : ∃ (r : Fin 3000) (j : Fin 256), y = ix2 r j := ⟨y 0, y 1, eq_ix2 y⟩
  rw [View.read_apply]
  refine (Payload.pay_rowForm _ _ _ _ _ _ _ _ _ r j).trans ?_
  have ht := point_lt t
  have hr := r.isLt
  have hi9 := (idx_facts t).2.2.2.2.2.2.2.2.2
  have hemb : (((cfg0.win 9).blk t).view.emb (ix2 r j) : S300000x256.Idx)
      = ix2 (⟨3000 * t.val + r.val, by omega⟩ : Fin 300000) j := funext fun a => Fin.ext (by
    match a with
    | ⟨0, _⟩ => show win0_9.index t 0 * 3000 + 1 * r.val = 3000 * t.val + r.val; rw [hi9.1]; omega
    | ⟨1, _⟩ => show win0_9.index t 1 * 256 + 1 * j.val = j.val; rw [hi9.2]; omega)
  show _ = G (((cfg0.win 9).blk t).view.emb (ix2 r j))
  rw [hemb, hG]
  exact Spec.rowForm_congr _ _ _ _ _ _ _ _ _ _ _ _ _ _ _ _ _ _ _ _ r ⟨3000 * t.val + r.val, by omega⟩
    (fun q => (congrFun (shapeCast_self _ _) _).trans (blk0_apply V c t (ix2 r q) (ix2 _ q) rfl rfl))
    (fun q => (congrFun (shapeCast_self _ _) _).trans (blk1_apply V c t (ix2 r q) (ix2 _ q) rfl rfl))
    (fun q => blk2_apply V c t (ix2 r q) (ix2 _ q) rfl rfl)
    (fun q => (congrFun (shapeCast_self _ _) _).trans (blk3_apply V c t (ix2 r q) (ix2 _ q) rfl rfl))
    (fun q => (congrFun (shapeCast_self _ _) _).trans (blk4_apply V c t (ix2 r q) (ix2 _ q) rfl rfl))
    (fun k k2 => blk5_apply V c t (ix2 k k2)) (fun k2 => blk6_apply V c t (ix2 (0 : Fin 1) k2))
    (fun k2 q => blk7_apply V c t (ix2 k2 q)) (fun q => blk8_apply V c t (ix2 (0 : Fin 1) q)) j

/-! ## The blocks cover the array -/

/-- An entry of the message array is in point `t`'s block iff each coordinate is in the block's range on its axis. -/
theorem mem_blk (t : Fin cfg0.N) (i : S300000x256.Idx) :
    i ∈ ((cfg0.win 9).blk t).view.set ↔ ∀ a : Fin 2, win0_9.index t a * S3000x256.size a ≤ (i a).val ∧ (i a).val < win0_9.index t a * S3000x256.size a + S3000x256.size a := by
  show i ∈ ((View.whole main_v60).slice (win0_9.rect t)).set ↔ _
  rw [View.set_slice_whole, Rect.mem_set_unit]
  exact Iff.rfl

/-- Row `R` is in the block of point `R / 3000`, which writes back. -/
theorem cover (i : S300000x256.Idx) :
    ∃ t : Fin cfg0.N, (cfg0.win 9).flush t = true ∧ i ∈ ((cfg0.win 9).blk t).view.set := by
  have hi0 : (i 0).val < 300000 := (i 0).isLt
  have hi1 : (i 1).val < 256 := (i 1).isLt
  have hlt : (i 0).val / 3000 < cfg0.N := by show (i 0).val / 3000 < grid0.N; rw [N_0]; omega
  have hq := (idx_facts ⟨(i 0).val / 3000, hlt⟩).2.2.2.2.2.2.2.2.2
  refine ⟨⟨(i 0).val / 3000, hlt⟩, flush0_9 _, ?_⟩
  rw [mem_blk]
  intro a
  match a with
  | ⟨0, _⟩ =>
    show win0_9.index ⟨(i 0).val / 3000, hlt⟩ 0 * 3000 ≤ (i 0).val ∧ (i 0).val < win0_9.index ⟨(i 0).val / 3000, hlt⟩ 0 * 3000 + 3000
    rw [hq.1]; show (i 0).val / 3000 * 3000 ≤ (i 0).val ∧ (i 0).val < (i 0).val / 3000 * 3000 + 3000; omega
  | ⟨1, _⟩ =>
    show win0_9.index ⟨(i 0).val / 3000, hlt⟩ 1 * 256 ≤ (i 1).val ∧ (i 1).val < win0_9.index ⟨(i 0).val / 3000, hlt⟩ 1 * 256 + 256
    rw [hq.2]; omega

/-! ## The whole array -/

/-- The message array the kernel leaves is any `G` that is, row by row, the message formula over the input windows'
    arrays as the region finds them. -/
theorem arrAt_eq (c : Dev nD) (G : S300000x256.Idx → EReal) (H : Spec.Joins 300000)
    (hG : ∀ (R : Fin 300000) (j : Fin 256), G (ix2 R j) =
      Spec.rowForm (V c (Pipeline.arrRef spec0 0) : S300000x256.Idx → EReal) (V c (Pipeline.arrRef spec0 1) : S300000x256.Idx → EReal) (V c (Pipeline.arrRef spec0 2) : S300000x128.Idx → EReal)
        (V c (Pipeline.arrRef spec0 3) : S300000x24.Idx → EReal) (V c (Pipeline.arrRef spec0 4) : S300000x8.Idx → EReal) H
        (V c (Pipeline.arrRef spec0 5) : S672x256.Idx → EReal) (fun k2 => (V c (Pipeline.arrRef spec0 6) : S1x256.Idx → EReal) (ix2 (0 : Fin 1) k2))
        (V c (Pipeline.arrRef spec0 7) : S256x256.Idx → EReal) (fun j => (V c (Pipeline.arrRef spec0 8) : S1x256.Idx → EReal) (ix2 (0 : Fin 1) j)) R j) :
    (dat0 (F := Ideal) V c).arrAt 9 cfg0.N = G :=
  (dat0 (F := Ideal) V c).arrAt_eq_of_cover 9 G (fun t _ => flushed_eq V c t G H hG) cover

end Cert.KernelIdeal.EdgeMessage.Array

end
-- ==== Proof.EdgeMessage.lean ====
/-
  The per-edge message kernel, as one whole-array function.

  Edge `e` of the 300000 edges lies in block `e / 3000` of the grid of 100 points.  At a point the body joins, along
  the feature axis, the source node's row, the destination node's row, the edge's own features, its 24 invariant
  point coordinates and its 8 distances into one row of 672 entries, multiplies by the first weight matrix, adds the
  first bias, clamps below at zero, multiplies by the second weight matrix and adds the second bias.  Every step is
  local to the row, so the array the kernel leaves is, row by row, the reference's message array.
-/
import proofs.«169663_j18897856103195_1_alg».proof.Proof.Gen.KernelIdeal.Frame
import proofs.«169663_j18897856103195_1_alg».proof.Proof.ReferenceRead
import proofs.«169663_j18897856103195_1_alg».proof.Proof.EdgeMessage.Spec
import proofs.«169663_j18897856103195_1_alg».proof.Proof.EdgeMessage.Reference
import proofs.«169663_j18897856103195_1_alg».proof.Proof.EdgeMessage.Array
import Idealize.ShloMosaic.Lib.ValueIdx
import Idealize.ShloMosaic.Lib.Pipeline.Value
import Idealize.ShloMosaic.PureOps.Ideal.Laws

set_option maxRecDepth 16384

noncomputable section

namespace Cert.KernelIdeal.EdgeMessage

open Idealize.ShloMosaic Idealize.ShloMosaic.TcCoe Idealize.SL.Sem Idealize.ShloMosaic.ValueIdx
open Idealize.ShloMosaic.Pipeline (Dat Cfg Window)
open Cert.KernelIdeal Cert.KernelIdeal.Gen

variable (V : (c : Dev nD) → (b : Ref sig .tc) → Buf (Elt Ideal) ((c : Thread nD τ).loc b))

/-- The message array the kernel leaves is the reference's, provided each input window's array is the reference's
    corresponding intermediate (the two gathered node-feature arrays, the edge features, the flattened invariant
    points, the distances, the two weight matrices, and the two biases as single rows). -/
theorem array_eq (c : Dev nD) (x0 : (⟨S10000x256, .f32⟩ : BufTy).Contents (Elt Ideal)) (x1 : (⟨S300000x128, .f32⟩ : BufTy).Contents (Elt Ideal)) (x2 : (⟨S2x300000, .i32⟩ : BufTy).Contents (Elt Ideal)) (x3 : (⟨S10000x3x3, .f32⟩ : BufTy).Contents (Elt Ideal)) (x4 : (⟨S10000x3, .f32⟩ : BufTy).Contents (Elt Ideal)) (x6 : (⟨S256x24, .f32⟩ : BufTy).Contents (Elt Ideal)) (x7 : (⟨S24, .f32⟩ : BufTy).Contents (Elt Ideal)) (x8 : (⟨S672x256, .f32⟩ : BufTy).Contents (Elt Ideal)) (x9 : (⟨S256, .f32⟩ : BufTy).Contents (Elt Ideal)) (x10 : (⟨S256x256, .f32⟩ : BufTy).Contents (Elt Ideal)) (x11 : (⟨S256, .f32⟩ : BufTy).Contents (Elt Ideal))
    (h0 : V c (Pipeline.arrRef spec0 0) = Cert.ReferenceIdeal.Read.val_main_v49 (F := Ideal) x0 x2)
    (h1 : V c (Pipeline.arrRef spec0 1) = Cert.ReferenceIdeal.Read.val_main_v56 (F := Ideal) x0 x2)
    (h2 : V c (Pipeline.arrRef spec0 2) = x1)
    (h3 : V c (Pipeline.arrRef spec0 3) = Cert.ReferenceIdeal.Read.val_main_v57 (F := Ideal) x0 x2 x3 x4 x6 x7)
    (h4 : V c (Pipeline.arrRef spec0 4) = Cert.ReferenceIdeal.Read.val_main_v42 (F := Ideal) x0 x2 x3 x4 x6 x7)
    (h5 : V c (Pipeline.arrRef spec0 5) = x8)
    (h6 : ∀ j : Fin 256, V c (Pipeline.arrRef spec0 6) (ix2 (0 : Fin 1) j) = x9 (ix1 j))
    (h7 : V c (Pipeline.arrRef spec0 7) = x10)
    (h8 : ∀ j : Fin 256, V c (Pipeline.arrRef spec0 8) (ix2 (0 : Fin 1) j) = x11 (ix1 j)) :
    (dat0 (F := Ideal) V c).arrAt 9 cfg0.N = Cert.ReferenceIdeal.Read.val_main_v67 (F := Ideal) x0 x1 x2 x3 x4 x6 x7 x8 x9 x10 x11 := by
  -- the kernel's array is any array that is, row by row, the message formula over the window arrays …
  refine Array.arrAt_eq V c _
    Cert.ReferenceIdeal.Gen.concatenates_S300000x256_S300000x256_S300000x128_S300000x24_S300000x8_S300000x672_d1 (fun R j => ?_)
  -- … the reference's is the formula over its own intermediates, and the two families agree entry for entry
  rw [Reference.v67_rowForm]
  exact Spec.rowForm_congr _ _ _ _ _ _ _ _ _ _ _ _ _ _ _ _ _ _ _ _ R R
    (fun q => (congrFun h0 _).symm) (fun q => (congrFun h1 _).symm) (fun q => (congrFun h2 _).symm)
    (fun q => (congrFun h3 _).symm) (fun q => (congrFun h4 _).symm)
    (fun k k2 => (congrFun h5 _).symm) (fun k2 => (h6 k2).symm)
    (fun k2 q => (congrFun h7 _).symm) (fun q => (h8 q).symm) j

end Cert.KernelIdeal.EdgeMessage

end
-- ==== Proof.NodeTransition.Spec.lean ====
/-
  The node transition of one node, as functions of the node's own row.

  Every step of the transition reads one node's 256 features at a time: the masked mean message is added to the
  features, the row is normalised (its mean and its variance are sums over the row's 256 entries divided by 256; the
  centred row is multiplied by the reciprocal square root of the variance plus epsilon, then scaled and shifted
  entrywise), three dense layers follow (a dense layer's entry j is the sum over k of the row's entry k times the
  weight at (k, j), plus the bias at j; the first two are clamped below at zero), the result is added back to the
  normalised row, normalised again, and multiplied by the node's mask.  The projection is one more dense layer.

  The functions below take the row and the parameters as functions on Fin 256 (a matrix as a function of two
  coordinates) with values in the extended reals; the three float literals are kept as the words they are printed as.
-/
import Idealize.ShloMosaic.PureOps.Ideal

noncomputable section

open scoped BigOperators

namespace Cert.KernelIdeal.NodeTransition.Spec

open Idealize.ShloMosaic

/-- The literal 256.0. -/
def c256 : EReal := Ideal.ofBits .f32 0x43800000#32
/-- The literal epsilon. -/
def eps : EReal := Ideal.ofBits .f32 0x3727C5AC#32
/-- The literal 0.0. -/
def z0 : EReal := Ideal.ofBits .f32 0x00000000#32

/-- A row's mean: the sum of its entries over 256.0. -/
def mean (s : Fin 256 → EReal) : EReal := Ideal.div (∑ k : Fin 256, s k) c256

/-- A row's variance: the mean of the squares of the centred entries. -/
def var (s : Fin 256 → EReal) : EReal := Ideal.div (∑ k : Fin 256, (s k - mean s) * (s k - mean s)) c256

/-- The row centred and divided by its deviation, before the scale and the shift. -/
def unit (s : Fin 256 → EReal) : Fin 256 → EReal := fun j => (s j - mean s) * Ideal.rsqrt (var s + eps)

/-- The normalised row: centred, divided by the deviation, scaled by g and shifted by b entrywise. -/
def ln (s g b : Fin 256 → EReal) : Fin 256 → EReal := fun j => unit s j * g j + b j

/-- The features plus the masked mean message. -/
def s1 (x u : Fin 256 → EReal) (m : EReal) : Fin 256 → EReal := fun j => x j + u j * m

/-- A row times a matrix: entry j is the sum over k of the row's entry k times the matrix's entry (k, j). -/
def mul {n : Nat} (v : Fin 256 → EReal) (W : Fin 256 → Fin n → EReal) : Fin n → EReal :=
  fun j => ∑ k : Fin 256, v k * W k j

/-- A dense layer: the row times the matrix, plus the bias. -/
def dense {n : Nat} (v : Fin 256 → EReal) (W : Fin 256 → Fin n → EReal) (b : Fin n → EReal) : Fin n → EReal :=
  fun j => mul v W j + b j

/-- The clamp below at zero. -/
def relu {n : Nat} (v : Fin n → EReal) : Fin n → EReal := fun j => max (v j) z0

/-- The second and third dense layers applied to the first layer's output a: clamp, dense, clamp, dense. -/
def tail (a : Fin 256 → EReal) (W2 : Fin 256 → Fin 256 → EReal) (c2 : Fin 256 → EReal) (W3 : Fin 256 → Fin 256 → EReal)
    (c3 : Fin 256 → EReal) : Fin 256 → EReal :=
  dense (relu (dense (relu a) W2 c2)) W3 c3

/-- The three dense layers with the two clamps. -/
def mlp (h : Fin 256 → EReal) (W1 : Fin 256 → Fin 256 → EReal) (c1 : Fin 256 → EReal) (W2 : Fin 256 → Fin 256 → EReal)
    (c2 : Fin 256 → EReal) (W3 : Fin 256 → Fin 256 → EReal) (c3 : Fin 256 → EReal) : Fin 256 → EReal :=
  tail (dense h W1 c1) W2 c2 W3 c3

/-- The row the second normalisation is applied to: the normalised row plus its image under the three layers. -/
def res (h : Fin 256 → EReal) (W1 : Fin 256 → Fin 256 → EReal) (c1 : Fin 256 → EReal) (W2 : Fin 256 → Fin 256 → EReal)
    (c2 : Fin 256 → EReal) (W3 : Fin 256 → Fin 256 → EReal) (c3 : Fin 256 → EReal) : Fin 256 → EReal :=
  fun j => h j + mlp h W1 c1 W2 c2 W3 c3 j

/-- The node's new row. -/
def node (x u : Fin 256 → EReal) (m : EReal) (g1 b1 : Fin 256 → EReal) (W1 : Fin 256 → Fin 256 → EReal)
    (c1 : Fin 256 → EReal) (W2 : Fin 256 → Fin 256 → EReal) (c2 : Fin 256 → EReal) (W3 : Fin 256 → Fin 256 → EReal)
    (c3 : Fin 256 → EReal) (g2 b2 : Fin 256 → EReal) : Fin 256 → EReal :=
  fun j => ln (res (ln (s1 x u m) g1 b1) W1 c1 W2 c2 W3 c3) g2 b2 j * m

end Cert.KernelIdeal.NodeTransition.Spec

end
-- ==== Proof.NodeTransition.SpecCongr.lean ====
/-
  The row functions depend only on the values of their arguments: two rows, masks and parameter sets that agree entry
  by entry give the same node row, and likewise for a dense layer.
-/
import proofs.«169663_j18897856103195_1_alg».proof.Proof.NodeTransition.Spec

noncomputable section

namespace Cert.KernelIdeal.NodeTransition.Spec

/-- The node row from entrywise equal arguments. -/
theorem node_congr {x x' u u' : Fin 256 → EReal} {m m' : EReal} {g1 g1' b1 b1' : Fin 256 → EReal}
    {W1 W1' : Fin 256 → Fin 256 → EReal} {c1 c1' : Fin 256 → EReal} {W2 W2' : Fin 256 → Fin 256 → EReal}
    {c2 c2' : Fin 256 → EReal} {W3 W3' : Fin 256 → Fin 256 → EReal} {c3 c3' g2 g2' b2 b2' : Fin 256 → EReal}
    (hx : ∀ k, x k = x' k) (hu : ∀ k, u k = u' k) (hm : m = m') (hg1 : ∀ k, g1 k = g1' k) (hb1 : ∀ k, b1 k = b1' k)
    (hW1 : ∀ k j, W1 k j = W1' k j) (hc1 : ∀ k, c1 k = c1' k) (hW2 : ∀ k j, W2 k j = W2' k j) (hc2 : ∀ k, c2 k = c2' k)
    (hW3 : ∀ k j, W3 k j = W3' k j) (hc3 : ∀ k, c3 k = c3' k) (hg2 : ∀ k, g2 k = g2' k) (hb2 : ∀ k, b2 k = b2' k)
    (j : Fin 256) :
    node x u m g1 b1 W1 c1 W2 c2 W3 c3 g2 b2 j = node x' u' m' g1' b1' W1' c1' W2' c2' W3' c3' g2' b2' j := by
  obtain rfl : x = x' := funext hx
  obtain rfl : u = u' := funext hu
  obtain rfl := hm
  obtain rfl : g1 = g1' := funext hg1
  obtain rfl : b1 = b1' := funext hb1
  obtain rfl : W1 = W1' := funext fun k => funext (hW1 k)
  obtain rfl : c1 = c1' := funext hc1
  obtain rfl : W2 = W2' := funext fun k => funext (hW2 k)
  obtain rfl : c2 = c2' := funext hc2
  obtain rfl : W3 = W3' := funext fun k => funext (hW3 k)
  obtain rfl : c3 = c3' := funext hc3
  obtain rfl : g2 = g2' := funext hg2
  obtain rfl : b2 = b2' := funext hb2
  rfl

/-- A dense layer from entrywise equal arguments. -/
theorem dense_congr {n : Nat} {v v' : Fin 256 → EReal} {W W' : Fin 256 → Fin n → EReal} {b b' : Fin n → EReal}
    (hv : ∀ k, v k = v' k) (hW : ∀ k j, W k j = W' k j) (hb : ∀ k, b k = b' k) (j : Fin n) :
    dense v W b j = dense v' W' b' j := by
  obtain rfl : v = v' := funext hv
  obtain rfl : W = W' := funext fun k => funext (hW k)
  obtain rfl : b = b' := funext hb
  rfl

end Cert.KernelIdeal.NodeTransition.Spec

end
-- ==== Proof.NodeTransition.Ops.lean ====
/-
  The kernel's vector operations that are not entrywise, each read at one entry of a 2000-row block.

  A column of 2000 entries spread along the 256 lanes reads, at (r, j), the column's entry r; a single row spread down
  the 2000 rows reads, at (r, j), the row's entry j; a vector of 2000 entries viewed as a column reads its entry r;
  the sum over the lanes reads, at r, the sum over k of the block's entries (r, k); and a matrix product accumulated
  into zeros reads, at (r, j), the sum over k of the left factor's (r, k) times the right factor's (k, j).
-/
import proofs.«169663_j18897856103195_1_alg».proof.Proof.Gen.KernelIdeal.Skeleton
import Idealize.ShloMosaic.Lib.ValueIdx
import Idealize.ShloMosaic.Lib.Pipeline.Value
import Idealize.ShloMosaic.PureOps.Ideal.Laws

set_option maxRecDepth 16384

noncomputable section

open scoped BigOperators

namespace Cert.KernelIdeal.NodeTransition.Ops

open Idealize.ShloMosaic Idealize.ShloMosaic.ValueIdx
open Cert.KernelIdeal Cert.KernelIdeal.Gen

variable {α : Type}

/-- A column spread along the lanes: entry (r, j) is the column's entry r. -/
theorem bcol_apply (w : S2000x1.Idx → α) (r : Fin 2000) (j : Fin 256) :
    broadcastTo S2000x256 w broadcasts_S2000x1_S2000x256 (ix2 r j) = w (ix2 r (0 : Fin 1)) :=
  broadcastTo_apply w broadcasts_S2000x1_S2000x256 (ix2 r j) (ix2 r (0 : Fin 1)) (fun a => by
    match a with
    | ⟨0, _⟩ => show r.val = if (2000 : Nat) = 1 then 0 else r.val; rw [if_neg (by decide)]
    | ⟨1, _⟩ => show (0 : Nat) = if (1 : Nat) = 1 then 0 else j.val; rw [if_pos rfl])

/-- A single row of 256 spread down the rows: entry (r, j) is the row's entry j. -/
theorem brow_apply (w : S1x256.Idx → α) (r : Fin 2000) (j : Fin 256) :
    broadcastTo S2000x256 w broadcasts_S1x256_S2000x256 (ix2 r j) = w (ix2 (0 : Fin 1) j) :=
  broadcastTo_apply w broadcasts_S1x256_S2000x256 (ix2 r j) (ix2 (0 : Fin 1) j) (fun a => by
    match a with
    | ⟨0, _⟩ => show (0 : Nat) = if (1 : Nat) = 1 then 0 else r.val; rw [if_pos rfl]
    | ⟨1, _⟩ => show j.val = if (256 : Nat) = 1 then 0 else j.val; rw [if_neg (by decide)])

/-- A single row of 128 spread down the rows: entry (r, j) is the row's entry j. -/
theorem brow128_apply (w : S1x128.Idx → α) (r : Fin 2000) (j : Fin 128) :
    broadcastTo S2000x128 w broadcasts_S1x128_S2000x128 (ix2 r j) = w (ix2 (0 : Fin 1) j) :=
  broadcastTo_apply w broadcasts_S1x128_S2000x128 (ix2 r j) (ix2 (0 : Fin 1) j) (fun a => by
    match a with
    | ⟨0, _⟩ => show (0 : Nat) = if (1 : Nat) = 1 then 0 else r.val; rw [if_pos rfl]
    | ⟨1, _⟩ => show j.val = if (128 : Nat) = 1 then 0 else j.val; rw [if_neg (by decide)])

/-- A vector of 2000 entries viewed as a column: entry (r, 0) is the vector's entry r. -/
theorem colcast_apply (w : S2000.Idx → α) (r : Fin 2000) :
    shapeCast S2000x1 w shapeCasts_S2000_S2000x1 (ix2 r (0 : Fin 1)) = w (ix1 r) :=
  shapeCast_apply w shapeCasts_S2000_S2000x1 (ix2 r (0 : Fin 1)) (ix1 r) (by
    rw [Shape.rowMajor_val_two, Shape.rowMajor_val_one]; show r.val = r.val * 1 + 0; omega)

/-- The sum over the lanes: entry r is the sum over k of the entries (r, k). -/
theorem rowsum_apply (v : S2000x256.Idx → EReal) (r : Fin 2000) :
    Ideal.reduceAdd reduces_S2000x256_S2000 v (ix1 r) = ∑ k : Fin 256, v (ix2 r k) := by
  refine (Ideal.reduceAdd_single reduces_S2000x256_S2000 v (ix1 r)).trans ?_
  refine Finset.sum_congr rfl fun k _ => congrArg v (funext fun a => Fin.ext ?_)
  match a with
  | ⟨0, _⟩ => rfl
  | ⟨1, _⟩ => rfl

/-! The two matrix products' operand indices, coordinate by coordinate: the left operand keeps the output's row and
takes the contraction's coordinate as its lane; the right operand takes it as its row and keeps the output's lane. -/

theorem mm256_lhs0 (i : S2000x256.Idx) (q : dot_S2000x256_S256x256_S2000x256_1_0_0_1_n_n.contr.Idx) :
    (dot_S2000x256_S256x256_S2000x256_1_0_0_1_n_n.lhsIdx i q 0).val = (i 0).val := by
  unfold DotDims.lhsIdx
  rw [dif_neg (show ¬(0 : Fin S2000x256.rank) ∈ dot_S2000x256_S256x256_S2000x256_1_0_0_1_n_n.lhsBatch by decide), dif_pos (show (0 : Fin S2000x256.rank) ∈ dot_S2000x256_S256x256_S2000x256_1_0_0_1_n_n.lhsNonContracting by decide)]
  rfl
theorem mm256_lhs1 (i : S2000x256.Idx) (q : dot_S2000x256_S256x256_S2000x256_1_0_0_1_n_n.contr.Idx) :
    (dot_S2000x256_S256x256_S2000x256_1_0_0_1_n_n.lhsIdx i q 1).val = (q ⟨0, by decide⟩).val :=
  dot_S2000x256_S256x256_S2000x256_1_0_0_1_n_n.lhsIdx_val_of_single rfl i q
theorem mm256_rhs0 (i : S2000x256.Idx) (q : dot_S2000x256_S256x256_S2000x256_1_0_0_1_n_n.contr.Idx) :
    (dot_S2000x256_S256x256_S2000x256_1_0_0_1_n_n.rhsIdx i q 0).val = (q ⟨0, by decide⟩).val :=
  dot_S2000x256_S256x256_S2000x256_1_0_0_1_n_n.rhsIdx_val_of_single rfl i q
theorem mm256_rhs1 (i : S2000x256.Idx) (q : dot_S2000x256_S256x256_S2000x256_1_0_0_1_n_n.contr.Idx) :
    (dot_S2000x256_S256x256_S2000x256_1_0_0_1_n_n.rhsIdx i q 1).val = (i 1).val := by
  unfold DotDims.rhsIdx
  rw [dif_neg (show ¬(1 : Fin S256x256.rank) ∈ dot_S2000x256_S256x256_S2000x256_1_0_0_1_n_n.rhsBatch by decide), dif_pos (show (1 : Fin S256x256.rank) ∈ dot_S2000x256_S256x256_S2000x256_1_0_0_1_n_n.rhsNonContracting by decide)]
  rfl

theorem mm128_lhs0 (i : S2000x128.Idx) (q : dot_S2000x256_S256x128_S2000x128_1_0_0_1_n_n.contr.Idx) :
    (dot_S2000x256_S256x128_S2000x128_1_0_0_1_n_n.lhsIdx i q 0).val = (i 0).val := by
  unfold DotDims.lhsIdx
  rw [dif_neg (show ¬(0 : Fin S2000x256.rank) ∈ dot_S2000x256_S256x128_S2000x128_1_0_0_1_n_n.lhsBatch by decide), dif_pos (show (0 : Fin S2000x256.rank) ∈ dot_S2000x256_S256x128_S2000x128_1_0_0_1_n_n.lhsNonContracting by decide)]
  rfl
theorem mm128_lhs1 (i : S2000x128.Idx) (q : dot_S2000x256_S256x128_S2000x128_1_0_0_1_n_n.contr.Idx) :
    (dot_S2000x256_S256x128_S2000x128_1_0_0_1_n_n.lhsIdx i q 1).val = (q ⟨0, by decide⟩).val :=
  dot_S2000x256_S256x128_S2000x128_1_0_0_1_n_n.lhsIdx_val_of_single rfl i q
theorem mm128_rhs0 (i : S2000x128.Idx) (q : dot_S2000x256_S256x128_S2000x128_1_0_0_1_n_n.contr.Idx) :
    (dot_S2000x256_S256x128_S2000x128_1_0_0_1_n_n.rhsIdx i q 0).val = (q ⟨0, by decide⟩).val :=
  dot_S2000x256_S256x128_S2000x128_1_0_0_1_n_n.rhsIdx_val_of_single rfl i q
theorem mm128_rhs1 (i : S2000x128.Idx) (q : dot_S2000x256_S256x128_S2000x128_1_0_0_1_n_n.contr.Idx) :
    (dot_S2000x256_S256x128_S2000x128_1_0_0_1_n_n.rhsIdx i q 1).val = (i 1).val := by
  unfold DotDims.rhsIdx
  rw [dif_neg (show ¬(1 : Fin S256x128.rank) ∈ dot_S2000x256_S256x128_S2000x128_1_0_0_1_n_n.rhsBatch by decide), dif_pos (show (1 : Fin S256x128.rank) ∈ dot_S2000x256_S256x128_S2000x128_1_0_0_1_n_n.rhsNonContracting by decide)]
  rfl

/-- The product with a 256 by 256 matrix, accumulated into zeros: entry (r, j) is the sum over k of the left
    factor's (r, k) times the matrix's (k, j); the contraction's one axis is re-indexed by Fin 256. -/
theorem mm256_apply (a : FVec Ideal S2000x256 .f32) (W : FVec Ideal S256x256 .f32) (r : Fin 2000) (j : Fin 256) :
    matmul dot_S2000x256_S256x256_S2000x256_1_0_0_1_n_n none a W (constant S2000x256 .f32 0x00000000#32) (ix2 r j)
      = ∑ k : Fin 256, a (ix2 r k) * W (ix2 k j) := by
  show FloatOps.matmul dot_S2000x256_S256x256_S2000x256_1_0_0_1_n_n none a W (constant S2000x256 .f32 0x00000000#32) (ix2 r j) = _
  rw [Ideal.matmul_constant_zero_apply, ← Equiv.sum_comp (contrEquiv1 dot_S2000x256_S256x256_S2000x256_1_0_0_1_n_n 256 rfl rfl).symm]
  refine Finset.sum_congr rfl fun k _ => ?_
  have hk := contrEquiv1_symm_val dot_S2000x256_S256x256_S2000x256_1_0_0_1_n_n 256 rfl rfl k
  have el : dot_S2000x256_S256x256_S2000x256_1_0_0_1_n_n.lhsIdx (ix2 r j) ((contrEquiv1 dot_S2000x256_S256x256_S2000x256_1_0_0_1_n_n 256 rfl rfl).symm k) = ix2 r k := funext fun b => Fin.ext (by
    match b with
    | ⟨0, _⟩ => exact mm256_lhs0 _ _
    | ⟨1, _⟩ => exact (mm256_lhs1 _ _).trans hk)
  have er : dot_S2000x256_S256x256_S2000x256_1_0_0_1_n_n.rhsIdx (ix2 r j) ((contrEquiv1 dot_S2000x256_S256x256_S2000x256_1_0_0_1_n_n 256 rfl rfl).symm k) = ix2 k j := funext fun b => Fin.ext (by
    match b with
    | ⟨0, _⟩ => exact (mm256_rhs0 _ _).trans hk
    | ⟨1, _⟩ => exact mm256_rhs1 _ _)
  rw [el, er]

/-- The product with the 256 by 128 matrix, likewise. -/
theorem mm128_apply (a : FVec Ideal S2000x256 .f32) (W : FVec Ideal S256x128 .f32) (r : Fin 2000) (j : Fin 128) :
    matmul dot_S2000x256_S256x128_S2000x128_1_0_0_1_n_n none a W (constant S2000x128 .f32 0x00000000#32) (ix2 r j)
      = ∑ k : Fin 256, a (ix2 r k) * W (ix2 k j) := by
  show FloatOps.matmul dot_S2000x256_S256x128_S2000x128_1_0_0_1_n_n none a W (constant S2000x128 .f32 0x00000000#32) (ix2 r j) = _
  rw [Ideal.matmul_constant_zero_apply, ← Equiv.sum_comp (contrEquiv1 dot_S2000x256_S256x128_S2000x128_1_0_0_1_n_n 256 rfl rfl).symm]
  refine Finset.sum_congr rfl fun k _ => ?_
  have hk := contrEquiv1_symm_val dot_S2000x256_S256x128_S2000x128_1_0_0_1_n_n 256 rfl rfl k
  have el : dot_S2000x256_S256x128_S2000x128_1_0_0_1_n_n.lhsIdx (ix2 r j) ((contrEquiv1 dot_S2000x256_S256x128_S2000x128_1_0_0_1_n_n 256 rfl rfl).symm k) = ix2 r k := funext fun b => Fin.ext (by
    match b with
    | ⟨0, _⟩ => exact mm128_lhs0 _ _
    | ⟨1, _⟩ => exact (mm128_lhs1 _ _).trans hk)
  have er : dot_S2000x256_S256x128_S2000x128_1_0_0_1_n_n.rhsIdx (ix2 r j) ((contrEquiv1 dot_S2000x256_S256x128_S2000x128_1_0_0_1_n_n 256 rfl rfl).symm k) = ix2 k j := funext fun b => Fin.ext (by
    match b with
    | ⟨0, _⟩ => exact (mm128_rhs0 _ _).trans hk
    | ⟨1, _⟩ => exact mm128_rhs1 _ _)
  rw [el, er]

end Cert.KernelIdeal.NodeTransition.Ops

end
-- ==== Proof.NodeTransition.Pay1.lean ====
/-
  The first half of the body at one entry of the block: the mask column as loaded, the first normalisation, the first
  matrix product, and the first bias spread down the rows.

  Entry (r, j) of the normalised block depends on row r of the features and of the mean message, on the mask's entry r,
  and on the scale and shift rows: it is the row function `Spec.ln` of `Spec.s1` of those.  The sums over the lanes
  become sums over Fin 256 of the row; the spread columns and rows read the entry of their row or lane.
-/
import proofs.«169663_j18897856103195_1_alg».proof.Proof.Gen.KernelIdeal.Skeleton
import proofs.«169663_j18897856103195_1_alg».proof.Proof.NodeTransition.Spec
import proofs.«169663_j18897856103195_1_alg».proof.Proof.NodeTransition.Ops

set_option maxRecDepth 16384

noncomputable section

open scoped BigOperators

namespace Cert.KernelIdeal.NodeTransition.Pay

open Idealize.ShloMosaic Idealize.ShloMosaic.ValueIdx
open Cert.KernelIdeal Cert.KernelIdeal.Gen

open Cert.KernelIdeal.NodeTransition.Ops

/-- The reciprocal square root of a vector, at an entry. -/
theorem rsqrt_apply {s : Shape} (a : FVec Ideal s .f32) (i : s.Idx) : rsqrt a i = Ideal.rsqrt (a i) := rfl

/-- The mask column passes through its same-shape cast unchanged. -/
theorem pay3_eq (v3 : Vec Ideal S2000x1 .f32) : k1_pay3 v3 = v3 := by
  unfold k1_pay3
  exact shapeCast_self v3 shapeCasts_S2000x1_S2000x1

/-- The first normalisation at (r, j): the normalised row of the features plus the masked mean message. -/
theorem pay4_apply (v0 v1 : Vec Ideal S2000x256 .f32) (v3 : Vec Ideal S2000x1 .f32) (v26 v30 : Vec Ideal S1x256 .f32)
    (r : Fin 2000) (j : Fin 256) :
    k1_pay4 v0 v1 v3 v26 v30 (ix2 r j)
      = Spec.ln (Spec.s1 (fun k => v0 (ix2 r k)) (fun k => v1 (ix2 r k)) (v3 (ix2 r (0 : Fin 1))))
          (fun k => v26 (ix2 (0 : Fin 1) k)) (fun k => v30 (ix2 (0 : Fin 1) k)) j := by
  unfold k1_pay4
  simp only [pay3_eq, shapeCast_self, addf_apply, mulf_apply, subf_apply, divf_apply, rsqrt_apply, broadcast_apply,
    bcol_apply, brow_apply, colcast_apply, multiReduction, Ideal.reduceAdd_def, rowsum_apply]
  rfl

/-- The first matrix product at (r, j): the normalised row times the first weight matrix. -/
theorem pay5_apply (v0 v1 : Vec Ideal S2000x256 .f32) (v3 : Vec Ideal S2000x1 .f32) (v26 v30 : Vec Ideal S1x256 .f32)
    (v34 : Vec Ideal S256x256 .f32) (r : Fin 2000) (j : Fin 256) :
    k1_pay5 v0 v1 v3 v26 v30 v34 (ix2 r j)
      = Spec.mul (Spec.ln (Spec.s1 (fun k => v0 (ix2 r k)) (fun k => v1 (ix2 r k)) (v3 (ix2 r (0 : Fin 1))))
          (fun k => v26 (ix2 (0 : Fin 1) k)) (fun k => v30 (ix2 (0 : Fin 1) k))) (fun k j => v34 (ix2 k j)) j := by
  refine (mm256_apply (k1_pay4 v0 v1 v3 v26 v30) v34 r j).trans ?_
  exact Finset.sum_congr rfl fun k _ => by rw [pay4_apply]

/-- The first bias spread down the rows, at (r, j): the bias row's entry j. -/
theorem pay6_apply (v36 : Vec Ideal S1x256 .f32) (r : Fin 2000) (j : Fin 256) :
    k1_pay6 v36 (ix2 r j) = v36 (ix2 (0 : Fin 1) j) := by
  unfold k1_pay6
  simp only [shapeCast_self, brow_apply]

end Cert.KernelIdeal.NodeTransition.Pay

end
-- ==== Proof.NodeTransition.Pay2.lean ====
/-
  The second half of the body at one entry of the block: the clamps and the second and third matrix products, the
  residual sum, the second normalisation up to its scale, then the shift and the mask, and the projection.

  Entry (r, j) depends on row r of the three blocks handed over by the first half (the normalised block, its product
  with the first matrix, the first bias spread down the rows) and on the parameter rows and matrices.
-/
import proofs.«169663_j18897856103195_1_alg».proof.Proof.Gen.KernelIdeal.Skeleton
import proofs.«169663_j18897856103195_1_alg».proof.Proof.NodeTransition.Spec
import proofs.«169663_j18897856103195_1_alg».proof.Proof.NodeTransition.Ops

set_option maxRecDepth 16384

noncomputable section

open scoped BigOperators

namespace Cert.KernelIdeal.NodeTransition.Pay

open Idealize.ShloMosaic Idealize.ShloMosaic.ValueIdx
open Cert.KernelIdeal Cert.KernelIdeal.Gen

open Cert.KernelIdeal.NodeTransition.Ops

/-- The reciprocal square root of a vector, at an entry. -/
theorem rsqrt_apply' {s : Shape} (a : FVec Ideal s .f32) (i : s.Idx) : rsqrt a i = Ideal.rsqrt (a i) := rfl

/-- The second half at (r, j): with h the normalised row, a the first layer's row (product plus bias), the result is
    the unit-deviation form of h plus the two remaining layers of a, times the second scale's entry j. -/
theorem pay7_apply (v33 v35 v38 : FVec Ideal S2000x256 .f32) (v42 : Vec Ideal S256x256 .f32) (v44 : Vec Ideal S1x256 .f32)
    (v50 : Vec Ideal S256x256 .f32) (v52 v75 : Vec Ideal S1x256 .f32) (r : Fin 2000) (j : Fin 256) :
    k1_pay7 v33 v35 v38 v42 v44 v50 v52 v75 (ix2 r j)
      = Spec.unit (fun k => v33 (ix2 r k)
            + Spec.tail (fun k' => v35 (ix2 r k') + v38 (ix2 r k')) (fun k j => v42 (ix2 k j)) (fun k => v44 (ix2 (0 : Fin 1) k))
                (fun k j => v50 (ix2 k j)) (fun k => v52 (ix2 (0 : Fin 1) k)) k) j
          * v75 (ix2 (0 : Fin 1) j) := by
  unfold k1_pay7
  simp only [shapeCast_self, addf_apply, mulf_apply, subf_apply, divf_apply, maximumf_apply, rsqrt_apply', broadcast_apply,
    bcol_apply, brow_apply, colcast_apply, multiReduction, Ideal.reduceAdd_def, rowsum_apply, mm256_apply]
  rfl

/-- The stored node row at (r, j): the scaled row plus the shift's entry j, times the mask's entry r. -/
theorem pay1_apply (v4 : FVec Ideal S2000x1 .f32) (v78 : FVec Ideal S2000x256 .f32) (v79 : Vec Ideal S1x256 .f32)
    (r : Fin 2000) (j : Fin 256) :
    k1_pay1 v4 v78 v79 (ix2 r j) = (v78 (ix2 r j) + v79 (ix2 (0 : Fin 1) j)) * v4 (ix2 r (0 : Fin 1)) := by
  unfold k1_pay1
  simp only [shapeCast_self, addf_apply, mulf_apply, bcol_apply, brow_apply]

/-- The stored projection at (r, j): the node row times the projection matrix, plus the bias's entry j. -/
theorem pay2_apply (v4 : FVec Ideal S2000x1 .f32) (v78 : FVec Ideal S2000x256 .f32) (v79 : Vec Ideal S1x256 .f32)
    (v86 : Vec Ideal S256x128 .f32) (v88 : Vec Ideal S1x128 .f32) (r : Fin 2000) (j : Fin 128) :
    k1_pay2 v4 v78 v79 v86 v88 (ix2 r j)
      = (∑ k : Fin 256, k1_pay1 v4 v78 v79 (ix2 r k) * v86 (ix2 k j)) + v88 (ix2 (0 : Fin 1) j) := by
  unfold k1_pay2
  simp only [shapeCast_self, addf_apply, brow128_apply, mm128_apply]

end Cert.KernelIdeal.NodeTransition.Pay

end
-- ==== Proof.NodeTransition.Body.lean ====
/-
  The two stored payloads at one entry of the block, as row functions of the loaded blocks.

  The stored node row at (r, j) is `Spec.node` of row r of the feature and mean-message blocks, the mask's entry r, and
  the parameter rows and matrices; the stored projection at (r, j) is one more dense layer of that row.
-/
import proofs.«169663_j18897856103195_1_alg».proof.Proof.Gen.KernelIdeal.Skeleton
import proofs.«169663_j18897856103195_1_alg».proof.Proof.NodeTransition.Spec
import proofs.«169663_j18897856103195_1_alg».proof.Proof.NodeTransition.Pay1
import proofs.«169663_j18897856103195_1_alg».proof.Proof.NodeTransition.Pay2

set_option maxRecDepth 16384

noncomputable section

open scoped BigOperators

namespace Cert.KernelIdeal.NodeTransition.Pay

open Idealize.ShloMosaic Idealize.ShloMosaic.ValueIdx
open Cert.KernelIdeal Cert.KernelIdeal.Gen

/-- The stored node row at (r, j). -/
theorem out15_apply (x0 x1 : Vec Ideal S2000x256 .f32) (x2 : Vec Ideal S2000x1 .f32) (x3 x4 : Vec Ideal S1x256 .f32)
    (x5 : Vec Ideal S256x256 .f32) (x6 : Vec Ideal S1x256 .f32) (x7 : Vec Ideal S256x256 .f32) (x8 : Vec Ideal S1x256 .f32)
    (x9 : Vec Ideal S256x256 .f32) (x10 x11 x12 : Vec Ideal S1x256 .f32) (r : Fin 2000) (j : Fin 256) :
    k1_pay1 (k1_pay3 x2) (k1_pay7 (k1_pay4 x0 x1 x2 x3 x4) (k1_pay5 x0 x1 x2 x3 x4 x5) (k1_pay6 x6) x7 x8 x9 x10 x11) x12 (ix2 r j)
      = Spec.node (fun k => x0 (ix2 r k)) (fun k => x1 (ix2 r k)) (x2 (ix2 r (0 : Fin 1)))
          (fun k => x3 (ix2 (0 : Fin 1) k)) (fun k => x4 (ix2 (0 : Fin 1) k))
          (fun k j => x5 (ix2 k j)) (fun k => x6 (ix2 (0 : Fin 1) k))
          (fun k j => x7 (ix2 k j)) (fun k => x8 (ix2 (0 : Fin 1) k))
          (fun k j => x9 (ix2 k j)) (fun k => x10 (ix2 (0 : Fin 1) k))
          (fun k => x11 (ix2 (0 : Fin 1) k)) (fun k => x12 (ix2 (0 : Fin 1) k)) j := by
  rw [pay1_apply, pay7_apply, pay3_eq]
  simp only [pay4_apply, pay5_apply, pay6_apply]
  rfl

/-- The stored projection at (r, j). -/
theorem out16_apply (x0 x1 : Vec Ideal S2000x256 .f32) (x2 : Vec Ideal S2000x1 .f32) (x3 x4 : Vec Ideal S1x256 .f32)
    (x5 : Vec Ideal S256x256 .f32) (x6 : Vec Ideal S1x256 .f32) (x7 : Vec Ideal S256x256 .f32) (x8 : Vec Ideal S1x256 .f32)
    (x9 : Vec Ideal S256x256 .f32) (x10 x11 x12 : Vec Ideal S1x256 .f32) (x13 : Vec Ideal S256x128 .f32)
    (x14 : Vec Ideal S1x128 .f32) (r : Fin 2000) (j : Fin 128) :
    k1_pay2 (k1_pay3 x2) (k1_pay7 (k1_pay4 x0 x1 x2 x3 x4) (k1_pay5 x0 x1 x2 x3 x4 x5) (k1_pay6 x6) x7 x8 x9 x10 x11) x12 x13 x14 (ix2 r j)
      = Spec.dense (Spec.node (fun k => x0 (ix2 r k)) (fun k => x1 (ix2 r k)) (x2 (ix2 r (0 : Fin 1)))
          (fun k => x3 (ix2 (0 : Fin 1) k)) (fun k => x4 (ix2 (0 : Fin 1) k))
          (fun k j => x5 (ix2 k j)) (fun k => x6 (ix2 (0 : Fin 1) k))
          (fun k j => x7 (ix2 k j)) (fun k => x8 (ix2 (0 : Fin 1) k))
          (fun k j => x9 (ix2 k j)) (fun k => x10 (ix2 (0 : Fin 1) k))
          (fun k => x11 (ix2 (0 : Fin 1) k)) (fun k => x12 (ix2 (0 : Fin 1) k)))
          (fun k j => x13 (ix2 k j)) (fun k => x14 (ix2 (0 : Fin 1) k)) j := by
  rw [pay2_apply]
  simp only [out15_apply]
  rfl

end Cert.KernelIdeal.NodeTransition.Pay

end
-- ==== Proof.NodeTransition.Rows.lean ====
/-
  Rows of blocks as rows of arrays.

  The grid has 5 points and a row-blocked window's block has 2000 rows: row r of point t's block is row 2000 t + r of
  the window's array.
-/
import proofs.«169663_j18897856103195_1_alg».proof.Proof.Gen.KernelIdeal.Frame
import Idealize.ShloMosaic.Lib.ValueIdx
import Idealize.ShloMosaic.Lib.Pipeline.Value

set_option maxRecDepth 16384

noncomputable section

namespace Cert.KernelIdeal.NodeTransition.Blocks

open Idealize.ShloMosaic Idealize.ShloMosaic.TcCoe Idealize.SL.Sem Idealize.ShloMosaic.ValueIdx
open Idealize.ShloMosaic.Pipeline (Dat Cfg Window)
open Cert.KernelIdeal Cert.KernelIdeal.Gen

theorem hz : (![0, 0] : Fin 2 → Nat) = fun _ => 0 := funext fun a => by fin_cases a <;> rfl

/-- The array row that row r of point t's block is. -/
def rowOf (t : Fin cfg1.N) (r : Fin 2000) : Fin 10000 :=
  ⟨2000 * t.val + r.val, by have h : t.val < 5 := lt_of_lt_of_eq t.isLt N_1; have := r.isLt; omega⟩

end Cert.KernelIdeal.NodeTransition.Blocks

end
-- ==== Proof.NodeTransition.BlocksInA.lean ====
/-
  The input windows' blocks, read at an entry: the features, the mean message, the mask column, the first
  normalisation's scale and shift, and the first two biases.

  At point t every row-blocked input window holds rows 2000 t … 2000 t + 1999 of its array, and every parameter window
  holds its whole array.  A block's entry sits in the array, on each axis, at the block's index times the block's size
  plus the entry's own coordinate; the block indices are read off the windows' index maps over the 5 points.
-/
import proofs.«169663_j18897856103195_1_alg».proof.Proof.NodeTransition.Rows
import Idealize.ShloMosaic.Lib.ValueIdx
import Idealize.ShloMosaic.Lib.Pipeline.Value

set_option maxRecDepth 16384

noncomputable section

namespace Cert.KernelIdeal.NodeTransition.Blocks

open Idealize.ShloMosaic Idealize.ShloMosaic.TcCoe Idealize.SL.Sem Idealize.ShloMosaic.ValueIdx
open Idealize.ShloMosaic.Pipeline (Dat Cfg Window)
open Cert.KernelIdeal Cert.KernelIdeal.Gen

variable (V : (c : Dev nD) → (b : Ref sig .tc) → Buf (Elt Ideal) ((c : Thread nD τ).loc b))

theorem idx0 : ∀ t : Fin cfg1.N, win1_0.index t (0 : Fin 2) = t.val ∧ win1_0.index t (1 : Fin 2) = 0 :=
  (by decide +kernel : ∀ t : Fin grid1.N, _)

/-- Window 0's block at point t, entry (r, k): the array's entry (2000 t + r, k). -/
theorem iblk0_apply (c : Dev nD) (t : Fin cfg1.N) (r : Fin 2000) (k : Fin 256) :
    (iblk1 V c 0 t : Vec Ideal S2000x256 .f32) (ix2 r k)
      = (V c (Pipeline.arrRef spec1 0) : S10000x256.Idx → EReal) (ix2 (rowOf t r) k) := by
  obtain ⟨e0, e1⟩ := idx0 t
  unfold iblk1
  rw [View.read_apply]
  show (V c (Pipeline.arrRef spec1 0) : S10000x256.Idx → EReal) (((cfg1.win 0).blk t).view.emb (ix2 r k)) = _
  refine congrArg (V c (Pipeline.arrRef spec1 0) : S10000x256.Idx → EReal) (funext fun a => Fin.ext ?_)
  match a with
  | ⟨0, _⟩ => show win1_0.index t (0 : Fin 2) * 2000 + 1 * r.val = 2000 * t.val + r.val; rw [e0]; omega
  | ⟨1, _⟩ => show win1_0.index t (1 : Fin 2) * 256 + 1 * k.val = k.val; rw [e1]; omega

theorem idx1 : ∀ t : Fin cfg1.N, win1_1.index t (0 : Fin 2) = t.val ∧ win1_1.index t (1 : Fin 2) = 0 :=
  (by decide +kernel : ∀ t : Fin grid1.N, _)

/-- Window 1's block at point t, entry (r, k): the array's entry (2000 t + r, k). -/
theorem iblk1_apply (c : Dev nD) (t : Fin cfg1.N) (r : Fin 2000) (k : Fin 256) :
    (iblk1 V c 1 t : Vec Ideal S2000x256 .f32) (ix2 r k)
      = (V c (Pipeline.arrRef spec1 1) : S10000x256.Idx → EReal) (ix2 (rowOf t r) k) := by
  obtain ⟨e0, e1⟩ := idx1 t
  unfold iblk1
  rw [View.read_apply]
  show (V c (Pipeline.arrRef spec1 1) : S10000x256.Idx → EReal) (((cfg1.win 1).blk t).view.emb (ix2 r k)) = _
  refine congrArg (V c (Pipeline.arrRef spec1 1) : S10000x256.Idx → EReal) (funext fun a => Fin.ext ?_)
  match a with
  | ⟨0, _⟩ => show win1_1.index t (0 : Fin 2) * 2000 + 1 * r.val = 2000 * t.val + r.val; rw [e0]; omega
  | ⟨1, _⟩ => show win1_1.index t (1 : Fin 2) * 256 + 1 * k.val = k.val; rw [e1]; omega

theorem idx2 : ∀ t : Fin cfg1.N, win1_2.index t (0 : Fin 2) = t.val ∧ win1_2.index t (1 : Fin 2) = 0 :=
  (by decide +kernel : ∀ t : Fin grid1.N, _)

/-- Window 2's block at point t, entry (r, k): the array's entry (2000 t + r, k). -/
theorem iblk2_apply (c : Dev nD) (t : Fin cfg1.N) (r : Fin 2000) (k : Fin 1) :
    (iblk1 V c 2 t : Vec Ideal S2000x1 .f32) (ix2 r k)
      = (V c (Pipeline.arrRef spec1 2) : S10000x1.Idx → EReal) (ix2 (rowOf t r) k) := by
  obtain ⟨e0, e1⟩ := idx2 t
  unfold iblk1
  rw [View.read_apply]
  show (V c (Pipeline.arrRef spec1 2) : S10000x1.Idx → EReal) (((cfg1.win 2).blk t).view.emb (ix2 r k)) = _
  refine congrArg (V c (Pipeline.arrRef spec1 2) : S10000x1.Idx → EReal) (funext fun a => Fin.ext ?_)
  match a with
  | ⟨0, _⟩ => show win1_2.index t (0 : Fin 2) * 2000 + 1 * r.val = 2000 * t.val + r.val; rw [e0]; omega
  | ⟨1, _⟩ => show win1_2.index t (1 : Fin 2) * 1 + 1 * k.val = k.val; rw [e1]; omega

theorem idx3 : ∀ t : Fin cfg1.N, win1_3.index t (0 : Fin 2) = 0 ∧ win1_3.index t (1 : Fin 2) = 0 :=
  (by decide +kernel : ∀ t : Fin grid1.N, _)

/-- Window 3's block is its whole array at every point. -/
theorem iblk3_apply (c : Dev nD) (t : Fin cfg1.N) (a : Fin 1) (b : Fin 256) :
    (iblk1 V c 3 t : Vec Ideal S1x256 .f32) (ix2 a b)
      = (V c (Pipeline.arrRef spec1 3) : S1x256.Idx → EReal) (ix2 a b) := by
  obtain ⟨e0, e1⟩ := idx3 t
  unfold iblk1
  rw [View.read_apply]
  show (V c (Pipeline.arrRef spec1 3) : S1x256.Idx → EReal) (((cfg1.win 3).blk t).view.emb (ix2 a b)) = _
  refine congrArg (V c (Pipeline.arrRef spec1 3) : S1x256.Idx → EReal) (funext fun d => Fin.ext ?_)
  match d with
  | ⟨0, _⟩ => show win1_3.index t (0 : Fin 2) * 1 + 1 * a.val = a.val; rw [e0]; omega
  | ⟨1, _⟩ => show win1_3.index t (1 : Fin 2) * 256 + 1 * b.val = b.val; rw [e1]; omega

theorem idx4 : ∀ t : Fin cfg1.N, win1_4.index t (0 : Fin 2) = 0 ∧ win1_4.index t (1 : Fin 2) = 0 :=
  (by decide +kernel : ∀ t : Fin grid1.N, _)

/-- Window 4's block is its whole array at every point. -/
theorem iblk4_apply (c : Dev nD) (t : Fin cfg1.N) (a : Fin 1) (b : Fin 256) :
    (iblk1 V c 4 t : Vec Ideal S1x256 .f32) (ix2 a b)
      = (V c (Pipeline.arrRef spec1 4) : S1x256.Idx → EReal) (ix2 a b) := by
  obtain ⟨e0, e1⟩ := idx4 t
  unfold iblk1
  rw [View.read_apply]
  show (V c (Pipeline.arrRef spec1 4) : S1x256.Idx → EReal) (((cfg1.win 4).blk t).view.emb (ix2 a b)) = _
  refine congrArg (V c (Pipeline.arrRef spec1 4) : S1x256.Idx → EReal) (funext fun d => Fin.ext ?_)
  match d with
  | ⟨0, _⟩ => show win1_4.index t (0 : Fin 2) * 1 + 1 * a.val = a.val; rw [e0]; omega
  | ⟨1, _⟩ => show win1_4.index t (1 : Fin 2) * 256 + 1 * b.val = b.val; rw [e1]; omega

theorem idx6 : ∀ t : Fin cfg1.N, win1_6.index t (0 : Fin 2) = 0 ∧ win1_6.index t (1 : Fin 2) = 0 :=
  (by decide +kernel : ∀ t : Fin grid1.N, _)

/-- Window 6's block is its whole array at every point. -/
theorem iblk6_apply (c : Dev nD) (t : Fin cfg1.N) (a : Fin 1) (b : Fin 256) :
    (iblk1 V c 6 t : Vec Ideal S1x256 .f32) (ix2 a b)
      = (V c (Pipeline.arrRef spec1 6) : S1x256.Idx → EReal) (ix2 a b) := by
  obtain ⟨e0, e1⟩ := idx6 t
  unfold iblk1
  rw [View.read_apply]
  show (V c (Pipeline.arrRef spec1 6) : S1x256.Idx → EReal) (((cfg1.win 6).blk t).view.emb (ix2 a b)) = _
  refine congrArg (V c (Pipeline.arrRef spec1 6) : S1x256.Idx → EReal) (funext fun d => Fin.ext ?_)
  match d with
  | ⟨0, _⟩ => show win1_6.index t (0 : Fin 2) * 1 + 1 * a.val = a.val; rw [e0]; omega
  | ⟨1, _⟩ => show win1_6.index t (1 : Fin 2) * 256 + 1 * b.val = b.val; rw [e1]; omega

theorem idx8 : ∀ t : Fin cfg1.N, win1_8.index t (0 : Fin 2) = 0 ∧ win1_8.index t (1 : Fin 2) = 0 :=
  (by decide +kernel : ∀ t : Fin grid1.N, _)

/-- Window 8's block is its whole array at every point. -/
theorem iblk8_apply (c : Dev nD) (t : Fin cfg1.N) (a : Fin 1) (b : Fin 256) :
    (iblk1 V c 8 t : Vec Ideal S1x256 .f32) (ix2 a b)
      = (V c (Pipeline.arrRef spec1 8) : S1x256.Idx → EReal) (ix2 a b) := by
  obtain ⟨e0, e1⟩ := idx8 t
  unfold iblk1
  rw [View.read_apply]
  show (V c (Pipeline.arrRef spec1 8) : S1x256.Idx → EReal) (((cfg1.win 8).blk t).view.emb (ix2 a b)) = _
  refine congrArg (V c (Pipeline.arrRef spec1 8) : S1x256.Idx → EReal) (funext fun d => Fin.ext ?_)
  match d with
  | ⟨0, _⟩ => show win1_8.index t (0 : Fin 2) * 1 + 1 * a.val = a.val; rw [e0]; omega
  | ⟨1, _⟩ => show win1_8.index t (1 : Fin 2) * 256 + 1 * b.val = b.val; rw [e1]; omega

end Cert.KernelIdeal.NodeTransition.Blocks

end
-- ==== Proof.NodeTransition.BlocksInB.lean ====
/-
  The input windows' blocks, read at an entry: the third bias, the second normalisation's scale and shift, the three
  weight matrices, the projection matrix and its bias.

  Every one of these windows holds its whole array at every point: its block index is zero on both axes, so a block's
  entry sits in the array at its own coordinates.
-/
import proofs.«169663_j18897856103195_1_alg».proof.Proof.NodeTransition.Rows
import Idealize.ShloMosaic.Lib.ValueIdx
import Idealize.ShloMosaic.Lib.Pipeline.Value

set_option maxRecDepth 16384

noncomputable section

namespace Cert.KernelIdeal.NodeTransition.Blocks

open Idealize.ShloMosaic Idealize.ShloMosaic.TcCoe Idealize.SL.Sem Idealize.ShloMosaic.ValueIdx
open Idealize.ShloMosaic.Pipeline (Dat Cfg Window)
open Cert.KernelIdeal Cert.KernelIdeal.Gen

variable (V : (c : Dev nD) → (b : Ref sig .tc) → Buf (Elt Ideal) ((c : Thread nD τ).loc b))

theorem idx10 : ∀ t : Fin cfg1.N, win1_10.index t (0 : Fin 2) = 0 ∧ win1_10.index t (1 : Fin 2) = 0 :=
  (by decide +kernel : ∀ t : Fin grid1.N, _)

/-- Window 10's block is its whole array at every point. -/
theorem iblk10_apply (c : Dev nD) (t : Fin cfg1.N) (a : Fin 1) (b : Fin 256) :
    (iblk1 V c 10 t : Vec Ideal S1x256 .f32) (ix2 a b)
      = (V c (Pipeline.arrRef spec1 10) : S1x256.Idx → EReal) (ix2 a b) := by
  obtain ⟨e0, e1⟩ := idx10 t
  unfold iblk1
  rw [View.read_apply]
  show (V c (Pipeline.arrRef spec1 10) : S1x256.Idx → EReal) (((cfg1.win 10).blk t).view.emb (ix2 a b)) = _
  refine congrArg (V c (Pipeline.arrRef spec1 10) : S1x256.Idx → EReal) (funext fun d => Fin.ext ?_)
  match d with
  | ⟨0, _⟩ => show win1_10.index t (0 : Fin 2) * 1 + 1 * a.val = a.val; rw [e0]; omega
  | ⟨1, _⟩ => show win1_10.index t (1 : Fin 2) * 256 + 1 * b.val = b.val; rw [e1]; omega

theorem idx11 : ∀ t : Fin cfg1.N, win1_11.index t (0 : Fin 2) = 0 ∧ win1_11.index t (1 : Fin 2) = 0 :=
  (by decide +kernel : ∀ t : Fin grid1.N, _)

/-- Window 11's block is its whole array at every point. -/
theorem iblk11_apply (c : Dev nD) (t : Fin cfg1.N) (a : Fin 1) (b : Fin 256) :
    (iblk1 V c 11 t : Vec Ideal S1x256 .f32) (ix2 a b)
      = (V c (Pipeline.arrRef spec1 11) : S1x256.Idx → EReal) (ix2 a b) := by
  obtain ⟨e0, e1⟩ := idx11 t
  unfold iblk1
  rw [View.read_apply]
  show (V c (Pipeline.arrRef spec1 11) : S1x256.Idx → EReal) (((cfg1.win 11).blk t).view.emb (ix2 a b)) = _
  refine congrArg (V c (Pipeline.arrRef spec1 11) : S1x256.Idx → EReal) (funext fun d => Fin.ext ?_)
  match d with
  | ⟨0, _⟩ => show win1_11.index t (0 : Fin 2) * 1 + 1 * a.val = a.val; rw [e0]; omega
  | ⟨1, _⟩ => show win1_11.index t (1 : Fin 2) * 256 + 1 * b.val = b.val; rw [e1]; omega

theorem idx12 : ∀ t : Fin cfg1.N, win1_12.index t (0 : Fin 2) = 0 ∧ win1_12.index t (1 : Fin 2) = 0 :=
  (by decide +kernel : ∀ t : Fin grid1.N, _)

/-- Window 12's block is its whole array at every point. -/
theorem iblk12_apply (c : Dev nD) (t : Fin cfg1.N) (a : Fin 1) (b : Fin 256) :
    (iblk1 V c 12 t : Vec Ideal S1x256 .f32) (ix2 a b)
      = (V c (Pipeline.arrRef spec1 12) : S1x256.Idx → EReal) (ix2 a b) := by
  obtain ⟨e0, e1⟩ := idx12 t
  unfold iblk1
  rw [View.read_apply]
  show (V c (Pipeline.arrRef spec1 12) : S1x256.Idx → EReal) (((cfg1.win 12).blk t).view.emb (ix2 a b)) = _
  refine congrArg (V c (Pipeline.arrRef spec1 12) : S1x256.Idx → EReal) (funext fun d => Fin.ext ?_)
  match d with
  | ⟨0, _⟩ => show win1_12.index t (0 : Fin 2) * 1 + 1 * a.val = a.val; rw [e0]; omega
  | ⟨1, _⟩ => show win1_12.index t (1 : Fin 2) * 256 + 1 * b.val = b.val; rw [e1]; omega

theorem idx5 : ∀ t : Fin cfg1.N, win1_5.index t (0 : Fin 2) = 0 ∧ win1_5.index t (1 : Fin 2) = 0 :=
  (by decide +kernel : ∀ t : Fin grid1.N, _)

/-- Window 5's block is its whole array at every point. -/
theorem iblk5_apply (c : Dev nD) (t : Fin cfg1.N) (a : Fin 256) (b : Fin 256) :
    (iblk1 V c 5 t : Vec Ideal S256x256 .f32) (ix2 a b)
      = (V c (Pipeline.arrRef spec1 5) : S256x256.Idx → EReal) (ix2 a b) := by
  obtain ⟨e0, e1⟩ := idx5 t
  unfold iblk1
  rw [View.read_apply]
  show (V c (Pipeline.arrRef spec1 5) : S256x256.Idx → EReal) (((cfg1.win 5).blk t).view.emb (ix2 a b)) = _
  refine congrArg (V c (Pipeline.arrRef spec1 5) : S256x256.Idx → EReal) (funext fun d => Fin.ext ?_)
  match d with
  | ⟨0, _⟩ => show win1_5.index t (0 : Fin 2) * 256 + 1 * a.val = a.val; rw [e0]; omega
  | ⟨1, _⟩ => show win1_5.index t (1 : Fin 2) * 256 + 1 * b.val = b.val; rw [e1]; omega

theorem idx7 : ∀ t : Fin cfg1.N, win1_7.index t (0 : Fin 2) = 0 ∧ win1_7.index t (1 : Fin 2) = 0 :=
  (by decide +kernel : ∀ t : Fin grid1.N, _)

/-- Window 7's block is its whole array at every point. -/
theorem iblk7_apply (c : Dev nD) (t : Fin cfg1.N) (a : Fin 256) (b : Fin 256) :
    (iblk1 V c 7 t : Vec Ideal S256x256 .f32) (ix2 a b)
      = (V c (Pipeline.arrRef spec1 7) : S256x256.Idx → EReal) (ix2 a b) := by
  obtain ⟨e0, e1⟩ := idx7 t
  unfold iblk1
  rw [View.read_apply]
  show (V c (Pipeline.arrRef spec1 7) : S256x256.Idx → EReal) (((cfg1.win 7).blk t).view.emb (ix2 a b)) = _
  refine congrArg (V c (Pipeline.arrRef spec1 7) : S256x256.Idx → EReal) (funext fun d => Fin.ext ?_)
  match d with
  | ⟨0, _⟩ => show win1_7.index t (0 : Fin 2) * 256 + 1 * a.val = a.val; rw [e0]; omega
  | ⟨1, _⟩ => show win1_7.index t (1 : Fin 2) * 256 + 1 * b.val = b.val; rw [e1]; omega

theorem idx9 : ∀ t : Fin cfg1.N, win1_9.index t (0 : Fin 2) = 0 ∧ win1_9.index t (1 : Fin 2) = 0 :=
  (by decide +kernel : ∀ t : Fin grid1.N, _)

/-- Window 9's block is its whole array at every point. -/
theorem iblk9_apply (c : Dev nD) (t : Fin cfg1.N) (a : Fin 256) (b : Fin 256) :
    (iblk1 V c 9 t : Vec Ideal S256x256 .f32) (ix2 a b)
      = (V c (Pipeline.arrRef spec1 9) : S256x256.Idx → EReal) (ix2 a b) := by
  obtain ⟨e0, e1⟩ := idx9 t
  unfold iblk1
  rw [View.read_apply]
  show (V c (Pipeline.arrRef spec1 9) : S256x256.Idx → EReal) (((cfg1.win 9).blk t).view.emb (ix2 a b)) = _
  refine congrArg (V c (Pipeline.arrRef spec1 9) : S256x256.Idx → EReal) (funext fun d => Fin.ext ?_)
  match d with
  | ⟨0, _⟩ => show win1_9.index t (0 : Fin 2) * 256 + 1 * a.val = a.val; rw [e0]; omega
  | ⟨1, _⟩ => show win1_9.index t (1 : Fin 2) * 256 + 1 * b.val = b.val; rw [e1]; omega

theorem idx13 : ∀ t : Fin cfg1.N, win1_13.index t (0 : Fin 2) = 0 ∧ win1_13.index t (1 : Fin 2) = 0 :=
  (by decide +kernel : ∀ t : Fin grid1.N, _)

/-- Window 13's block is its whole array at every point. -/
theorem iblk13_apply (c : Dev nD) (t : Fin cfg1.N) (a : Fin 256) (b : Fin 128) :
    (iblk1 V c 13 t : Vec Ideal S256x128 .f32) (ix2 a b)
      = (V c (Pipeline.arrRef spec1 13) : S256x128.Idx → EReal) (ix2 a b) := by
  obtain ⟨e0, e1⟩ := idx13 t
  unfold iblk1
  rw [View.read_apply]
  show (V c (Pipeline.arrRef spec1 13) : S256x128.Idx → EReal) (((cfg1.win 13).blk t).view.emb (ix2 a b)) = _
  refine congrArg (V c (Pipeline.arrRef spec1 13) : S256x128.Idx → EReal) (funext fun d => Fin.ext ?_)
  match d with
  | ⟨0, _⟩ => show win1_13.index t (0 : Fin 2) * 256 + 1 * a.val = a.val; rw [e0]; omega
  | ⟨1, _⟩ => show win1_13.index t (1 : Fin 2) * 128 + 1 * b.val = b.val; rw [e1]; omega

theorem idx14 : ∀ t : Fin cfg1.N, win1_14.index t (0 : Fin 2) = 0 ∧ win1_14.index t (1 : Fin 2) = 0 :=
  (by decide +kernel : ∀ t : Fin grid1.N, _)

/-- Window 14's block is its whole array at every point. -/
theorem iblk14_apply (c : Dev nD) (t : Fin cfg1.N) (a : Fin 1) (b : Fin 128) :
    (iblk1 V c 14 t : Vec Ideal S1x128 .f32) (ix2 a b)
      = (V c (Pipeline.arrRef spec1 14) : S1x128.Idx → EReal) (ix2 a b) := by
  obtain ⟨e0, e1⟩ := idx14 t
  unfold iblk1
  rw [View.read_apply]
  show (V c (Pipeline.arrRef spec1 14) : S1x128.Idx → EReal) (((cfg1.win 14).blk t).view.emb (ix2 a b)) = _
  refine congrArg (V c (Pipeline.arrRef spec1 14) : S1x128.Idx → EReal) (funext fun d => Fin.ext ?_)
  match d with
  | ⟨0, _⟩ => show win1_14.index t (0 : Fin 2) * 1 + 1 * a.val = a.val; rw [e0]; omega
  | ⟨1, _⟩ => show win1_14.index t (1 : Fin 2) * 128 + 1 * b.val = b.val; rw [e1]; omega

end Cert.KernelIdeal.NodeTransition.Blocks

end
-- ==== Proof.NodeTransition.BlocksOut.lean ====
/-
  The output windows: what a point writes back, and the cover.

  At point t each output window's block is rows 2000 t … 2000 t + 1999 of its array, so a payload whose entry (r, j) is
  a whole-array function G at (2000 t + r, j) writes back block t of G.  Each output's blocks cover its array: row n
  lies in the block of point n / 2000.
-/
import proofs.«169663_j18897856103195_1_alg».proof.Proof.NodeTransition.Rows
import Idealize.ShloMosaic.Lib.ValueIdx
import Idealize.ShloMosaic.Lib.Pipeline.Value

set_option maxRecDepth 16384

noncomputable section

namespace Cert.KernelIdeal.NodeTransition.Blocks

open Idealize.ShloMosaic Idealize.ShloMosaic.TcCoe Idealize.SL.Sem Idealize.ShloMosaic.ValueIdx
open Idealize.ShloMosaic.Pipeline (Dat Cfg Window)
open Cert.KernelIdeal Cert.KernelIdeal.Gen

variable (V : (c : Dev nD) → (b : Ref sig .tc) → Buf (Elt Ideal) ((c : Thread nD τ).loc b))

/-! ## The output windows: what a point writes back, and the cover -/

theorem idx15 : ∀ t : Fin cfg1.N, win1_15.index t (0 : Fin 2) = t.val ∧ win1_15.index t (1 : Fin 2) = 0 :=
  (by decide +kernel : ∀ t : Fin grid1.N, _)

/-- The node output: if the stored payload at (r, j) is G at (2000 t + r, j), point t writes back block t of G. -/
theorem flushed15_eq (c : Dev nD) (G : S10000x256.Idx → EReal) (t : Fin cfg1.N)
    (hG : ∀ (r : Fin 2000) (j : Fin 256), (k1_pay1 (k1_pay3 (iblk1 V c 2 t)) (k1_pay7 (k1_pay4 (iblk1 V c 0 t) (iblk1 V c 1 t) (iblk1 V c 2 t) (iblk1 V c 3 t) (iblk1 V c 4 t)) (k1_pay5 (iblk1 V c 0 t) (iblk1 V c 1 t) (iblk1 V c 2 t) (iblk1 V c 3 t) (iblk1 V c 4 t) (iblk1 V c 5 t)) (k1_pay6 (iblk1 V c 6 t)) (iblk1 V c 7 t) (iblk1 V c 8 t) (iblk1 V c 9 t) (iblk1 V c 10 t) (iblk1 V c 11 t)) (iblk1 V c 12 t) : Vec Ideal S2000x256 .f32) (ix2 r j) = G (ix2 (rowOf t r) j)) :
    (dat1 (F := Ideal) V c).flushed 15 t = ((cfg1.win 15).blk t).view.read (Elt Ideal) G := by
  show (cfg1.win 15).cut (grid1.coords t) ((dat1 (F := Ideal) V c).after 15 t) = _
  rw [after1_15]
  unfold out1_15
  rw [View.canon_unit_zero hz]
  simp only [View.ld_unit_zero (S := S2000x256) hz, View.ld_unit_zero (S := S2000x1) hz, View.ld_unit_zero (S := S1x256) hz,
    View.ld_unit_zero (S := S256x256) hz, View.ld_unit_zero (S := S256x128) hz, View.ld_unit_zero (S := S1x128) hz]
  obtain ⟨e0, e1⟩ := idx15 t
  funext y
  obtain ⟨r, j, rfl⟩ : ∃ (r : Fin 2000) (j : Fin 256), y = ix2 r j := ⟨y 0, y 1, eq_ix2 y⟩
  refine (hG r j).trans ?_
  show G _ = G (((cfg1.win 15).blk t).view.emb (ix2 r j))
  refine congrArg G (funext fun a => Fin.ext ?_)
  match a with
  | ⟨0, _⟩ => show 2000 * t.val + r.val = win1_15.index t (0 : Fin 2) * 2000 + 1 * r.val; rw [e0]; omega
  | ⟨1, _⟩ => show j.val = win1_15.index t (1 : Fin 2) * 256 + 1 * j.val; rw [e1]; omega

/-- An index of the array is in point t's block iff each coordinate is in the block's range on its axis. -/
theorem mem_blk15 (t : Fin cfg1.N) (i : S10000x256.Idx) :
    i ∈ ((cfg1.win 15).blk t).view.set ↔ ∀ a : Fin 2, win1_15.index t a * S2000x256.size a ≤ (i a).val ∧ (i a).val < win1_15.index t a * S2000x256.size a + S2000x256.size a := by
  show i ∈ ((View.whole main_v81_0).slice (win1_15.rect t)).set ↔ _
  rw [View.set_slice_whole, Rect.mem_set_unit]
  exact Iff.rfl

/-- Row n is covered by the point n / 2000. -/
theorem cover15 (i : S10000x256.Idx) : ∃ t : Fin cfg1.N, (cfg1.win 15).flush t = true ∧ i ∈ ((cfg1.win 15).blk t).view.set := by
  have hi0 : (i 0).val < 10000 := (i 0).isLt
  have hi1 : (i 1).val < 256 := (i 1).isLt
  have hN : cfg1.N = 5 := N_1
  obtain ⟨e0, e1⟩ := idx15 ⟨(i 0).val / 2000, by rw [hN]; omega⟩
  refine ⟨⟨(i 0).val / 2000, by rw [hN]; omega⟩, flush1_15 _, ?_⟩
  rw [mem_blk15]
  intro a
  match a with
  | ⟨0, _⟩ =>
    show win1_15.index ⟨(i 0).val / 2000, _⟩ (0 : Fin 2) * 2000 ≤ (i 0).val ∧ (i 0).val < win1_15.index ⟨(i 0).val / 2000, _⟩ (0 : Fin 2) * 2000 + 2000
    rw [e0]; show (i 0).val / 2000 * 2000 ≤ (i 0).val ∧ (i 0).val < (i 0).val / 2000 * 2000 + 2000; omega
  | ⟨1, _⟩ =>
    show win1_15.index ⟨(i 0).val / 2000, _⟩ (1 : Fin 2) * 256 ≤ (i 1).val ∧ (i 1).val < win1_15.index ⟨(i 0).val / 2000, _⟩ (1 : Fin 2) * 256 + 256
    rw [e1]; omega

theorem idx16 : ∀ t : Fin cfg1.N, win1_16.index t (0 : Fin 2) = t.val ∧ win1_16.index t (1 : Fin 2) = 0 :=
  (by decide +kernel : ∀ t : Fin grid1.N, _)

/-- The projection output: if the stored payload at (r, j) is G at (2000 t + r, j), point t writes back block t of G. -/
theorem flushed16_eq (c : Dev nD) (G : S10000x128.Idx → EReal) (t : Fin cfg1.N)
    (hG : ∀ (r : Fin 2000) (j : Fin 128), (k1_pay2 (k1_pay3 (iblk1 V c 2 t)) (k1_pay7 (k1_pay4 (iblk1 V c 0 t) (iblk1 V c 1 t) (iblk1 V c 2 t) (iblk1 V c 3 t) (iblk1 V c 4 t)) (k1_pay5 (iblk1 V c 0 t) (iblk1 V c 1 t) (iblk1 V c 2 t) (iblk1 V c 3 t) (iblk1 V c 4 t) (iblk1 V c 5 t)) (k1_pay6 (iblk1 V c 6 t)) (iblk1 V c 7 t) (iblk1 V c 8 t) (iblk1 V c 9 t) (iblk1 V c 10 t) (iblk1 V c 11 t)) (iblk1 V c 12 t) (iblk1 V c 13 t) (iblk1 V c 14 t) : Vec Ideal S2000x128 .f32) (ix2 r j) = G (ix2 (rowOf t r) j)) :
    (dat1 (F := Ideal) V c).flushed 16 t = ((cfg1.win 16).blk t).view.read (Elt Ideal) G := by
  show (cfg1.win 16).cut (grid1.coords t) ((dat1 (F := Ideal) V c).after 16 t) = _
  rw [after1_16]
  unfold out1_16
  rw [View.canon_unit_zero hz]
  simp only [View.ld_unit_zero (S := S2000x256) hz, View.ld_unit_zero (S := S2000x1) hz, View.ld_unit_zero (S := S1x256) hz,
    View.ld_unit_zero (S := S256x256) hz, View.ld_unit_zero (S := S256x128) hz, View.ld_unit_zero (S := S1x128) hz]
  obtain ⟨e0, e1⟩ := idx16 t
  funext y
  obtain ⟨r, j, rfl⟩ : ∃ (r : Fin 2000) (j : Fin 128), y = ix2 r j := ⟨y 0, y 1, eq_ix2 y⟩
  refine (hG r j).trans ?_
  show G _ = G (((cfg1.win 16).blk t).view.emb (ix2 r j))
  refine congrArg G (funext fun a => Fin.ext ?_)
  match a with
  | ⟨0, _⟩ => show 2000 * t.val + r.val = win1_16.index t (0 : Fin 2) * 2000 + 1 * r.val; rw [e0]; omega
  | ⟨1, _⟩ => show j.val = win1_16.index t (1 : Fin 2) * 128 + 1 * j.val; rw [e1]; omega

/-- An index of the array is in point t's block iff each coordinate is in the block's range on its axis. -/
theorem mem_blk16 (t : Fin cfg1.N) (i : S10000x128.Idx) :
    i ∈ ((cfg1.win 16).blk t).view.set ↔ ∀ a : Fin 2, win1_16.index t a * S2000x128.size a ≤ (i a).val ∧ (i a).val < win1_16.index t a * S2000x128.size a + S2000x128.size a := by
  show i ∈ ((View.whole main_v81_1).slice (win1_16.rect t)).set ↔ _
  rw [View.set_slice_whole, Rect.mem_set_unit]
  exact Iff.rfl

/-- Row n is covered by the point n / 2000. -/
theorem cover16 (i : S10000x128.Idx) : ∃ t : Fin cfg1.N, (cfg1.win 16).flush t = true ∧ i ∈ ((cfg1.win 16).blk t).view.set := by
  have hi0 : (i 0).val < 10000 := (i 0).isLt
  have hi1 : (i 1).val < 128 := (i 1).isLt
  have hN : cfg1.N = 5 := N_1
  obtain ⟨e0, e1⟩ := idx16 ⟨(i 0).val / 2000, by rw [hN]; omega⟩
  refine ⟨⟨(i 0).val / 2000, by rw [hN]; omega⟩, flush1_16 _, ?_⟩
  rw [mem_blk16]
  intro a
  match a with
  | ⟨0, _⟩ =>
    show win1_16.index ⟨(i 0).val / 2000, _⟩ (0 : Fin 2) * 2000 ≤ (i 0).val ∧ (i 0).val < win1_16.index ⟨(i 0).val / 2000, _⟩ (0 : Fin 2) * 2000 + 2000
    rw [e0]; show (i 0).val / 2000 * 2000 ≤ (i 0).val ∧ (i 0).val < (i 0).val / 2000 * 2000 + 2000; omega
  | ⟨1, _⟩ =>
    show win1_16.index ⟨(i 0).val / 2000, _⟩ (1 : Fin 2) * 128 ≤ (i 1).val ∧ (i 1).val < win1_16.index ⟨(i 0).val / 2000, _⟩ (1 : Fin 2) * 128 + 128
    rw [e1]; omega

end Cert.KernelIdeal.NodeTransition.Blocks

end
-- ==== Proof.NodeTransition.HostOps.lean ====
/-
  The reference's operations that are not entrywise, each read at one entry of a 10000-row array.

  A vector of 10000 entries viewed as a column reads, at (n, 0), its entry n; a column spread along the 256 lanes
  reads, at (n, j), the column's entry n; a vector of 256 (or 128) entries viewed as a single row reads, at (0, j), its
  entry j, and that row spread down the rows reads, at (n, j), the row's entry j; a scalar spread over an array reads
  the scalar; the sum over the lanes from a zero initial value reads, at n, the sum over k of the entries (n, k); and a
  matrix product reads, at (n, j), the sum over k of the left factor's (n, k) times the right factor's (k, j).
  Each spreading lemma is stated for any list of target axes equal to the operation's own list.
-/
import proofs.«169663_j18897856103195_1_alg».proof.Proof.Gen.ReferenceIdeal
import Idealize.ShloMosaic.Lib.ValueIdx
import Idealize.ShloMosaic.Lib.Pipeline.Value
import Idealize.ShloMosaic.PureOps.Ideal.Laws

set_option maxRecDepth 16384

noncomputable section

open scoped BigOperators

namespace Cert.KernelIdeal.NodeTransition.HostOps

open Idealize.ShloMosaic Idealize.ShloMosaic.ValueIdx
open Cert.ReferenceIdeal Cert.ReferenceIdeal.Gen

variable {α : Type}

/-- The reference's quotient of two arrays, at an entry. -/
theorem hostDivf_apply {s : Shape} (a b : FVec Ideal s .f32) (i : s.Idx) : Host.divf a b i = Ideal.div (a i) (b i) := rfl
/-- The reference's reciprocal square root of an array, at an entry. -/
theorem hostRsqrt_apply {s : Shape} (a : FVec Ideal s .f32) (i : s.Idx) : Host.rsqrt a i = Ideal.rsqrt (a i) := rfl

/-- A vector of 10000 entries viewed as a column: entry (n, 0) is the vector's entry n. -/
theorem hcol_apply (dims : Fin S10000.rank → Fin S10000x1.rank) (h : S10000.BroadcastsInDim S10000x1 dims) (hd : dims = ![0])
    (w : S10000.Idx → α) (n : Fin 10000) :
    broadcastInDim S10000x1 dims h w (ix2 n (0 : Fin 1)) = w (ix1 n) := by
  subst hd
  exact broadcastInDim_apply _ h w (ix2 n (0 : Fin 1)) (ix1 n) (fun a => match a with
    | ⟨0, _⟩ => by show n.val = if (10000 : Nat) = 1 then 0 else n.val; rw [if_neg (by decide)])

/-- A column spread along the lanes: entry (n, j) is the column's entry n. -/
theorem hbcol_apply (dims : Fin S10000x1.rank → Fin S10000x256.rank) (h : S10000x1.BroadcastsInDim S10000x256 dims) (hd : dims = ![0, 1])
    (w : S10000x1.Idx → α) (n : Fin 10000) (j : Fin 256) :
    broadcastInDim S10000x256 dims h w (ix2 n j) = w (ix2 n (0 : Fin 1)) := by
  subst hd
  exact broadcastInDim_apply _ h w (ix2 n j) (ix2 n (0 : Fin 1)) (fun a => match a with
    | ⟨0, _⟩ => by show n.val = if (10000 : Nat) = 1 then 0 else n.val; rw [if_neg (by decide)]
    | ⟨1, _⟩ => by show 0 = if (1 : Nat) = 1 then 0 else j.val; rw [if_pos rfl])

/-- A vector of 256 entries viewed as a single row: entry (0, j) is the vector's entry j. -/
theorem hrow_apply (dims : Fin S256.rank → Fin S1x256.rank) (h : S256.BroadcastsInDim S1x256 dims) (hd : dims = ![1])
    (w : S256.Idx → α) (j : Fin 256) :
    broadcastInDim S1x256 dims h w (ix2 (0 : Fin 1) j) = w (ix1 j) := by
  subst hd
  exact broadcastInDim_apply _ h w (ix2 (0 : Fin 1) j) (ix1 j) (fun a => match a with
    | ⟨0, _⟩ => by show j.val = if (256 : Nat) = 1 then 0 else j.val; rw [if_neg (by decide)])

/-- A single row of 256 spread down the rows: entry (n, j) is the row's entry j. -/
theorem hbrow_apply (dims : Fin S1x256.rank → Fin S10000x256.rank) (h : S1x256.BroadcastsInDim S10000x256 dims) (hd : dims = ![0, 1])
    (w : S1x256.Idx → α) (n : Fin 10000) (j : Fin 256) :
    broadcastInDim S10000x256 dims h w (ix2 n j) = w (ix2 (0 : Fin 1) j) := by
  subst hd
  exact broadcastInDim_apply _ h w (ix2 n j) (ix2 (0 : Fin 1) j) (fun a => match a with
    | ⟨0, _⟩ => by show 0 = if (1 : Nat) = 1 then 0 else n.val; rw [if_pos rfl]
    | ⟨1, _⟩ => by show j.val = if (256 : Nat) = 1 then 0 else j.val; rw [if_neg (by decide)])

/-- A vector of 128 entries viewed as a single row: entry (0, j) is the vector's entry j. -/
theorem hrow128_apply (dims : Fin S128.rank → Fin S1x128.rank) (h : S128.BroadcastsInDim S1x128 dims) (hd : dims = ![1])
    (w : S128.Idx → α) (j : Fin 128) :
    broadcastInDim S1x128 dims h w (ix2 (0 : Fin 1) j) = w (ix1 j) := by
  subst hd
  exact broadcastInDim_apply _ h w (ix2 (0 : Fin 1) j) (ix1 j) (fun a => match a with
    | ⟨0, _⟩ => by show j.val = if (128 : Nat) = 1 then 0 else j.val; rw [if_neg (by decide)])

/-- A single row of 128 spread down the rows: entry (n, j) is the row's entry j. -/
theorem hbrow128_apply (dims : Fin S1x128.rank → Fin S10000x128.rank) (h : S1x128.BroadcastsInDim S10000x128 dims) (hd : dims = ![0, 1])
    (w : S1x128.Idx → α) (n : Fin 10000) (j : Fin 128) :
    broadcastInDim S10000x128 dims h w (ix2 n j) = w (ix2 (0 : Fin 1) j) := by
  subst hd
  exact broadcastInDim_apply _ h w (ix2 n j) (ix2 (0 : Fin 1) j) (fun a => match a with
    | ⟨0, _⟩ => by show 0 = if (1 : Nat) = 1 then 0 else n.val; rw [if_pos rfl]
    | ⟨1, _⟩ => by show j.val = if (128 : Nat) = 1 then 0 else j.val; rw [if_neg (by decide)])

/-- A scalar constant spread over a column of 10000 reads the constant's value. -/
theorem hsplat1_apply (dims : Fin S_.rank → Fin S10000x1.rank) (h : S_.BroadcastsInDim S10000x1 dims) (b : BitVec 32)
    (i : S10000x1.Idx) :
    broadcastInDim S10000x1 dims h (constant (F := Ideal) S_ .f32 b) i = Ideal.ofBits .f32 b := rfl

/-- A scalar constant spread over a 10000 by 256 array reads the constant's value. -/
theorem hsplat256_apply (dims : Fin S_.rank → Fin S10000x256.rank) (h : S_.BroadcastsInDim S10000x256 dims) (b : BitVec 32)
    (i : S10000x256.Idx) :
    broadcastInDim S10000x256 dims h (constant (F := Ideal) S_ .f32 b) i = Ideal.ofBits .f32 b := rfl

/-- The sum over the lanes from the zero word as initial value: entry n is the sum over k of the entries (n, k). -/
theorem hrowsum_apply (y : S10000x256.Idx → EReal) (n : Fin 10000) :
    Ideal.hostReduceAdd reducesTo_S10000x256_S10000_d1 y (Ideal.ofBits .f32 0x00000000#32) (ix1 n)
      = ∑ k : Fin 256, y (ix2 n k) := by
  rw [Ideal.hostReduceAdd_single reducesTo_S10000x256_S10000_d1 (by decide), Ideal.ofBits_zero_f32, zero_add]
  refine Finset.sum_congr rfl fun k _ => ?_
  exact congrArg y (funext fun a => Fin.ext (by match a with | ⟨0, _⟩ => rfl | ⟨1, _⟩ => rfl))
/-! The two matrix products' operand indices, coordinate by coordinate: the left operand keeps the output's row and
takes the contraction's coordinate as its lane; the right operand takes it as its row and keeps the output's lane. -/

theorem hmm256_lhs0 (i : S10000x256.Idx) (q : dot_S10000x256_S256x256_S10000x256_1_0_0_1_n_n.contr.Idx) :
    (dot_S10000x256_S256x256_S10000x256_1_0_0_1_n_n.lhsIdx i q 0).val = (i 0).val := by
  unfold DotDims.lhsIdx
  rw [dif_neg (show ¬(0 : Fin S10000x256.rank) ∈ dot_S10000x256_S256x256_S10000x256_1_0_0_1_n_n.lhsBatch by decide), dif_pos (show (0 : Fin S10000x256.rank) ∈ dot_S10000x256_S256x256_S10000x256_1_0_0_1_n_n.lhsNonContracting by decide)]
  rfl
theorem hmm256_lhs1 (i : S10000x256.Idx) (q : dot_S10000x256_S256x256_S10000x256_1_0_0_1_n_n.contr.Idx) :
    (dot_S10000x256_S256x256_S10000x256_1_0_0_1_n_n.lhsIdx i q 1).val = (q ⟨0, by decide⟩).val :=
  dot_S10000x256_S256x256_S10000x256_1_0_0_1_n_n.lhsIdx_val_of_single rfl i q
theorem hmm256_rhs0 (i : S10000x256.Idx) (q : dot_S10000x256_S256x256_S10000x256_1_0_0_1_n_n.contr.Idx) :
    (dot_S10000x256_S256x256_S10000x256_1_0_0_1_n_n.rhsIdx i q 0).val = (q ⟨0, by decide⟩).val :=
  dot_S10000x256_S256x256_S10000x256_1_0_0_1_n_n.rhsIdx_val_of_single rfl i q
theorem hmm256_rhs1 (i : S10000x256.Idx) (q : dot_S10000x256_S256x256_S10000x256_1_0_0_1_n_n.contr.Idx) :
    (dot_S10000x256_S256x256_S10000x256_1_0_0_1_n_n.rhsIdx i q 1).val = (i 1).val := by
  unfold DotDims.rhsIdx
  rw [dif_neg (show ¬(1 : Fin S256x256.rank) ∈ dot_S10000x256_S256x256_S10000x256_1_0_0_1_n_n.rhsBatch by decide), dif_pos (show (1 : Fin S256x256.rank) ∈ dot_S10000x256_S256x256_S10000x256_1_0_0_1_n_n.rhsNonContracting by decide)]
  rfl

theorem hmm128_lhs0 (i : S10000x128.Idx) (q : dot_S10000x256_S256x128_S10000x128_1_0_0_1_n_n.contr.Idx) :
    (dot_S10000x256_S256x128_S10000x128_1_0_0_1_n_n.lhsIdx i q 0).val = (i 0).val := by
  unfold DotDims.lhsIdx
  rw [dif_neg (show ¬(0 : Fin S10000x256.rank) ∈ dot_S10000x256_S256x128_S10000x128_1_0_0_1_n_n.lhsBatch by decide), dif_pos (show (0 : Fin S10000x256.rank) ∈ dot_S10000x256_S256x128_S10000x128_1_0_0_1_n_n.lhsNonContracting by decide)]
  rfl
theorem hmm128_lhs1 (i : S10000x128.Idx) (q : dot_S10000x256_S256x128_S10000x128_1_0_0_1_n_n.contr.Idx) :
    (dot_S10000x256_S256x128_S10000x128_1_0_0_1_n_n.lhsIdx i q 1).val = (q ⟨0, by decide⟩).val :=
  dot_S10000x256_S256x128_S10000x128_1_0_0_1_n_n.lhsIdx_val_of_single rfl i q
theorem hmm128_rhs0 (i : S10000x128.Idx) (q : dot_S10000x256_S256x128_S10000x128_1_0_0_1_n_n.contr.Idx) :
    (dot_S10000x256_S256x128_S10000x128_1_0_0_1_n_n.rhsIdx i q 0).val = (q ⟨0, by decide⟩).val :=
  dot_S10000x256_S256x128_S10000x128_1_0_0_1_n_n.rhsIdx_val_of_single rfl i q
theorem hmm128_rhs1 (i : S10000x128.Idx) (q : dot_S10000x256_S256x128_S10000x128_1_0_0_1_n_n.contr.Idx) :
    (dot_S10000x256_S256x128_S10000x128_1_0_0_1_n_n.rhsIdx i q 1).val = (i 1).val := by
  unfold DotDims.rhsIdx
  rw [dif_neg (show ¬(1 : Fin S256x128.rank) ∈ dot_S10000x256_S256x128_S10000x128_1_0_0_1_n_n.rhsBatch by decide), dif_pos (show (1 : Fin S256x128.rank) ∈ dot_S10000x256_S256x128_S10000x128_1_0_0_1_n_n.rhsNonContracting by decide)]
  rfl

/-- The product with a 256 by 256 matrix: entry (n, j) is the sum over k of the left factor's (n, k) times the
    matrix's (k, j); the contraction's one axis is re-indexed by Fin 256. -/
theorem hmm256_apply (a : FVec Ideal S10000x256 .f32) (W : FVec Ideal S256x256 .f32) (n : Fin 10000) (j : Fin 256) :
    Host.dotGeneral dot_S10000x256_S256x256_S10000x256_1_0_0_1_n_n none a W (ix2 n j) = ∑ k : Fin 256, a (ix2 n k) * W (ix2 k j) := by
  simp only [Host.dotGeneral]
  rw [Ideal.dotGeneral_apply, ← Equiv.sum_comp (contrEquiv1 dot_S10000x256_S256x256_S10000x256_1_0_0_1_n_n 256 rfl rfl).symm]
  refine Finset.sum_congr rfl fun k _ => ?_
  have hk := contrEquiv1_symm_val dot_S10000x256_S256x256_S10000x256_1_0_0_1_n_n 256 rfl rfl k
  have el : dot_S10000x256_S256x256_S10000x256_1_0_0_1_n_n.lhsIdx (ix2 n j) ((contrEquiv1 dot_S10000x256_S256x256_S10000x256_1_0_0_1_n_n 256 rfl rfl).symm k) = ix2 n k := funext fun b => Fin.ext (by
    match b with
    | ⟨0, _⟩ => exact hmm256_lhs0 _ _
    | ⟨1, _⟩ => exact (hmm256_lhs1 _ _).trans hk)
  have er : dot_S10000x256_S256x256_S10000x256_1_0_0_1_n_n.rhsIdx (ix2 n j) ((contrEquiv1 dot_S10000x256_S256x256_S10000x256_1_0_0_1_n_n 256 rfl rfl).symm k) = ix2 k j := funext fun b => Fin.ext (by
    match b with
    | ⟨0, _⟩ => exact (hmm256_rhs0 _ _).trans hk
    | ⟨1, _⟩ => exact hmm256_rhs1 _ _)
  rw [el, er]

/-- The product with the 256 by 128 matrix, likewise. -/
theorem hmm128_apply (a : FVec Ideal S10000x256 .f32) (W : FVec Ideal S256x128 .f32) (n : Fin 10000) (j : Fin 128) :
    Host.dotGeneral dot_S10000x256_S256x128_S10000x128_1_0_0_1_n_n none a W (ix2 n j) = ∑ k : Fin 256, a (ix2 n k) * W (ix2 k j) := by
  simp only [Host.dotGeneral]
  rw [Ideal.dotGeneral_apply, ← Equiv.sum_comp (contrEquiv1 dot_S10000x256_S256x128_S10000x128_1_0_0_1_n_n 256 rfl rfl).symm]
  refine Finset.sum_congr rfl fun k _ => ?_
  have hk := contrEquiv1_symm_val dot_S10000x256_S256x128_S10000x128_1_0_0_1_n_n 256 rfl rfl k
  have el : dot_S10000x256_S256x128_S10000x128_1_0_0_1_n_n.lhsIdx (ix2 n j) ((contrEquiv1 dot_S10000x256_S256x128_S10000x128_1_0_0_1_n_n 256 rfl rfl).symm k) = ix2 n k := funext fun b => Fin.ext (by
    match b with
    | ⟨0, _⟩ => exact hmm128_lhs0 _ _
    | ⟨1, _⟩ => exact (hmm128_lhs1 _ _).trans hk)
  have er : dot_S10000x256_S256x128_S10000x128_1_0_0_1_n_n.rhsIdx (ix2 n j) ((contrEquiv1 dot_S10000x256_S256x128_S10000x128_1_0_0_1_n_n 256 rfl rfl).symm k) = ix2 k j := funext fun b => Fin.ext (by
    match b with
    | ⟨0, _⟩ => exact (hmm128_rhs0 _ _).trans hk
    | ⟨1, _⟩ => exact hmm128_rhs1 _ _)
  rw [el, er]

end Cert.KernelIdeal.NodeTransition.HostOps

end
-- ==== Proof.NodeTransition.Ref1.lean ====
/-
  The reference's first normalisation at one entry.

  Entry (n, j) of the normalised array depends only on row n of the features and of the mean message and on node n's
  mask: the reference's stages from the masked sum to the scale and shift are, at (n, j), the row function `Spec.ln`
  of `Spec.s1` of that row.  The sums over the lanes from a zero initial value become sums over Fin 256 of the row.
-/
import proofs.«169663_j18897856103195_1_alg».proof.Proof.ReferenceRead
import proofs.«169663_j18897856103195_1_alg».proof.Proof.NodeTransition.Spec
import proofs.«169663_j18897856103195_1_alg».proof.Proof.NodeTransition.HostOps

set_option maxRecDepth 16384

noncomputable section

open scoped BigOperators

namespace Cert.KernelIdeal.NodeTransition.Ref

open Idealize.ShloMosaic Idealize.ShloMosaic.ValueIdx
open Cert.ReferenceIdeal Cert.ReferenceIdeal.Gen Cert.ReferenceIdeal.Read
open Cert.KernelIdeal.NodeTransition.HostOps

/-- The normalised array at (n, j): the normalised row of the features plus the masked mean message. -/
theorem ln1_apply (x0 : (⟨S10000x256, .f32⟩ : BufTy).Contents (Elt Ideal)) (x1 : (⟨S300000x128, .f32⟩ : BufTy).Contents (Elt Ideal)) (x2 : (⟨S2x300000, .i32⟩ : BufTy).Contents (Elt Ideal)) (x3 : (⟨S10000x3x3, .f32⟩ : BufTy).Contents (Elt Ideal)) (x4 : (⟨S10000x3, .f32⟩ : BufTy).Contents (Elt Ideal)) (x5 : (⟨S10000, .f32⟩ : BufTy).Contents (Elt Ideal)) (x6 : (⟨S256x24, .f32⟩ : BufTy).Contents (Elt Ideal)) (x7 : (⟨S24, .f32⟩ : BufTy).Contents (Elt Ideal)) (x8 : (⟨S672x256, .f32⟩ : BufTy).Contents (Elt Ideal)) (x9 : (⟨S256, .f32⟩ : BufTy).Contents (Elt Ideal)) (x10 : (⟨S256x256, .f32⟩ : BufTy).Contents (Elt Ideal)) (x11 : (⟨S256, .f32⟩ : BufTy).Contents (Elt Ideal)) (x12 : (⟨S256, .f32⟩ : BufTy).Contents (Elt Ideal)) (x13 : (⟨S256, .f32⟩ : BufTy).Contents (Elt Ideal)) (n : Fin 10000) (j : Fin 256) :
    val_main_v106 (F := Ideal) x0 x1 x2 x3 x4 x5 x6 x7 x8 x9 x10 x11 x12 x13 (ix2 n j)
      = Spec.ln (Spec.s1 (fun k => x0 (ix2 n k)) (fun k => val_main_v78 (F := Ideal) x0 x1 x2 x3 x4 x6 x7 x8 x9 x10 x11 (ix2 n k)) (x5 (ix1 n))) (fun k => x12 (ix1 k)) (fun k => x13 (ix1 k)) j := by
  simp only [val_main_v106, val_main_v105, val_main_v104, val_main_v103, val_main_v102, val_main_v101, val_main_v100,
    val_main_v99, val_main_v98, val_main_v97, val_main_v96, val_main_cst_18, val_main_v95, val_main_v94, val_main_v93,
    val_main_v92, val_main_cst_17, val_main_v91, val_main_v90, val_main_cst_16, val_main_v89, val_main_v88, val_main_v87,
    val_main_v86, val_main_v85, val_main_cst_15, val_main_v84, val_main_v83, val_main_cst_14, val_main_v82, val_main_v81,
    val_main_v80, val_main_v79,
    addf_apply, mulf_apply, subf_apply, hostDivf_apply, hostRsqrt_apply, hbcol_apply, hcol_apply, hbrow_apply, hrow_apply,
    hsplat1_apply, Host.reduceAdd, Ideal.hostReduceAdd_def, hrowsum_apply, constant_apply]
  rfl

end Cert.KernelIdeal.NodeTransition.Ref

end
-- ==== Proof.NodeTransition.Ref2.lean ====
/-
  The reference's three dense layers and the residual sum at one entry.

  Entry (n, j) of the residual sum depends only on row n of the normalised array: it is that row's entry j plus the
  three layers' image of the row (`Spec.res`).  A matrix product at (n, j) is the sum over k of the left factor's
  (n, k) times the weight's (k, j); a bias vector viewed as a row and spread down the rows reads its entry j; the
  clamp's zero is a scalar spread over the array.
-/
import proofs.«169663_j18897856103195_1_alg».proof.Proof.ReferenceRead
import proofs.«169663_j18897856103195_1_alg».proof.Proof.NodeTransition.Spec
import proofs.«169663_j18897856103195_1_alg».proof.Proof.NodeTransition.HostOps

set_option maxRecDepth 16384

noncomputable section

open scoped BigOperators

namespace Cert.KernelIdeal.NodeTransition.Ref

open Idealize.ShloMosaic Idealize.ShloMosaic.ValueIdx
open Cert.ReferenceIdeal Cert.ReferenceIdeal.Gen Cert.ReferenceIdeal.Read
open Cert.KernelIdeal.NodeTransition.HostOps

/-- The residual sum at (n, j): the normalised row plus its image under the three layers. -/
theorem res_apply (x0 : (⟨S10000x256, .f32⟩ : BufTy).Contents (Elt Ideal)) (x1 : (⟨S300000x128, .f32⟩ : BufTy).Contents (Elt Ideal)) (x2 : (⟨S2x300000, .i32⟩ : BufTy).Contents (Elt Ideal)) (x3 : (⟨S10000x3x3, .f32⟩ : BufTy).Contents (Elt Ideal)) (x4 : (⟨S10000x3, .f32⟩ : BufTy).Contents (Elt Ideal)) (x5 : (⟨S10000, .f32⟩ : BufTy).Contents (Elt Ideal)) (x6 : (⟨S256x24, .f32⟩ : BufTy).Contents (Elt Ideal)) (x7 : (⟨S24, .f32⟩ : BufTy).Contents (Elt Ideal)) (x8 : (⟨S672x256, .f32⟩ : BufTy).Contents (Elt Ideal)) (x9 : (⟨S256, .f32⟩ : BufTy).Contents (Elt Ideal)) (x10 : (⟨S256x256, .f32⟩ : BufTy).Contents (Elt Ideal)) (x11 : (⟨S256, .f32⟩ : BufTy).Contents (Elt Ideal)) (x12 : (⟨S256, .f32⟩ : BufTy).Contents (Elt Ideal)) (x13 : (⟨S256, .f32⟩ : BufTy).Contents (Elt Ideal)) (x14 : (⟨S256x256, .f32⟩ : BufTy).Contents (Elt Ideal)) (x15 : (⟨S256, .f32⟩ : BufTy).Contents (Elt Ideal)) (x16 : (⟨S256x256, .f32⟩ : BufTy).Contents (Elt Ideal)) (x17 : (⟨S256, .f32⟩ : BufTy).Contents (Elt Ideal)) (x18 : (⟨S256x256, .f32⟩ : BufTy).Contents (Elt Ideal)) (x19 : (⟨S256, .f32⟩ : BufTy).Contents (Elt Ideal)) (n : Fin 10000) (j : Fin 256) :
    val_main_v121 (F := Ideal) x0 x1 x2 x3 x4 x5 x6 x7 x8 x9 x10 x11 x12 x13 x14 x15 x16 x17 x18 x19 (ix2 n j)
      = Spec.res (fun k => val_main_v106 (F := Ideal) x0 x1 x2 x3 x4 x5 x6 x7 x8 x9 x10 x11 x12 x13 (ix2 n k)) (fun k j => x14 (ix2 k j)) (fun k => x15 (ix1 k)) (fun k j => x16 (ix2 k j)) (fun k => x17 (ix1 k)) (fun k j => x18 (ix2 k j)) (fun k => x19 (ix1 k)) j := by
  simp only [val_main_v121, val_main_v120, val_main_v119, val_main_v118, val_main_v117, val_main_v116, val_main_call2_v0,
    val_main_call2_cst, val_main_v115, val_main_v114, val_main_v113, val_main_v112, val_main_v111, val_main_call1_v0,
    val_main_call1_cst, val_main_v110, val_main_v109, val_main_v108, val_main_v107,
    addf_apply, maximumf_apply, hmm256_apply, hbrow_apply, hrow_apply, hsplat256_apply]
  rfl

end Cert.KernelIdeal.NodeTransition.Ref

end
-- ==== Proof.NodeTransition.Ref3.lean ====
/-
  The reference's second normalisation and the mask at one entry.

  Entry (n, j) of the node result depends only on row n of the residual sum and on node n's mask: it is the normalised
  row's entry j times the mask.
-/
import proofs.«169663_j18897856103195_1_alg».proof.Proof.ReferenceRead
import proofs.«169663_j18897856103195_1_alg».proof.Proof.NodeTransition.Spec
import proofs.«169663_j18897856103195_1_alg».proof.Proof.NodeTransition.HostOps
set_option maxRecDepth 16384

noncomputable section

open scoped BigOperators

namespace Cert.KernelIdeal.NodeTransition.Ref

open Idealize.ShloMosaic Idealize.ShloMosaic.ValueIdx
open Cert.ReferenceIdeal Cert.ReferenceIdeal.Gen Cert.ReferenceIdeal.Read
open Cert.KernelIdeal.NodeTransition.HostOps

/-- The node result at (n, j) from row n of the residual sum. -/
theorem ln2_apply (x0 : (⟨S10000x256, .f32⟩ : BufTy).Contents (Elt Ideal)) (x1 : (⟨S300000x128, .f32⟩ : BufTy).Contents (Elt Ideal)) (x2 : (⟨S2x300000, .i32⟩ : BufTy).Contents (Elt Ideal)) (x3 : (⟨S10000x3x3, .f32⟩ : BufTy).Contents (Elt Ideal)) (x4 : (⟨S10000x3, .f32⟩ : BufTy).Contents (Elt Ideal)) (x5 : (⟨S10000, .f32⟩ : BufTy).Contents (Elt Ideal)) (x6 : (⟨S256x24, .f32⟩ : BufTy).Contents (Elt Ideal)) (x7 : (⟨S24, .f32⟩ : BufTy).Contents (Elt Ideal)) (x8 : (⟨S672x256, .f32⟩ : BufTy).Contents (Elt Ideal)) (x9 : (⟨S256, .f32⟩ : BufTy).Contents (Elt Ideal)) (x10 : (⟨S256x256, .f32⟩ : BufTy).Contents (Elt Ideal)) (x11 : (⟨S256, .f32⟩ : BufTy).Contents (Elt Ideal)) (x12 : (⟨S256, .f32⟩ : BufTy).Contents (Elt Ideal)) (x13 : (⟨S256, .f32⟩ : BufTy).Contents (Elt Ideal)) (x14 : (⟨S256x256, .f32⟩ : BufTy).Contents (Elt Ideal)) (x15 : (⟨S256, .f32⟩ : BufTy).Contents (Elt Ideal)) (x16 : (⟨S256x256, .f32⟩ : BufTy).Contents (Elt Ideal)) (x17 : (⟨S256, .f32⟩ : BufTy).Contents (Elt Ideal)) (x18 : (⟨S256x256, .f32⟩ : BufTy).Contents (Elt Ideal)) (x19 : (⟨S256, .f32⟩ : BufTy).Contents (Elt Ideal)) (x20 : (⟨S256, .f32⟩ : BufTy).Contents (Elt Ideal)) (x21 : (⟨S256, .f32⟩ : BufTy).Contents (Elt Ideal)) (n : Fin 10000) (j : Fin 256) :
    val_main_v148 (F := Ideal) x0 x1 x2 x3 x4 x5 x6 x7 x8 x9 x10 x11 x12 x13 x14 x15 x16 x17 x18 x19 x20 x21 (ix2 n j)
      = Spec.ln (fun k => val_main_v121 (F := Ideal) x0 x1 x2 x3 x4 x5 x6 x7 x8 x9 x10 x11 x12 x13 x14 x15 x16 x17 x18 x19 (ix2 n k)) (fun k => x20 (ix1 k)) (fun k => x21 (ix1 k)) j * x5 (ix1 n) := by
  simp only [val_main_v148, val_main_v147, val_main_v146, val_main_v145, val_main_v144, val_main_v143, val_main_v142,
    val_main_v141, val_main_v140, val_main_v139, val_main_v138, val_main_v137, val_main_v136, val_main_v135, val_main_cst_23,
    val_main_v134, val_main_v133, val_main_v132, val_main_v131, val_main_cst_22, val_main_v130, val_main_v129, val_main_cst_21,
    val_main_v128, val_main_v127, val_main_v126, val_main_v125, val_main_v124, val_main_cst_20, val_main_v123, val_main_v122,
    val_main_cst_19,
    addf_apply, mulf_apply, subf_apply, hostDivf_apply, hostRsqrt_apply, hbcol_apply, hcol_apply, hbrow_apply, hrow_apply,
    hsplat1_apply, Host.reduceAdd, Ideal.hostReduceAdd_def, hrowsum_apply, constant_apply]
  rfl

end Cert.KernelIdeal.NodeTransition.Ref

end
-- ==== Proof.NodeTransition.RefNode.lean ====
/-
  The reference's node result at one entry as one row function.

  Chaining the first normalisation, the three layers with the residual sum, and the second normalisation with the mask:
  the node result at (n, j) is `Spec.node` of row n of the features and of the mean message, node n's mask and the
  parameters.
-/
import proofs.«169663_j18897856103195_1_alg».proof.Proof.ReferenceRead
import proofs.«169663_j18897856103195_1_alg».proof.Proof.NodeTransition.Spec
import proofs.«169663_j18897856103195_1_alg».proof.Proof.NodeTransition.HostOps
import proofs.«169663_j18897856103195_1_alg».proof.Proof.NodeTransition.Ref1
import proofs.«169663_j18897856103195_1_alg».proof.Proof.NodeTransition.Ref2
import proofs.«169663_j18897856103195_1_alg».proof.Proof.NodeTransition.Ref3
set_option maxRecDepth 16384

noncomputable section

open scoped BigOperators

namespace Cert.KernelIdeal.NodeTransition.Ref

open Idealize.ShloMosaic Idealize.ShloMosaic.ValueIdx
open Cert.ReferenceIdeal Cert.ReferenceIdeal.Gen Cert.ReferenceIdeal.Read
open Cert.KernelIdeal.NodeTransition.HostOps

/-- The node result at (n, j) as the row function of row n of the inputs. -/
theorem node_apply (x0 : (⟨S10000x256, .f32⟩ : BufTy).Contents (Elt Ideal)) (x1 : (⟨S300000x128, .f32⟩ : BufTy).Contents (Elt Ideal)) (x2 : (⟨S2x300000, .i32⟩ : BufTy).Contents (Elt Ideal)) (x3 : (⟨S10000x3x3, .f32⟩ : BufTy).Contents (Elt Ideal)) (x4 : (⟨S10000x3, .f32⟩ : BufTy).Contents (Elt Ideal)) (x5 : (⟨S10000, .f32⟩ : BufTy).Contents (Elt Ideal)) (x6 : (⟨S256x24, .f32⟩ : BufTy).Contents (Elt Ideal)) (x7 : (⟨S24, .f32⟩ : BufTy).Contents (Elt Ideal)) (x8 : (⟨S672x256, .f32⟩ : BufTy).Contents (Elt Ideal)) (x9 : (⟨S256, .f32⟩ : BufTy).Contents (Elt Ideal)) (x10 : (⟨S256x256, .f32⟩ : BufTy).Contents (Elt Ideal)) (x11 : (⟨S256, .f32⟩ : BufTy).Contents (Elt Ideal)) (x12 : (⟨S256, .f32⟩ : BufTy).Contents (Elt Ideal)) (x13 : (⟨S256, .f32⟩ : BufTy).Contents (Elt Ideal)) (x14 : (⟨S256x256, .f32⟩ : BufTy).Contents (Elt Ideal)) (x15 : (⟨S256, .f32⟩ : BufTy).Contents (Elt Ideal)) (x16 : (⟨S256x256, .f32⟩ : BufTy).Contents (Elt Ideal)) (x17 : (⟨S256, .f32⟩ : BufTy).Contents (Elt Ideal)) (x18 : (⟨S256x256, .f32⟩ : BufTy).Contents (Elt Ideal)) (x19 : (⟨S256, .f32⟩ : BufTy).Contents (Elt Ideal)) (x20 : (⟨S256, .f32⟩ : BufTy).Contents (Elt Ideal)) (x21 : (⟨S256, .f32⟩ : BufTy).Contents (Elt Ideal)) (n : Fin 10000) (j : Fin 256) :
    val_main_v148 (F := Ideal) x0 x1 x2 x3 x4 x5 x6 x7 x8 x9 x10 x11 x12 x13 x14 x15 x16 x17 x18 x19 x20 x21 (ix2 n j)
      = Spec.node (fun k => x0 (ix2 n k)) (fun k => val_main_v78 (F := Ideal) x0 x1 x2 x3 x4 x6 x7 x8 x9 x10 x11 (ix2 n k)) (x5 (ix1 n))
          (fun k => x12 (ix1 k)) (fun k => x13 (ix1 k)) (fun k j => x14 (ix2 k j)) (fun k => x15 (ix1 k)) (fun k j => x16 (ix2 k j)) (fun k => x17 (ix1 k)) (fun k j => x18 (ix2 k j)) (fun k => x19 (ix1 k)) (fun k => x20 (ix1 k)) (fun k => x21 (ix1 k)) j := by
  have e1 : (fun k => val_main_v106 (F := Ideal) x0 x1 x2 x3 x4 x5 x6 x7 x8 x9 x10 x11 x12 x13 (ix2 n k)) = Spec.ln (Spec.s1 (fun k => x0 (ix2 n k)) (fun k => val_main_v78 (F := Ideal) x0 x1 x2 x3 x4 x6 x7 x8 x9 x10 x11 (ix2 n k)) (x5 (ix1 n))) (fun k => x12 (ix1 k)) (fun k => x13 (ix1 k)) :=
    funext fun k => ln1_apply x0 x1 x2 x3 x4 x5 x6 x7 x8 x9 x10 x11 x12 x13 n k
  have e2 : (fun k => val_main_v121 (F := Ideal) x0 x1 x2 x3 x4 x5 x6 x7 x8 x9 x10 x11 x12 x13 x14 x15 x16 x17 x18 x19 (ix2 n k)) = Spec.res (fun k => val_main_v106 (F := Ideal) x0 x1 x2 x3 x4 x5 x6 x7 x8 x9 x10 x11 x12 x13 (ix2 n k)) (fun k j => x14 (ix2 k j)) (fun k => x15 (ix1 k)) (fun k j => x16 (ix2 k j)) (fun k => x17 (ix1 k)) (fun k j => x18 (ix2 k j)) (fun k => x19 (ix1 k)) :=
    funext fun k => res_apply x0 x1 x2 x3 x4 x5 x6 x7 x8 x9 x10 x11 x12 x13 x14 x15 x16 x17 x18 x19 n k
  rw [ln2_apply, e2, e1]
  rfl

end Cert.KernelIdeal.NodeTransition.Ref

end
-- ==== Proof.NodeTransition.Ref4.lean ====
/-
  The reference's projection at one entry: entry (n, j) is the node result's row n times the projection matrix, plus
  the bias's entry j.
-/
import proofs.«169663_j18897856103195_1_alg».proof.Proof.ReferenceRead
import proofs.«169663_j18897856103195_1_alg».proof.Proof.NodeTransition.Spec
import proofs.«169663_j18897856103195_1_alg».proof.Proof.NodeTransition.HostOps

set_option maxRecDepth 16384

noncomputable section

open scoped BigOperators

namespace Cert.KernelIdeal.NodeTransition.Ref

open Idealize.ShloMosaic Idealize.ShloMosaic.ValueIdx
open Cert.ReferenceIdeal Cert.ReferenceIdeal.Gen Cert.ReferenceIdeal.Read
open Cert.KernelIdeal.NodeTransition.HostOps

/-- The projected array at (n, j) from row n of the node result. -/
theorem proj_apply (x0 : (⟨S10000x256, .f32⟩ : BufTy).Contents (Elt Ideal)) (x1 : (⟨S300000x128, .f32⟩ : BufTy).Contents (Elt Ideal)) (x2 : (⟨S2x300000, .i32⟩ : BufTy).Contents (Elt Ideal)) (x3 : (⟨S10000x3x3, .f32⟩ : BufTy).Contents (Elt Ideal)) (x4 : (⟨S10000x3, .f32⟩ : BufTy).Contents (Elt Ideal)) (x5 : (⟨S10000, .f32⟩ : BufTy).Contents (Elt Ideal)) (x6 : (⟨S256x24, .f32⟩ : BufTy).Contents (Elt Ideal)) (x7 : (⟨S24, .f32⟩ : BufTy).Contents (Elt Ideal)) (x8 : (⟨S672x256, .f32⟩ : BufTy).Contents (Elt Ideal)) (x9 : (⟨S256, .f32⟩ : BufTy).Contents (Elt Ideal)) (x10 : (⟨S256x256, .f32⟩ : BufTy).Contents (Elt Ideal)) (x11 : (⟨S256, .f32⟩ : BufTy).Contents (Elt Ideal)) (x12 : (⟨S256, .f32⟩ : BufTy).Contents (Elt Ideal)) (x13 : (⟨S256, .f32⟩ : BufTy).Contents (Elt Ideal)) (x14 : (⟨S256x256, .f32⟩ : BufTy).Contents (Elt Ideal)) (x15 : (⟨S256, .f32⟩ : BufTy).Contents (Elt Ideal)) (x16 : (⟨S256x256, .f32⟩ : BufTy).Contents (Elt Ideal)) (x17 : (⟨S256, .f32⟩ : BufTy).Contents (Elt Ideal)) (x18 : (⟨S256x256, .f32⟩ : BufTy).Contents (Elt Ideal)) (x19 : (⟨S256, .f32⟩ : BufTy).Contents (Elt Ideal)) (x20 : (⟨S256, .f32⟩ : BufTy).Contents (Elt Ideal)) (x21 : (⟨S256, .f32⟩ : BufTy).Contents (Elt Ideal)) (x22 : (⟨S256x128, .f32⟩ : BufTy).Contents (Elt Ideal)) (x23 : (⟨S128, .f32⟩ : BufTy).Contents (Elt Ideal)) (n : Fin 10000) (j : Fin 128) :
    val_main_v152 (F := Ideal) x0 x1 x2 x3 x4 x5 x6 x7 x8 x9 x10 x11 x12 x13 x14 x15 x16 x17 x18 x19 x20 x21 x22 x23 (ix2 n j)
      = Spec.dense (fun k => val_main_v148 (F := Ideal) x0 x1 x2 x3 x4 x5 x6 x7 x8 x9 x10 x11 x12 x13 x14 x15 x16 x17 x18 x19 x20 x21 (ix2 n k)) (fun k j => x22 (ix2 k j)) (fun k => x23 (ix1 k)) j := by
  simp only [val_main_v152, val_main_v151, val_main_v150, val_main_v149,
    addf_apply, hmm128_apply, hbrow128_apply, hrow128_apply]
  rfl

end Cert.KernelIdeal.NodeTransition.Ref

end
-- ==== Proof.NodeTransition.lean ====
/-
  The node-transition kernel, as two whole-array functions.

  Node `n` of the 10000 nodes lies in block `n / 2000` of the grid of 5 points.  At a point the body adds the masked
  mean message to the node's features, normalises the row (mean and variance over its 256 entries, reciprocal square
  root of variance plus epsilon, scale and shift), passes it through three dense layers with two clamps at zero, adds
  the result back, normalises again, masks, and stores the row; it also stores the row's projection by the 256×128
  matrix plus its bias.  Every step is local to the row, so the two arrays the kernel leaves are, row by row, the
  reference's node result and the reference's projected node array.
-/
import proofs.«169663_j18897856103195_1_alg».proof.Proof.Gen.KernelIdeal.Frame
import proofs.«169663_j18897856103195_1_alg».proof.Proof.ReferenceRead
import proofs.«169663_j18897856103195_1_alg».proof.Proof.NodeInputs
import proofs.«169663_j18897856103195_1_alg».proof.Proof.NodeTransition.SpecCongr
import proofs.«169663_j18897856103195_1_alg».proof.Proof.NodeTransition.Body
import proofs.«169663_j18897856103195_1_alg».proof.Proof.NodeTransition.BlocksInA
import proofs.«169663_j18897856103195_1_alg».proof.Proof.NodeTransition.BlocksInB
import proofs.«169663_j18897856103195_1_alg».proof.Proof.NodeTransition.BlocksOut
import proofs.«169663_j18897856103195_1_alg».proof.Proof.NodeTransition.RefNode
import proofs.«169663_j18897856103195_1_alg».proof.Proof.NodeTransition.Ref4
import Idealize.ShloMosaic.Lib.ValueIdx
import Idealize.ShloMosaic.Lib.Pipeline.Value
import Idealize.ShloMosaic.PureOps.Ideal.Laws

set_option maxRecDepth 16384

noncomputable section

namespace Cert.KernelIdeal.NodeTransition

open Idealize.ShloMosaic Idealize.ShloMosaic.TcCoe Idealize.SL.Sem Idealize.ShloMosaic.ValueIdx
open Idealize.ShloMosaic.Pipeline (Dat Cfg Window)
open Cert.KernelIdeal Cert.KernelIdeal.Gen

variable (V : (c : Dev nD) → (b : Ref sig .tc) → Buf (Elt Ideal) ((c : Thread nD τ).loc b))

/-- Row r of point t's blocks is row 2000 t + r of the arrays the windows read, and those arrays are the reference's
    inputs: so the node row function of the blocks' rows is the reference's node result at that row. -/
theorem node_row (c : Dev nD) (x0 : (⟨S10000x256, .f32⟩ : BufTy).Contents (Elt Ideal)) (x1 : (⟨S300000x128, .f32⟩ : BufTy).Contents (Elt Ideal)) (x2 : (⟨S2x300000, .i32⟩ : BufTy).Contents (Elt Ideal)) (x3 : (⟨S10000x3x3, .f32⟩ : BufTy).Contents (Elt Ideal)) (x4 : (⟨S10000x3, .f32⟩ : BufTy).Contents (Elt Ideal)) (x5 : (⟨S10000, .f32⟩ : BufTy).Contents (Elt Ideal)) (x6 : (⟨S256x24, .f32⟩ : BufTy).Contents (Elt Ideal)) (x7 : (⟨S24, .f32⟩ : BufTy).Contents (Elt Ideal)) (x8 : (⟨S672x256, .f32⟩ : BufTy).Contents (Elt Ideal)) (x9 : (⟨S256, .f32⟩ : BufTy).Contents (Elt Ideal)) (x10 : (⟨S256x256, .f32⟩ : BufTy).Contents (Elt Ideal)) (x11 : (⟨S256, .f32⟩ : BufTy).Contents (Elt Ideal)) (x12 : (⟨S256, .f32⟩ : BufTy).Contents (Elt Ideal)) (x13 : (⟨S256, .f32⟩ : BufTy).Contents (Elt Ideal)) (x14 : (⟨S256x256, .f32⟩ : BufTy).Contents (Elt Ideal)) (x15 : (⟨S256, .f32⟩ : BufTy).Contents (Elt Ideal)) (x16 : (⟨S256x256, .f32⟩ : BufTy).Contents (Elt Ideal)) (x17 : (⟨S256, .f32⟩ : BufTy).Contents (Elt Ideal)) (x18 : (⟨S256x256, .f32⟩ : BufTy).Contents (Elt Ideal)) (x19 : (⟨S256, .f32⟩ : BufTy).Contents (Elt Ideal)) (x20 : (⟨S256, .f32⟩ : BufTy).Contents (Elt Ideal)) (x21 : (⟨S256, .f32⟩ : BufTy).Contents (Elt Ideal)) (x22 : (⟨S256x128, .f32⟩ : BufTy).Contents (Elt Ideal)) (x23 : (⟨S128, .f32⟩ : BufTy).Contents (Elt Ideal))
    (h : Inputs V c x0 x1 x2 x3 x4 x5 x6 x7 x8 x9 x10 x11 x12 x13 x14 x15 x16 x17 x18 x19 x20 x21 x22 x23) (t : Fin cfg1.N) (r : Fin 2000) (j : Fin 256) :
    Spec.node (fun k => (iblk1 V c 0 t : Vec Ideal S2000x256 .f32) (ix2 r k)) (fun k => (iblk1 V c 1 t : Vec Ideal S2000x256 .f32) (ix2 r k))
        ((iblk1 V c 2 t : Vec Ideal S2000x1 .f32) (ix2 r (0 : Fin 1)))
        (fun k => (iblk1 V c 3 t : Vec Ideal S1x256 .f32) (ix2 (0 : Fin 1) k)) (fun k => (iblk1 V c 4 t : Vec Ideal S1x256 .f32) (ix2 (0 : Fin 1) k))
        (fun k j => (iblk1 V c 5 t : Vec Ideal S256x256 .f32) (ix2 k j)) (fun k => (iblk1 V c 6 t : Vec Ideal S1x256 .f32) (ix2 (0 : Fin 1) k))
        (fun k j => (iblk1 V c 7 t : Vec Ideal S256x256 .f32) (ix2 k j)) (fun k => (iblk1 V c 8 t : Vec Ideal S1x256 .f32) (ix2 (0 : Fin 1) k))
        (fun k j => (iblk1 V c 9 t : Vec Ideal S256x256 .f32) (ix2 k j)) (fun k => (iblk1 V c 10 t : Vec Ideal S1x256 .f32) (ix2 (0 : Fin 1) k))
        (fun k => (iblk1 V c 11 t : Vec Ideal S1x256 .f32) (ix2 (0 : Fin 1) k)) (fun k => (iblk1 V c 12 t : Vec Ideal S1x256 .f32) (ix2 (0 : Fin 1) k)) j
      = Cert.ReferenceIdeal.Read.val_main_v148 (F := Ideal) x0 x1 x2 x3 x4 x5 x6 x7 x8 x9 x10 x11 x12 x13 x14 x15 x16 x17 x18 x19 x20 x21 (ix2 (Blocks.rowOf t r) j) := by
  refine Eq.trans ?_ (Ref.node_apply x0 x1 x2 x3 x4 x5 x6 x7 x8 x9 x10 x11 x12 x13 x14 x15 x16 x17 x18 x19 x20 x21 (Blocks.rowOf t r) j).symm
  exact Spec.node_congr
    (fun k => (Blocks.iblk0_apply V c t r k).trans (congrFun h.h0 _))
    (fun k => (Blocks.iblk1_apply V c t r k).trans (congrFun h.h1 _))
    ((Blocks.iblk2_apply V c t r 0).trans (h.h2 _))
    (fun k => (Blocks.iblk3_apply V c t 0 k).trans (h.h3 k))
    (fun k => (Blocks.iblk4_apply V c t 0 k).trans (h.h4 k))
    (fun k j => (Blocks.iblk5_apply V c t k j).trans (congrFun h.h5 _))
    (fun k => (Blocks.iblk6_apply V c t 0 k).trans (h.h6 k))
    (fun k j => (Blocks.iblk7_apply V c t k j).trans (congrFun h.h7 _))
    (fun k => (Blocks.iblk8_apply V c t 0 k).trans (h.h8 k))
    (fun k j => (Blocks.iblk9_apply V c t k j).trans (congrFun h.h9 _))
    (fun k => (Blocks.iblk10_apply V c t 0 k).trans (h.h10 k))
    (fun k => (Blocks.iblk11_apply V c t 0 k).trans (h.h11 k))
    (fun k => (Blocks.iblk12_apply V c t 0 k).trans (h.h12 k)) j

/-- The node array the kernel leaves is the reference's node result. -/
theorem node_eq (c : Dev nD) (x0 : (⟨S10000x256, .f32⟩ : BufTy).Contents (Elt Ideal)) (x1 : (⟨S300000x128, .f32⟩ : BufTy).Contents (Elt Ideal)) (x2 : (⟨S2x300000, .i32⟩ : BufTy).Contents (Elt Ideal)) (x3 : (⟨S10000x3x3, .f32⟩ : BufTy).Contents (Elt Ideal)) (x4 : (⟨S10000x3, .f32⟩ : BufTy).Contents (Elt Ideal)) (x5 : (⟨S10000, .f32⟩ : BufTy).Contents (Elt Ideal)) (x6 : (⟨S256x24, .f32⟩ : BufTy).Contents (Elt Ideal)) (x7 : (⟨S24, .f32⟩ : BufTy).Contents (Elt Ideal)) (x8 : (⟨S672x256, .f32⟩ : BufTy).Contents (Elt Ideal)) (x9 : (⟨S256, .f32⟩ : BufTy).Contents (Elt Ideal)) (x10 : (⟨S256x256, .f32⟩ : BufTy).Contents (Elt Ideal)) (x11 : (⟨S256, .f32⟩ : BufTy).Contents (Elt Ideal)) (x12 : (⟨S256, .f32⟩ : BufTy).Contents (Elt Ideal)) (x13 : (⟨S256, .f32⟩ : BufTy).Contents (Elt Ideal)) (x14 : (⟨S256x256, .f32⟩ : BufTy).Contents (Elt Ideal)) (x15 : (⟨S256, .f32⟩ : BufTy).Contents (Elt Ideal)) (x16 : (⟨S256x256, .f32⟩ : BufTy).Contents (Elt Ideal)) (x17 : (⟨S256, .f32⟩ : BufTy).Contents (Elt Ideal)) (x18 : (⟨S256x256, .f32⟩ : BufTy).Contents (Elt Ideal)) (x19 : (⟨S256, .f32⟩ : BufTy).Contents (Elt Ideal)) (x20 : (⟨S256, .f32⟩ : BufTy).Contents (Elt Ideal)) (x21 : (⟨S256, .f32⟩ : BufTy).Contents (Elt Ideal)) (x22 : (⟨S256x128, .f32⟩ : BufTy).Contents (Elt Ideal)) (x23 : (⟨S128, .f32⟩ : BufTy).Contents (Elt Ideal))
    (h : Inputs V c x0 x1 x2 x3 x4 x5 x6 x7 x8 x9 x10 x11 x12 x13 x14 x15 x16 x17 x18 x19 x20 x21 x22 x23) :
    (dat1 (F := Ideal) V c).arrAt 15 cfg1.N = Cert.ReferenceIdeal.Read.val_main_v148 (F := Ideal) x0 x1 x2 x3 x4 x5 x6 x7 x8 x9 x10 x11 x12 x13 x14 x15 x16 x17 x18 x19 x20 x21 := by
  refine (dat1 (F := Ideal) V c).arrAt_eq_of_cover 15 _ (fun t _ => ?_) Blocks.cover15
  refine Blocks.flushed15_eq V c _ t (fun r j => ?_)
  exact (Pay.out15_apply _ _ _ _ _ _ _ _ _ _ _ _ _ r j).trans
    (node_row V c x0 x1 x2 x3 x4 x5 x6 x7 x8 x9 x10 x11 x12 x13 x14 x15 x16 x17 x18 x19 x20 x21 x22 x23 h t r j)

/-- The projected array the kernel leaves is the reference's projection of its node result. -/
theorem proj_eq (c : Dev nD) (x0 : (⟨S10000x256, .f32⟩ : BufTy).Contents (Elt Ideal)) (x1 : (⟨S300000x128, .f32⟩ : BufTy).Contents (Elt Ideal)) (x2 : (⟨S2x300000, .i32⟩ : BufTy).Contents (Elt Ideal)) (x3 : (⟨S10000x3x3, .f32⟩ : BufTy).Contents (Elt Ideal)) (x4 : (⟨S10000x3, .f32⟩ : BufTy).Contents (Elt Ideal)) (x5 : (⟨S10000, .f32⟩ : BufTy).Contents (Elt Ideal)) (x6 : (⟨S256x24, .f32⟩ : BufTy).Contents (Elt Ideal)) (x7 : (⟨S24, .f32⟩ : BufTy).Contents (Elt Ideal)) (x8 : (⟨S672x256, .f32⟩ : BufTy).Contents (Elt Ideal)) (x9 : (⟨S256, .f32⟩ : BufTy).Contents (Elt Ideal)) (x10 : (⟨S256x256, .f32⟩ : BufTy).Contents (Elt Ideal)) (x11 : (⟨S256, .f32⟩ : BufTy).Contents (Elt Ideal)) (x12 : (⟨S256, .f32⟩ : BufTy).Contents (Elt Ideal)) (x13 : (⟨S256, .f32⟩ : BufTy).Contents (Elt Ideal)) (x14 : (⟨S256x256, .f32⟩ : BufTy).Contents (Elt Ideal)) (x15 : (⟨S256, .f32⟩ : BufTy).Contents (Elt Ideal)) (x16 : (⟨S256x256, .f32⟩ : BufTy).Contents (Elt Ideal)) (x17 : (⟨S256, .f32⟩ : BufTy).Contents (Elt Ideal)) (x18 : (⟨S256x256, .f32⟩ : BufTy).Contents (Elt Ideal)) (x19 : (⟨S256, .f32⟩ : BufTy).Contents (Elt Ideal)) (x20 : (⟨S256, .f32⟩ : BufTy).Contents (Elt Ideal)) (x21 : (⟨S256, .f32⟩ : BufTy).Contents (Elt Ideal)) (x22 : (⟨S256x128, .f32⟩ : BufTy).Contents (Elt Ideal)) (x23 : (⟨S128, .f32⟩ : BufTy).Contents (Elt Ideal))
    (h : Inputs V c x0 x1 x2 x3 x4 x5 x6 x7 x8 x9 x10 x11 x12 x13 x14 x15 x16 x17 x18 x19 x20 x21 x22 x23) :
    (dat1 (F := Ideal) V c).arrAt 16 cfg1.N = Cert.ReferenceIdeal.Read.val_main_v152 (F := Ideal) x0 x1 x2 x3 x4 x5 x6 x7 x8 x9 x10 x11 x12 x13 x14 x15 x16 x17 x18 x19 x20 x21 x22 x23 := by
  refine (dat1 (F := Ideal) V c).arrAt_eq_of_cover 16 _ (fun t _ => ?_) Blocks.cover16
  refine Blocks.flushed16_eq V c _ t (fun r j => ?_)
  refine (Pay.out16_apply _ _ _ _ _ _ _ _ _ _ _ _ _ _ _ r j).trans ?_
  refine Eq.trans ?_ (Ref.proj_apply x0 x1 x2 x3 x4 x5 x6 x7 x8 x9 x10 x11 x12 x13 x14 x15 x16 x17 x18 x19 x20 x21 x22 x23 (Blocks.rowOf t r) j).symm
  exact Spec.dense_congr (fun k => node_row V c x0 x1 x2 x3 x4 x5 x6 x7 x8 x9 x10 x11 x12 x13 x14 x15 x16 x17 x18 x19 x20 x21 x22 x23 h t r k)
    (fun k j => (Blocks.iblk13_apply V c t k j).trans (congrFun h.h13 _))
    (fun k => (Blocks.iblk14_apply V c t 0 k).trans (h.h14 k)) j

end Cert.KernelIdeal.NodeTransition

end
-- ==== Proof.EdgeTransition.Spec.lean ====
/-
  One edge's transition as a function of three rows of 128 entries and the layer's parameters, over the extended
  reals: the joined row of 384 entries, the first dense layer clamped at zero, the second dense layer, and the
  normalisation of the resulting 128 entries (mean, centred squares, reciprocal square root of the variance plus
  epsilon, scale and shift).  The constants are kept as the words the two programs print (zero, 128, epsilon).
-/
import Idealize.ShloMosaic.PureOps.Ideal
import Idealize.ShloMosaic.Lib.ValueIdx

noncomputable section

open scoped BigOperators

namespace Cert.KernelIdeal.EdgeTransition

open Idealize.ShloMosaic

/-- Three rows of 128 entries laid end to end: entry `k` comes from the first row below 128, from the second below
    256, from the third above. -/
def joined (a b c : Fin 128 → EReal) (k : Fin 384) : EReal :=
  if h : k.val < 128 then a ⟨k.val, h⟩
  else if h2 : k.val < 256 then b ⟨k.val - 128, by omega⟩
  else c ⟨k.val - 256, by have := k.isLt; omega⟩

/-- The first dense layer at entry `j`: the row against column `j` of the weights, plus the bias, clamped below at the
    zero word. -/
def hidden (u : Fin 384 → EReal) (W : Fin 384 → Fin 384 → EReal) (bias : Fin 384 → EReal) (j : Fin 384) : EReal :=
  max ((∑ k : Fin 384, u k * W k j) + bias j) (Ideal.ofBits .f32 0x00000000#32)

/-- The second dense layer at entry `j`. -/
def projected (h : Fin 384 → EReal) (W : Fin 384 → Fin 128 → EReal) (bias : Fin 128 → EReal) (j : Fin 128) : EReal :=
  (∑ k : Fin 384, h k * W k j) + bias j

/-- The mean of a row of 128 entries: its sum over the word for 128. -/
def rowMean (o : Fin 128 → EReal) : EReal :=
  Ideal.div (∑ k : Fin 128, o k) (Ideal.ofBits .f32 0x43000000#32)

/-- The reciprocal square root of the row's variance plus epsilon. -/
def rowScale (o : Fin 128 → EReal) : EReal :=
  Ideal.rsqrt (Ideal.div (∑ k : Fin 128, (o k - rowMean o) * (o k - rowMean o)) (Ideal.ofBits .f32 0x43000000#32)
    + Ideal.ofBits .f32 0x3727C5AC#32)

/-- The normalised row at entry `j`, scaled by `g` and shifted by `s`. -/
def normalised (o : Fin 128 → EReal) (g s : Fin 128 → EReal) (j : Fin 128) : EReal :=
  (o j - rowMean o) * rowScale o * g j + s j

/-- One edge's result at entry `j` from its three rows and the parameters. -/
def edgeRow (a b c : Fin 128 → EReal) (W1 : Fin 384 → Fin 384 → EReal) (b1 : Fin 384 → EReal)
    (W2 : Fin 384 → Fin 128 → EReal) (b2 : Fin 128 → EReal) (g s : Fin 128 → EReal) (j : Fin 128) : EReal :=
  normalised (projected (hidden (joined a b c) W1 b1) W2 b2) g s j

/-- The one-edge function depends on its rows and parameters entry by entry. -/
theorem edgeRow_congr {a a' b b' c c' : Fin 128 → EReal} {W1 W1' : Fin 384 → Fin 384 → EReal} {b1 b1' : Fin 384 → EReal}
    {W2 W2' : Fin 384 → Fin 128 → EReal} {b2 b2' g g' s s' : Fin 128 → EReal} {j j' : Fin 128}
    (ha : ∀ q, a q = a' q) (hb : ∀ q, b q = b' q) (hc : ∀ q, c q = c' q) (hW1 : ∀ k q, W1 k q = W1' k q)
    (hb1 : ∀ q, b1 q = b1' q) (hW2 : ∀ k q, W2 k q = W2' k q) (hb2 : ∀ q, b2 q = b2' q) (hg : ∀ q, g q = g' q)
    (hs : ∀ q, s q = s' q) (hj : j = j') :
    edgeRow a b c W1 b1 W2 b2 g s j = edgeRow a' b' c' W1' b1' W2' b2' g' s' j' := by
  obtain rfl : a = a' := funext ha
  obtain rfl : b = b' := funext hb
  obtain rfl : c = c' := funext hc
  obtain rfl : W1 = W1' := funext fun k => funext (hW1 k)
  obtain rfl : b1 = b1' := funext hb1
  obtain rfl : W2 = W2' := funext fun k => funext (hW2 k)
  obtain rfl : b2 = b2' := funext hb2
  obtain rfl : g = g' := funext hg
  obtain rfl : s = s' := funext hs
  rw [hj]

open Idealize.ShloMosaic.ValueIdx in
/-- The whole edge array from three arrays of 300000 rows and the parameter arrays (the bias and the normalisation's
    scale and shift as one-row matrices): row `r` is the one-edge function of the three rows `r`. -/
def edgeArray (A B C : (⟨2, ![300000, 128]⟩ : Shape).Idx → EReal) (W1 : (⟨2, ![384, 384]⟩ : Shape).Idx → EReal)
    (b1 : (⟨2, ![1, 384]⟩ : Shape).Idx → EReal) (W2 : (⟨2, ![384, 128]⟩ : Shape).Idx → EReal)
    (b2 g s : (⟨2, ![1, 128]⟩ : Shape).Idx → EReal) : (⟨2, ![300000, 128]⟩ : Shape).Idx → EReal :=
  fun i => edgeRow (fun q => A (ix2 (n0 := 300000) (i 0) q)) (fun q => B (ix2 (n0 := 300000) (i 0) q))
    (fun q => C (ix2 (n0 := 300000) (i 0) q)) (fun k j => W1 (ix2 k j)) (fun j => b1 (ix2 (0 : Fin 1) j))
    (fun k j => W2 (ix2 k j)) (fun j => b2 (ix2 (0 : Fin 1) j)) (fun j => g (ix2 (0 : Fin 1) j))
    (fun j => s (ix2 (0 : Fin 1) j)) (i 1)

end Cert.KernelIdeal.EdgeTransition

end
-- ==== Proof.EdgeTransition.Layout.lean ====
/-
  Reading the layout and contraction operations of a row-wise dense layer at an index `(r, j)`: a column of
  per-row values broadcast along the row, a vector of per-row values seen as a column, the lane sum of a matrix,
  a matrix product against a zero accumulator, and three matrices of 128 columns joined along the columns.
  All over arbitrary row counts, so that one statement serves a block of rows and the whole array.
-/
import Idealize.ShloMosaic.Lib.Pipeline.Value
import Idealize.ShloMosaic.Lib.ValueLayout
import Idealize.ShloMosaic.PureOps.Ideal.Laws
import proofs.«169663_j18897856103195_1_alg».proof.Proof.EdgeTransition.Spec

noncomputable section

open scoped BigOperators

namespace Cert.KernelIdeal.EdgeTransition

open Idealize.ShloMosaic Idealize.ShloMosaic.ValueIdx

variable {α : Type}

/-- An `[a, 1]` column broadcast to `[a, b]` reads, at `(p, c)`, the column at row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An `[a]` vector cast to an `[a, 1]` column reads, at `(i, u)`, the vector at `i`. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- The lane sum of an `[a, b]` matrix reads, at row `r`, the sum of the row's entries. -/
theorem laneSum_apply {a b : ℕ} (src : FVec Ideal ⟨2, ![a, b]⟩ .f32)
    (h : (⟨2, ![a, b]⟩ : Shape).Reduces [1] ⟨1, ![a]⟩) (hφ : FKind.Formats .f32)
    (hacc : (0x00000000#32 : BitVec 32) = FKind.add.neutral .f32 hφ) (r : Fin a) :
    multiReduction (F := Ideal) .add [1] ⟨1, ![a]⟩ src 0x00000000#32 h hφ hacc (ix1 r) = ∑ k : Fin b, src (ix2 r k) := by
  refine (Ideal.multiReduction_add_single src 0x00000000#32 h hφ hacc (ix1 r)).trans ?_
  refine Finset.sum_congr rfl fun k _ => congrArg src ?_
  funext d
  match d with
  | ⟨0, _⟩ => rfl
  | ⟨1, _⟩ => rfl

/-- Three `[m, 128]` matrices joined along the columns read, at `(r, k)`, the entry `k` of the three rows `r` laid end
    to end. -/
theorem concat3_apply {m : ℕ} (A B C : (⟨2, ![m, 128]⟩ : Shape).Idx → EReal)
    (h : Shape.Concatenates [(⟨2, ![m, 128]⟩ : Shape), ⟨2, ![m, 128]⟩, ⟨2, ![m, 128]⟩] ⟨2, ![m, 384]⟩ 1)
    (r : Fin m) (k : Fin 384) :
    concatenate ⟨2, ![m, 384]⟩ 1 [⟨⟨2, ![m, 128]⟩, A⟩, ⟨⟨2, ![m, 128]⟩, B⟩, ⟨⟨2, ![m, 128]⟩, C⟩] h (ix2 r k)
      = joined (fun q => A (ix2 r q)) (fun q => B (ix2 r q)) (fun q => C (ix2 r q)) k := by
  have hk := k.isLt
  unfold joined
  by_cases h1 : k.val < 128
  · rw [dif_pos h1]
    exact concatenate_apply_piece (t := ⟨2, ![m, 384]⟩) (1 : Fin 2) [⟨⟨2, ![m, 128]⟩, A⟩, ⟨⟨2, ![m, 128]⟩, B⟩, ⟨⟨2, ![m, 128]⟩, C⟩] h (ix2 r k) 0 (by show 0 < 3; omega) ⟨2, ![m, 128]⟩ A rfl rfl 0 rfl
      (ix2 r (⟨k.val, h1⟩ : Fin 128))
      (fun b => match b with
        | ⟨0, _⟩ => fun _ => rfl
        | ⟨1, _⟩ => fun hb => absurd rfl hb)
      (by show 0 + k.val = k.val; omega)
  · rw [dif_neg h1]
    by_cases h2 : k.val < 256
    · rw [dif_pos h2]
      exact concatenate_apply_piece (t := ⟨2, ![m, 384]⟩) (1 : Fin 2) [⟨⟨2, ![m, 128]⟩, A⟩, ⟨⟨2, ![m, 128]⟩, B⟩, ⟨⟨2, ![m, 128]⟩, C⟩] h (ix2 r k) 1 (by show 1 < 3; omega) ⟨2, ![m, 128]⟩ B rfl rfl 128 rfl
        (ix2 r (⟨k.val - 128, by omega⟩ : Fin 128))
        (fun b => match b with
          | ⟨0, _⟩ => fun _ => rfl
          | ⟨1, _⟩ => fun hb => absurd rfl hb)
        (by show 128 + (k.val - 128) = k.val; omega)
    · rw [dif_neg h2]
      exact concatenate_apply_piece (t := ⟨2, ![m, 384]⟩) (1 : Fin 2) [⟨⟨2, ![m, 128]⟩, A⟩, ⟨⟨2, ![m, 128]⟩, B⟩, ⟨⟨2, ![m, 128]⟩, C⟩] h (ix2 r k) 2 (by show 2 < 3; omega) ⟨2, ![m, 128]⟩ C rfl rfl 256 rfl
        (ix2 r (⟨k.val - 256, by omega⟩ : Fin 128))
        (fun b => match b with
          | ⟨0, _⟩ => fun _ => rfl
          | ⟨1, _⟩ => fun hb => absurd rfl hb)
        (by show 256 + (k.val - 256) = k.val; omega)

end Cert.KernelIdeal.EdgeTransition

end
-- ==== Proof.EdgeTransition.Payload.lean ====
/-
  The edge-transition body's value at row `r`, entry `j` of its block: the two matrix products read as sums over the
  384 joined entries, the row's mean and centred sum of squares as sums over its 128 entries, and the whole as the
  one-edge function of the three input rows `r` and the parameter blocks.
-/
import proofs.«169663_j18897856103195_1_alg».proof.Proof.Gen.KernelIdeal.Skeleton
import proofs.«169663_j18897856103195_1_alg».proof.Proof.EdgeTransition.Layout

set_option maxRecDepth 16384

noncomputable section

open scoped BigOperators

namespace Cert.KernelIdeal.EdgeTransition

open Idealize.ShloMosaic Idealize.ShloMosaic.ValueIdx
open Cert.KernelIdeal Cert.KernelIdeal.Gen

/-! ## The two matrix products at an index (the contraction index is one coordinate below 384) -/

theorem mm1_lhs0 (i : S3000x384.Idx) (q : dot_S3000x384_S384x384_S3000x384_1_0_0_1_n_n.contr.Idx) : (dot_S3000x384_S384x384_S3000x384_1_0_0_1_n_n.lhsIdx i q 0).val = (i 0).val := by
  unfold DotDims.lhsIdx
  rw [dif_neg (show ¬(0 : Fin S3000x384.rank) ∈ dot_S3000x384_S384x384_S3000x384_1_0_0_1_n_n.lhsBatch by decide), dif_pos (show (0 : Fin S3000x384.rank) ∈ dot_S3000x384_S384x384_S3000x384_1_0_0_1_n_n.lhsNonContracting by decide)]
  rfl
theorem mm1_lhs1 (i : S3000x384.Idx) (q : dot_S3000x384_S384x384_S3000x384_1_0_0_1_n_n.contr.Idx) : (dot_S3000x384_S384x384_S3000x384_1_0_0_1_n_n.lhsIdx i q 1).val = (q ⟨0, by decide⟩).val :=
  dot_S3000x384_S384x384_S3000x384_1_0_0_1_n_n.lhsIdx_val_of_single rfl i q
theorem mm1_rhs0 (i : S3000x384.Idx) (q : dot_S3000x384_S384x384_S3000x384_1_0_0_1_n_n.contr.Idx) : (dot_S3000x384_S384x384_S3000x384_1_0_0_1_n_n.rhsIdx i q 0).val = (q ⟨0, by decide⟩).val :=
  dot_S3000x384_S384x384_S3000x384_1_0_0_1_n_n.rhsIdx_val_of_single rfl i q
theorem mm1_rhs1 (i : S3000x384.Idx) (q : dot_S3000x384_S384x384_S3000x384_1_0_0_1_n_n.contr.Idx) : (dot_S3000x384_S384x384_S3000x384_1_0_0_1_n_n.rhsIdx i q 1).val = (i 1).val := by
  unfold DotDims.rhsIdx
  rw [dif_neg (show ¬(1 : Fin S384x384.rank) ∈ dot_S3000x384_S384x384_S3000x384_1_0_0_1_n_n.rhsBatch by decide), dif_pos (show (1 : Fin S384x384.rank) ∈ dot_S3000x384_S384x384_S3000x384_1_0_0_1_n_n.rhsNonContracting by decide)]
  rfl

/-- The product against a zero accumulator at `(r, j)`: row `r` of the left operand against column `j` of the right. -/
theorem mm1_apply (lhs : FVec Ideal S3000x384 .f32) (rhs : FVec Ideal S384x384 .f32) (r : Fin 3000) (j : Fin 384) :
    matmul dot_S3000x384_S384x384_S3000x384_1_0_0_1_n_n none lhs rhs (constant (F := Ideal) S3000x384 .f32 0x00000000#32) (ix2 r j)
      = ∑ k : Fin 384, lhs (ix2 r k) * rhs (ix2 k j) := by
  refine (Ideal.matmul_constant_zero_apply dot_S3000x384_S384x384_S3000x384_1_0_0_1_n_n none lhs rhs (ix2 r j)).trans ?_
  rw [← Equiv.sum_comp (contrEquiv1 dot_S3000x384_S384x384_S3000x384_1_0_0_1_n_n 384 rfl rfl).symm]
  refine Finset.sum_congr rfl fun k _ => ?_
  have hk := contrEquiv1_symm_val dot_S3000x384_S384x384_S3000x384_1_0_0_1_n_n 384 rfl rfl k
  have el : dot_S3000x384_S384x384_S3000x384_1_0_0_1_n_n.lhsIdx (ix2 r j) ((contrEquiv1 dot_S3000x384_S384x384_S3000x384_1_0_0_1_n_n 384 rfl rfl).symm k) = ix2 r k := funext fun a => Fin.ext (by
    match a with
    | ⟨0, _⟩ => exact mm1_lhs0 _ _
    | ⟨1, _⟩ => exact (mm1_lhs1 _ _).trans hk)
  have er : dot_S3000x384_S384x384_S3000x384_1_0_0_1_n_n.rhsIdx (ix2 r j) ((contrEquiv1 dot_S3000x384_S384x384_S3000x384_1_0_0_1_n_n 384 rfl rfl).symm k) = ix2 k j := funext fun a => Fin.ext (by
    match a with
    | ⟨0, _⟩ => exact (mm1_rhs0 _ _).trans hk
    | ⟨1, _⟩ => exact mm1_rhs1 _ _)
  rw [el, er]

theorem mm2_lhs0 (i : S3000x128.Idx) (q : dot_S3000x384_S384x128_S3000x128_1_0_0_1_n_n.contr.Idx) : (dot_S3000x384_S384x128_S3000x128_1_0_0_1_n_n.lhsIdx i q 0).val = (i 0).val := by
  unfold DotDims.lhsIdx
  rw [dif_neg (show ¬(0 : Fin S3000x384.rank) ∈ dot_S3000x384_S384x128_S3000x128_1_0_0_1_n_n.lhsBatch by decide), dif_pos (show (0 : Fin S3000x384.rank) ∈ dot_S3000x384_S384x128_S3000x128_1_0_0_1_n_n.lhsNonContracting by decide)]
  rfl
theorem mm2_lhs1 (i : S3000x128.Idx) (q : dot_S3000x384_S384x128_S3000x128_1_0_0_1_n_n.contr.Idx) : (dot_S3000x384_S384x128_S3000x128_1_0_0_1_n_n.lhsIdx i q 1).val = (q ⟨0, by decide⟩).val :=
  dot_S3000x384_S384x128_S3000x128_1_0_0_1_n_n.lhsIdx_val_of_single rfl i q
theorem mm2_rhs0 (i : S3000x128.Idx) (q : dot_S3000x384_S384x128_S3000x128_1_0_0_1_n_n.contr.Idx) : (dot_S3000x384_S384x128_S3000x128_1_0_0_1_n_n.rhsIdx i q 0).val = (q ⟨0, by decide⟩).val :=
  dot_S3000x384_S384x128_S3000x128_1_0_0_1_n_n.rhsIdx_val_of_single rfl i q
theorem mm2_rhs1 (i : S3000x128.Idx) (q : dot_S3000x384_S384x128_S3000x128_1_0_0_1_n_n.contr.Idx) : (dot_S3000x384_S384x128_S3000x128_1_0_0_1_n_n.rhsIdx i q 1).val = (i 1).val := by
  unfold DotDims.rhsIdx
  rw [dif_neg (show ¬(1 : Fin S384x128.rank) ∈ dot_S3000x384_S384x128_S3000x128_1_0_0_1_n_n.rhsBatch by decide), dif_pos (show (1 : Fin S384x128.rank) ∈ dot_S3000x384_S384x128_S3000x128_1_0_0_1_n_n.rhsNonContracting by decide)]
  rfl

/-- The product against a zero accumulator at `(r, j)`: row `r` of the left operand against column `j` of the right. -/
theorem mm2_apply (lhs : FVec Ideal S3000x384 .f32) (rhs : FVec Ideal S384x128 .f32) (r : Fin 3000) (j : Fin 128) :
    matmul dot_S3000x384_S384x128_S3000x128_1_0_0_1_n_n none lhs rhs (constant (F := Ideal) S3000x128 .f32 0x00000000#32) (ix2 r j)
      = ∑ k : Fin 384, lhs (ix2 r k) * rhs (ix2 k j) := by
  refine (Ideal.matmul_constant_zero_apply dot_S3000x384_S384x128_S3000x128_1_0_0_1_n_n none lhs rhs (ix2 r j)).trans ?_
  rw [← Equiv.sum_comp (contrEquiv1 dot_S3000x384_S384x128_S3000x128_1_0_0_1_n_n 384 rfl rfl).symm]
  refine Finset.sum_congr rfl fun k _ => ?_
  have hk := contrEquiv1_symm_val dot_S3000x384_S384x128_S3000x128_1_0_0_1_n_n 384 rfl rfl k
  have el : dot_S3000x384_S384x128_S3000x128_1_0_0_1_n_n.lhsIdx (ix2 r j) ((contrEquiv1 dot_S3000x384_S384x128_S3000x128_1_0_0_1_n_n 384 rfl rfl).symm k) = ix2 r k := funext fun a => Fin.ext (by
    match a with
    | ⟨0, _⟩ => exact mm2_lhs0 _ _
    | ⟨1, _⟩ => exact (mm2_lhs1 _ _).trans hk)
  have er : dot_S3000x384_S384x128_S3000x128_1_0_0_1_n_n.rhsIdx (ix2 r j) ((contrEquiv1 dot_S3000x384_S384x128_S3000x128_1_0_0_1_n_n 384 rfl rfl).symm k) = ix2 k j := funext fun a => Fin.ext (by
    match a with
    | ⟨0, _⟩ => exact (mm2_rhs0 _ _).trans hk
    | ⟨1, _⟩ => exact mm2_rhs1 _ _)
  rw [el, er]

/-- A reciprocal square root at an index is the element's. -/
theorem rsqrt_apply {s : Shape} {φ : FTy} (a : FVec Ideal s φ) (i : s.Idx) : rsqrt a i = Ideal.rsqrt (a i) := rfl

/-! ## The body's values, one by one -/

variable (v0 v2 v4 : Vec Ideal S3000x128 .f32) (v6 : Vec Ideal S384x384 .f32) (v8 : Vec Ideal S1x384 .f32)
    (v14 : Vec Ideal S384x128 .f32) (v16 : Vec Ideal S1x128 .f32)

/-- The second dense layer's output at `(r, j)`: both layers read as sums over the joined row. -/
theorem pay2_apply (r : Fin 3000) (j : Fin 128) :
    k2_pay2 (F := Ideal) v0 v2 v4 v6 v8 v14 v16 (ix2 r j)
      = projected (hidden (joined (fun q => v0 (ix2 r q)) (fun q => v2 (ix2 r q)) (fun q => v4 (ix2 r q)))
          (fun k j => v6 (ix2 k j)) (fun j => v8 (ix2 (0 : Fin 1) j))) (fun k j => v14 (ix2 k j)) (fun j => v16 (ix2 (0 : Fin 1) j)) j := by
  unfold k2_pay2
  simp only [shapeCast_self]
  rw [addf_apply, mm2_apply, broadcastTo_1b_ab_apply]
  unfold projected
  refine congrArg (· + v16 (ix2 (0 : Fin 1) j)) (Finset.sum_congr rfl fun k _ => congrArg (· * v14 (ix2 k j)) ?_)
  rw [maximumf_apply, addf_apply, mm1_apply, broadcastTo_1b_ab_apply, broadcast_apply]
  unfold hidden
  refine congrArg (fun s => max (s + v8 (ix2 (0 : Fin 1) k)) _) (Finset.sum_congr rfl fun q _ => congrArg (· * v6 (ix2 q k)) ?_)
  refine (concat3_apply _ _ _ _ r q).trans ?_
  simp only [shapeCast_self]

/-- The row mean, kept as a column, at row `r`. -/
theorem pay3_apply (r : Fin 3000) :
    k2_pay3 (F := Ideal) v0 v2 v4 v6 v8 v14 v16 (ix2 r (0 : Fin 1)) = rowMean (fun k => k2_pay2 (F := Ideal) v0 v2 v4 v6 v8 v14 v16 (ix2 r k)) := by
  unfold k2_pay3
  try dsimp only
  rw [divf_apply, shapeCast_a_a1_apply, broadcast_apply]
  unfold rowMean
  exact congrArg (Ideal.div · _) (laneSum_apply _ _ _ _ r)

/-- The centred output at `(r, j)`. -/
theorem pay4_apply (r : Fin 3000) (j : Fin 128) :
    k2_pay4 (F := Ideal) v0 v2 v4 v6 v8 v14 v16 (ix2 r j)
      = k2_pay2 (F := Ideal) v0 v2 v4 v6 v8 v14 v16 (ix2 r j) - rowMean (fun k => k2_pay2 (F := Ideal) v0 v2 v4 v6 v8 v14 v16 (ix2 r k)) := by
  unfold k2_pay4
  try dsimp only
  rw [subf_apply, broadcastTo_a1_ab_apply, pay3_apply]

/-- The reciprocal square root of the row's variance plus epsilon, broadcast along the row, at `(r, j)`. -/
theorem pay5_apply (r : Fin 3000) (j : Fin 128) :
    k2_pay5 (F := Ideal) v0 v2 v4 v6 v8 v14 v16 (ix2 r j) = rowScale (fun k => k2_pay2 (F := Ideal) v0 v2 v4 v6 v8 v14 v16 (ix2 r k)) := by
  unfold k2_pay5
  try dsimp only
  rw [broadcastTo_a1_ab_apply, rsqrt_apply, addf_apply, divf_apply, shapeCast_a_a1_apply, broadcast_apply, broadcast_apply]
  unfold rowScale
  refine congrArg (fun s => Ideal.rsqrt (Ideal.div s _ + _)) ?_
  refine (laneSum_apply _ _ _ _ r).trans (Finset.sum_congr rfl fun k _ => ?_)
  rw [mulf_apply, subf_apply, broadcastTo_a1_ab_apply, pay3_apply]

/-- The stored value at `(r, j)` from the centred output, the scale, and the two parameter rows. -/
theorem pay1_apply (v32 v36 : FVec Ideal S3000x128 .f32) (v38 v42 : Vec Ideal S1x128 .f32) (r : Fin 3000) (j : Fin 128) :
    k2_pay1 (F := Ideal) v32 v36 v38 v42 (ix2 r j)
      = v32 (ix2 r j) * v36 (ix2 r j) * v38 (ix2 (0 : Fin 1) j) + v42 (ix2 (0 : Fin 1) j) := by
  unfold k2_pay1
  simp only [shapeCast_self]
  rw [addf_apply, mulf_apply, mulf_apply, broadcastTo_1b_ab_apply, broadcastTo_1b_ab_apply]

/-- THE BODY'S VALUE at `(r, j)`: the one-edge function of the three input rows `r` and the parameter blocks. -/
theorem payload_apply (g s : Vec Ideal S1x128 .f32) (r : Fin 3000) (j : Fin 128) :
    k2_pay1 (F := Ideal) (k2_pay4 v0 v2 v4 v6 v8 v14 v16) (k2_pay5 v0 v2 v4 v6 v8 v14 v16) g s (ix2 r j)
      = edgeRow (fun q => v0 (ix2 r q)) (fun q => v2 (ix2 r q)) (fun q => v4 (ix2 r q))
          (fun k j => v6 (ix2 k j)) (fun j => v8 (ix2 (0 : Fin 1) j)) (fun k j => v14 (ix2 k j)) (fun j => v16 (ix2 (0 : Fin 1) j))
          (fun j => g (ix2 (0 : Fin 1) j)) (fun j => s (ix2 (0 : Fin 1) j)) j := by
  rw [pay1_apply, pay4_apply, pay5_apply]
  have e : (fun k => k2_pay2 (F := Ideal) v0 v2 v4 v6 v8 v14 v16 (ix2 r k)) = projected (hidden (joined (fun q => v0 (ix2 r q)) (fun q => v2 (ix2 r q)) (fun q => v4 (ix2 r q)))
          (fun k j => v6 (ix2 k j)) (fun j => v8 (ix2 (0 : Fin 1) j))) (fun k j => v14 (ix2 k j)) (fun j => v16 (ix2 (0 : Fin 1) j)) :=
    funext fun k => pay2_apply v0 v2 v4 v6 v8 v14 v16 r k
  rw [pay2_apply, e]
  rfl

end Cert.KernelIdeal.EdgeTransition

end
-- ==== Proof.EdgeTransition.Blocks.lean ====
/-
  From the blocks to the array.  Grid point `t` covers rows `3000 t … 3000 t + 2999`: the three row windows and
  the output window sit at block index `(t, 0)`, the six parameter windows at `(0, 0)`.  What point `t` writes back
  is therefore block `t` of the whole-array function `edgeArray` of the window arrays, and the 100 blocks cover the
  300000 rows (row `r` lies in block `r / 3000`).
-/
import proofs.«169663_j18897856103195_1_alg».proof.Proof.Gen.KernelIdeal.Frame
import proofs.«169663_j18897856103195_1_alg».proof.Proof.EdgeTransition.Payload
import Idealize.ShloMosaic.Lib.Pipeline.Value

set_option maxRecDepth 16384

noncomputable section

namespace Cert.KernelIdeal.EdgeTransition

open Idealize.ShloMosaic Idealize.ShloMosaic.TcCoe Idealize.SL.Sem Idealize.ShloMosaic.ValueIdx
open Idealize.ShloMosaic.Pipeline (Dat Cfg Window)
open Cert.KernelIdeal Cert.KernelIdeal.Gen

variable (V : (c : Dev nD) → (b : Ref sig .tc) → Buf (Elt Ideal) ((c : Thread nD τ).loc b))

theorem zero_offsets : (![0, 0] : Fin 2 → Nat) = fun _ => 0 := funext fun a => by fin_cases a <;> rfl

/-- The block indices over the grid: the row windows and the output move with the point, the parameter windows stay. -/
theorem block_indices : ∀ t : Fin cfg2.N,
    win2_9.index t (0 : Fin 2) = t.val ∧ win2_9.index t (1 : Fin 2) = 0
    ∧ win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = 0 ∧ win2_6.index t (1 : Fin 2) = 0
    ∧ win2_7.index t (0 : Fin 2) = 0 ∧ win2_7.index t (1 : Fin 2) = 0
    ∧ win2_8.index t (0 : Fin 2) = 0 ∧ win2_8.index t (1 : Fin 2) = 0 :=
  (by decide +kernel : ∀ t : Fin grid2.N, _)

/-- Window 0's block at point `t` reads row `3000 t + p` of its array. -/
theorem read_rows0 (c : Dev nD) (t : Fin cfg2.N) (p : Fin 3000) (q : Fin 128) (P : Fin 300000)
    (hP : P.val = t.val * 3000 + p.val) :
    iblk2 V c 0 t (ix2 p q) = V c (Pipeline.arrRef spec2 0) (ix2 P q) := by
  have e := block_indices t
  have e0 : win2_0.index t (0 : Fin 2) = t.val := e.2.2.1
  have e1 : win2_0.index t (1 : Fin 2) = 0 := e.2.2.2.1
  show V c (Pipeline.arrRef spec2 0) (((cfg2.win 0).blk t).view.emb (ix2 p q)) = _
  refine congrArg _ (funext fun a => Fin.ext ?_)
  match a with
  | ⟨0, _⟩ => show win2_0.index t (0 : Fin 2) * 3000 + 1 * p.val = P.val; omega
  | ⟨1, _⟩ => show win2_0.index t (1 : Fin 2) * 128 + 1 * q.val = q.val; omega

/-- Window 1's block at point `t` reads row `3000 t + p` of its array. -/
theorem read_rows1 (c : Dev nD) (t : Fin cfg2.N) (p : Fin 3000) (q : Fin 128) (P : Fin 300000)
    (hP : P.val = t.val * 3000 + p.val) :
    iblk2 V c 1 t (ix2 p q) = V c (Pipeline.arrRef spec2 1) (ix2 P q) := by
  have e := block_indices t
  have e0 : win2_1.index t (0 : Fin 2) = t.val := e.2.2.2.2.1
  have e1 : win2_1.index t (1 : Fin 2) = 0 := e.2.2.2.2.2.1
  show V c (Pipeline.arrRef spec2 1) (((cfg2.win 1).blk t).view.emb (ix2 p q)) = _
  refine congrArg _ (funext fun a => Fin.ext ?_)
  match a with
  | ⟨0, _⟩ => show win2_1.index t (0 : Fin 2) * 3000 + 1 * p.val = P.val; omega
  | ⟨1, _⟩ => show win2_1.index t (1 : Fin 2) * 128 + 1 * q.val = q.val; omega

/-- Window 2's block at point `t` reads row `3000 t + p` of its array. -/
theorem read_rows2 (c : Dev nD) (t : Fin cfg2.N) (p : Fin 3000) (q : Fin 128) (P : Fin 300000)
    (hP : P.val = t.val * 3000 + p.val) :
    iblk2 V c 2 t (ix2 p q) = V c (Pipeline.arrRef spec2 2) (ix2 P q) := by
  have e := block_indices t
  have e0 : win2_2.index t (0 : Fin 2) = t.val := e.2.2.2.2.2.2.1
  have e1 : win2_2.index t (1 : Fin 2) = 0 := e.2.2.2.2.2.2.2.1
  show V c (Pipeline.arrRef spec2 2) (((cfg2.win 2).blk t).view.emb (ix2 p q)) = _
  refine congrArg _ (funext fun a => Fin.ext ?_)
  match a with
  | ⟨0, _⟩ => show win2_2.index t (0 : Fin 2) * 3000 + 1 * p.val = P.val; omega
  | ⟨1, _⟩ => show win2_2.index t (1 : Fin 2) * 128 + 1 * q.val = q.val; omega

/-- Window 3's block at every point is its whole array. -/
theorem read_whole3 (c : Dev nD) (t : Fin cfg2.N) (k : Fin 384) (q : Fin 384) :
    iblk2 V c 3 t (ix2 k q) = V c (Pipeline.arrRef spec2 3) (ix2 k q) := by
  have e := block_indices t
  have e0 : win2_3.index t (0 : Fin 2) = 0 := e.2.2.2.2.2.2.2.2.1
  have e1 : win2_3.index t (1 : Fin 2) = 0 := e.2.2.2.2.2.2.2.2.2.1
  show V c (Pipeline.arrRef spec2 3) (((cfg2.win 3).blk t).view.emb (ix2 k q)) = _
  refine congrArg _ (funext fun a => Fin.ext ?_)
  match a with
  | ⟨0, _⟩ => show win2_3.index t (0 : Fin 2) * 384 + 1 * k.val = k.val; omega
  | ⟨1, _⟩ => show win2_3.index t (1 : Fin 2) * 384 + 1 * q.val = q.val; omega

/-- Window 4's block at every point is its whole array. -/
theorem read_whole4 (c : Dev nD) (t : Fin cfg2.N) (k : Fin 1) (q : Fin 384) :
    iblk2 V c 4 t (ix2 k q) = V c (Pipeline.arrRef spec2 4) (ix2 k q) := by
  have e := block_indices t
  have e0 : win2_4.index t (0 : Fin 2) = 0 := e.2.2.2.2.2.2.2.2.2.2.1
  have e1 : win2_4.index t (1 : Fin 2) = 0 := e.2.2.2.2.2.2.2.2.2.2.2.1
  show V c (Pipeline.arrRef spec2 4) (((cfg2.win 4).blk t).view.emb (ix2 k q)) = _
  refine congrArg _ (funext fun a => Fin.ext ?_)
  match a with
  | ⟨0, _⟩ => show win2_4.index t (0 : Fin 2) * 1 + 1 * k.val = k.val; omega
  | ⟨1, _⟩ => show win2_4.index t (1 : Fin 2) * 384 + 1 * q.val = q.val; omega

/-- Window 5's block at every point is its whole array. -/
theorem read_whole5 (c : Dev nD) (t : Fin cfg2.N) (k : Fin 384) (q : Fin 128) :
    iblk2 V c 5 t (ix2 k q) = V c (Pipeline.arrRef spec2 5) (ix2 k q) := by
  have e := block_indices t
  have e0 : win2_5.index t (0 : Fin 2) = 0 := e.2.2.2.2.2.2.2.2.2.2.2.2.1
  have e1 : win2_5.index t (1 : Fin 2) = 0 := e.2.2.2.2.2.2.2.2.2.2.2.2.2.1
  show V c (Pipeline.arrRef spec2 5) (((cfg2.win 5).blk t).view.emb (ix2 k q)) = _
  refine congrArg _ (funext fun a => Fin.ext ?_)
  match a with
  | ⟨0, _⟩ => show win2_5.index t (0 : Fin 2) * 384 + 1 * k.val = k.val; omega
  | ⟨1, _⟩ => show win2_5.index t (1 : Fin 2) * 128 + 1 * q.val = q.val; omega

/-- Window 6's block at every point is its whole array. -/
theorem read_whole6 (c : Dev nD) (t : Fin cfg2.N) (k : Fin 1) (q : Fin 128) :
    iblk2 V c 6 t (ix2 k q) = V c (Pipeline.arrRef spec2 6) (ix2 k q) := by
  have e := block_indices t
  have e0 : win2_6.index t (0 : Fin 2) = 0 := e.2.2.2.2.2.2.2.2.2.2.2.2.2.2.1
  have e1 : win2_6.index t (1 : Fin 2) = 0 := e.2.2.2.2.2.2.2.2.2.2.2.2.2.2.2.1
  show V c (Pipeline.arrRef spec2 6) (((cfg2.win 6).blk t).view.emb (ix2 k q)) = _
  refine congrArg _ (funext fun a => Fin.ext ?_)
  match a with
  | ⟨0, _⟩ => show win2_6.index t (0 : Fin 2) * 1 + 1 * k.val = k.val; omega
  | ⟨1, _⟩ => show win2_6.index t (1 : Fin 2) * 128 + 1 * q.val = q.val; omega

/-- Window 7's block at every point is its whole array. -/
theorem read_whole7 (c : Dev nD) (t : Fin cfg2.N) (k : Fin 1) (q : Fin 128) :
    iblk2 V c 7 t (ix2 k q) = V c (Pipeline.arrRef spec2 7) (ix2 k q) := by
  have e := block_indices t
  have e0 : win2_7.index t (0 : Fin 2) = 0 := e.2.2.2.2.2.2.2.2.2.2.2.2.2.2.2.2.1
  have e1 : win2_7.index t (1 : Fin 2) = 0 := e.2.2.2.2.2.2.2.2.2.2.2.2.2.2.2.2.2.1
  show V c (Pipeline.arrRef spec2 7) (((cfg2.win 7).blk t).view.emb (ix2 k q)) = _
  refine congrArg _ (funext fun a => Fin.ext ?_)
  match a with
  | ⟨0, _⟩ => show win2_7.index t (0 : Fin 2) * 1 + 1 * k.val = k.val; omega
  | ⟨1, _⟩ => show win2_7.index t (1 : Fin 2) * 128 + 1 * q.val = q.val; omega

/-- Window 8's block at every point is its whole array. -/
theorem read_whole8 (c : Dev nD) (t : Fin cfg2.N) (k : Fin 1) (q : Fin 128) :
    iblk2 V c 8 t (ix2 k q) = V c (Pipeline.arrRef spec2 8) (ix2 k q) := by
  have e := block_indices t
  have e0 : win2_8.index t (0 : Fin 2) = 0 := e.2.2.2.2.2.2.2.2.2.2.2.2.2.2.2.2.2.2.1
  have e1 : win2_8.index t (1 : Fin 2) = 0 := e.2.2.2.2.2.2.2.2.2.2.2.2.2.2.2.2.2.2.2
  show V c (Pipeline.arrRef spec2 8) (((cfg2.win 8).blk t).view.emb (ix2 k q)) = _
  refine congrArg _ (funext fun a => Fin.ext ?_)
  match a with
  | ⟨0, _⟩ => show win2_8.index t (0 : Fin 2) * 1 + 1 * k.val = k.val; omega
  | ⟨1, _⟩ => show win2_8.index t (1 : Fin 2) * 128 + 1 * q.val = q.val; omega

/-- WHAT POINT `t` WRITES BACK is block `t` of `edgeArray` of the window arrays as the region finds them. -/
theorem flushed_eq (c : Dev nD) (t : Fin cfg2.N) :
    (dat2 (F := Ideal) V c).flushed 9 t = ((cfg2.win 9).blk t).view.read (Elt Ideal) (edgeArray (V c (Pipeline.arrRef spec2 0)) (V c (Pipeline.arrRef spec2 1)) (V c (Pipeline.arrRef spec2 2)) (V c (Pipeline.arrRef spec2 3)) (V c (Pipeline.arrRef spec2 4)) (V c (Pipeline.arrRef spec2 5)) (V c (Pipeline.arrRef spec2 6)) (V c (Pipeline.arrRef spec2 7)) (V c (Pipeline.arrRef spec2 8))) := by
  show (cfg2.win 9).cut (grid2.coords t) ((dat2 (F := Ideal) V c).after 9 t) = _
  rw [after2_9]
  unfold out2_9
  rw [View.canon_unit_zero zero_offsets]
  simp only [View.ld_unit_zero (S := S3000x128) zero_offsets, View.ld_unit_zero (S := S384x384) zero_offsets,
    View.ld_unit_zero (S := S1x384) zero_offsets, View.ld_unit_zero (S := S384x128) zero_offsets,
    View.ld_unit_zero (S := S1x128) zero_offsets]
  obtain ⟨e90, e91, -⟩ := block_indices t
  funext y
  have hp : (y 0).val < 3000 := (y 0).isLt
  have hq : (y 1).val < 128 := (y 1).isLt
  have hy : (cfg2.win 9).xinj (grid2.coords t) y = ix2 (⟨(y 0).val, hp⟩ : Fin 3000) (⟨(y 1).val, hq⟩ : Fin 128) :=
    funext fun a => by match a with | ⟨0, _⟩ => rfl | ⟨1, _⟩ => rfl
  have hrow : ((((cfg2.win 9).blk t).view.emb y) 0).val = t.val * 3000 + (y 0).val := by
    show win2_9.index t (0 : Fin 2) * 3000 + 1 * (y 0).val = _; omega
  have hcol : ((((cfg2.win 9).blk t).view.emb y) 1).val = (y 1).val := by
    show win2_9.index t (1 : Fin 2) * 128 + 1 * (y 1).val = _; omega
  show k2_pay1 (F := Ideal) _ _ _ _ ((cfg2.win 9).xinj (grid2.coords t) y) = _
  rw [hy, View.read_apply]
  refine (payload_apply (iblk2 V c 0 t) (iblk2 V c 1 t) (iblk2 V c 2 t) (iblk2 V c 3 t) (iblk2 V c 4 t) (iblk2 V c 5 t)
    (iblk2 V c 6 t) (iblk2 V c 7 t) (iblk2 V c 8 t) ⟨(y 0).val, hp⟩ ⟨(y 1).val, hq⟩).trans ?_
  unfold edgeArray
  exact edgeRow_congr (fun q => read_rows0 V c t _ q _ hrow) (fun q => read_rows1 V c t _ q _ hrow)
    (fun q => read_rows2 V c t _ q _ hrow) (fun k q => read_whole3 V c t k q) (fun q => read_whole4 V c t 0 q)
    (fun k q => read_whole5 V c t k q) (fun q => read_whole6 V c t 0 q) (fun q => read_whole7 V c t 0 q)
    (fun q => read_whole8 V c t 0 q) (Fin.ext hcol.symm)

/-- An index of the array is in point `t`'s block iff each coordinate is in the block's range on its axis. -/
theorem mem_block (t : Fin cfg2.N) (i : S300000x128.Idx) :
    i ∈ ((cfg2.win 9).blk t).view.set ↔ ∀ a : Fin 2, win2_9.index t a * S3000x128.size a ≤ (i a).val ∧ (i a).val < win2_9.index t a * S3000x128.size a + S3000x128.size a := by
  show i ∈ ((View.whole main_v100).slice (win2_9.rect t)).set ↔ _
  rw [View.set_slice_whole, Rect.mem_set_unit]
  exact Iff.rfl

/-- Every row is in some point's block: row `r` in that of point `r / 3000`. -/
theorem covered (i : S300000x128.Idx) :
    ∃ t : Fin cfg2.N, (cfg2.win 9).flush t = true ∧ i ∈ ((cfg2.win 9).blk t).view.set := by
  have hi0 : (i 0).val < 300000 := (i 0).isLt
  have hi1 : (i 1).val < 128 := (i 1).isLt
  have hN : grid2.N = 100 := N_2
  have hlt : (i 0).val / 3000 < grid2.N := by omega
  obtain ⟨e0, e1, -⟩ := block_indices ⟨(i 0).val / 3000, hlt⟩
  have e0' : win2_9.index ⟨(i 0).val / 3000, hlt⟩ (0 : Fin 2) = (i 0).val / 3000 := e0
  refine ⟨⟨(i 0).val / 3000, hlt⟩, flush2_9 _, ?_⟩
  rw [mem_block]
  intro a
  match a with
  | ⟨0, _⟩ =>
    show win2_9.index ⟨(i 0).val / 3000, hlt⟩ (0 : Fin 2) * 3000 ≤ (i 0).val ∧ (i 0).val < win2_9.index ⟨(i 0).val / 3000, hlt⟩ (0 : Fin 2) * 3000 + 3000
    omega
  | ⟨1, _⟩ =>
    show win2_9.index ⟨(i 0).val / 3000, hlt⟩ (1 : Fin 2) * 128 ≤ (i 1).val ∧ (i 1).val < win2_9.index ⟨(i 0).val / 3000, hlt⟩ (1 : Fin 2) * 128 + 128
    omega

/-- THE ARRAY after the region is `edgeArray` of the window arrays as the region finds them. -/
theorem array_is_edgeArray (c : Dev nD) :
    (dat2 (F := Ideal) V c).arrAt 9 cfg2.N = (edgeArray (V c (Pipeline.arrRef spec2 0)) (V c (Pipeline.arrRef spec2 1)) (V c (Pipeline.arrRef spec2 2)) (V c (Pipeline.arrRef spec2 3)) (V c (Pipeline.arrRef spec2 4)) (V c (Pipeline.arrRef spec2 5)) (V c (Pipeline.arrRef spec2 6)) (V c (Pipeline.arrRef spec2 7)) (V c (Pipeline.arrRef spec2 8))) :=
  (dat2 (F := Ideal) V c).arrAt_eq_of_cover 9 _ (fun t _ => flushed_eq V c t) covered

end Cert.KernelIdeal.EdgeTransition

end
-- ==== Proof.EdgeTransition.Reference.lean ====
/-
  The reference's edge result at row `r`, entry `j`, is the one-edge function of the three rows `r` of its gathered
  source and destination projections and of the edge features: the joined row, the two dense layers and the
  normalisation are read stage by stage, every stage at the same row.
-/
import proofs.«169663_j18897856103195_1_alg».proof.Proof.ReferenceRead
import proofs.«169663_j18897856103195_1_alg».proof.Proof.EdgeTransition.Layout

set_option maxRecDepth 16384

noncomputable section

open scoped BigOperators

namespace Cert.KernelIdeal.EdgeTransition

open Idealize.ShloMosaic Idealize.ShloMosaic.ValueIdx
open Cert.ReferenceIdeal Cert.ReferenceIdeal.Read

variable (x0 : (⟨S10000x256, .f32⟩ : BufTy).Contents (Elt Ideal)) (x1 : (⟨S300000x128, .f32⟩ : BufTy).Contents (Elt Ideal)) (x2 : (⟨S2x300000, .i32⟩ : BufTy).Contents (Elt Ideal)) (x3 : (⟨S10000x3x3, .f32⟩ : BufTy).Contents (Elt Ideal)) (x4 : (⟨S10000x3, .f32⟩ : BufTy).Contents (Elt Ideal)) (x5 : (⟨S10000, .f32⟩ : BufTy).Contents (Elt Ideal)) (x6 : (⟨S256x24, .f32⟩ : BufTy).Contents (Elt Ideal)) (x7 : (⟨S24, .f32⟩ : BufTy).Contents (Elt Ideal)) (x8 : (⟨S672x256, .f32⟩ : BufTy).Contents (Elt Ideal)) (x9 : (⟨S256, .f32⟩ : BufTy).Contents (Elt Ideal)) (x10 : (⟨S256x256, .f32⟩ : BufTy).Contents (Elt Ideal)) (x11 : (⟨S256, .f32⟩ : BufTy).Contents (Elt Ideal)) (x12 : (⟨S256, .f32⟩ : BufTy).Contents (Elt Ideal)) (x13 : (⟨S256, .f32⟩ : BufTy).Contents (Elt Ideal)) (x14 : (⟨S256x256, .f32⟩ : BufTy).Contents (Elt Ideal)) (x15 : (⟨S256, .f32⟩ : BufTy).Contents (Elt Ideal)) (x16 : (⟨S256x256, .f32⟩ : BufTy).Contents (Elt Ideal)) (x17 : (⟨S256, .f32⟩ : BufTy).Contents (Elt Ideal)) (x18 : (⟨S256x256, .f32⟩ : BufTy).Contents (Elt Ideal)) (x19 : (⟨S256, .f32⟩ : BufTy).Contents (Elt Ideal)) (x20 : (⟨S256, .f32⟩ : BufTy).Contents (Elt Ideal)) (x21 : (⟨S256, .f32⟩ : BufTy).Contents (Elt Ideal)) (x22 : (⟨S256x128, .f32⟩ : BufTy).Contents (Elt Ideal)) (x23 : (⟨S128, .f32⟩ : BufTy).Contents (Elt Ideal)) (x24 : (⟨S384x384, .f32⟩ : BufTy).Contents (Elt Ideal)) (x25 : (⟨S384, .f32⟩ : BufTy).Contents (Elt Ideal)) (x26 : (⟨S384x128, .f32⟩ : BufTy).Contents (Elt Ideal)) (x27 : (⟨S128, .f32⟩ : BufTy).Contents (Elt Ideal)) (x28 : (⟨S128, .f32⟩ : BufTy).Contents (Elt Ideal)) (x29 : (⟨S128, .f32⟩ : BufTy).Contents (Elt Ideal))

/-- The joined array at `(r, k)` is entry `k` of the three rows `r` laid end to end. -/
theorem ref_joined (r : Fin 300000) (k : Fin 384) :
    val_main_v167 (F := Ideal) x0 x1 x2 x3 x4 x5 x6 x7 x8 x9 x10 x11 x12 x13 x14 x15 x16 x17 x18 x19 x20 x21 x22 x23 (ix2 r k)
      = joined (fun q => val_main_v159 (F := Ideal) x0 x1 x2 x3 x4 x5 x6 x7 x8 x9 x10 x11 x12 x13 x14 x15 x16 x17 x18 x19 x20 x21 x22 x23 (ix2 r q)) (fun q => val_main_v166 (F := Ideal) x0 x1 x2 x3 x4 x5 x6 x7 x8 x9 x10 x11 x12 x13 x14 x15 x16 x17 x18 x19 x20 x21 x22 x23 (ix2 r q))
          (fun q => x1 (ix2 r q)) k := by
  unfold val_main_v167
  exact concat3_apply _ _ _ _ r k

/-- The first dense layer, clamped, at `(r, j)`: row `r` of the joined array against column `j` of the weights. -/
theorem ref_hidden (r : Fin 300000) (j : Fin 384) :
    val_main_v172 (F := Ideal) x0 x1 x2 x3 x4 x5 x6 x7 x8 x9 x10 x11 x12 x13 x14 x15 x16 x17 x18 x19 x20 x21 x22 x23 x24 x25 (ix2 r j)
      = hidden (fun k => val_main_v167 (F := Ideal) x0 x1 x2 x3 x4 x5 x6 x7 x8 x9 x10 x11 x12 x13 x14 x15 x16 x17 x18 x19 x20 x21 x22 x23 (ix2 r k)) (fun k j => x24 (ix2 k j)) (fun j => x25 (ix1 j)) j := by
  have e1 : ∀ k, lidx_main_v168 (ix2 r j) k = ix2 r k := fun k => funext fun a => by
    match a with | ⟨0, _⟩ => rfl | ⟨1, _⟩ => rfl
  have e2 : ∀ k, ridx_main_v168 (ix2 r j) k = ix2 k j := fun k => funext fun a => by
    match a with | ⟨0, _⟩ => rfl | ⟨1, _⟩ => rfl
  have e3 : idx_main_v169 (idx_main_v170 (ix2 r j)) = ix1 j := funext fun a => by
    match a with | ⟨0, _⟩ => rfl
  rw [val_main_v172_apply, val_main_v171_apply, val_main_v168_apply, val_main_v170_apply, val_main_v169_apply,
    val_main_call3_v0_apply, val_main_call3_cst_apply]
  simp only [e1, e2, e3]
  rfl

/-- The second dense layer at `(r, j)`. -/
theorem ref_projected (r : Fin 300000) (j : Fin 128) :
    val_main_v176 (F := Ideal) x0 x1 x2 x3 x4 x5 x6 x7 x8 x9 x10 x11 x12 x13 x14 x15 x16 x17 x18 x19 x20 x21 x22 x23 x24 x25 x26 x27 (ix2 r j)
      = projected (fun k => val_main_v172 (F := Ideal) x0 x1 x2 x3 x4 x5 x6 x7 x8 x9 x10 x11 x12 x13 x14 x15 x16 x17 x18 x19 x20 x21 x22 x23 x24 x25 (ix2 r k)) (fun k j => x26 (ix2 k j)) (fun j => x27 (ix1 j)) j := by
  have e1 : ∀ k, lidx_main_v173 (ix2 r j) k = ix2 r k := fun k => funext fun a => by
    match a with | ⟨0, _⟩ => rfl | ⟨1, _⟩ => rfl
  have e2 : ∀ k, ridx_main_v173 (ix2 r j) k = ix2 k j := fun k => funext fun a => by
    match a with | ⟨0, _⟩ => rfl | ⟨1, _⟩ => rfl
  have e3 : idx_main_v174 (idx_main_v175 (ix2 r j)) = ix1 j := funext fun a => by
    match a with | ⟨0, _⟩ => rfl
  rw [val_main_v176_apply, val_main_v173_apply, val_main_v175_apply, val_main_v174_apply]
  simp only [e1, e2, e3]
  rfl

/-- The normalisation at `(r, j)`: the mean and the variance are sums over row `r` of the second layer's output. -/
theorem ref_normalised (r : Fin 300000) (j : Fin 128) :
    val_main_v200 (F := Ideal) x0 x1 x2 x3 x4 x5 x6 x7 x8 x9 x10 x11 x12 x13 x14 x15 x16 x17 x18 x19 x20 x21 x22 x23 x24 x25 x26 x27 x28 x29 (ix2 r j)
      = normalised (fun k => val_main_v176 (F := Ideal) x0 x1 x2 x3 x4 x5 x6 x7 x8 x9 x10 x11 x12 x13 x14 x15 x16 x17 x18 x19 x20 x21 x22 x23 x24 x25 x26 x27 (ix2 r k)) (fun j => x28 (ix1 j)) (fun j => x29 (ix1 j)) j := by
  have eRow : ∀ (c : Fin 128) (k : Fin 128), idx_main_v177 (idx_main_v178 (idx_main_v181 (ix2 r c))) k = ix2 r k :=
    fun c k => funext fun a => by match a with | ⟨0, _⟩ => rfl | ⟨1, _⟩ => rfl
  have eRow' : ∀ (c : Fin 128) (k : Fin 128), idx_main_v177 (idx_main_v178 (idx_main_v188 (ix2 r c))) k = ix2 r k :=
    fun c k => funext fun a => by match a with | ⟨0, _⟩ => rfl | ⟨1, _⟩ => rfl
  have eSq : ∀ (k : Fin 128), idx_main_v184 (idx_main_v185 (idx_main_v193 (ix2 r j))) k = ix2 r k :=
    fun k => funext fun a => by match a with | ⟨0, _⟩ => rfl | ⟨1, _⟩ => rfl
  have eG : idx_main_v195 (idx_main_v196 (ix2 r j)) = ix1 j := funext fun a => by match a with | ⟨0, _⟩ => rfl
  have eS : idx_main_v198 (idx_main_v199 (ix2 r j)) = ix1 j := funext fun a => by match a with | ⟨0, _⟩ => rfl
  simp only [val_main_v200_apply, val_main_v197_apply, val_main_v199_apply, val_main_v198_apply, val_main_v196_apply, val_main_v195_apply, val_main_v194_apply, val_main_v193_apply, val_main_v192_apply, val_main_v191_apply, val_main_v190_apply, val_main_v189_apply, val_main_v188_apply, val_main_v187_apply, val_main_v186_apply, val_main_v185_apply, val_main_v184_apply, val_main_v183_apply, val_main_v182_apply, val_main_v181_apply, val_main_v180_apply, val_main_v179_apply, val_main_v178_apply, val_main_v177_apply, val_main_cst_28_apply, val_main_cst_29_apply, val_main_cst_30_apply, val_main_cst_31_apply, val_main_cst_32_apply]
  simp only [eSq, eRow, eRow', eG, eS]
  simp only [Ideal.addf_def, Ideal.subf_def, Ideal.mulf_def, Ideal.hostDivf_def, Ideal.hostUnary_rsqrt_def, Ideal.ofBits_def,
    Ideal.ofBits_zero_f32, zero_add]
  rfl

/-- THE REFERENCE'S EDGE RESULT at `(r, j)`: the one-edge function of rows `r` of the two gathered projections and of
    the edge features. -/
theorem reference_apply (r : Fin 300000) (j : Fin 128) :
    val_main_v200 (F := Ideal) x0 x1 x2 x3 x4 x5 x6 x7 x8 x9 x10 x11 x12 x13 x14 x15 x16 x17 x18 x19 x20 x21 x22 x23 x24 x25 x26 x27 x28 x29 (ix2 r j)
      = edgeRow (fun q => val_main_v159 (F := Ideal) x0 x1 x2 x3 x4 x5 x6 x7 x8 x9 x10 x11 x12 x13 x14 x15 x16 x17 x18 x19 x20 x21 x22 x23 (ix2 r q)) (fun q => val_main_v166 (F := Ideal) x0 x1 x2 x3 x4 x5 x6 x7 x8 x9 x10 x11 x12 x13 x14 x15 x16 x17 x18 x19 x20 x21 x22 x23 (ix2 r q))
          (fun q => x1 (ix2 r q)) (fun k j => x24 (ix2 k j)) (fun j => x25 (ix1 j)) (fun k j => x26 (ix2 k j))
          (fun j => x27 (ix1 j)) (fun j => x28 (ix1 j)) (fun j => x29 (ix1 j)) j := by
  rw [ref_normalised]
  unfold edgeRow
  refine congrArg (fun o => normalised o _ _ j) (funext fun k => ?_)
  rw [ref_projected]
  refine congrArg (fun h => projected h _ _ k) (funext fun q => ?_)
  rw [ref_hidden]
  exact congrArg (fun u => hidden u _ _ q) (funext fun p => ref_joined x0 x1 x2 x3 x4 x5 x6 x7 x8 x9 x10 x11 x12 x13 x14 x15 x16 x17 x18 x19 x20 x21 x22 x23 r p)

end Cert.KernelIdeal.EdgeTransition

end
-- ==== Proof.EdgeTransition.lean ====
/-
  The edge-transition kernel, as one whole-array function.

  Edge `e` lies in block `e / 3000` of the grid of 100 points.  At a point the body joins the source node's projected
  row, the destination node's projected row and the edge's own features into one row of 384 entries, applies a dense
  layer with a clamp at zero, a second dense layer, and normalises the resulting row of 128 entries (mean, variance,
  reciprocal square root of variance plus epsilon, scale and shift).  Every step is local to the row, so the array
  the kernel leaves is, row by row, the reference's edge result.
-/
import proofs.«169663_j18897856103195_1_alg».proof.Proof.Gen.KernelIdeal.Frame
import proofs.«169663_j18897856103195_1_alg».proof.Proof.ReferenceRead
import proofs.«169663_j18897856103195_1_alg».proof.Proof.EdgeTransition.Blocks
import proofs.«169663_j18897856103195_1_alg».proof.Proof.EdgeTransition.Reference
import Idealize.ShloMosaic.Lib.ValueIdx
import Idealize.ShloMosaic.Lib.Pipeline.Value
import Idealize.ShloMosaic.PureOps.Ideal.Laws

set_option maxRecDepth 16384

noncomputable section

namespace Cert.KernelIdeal.EdgeTransition

open Idealize.ShloMosaic Idealize.ShloMosaic.TcCoe Idealize.SL.Sem Idealize.ShloMosaic.ValueIdx
open Idealize.ShloMosaic.Pipeline (Dat Cfg Window)
open Cert.KernelIdeal Cert.KernelIdeal.Gen

variable (V : (c : Dev nD) → (b : Ref sig .tc) → Buf (Elt Ideal) ((c : Thread nD τ).loc b))

/-- The edge array the kernel leaves is the reference's edge result, provided each input window's array is the
    reference's corresponding value. -/
theorem array_eq (c : Dev nD) (x0 : (⟨S10000x256, .f32⟩ : BufTy).Contents (Elt Ideal)) (x1 : (⟨S300000x128, .f32⟩ : BufTy).Contents (Elt Ideal)) (x2 : (⟨S2x300000, .i32⟩ : BufTy).Contents (Elt Ideal)) (x3 : (⟨S10000x3x3, .f32⟩ : BufTy).Contents (Elt Ideal)) (x4 : (⟨S10000x3, .f32⟩ : BufTy).Contents (Elt Ideal)) (x5 : (⟨S10000, .f32⟩ : BufTy).Contents (Elt Ideal)) (x6 : (⟨S256x24, .f32⟩ : BufTy).Contents (Elt Ideal)) (x7 : (⟨S24, .f32⟩ : BufTy).Contents (Elt Ideal)) (x8 : (⟨S672x256, .f32⟩ : BufTy).Contents (Elt Ideal)) (x9 : (⟨S256, .f32⟩ : BufTy).Contents (Elt Ideal)) (x10 : (⟨S256x256, .f32⟩ : BufTy).Contents (Elt Ideal)) (x11 : (⟨S256, .f32⟩ : BufTy).Contents (Elt Ideal)) (x12 : (⟨S256, .f32⟩ : BufTy).Contents (Elt Ideal)) (x13 : (⟨S256, .f32⟩ : BufTy).Contents (Elt Ideal)) (x14 : (⟨S256x256, .f32⟩ : BufTy).Contents (Elt Ideal)) (x15 : (⟨S256, .f32⟩ : BufTy).Contents (Elt Ideal)) (x16 : (⟨S256x256, .f32⟩ : BufTy).Contents (Elt Ideal)) (x17 : (⟨S256, .f32⟩ : BufTy).Contents (Elt Ideal)) (x18 : (⟨S256x256, .f32⟩ : BufTy).Contents (Elt Ideal)) (x19 : (⟨S256, .f32⟩ : BufTy).Contents (Elt Ideal)) (x20 : (⟨S256, .f32⟩ : BufTy).Contents (Elt Ideal)) (x21 : (⟨S256, .f32⟩ : BufTy).Contents (Elt Ideal)) (x22 : (⟨S256x128, .f32⟩ : BufTy).Contents (Elt Ideal)) (x23 : (⟨S128, .f32⟩ : BufTy).Contents (Elt Ideal)) (x24 : (⟨S384x384, .f32⟩ : BufTy).Contents (Elt Ideal)) (x25 : (⟨S384, .f32⟩ : BufTy).Contents (Elt Ideal)) (x26 : (⟨S384x128, .f32⟩ : BufTy).Contents (Elt Ideal)) (x27 : (⟨S128, .f32⟩ : BufTy).Contents (Elt Ideal)) (x28 : (⟨S128, .f32⟩ : BufTy).Contents (Elt Ideal)) (x29 : (⟨S128, .f32⟩ : BufTy).Contents (Elt Ideal))
    (h0 : V c (Pipeline.arrRef spec2 0) = Cert.ReferenceIdeal.Read.val_main_v159 (F := Ideal) x0 x1 x2 x3 x4 x5 x6 x7 x8 x9 x10 x11 x12 x13 x14 x15 x16 x17 x18 x19 x20 x21 x22 x23)
    (h1 : V c (Pipeline.arrRef spec2 1) = Cert.ReferenceIdeal.Read.val_main_v166 (F := Ideal) x0 x1 x2 x3 x4 x5 x6 x7 x8 x9 x10 x11 x12 x13 x14 x15 x16 x17 x18 x19 x20 x21 x22 x23)
    (h2 : V c (Pipeline.arrRef spec2 2) = x1)
    (h3 : V c (Pipeline.arrRef spec2 3) = x24)
    (h4 : ∀ j : Fin 384, V c (Pipeline.arrRef spec2 4) (ix2 (0 : Fin 1) j) = x25 (ix1 j))
    (h5 : V c (Pipeline.arrRef spec2 5) = x26)
    (h6 : ∀ j : Fin 128, V c (Pipeline.arrRef spec2 6) (ix2 (0 : Fin 1) j) = x27 (ix1 j))
    (h7 : ∀ j : Fin 128, V c (Pipeline.arrRef spec2 7) (ix2 (0 : Fin 1) j) = x28 (ix1 j))
    (h8 : ∀ j : Fin 128, V c (Pipeline.arrRef spec2 8) (ix2 (0 : Fin 1) j) = x29 (ix1 j)) :
    (dat2 (F := Ideal) V c).arrAt 9 cfg2.N = Cert.ReferenceIdeal.Read.val_main_v200 (F := Ideal) x0 x1 x2 x3 x4 x5 x6 x7 x8 x9 x10 x11 x12 x13 x14 x15 x16 x17 x18 x19 x20 x21 x22 x23 x24 x25 x26 x27 x28 x29 := by
  refine (array_is_edgeArray V c).trans (funext fun (i : S300000x128.Idx) => ?_)
  obtain ⟨r, j, rfl⟩ : ∃ (r : Fin 300000) (j : Fin 128), i = ix2 r j := ⟨i 0, i 1, eq_ix2 i⟩
  rw [reference_apply x0 x1 x2 x3 x4 x5 x6 x7 x8 x9 x10 x11 x12 x13 x14 x15 x16 x17 x18 x19 x20 x21 x22 x23 x24 x25 x26 x27 x28 x29 r j]
  unfold edgeArray
  exact edgeRow_congr (fun q => congrFun h0 (ix2 r q)) (fun q => congrFun h1 (ix2 r q)) (fun q => congrFun h2 (ix2 r q))
    (fun k q => congrFun h3 (ix2 k q)) h4 (fun k q => congrFun h5 (ix2 k q)) h6 h7 h8 rfl

end Cert.KernelIdeal.EdgeTransition

end
-- ==== Proof.Whole.Total.lean ====
/-
  The two result arrays of the idealized kernel, as the reference's two result stages.

  The three kernels are chained through the host operations between them: the first kernel's array is the reference's
  message array, hence the mean message the second kernel reads is the reference's; the second kernel's two arrays are
  the reference's node result and its projection, hence the rows the third kernel reads are the reference's gathered
  rows; and the third kernel's array is the reference's edge result.
-/
import proofs.«169663_j18897856103195_1_alg».proof.Proof.Gen.KernelIdeal.Frame
import proofs.«169663_j18897856103195_1_alg».proof.Proof.ReferenceRead
import proofs.«169663_j18897856103195_1_alg».proof.Proof.Whole.Entry0
import proofs.«169663_j18897856103195_1_alg».proof.Proof.Whole.Entry1
import proofs.«169663_j18897856103195_1_alg».proof.Proof.Whole.Entry2
import proofs.«169663_j18897856103195_1_alg».proof.Proof.EdgeMessage
import proofs.«169663_j18897856103195_1_alg».proof.Proof.NodeTransition
import proofs.«169663_j18897856103195_1_alg».proof.Proof.EdgeTransition
import Idealize.ShloMosaic.Lib.StableHlo.Run
import Idealize.ShloMosaic.Lib.ValueIdx
import Idealize.ShloMosaic.Lib.ValueLayout
import Idealize.ShloMosaic.Lib.Pipeline.Value

set_option maxRecDepth 16384

noncomputable section

namespace Cert.KernelIdeal.Whole

open Idealize.ShloMosaic Idealize.ShloMosaic.TcCoe Idealize.SL.Sem Idealize.ShloMosaic.ValueIdx Idealize.ShloMosaic.StableHlo
open Idealize.ShloMosaic.Pipeline (Dat Cfg Window)
open Cert.KernelIdeal Cert.KernelIdeal.Gen

variable (m : (ℓ : Loc nD τ sig) → Buf (Elt Ideal) ℓ) (ρ : Dev nD → PrngReg)

/-- After the first kernel its output array holds the reference's messages. -/
theorem msg_total (c : Dev nD) :
    W2 m ρ c (Proc.devRef .tc main_v60) = Cert.ReferenceIdeal.Read.val_main_v67 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) :=
  (msg_array m ρ c).trans (Cert.KernelIdeal.EdgeMessage.array_eq (V1 m ρ) c (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11))
    (entry0_src m ρ c) (entry0_dst m ρ c) (entry0_z m ρ c) (entry0_pts m ρ c) (entry0_dist m ρ c)
    (entry0_w1 m ρ c) (entry0_b1 m ρ c) (entry0_w2 m ρ c) (entry0_b2 m ρ c))

/-- After the second kernel its second output array holds the reference's projected node rows. -/
theorem proj_total (c : Dev nD) :
    W4 m ρ c (Proc.devRef .tc main_v81_1) = Cert.ReferenceIdeal.Read.val_main_v152 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) :=
  (proj_array m ρ c).trans (Cert.KernelIdeal.NodeTransition.proj_eq (V3 m ρ) c (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23))
    (entry1 m ρ c (msg_total m ρ c)))

/-- The node result. -/
theorem node_total (c : Dev nD) :
    W6 m ρ c (Proc.devRef .tc main_v81_0) = Cert.ReferenceIdeal.Read.val_main_v148 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) :=
  (node_result m ρ c).trans (Cert.KernelIdeal.NodeTransition.node_eq (V3 m ρ) c (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23))
    (entry1 m ρ c (msg_total m ρ c)))

/-- The edge result. -/
theorem edge_total (c : Dev nD) :
    W6 m ρ c (Proc.devRef .tc main_v100) = Cert.ReferenceIdeal.Read.val_main_v200 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25)) (m ((c.tc : Thread nD τ).loc main_arg26)) (m ((c.tc : Thread nD τ).loc main_arg27)) (m ((c.tc : Thread nD τ).loc main_arg28)) (m ((c.tc : Thread nD τ).loc main_arg29)) :=
  (edge_result m ρ c).trans (Cert.KernelIdeal.EdgeTransition.array_eq (V5 m ρ) c (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25)) (m ((c.tc : Thread nD τ).loc main_arg26)) (m ((c.tc : Thread nD τ).loc main_arg27)) (m ((c.tc : Thread nD τ).loc main_arg28)) (m ((c.tc : Thread nD τ).loc main_arg29))
    (entry2_src m ρ c (proj_total m ρ c)) (entry2_dst m ρ c (proj_total m ρ c)) (entry2_z m ρ c)
    (entry2_we1 m ρ c) (entry2_be1 m ρ c) (entry2_wef m ρ c) (entry2_bef m ρ c) (entry2_g3 m ρ c) (entry2_s3 m ρ c))

end Cert.KernelIdeal.Whole

end
-- ==== Proof.lean ====
/-
  The five claims for one layer of an invariant-point message-passing network.

  The kernel computes the layer in three tiled kernels — the per-edge message network, the node transition with its
  two layer normalisations, the edge transition with its layer normalisation — joined by host gathers and a
  scatter-add; the reference computes the same layer as one array program.  Every kernel is row-local: an edge's (or a
  node's) output row depends only on that edge's (node's) input rows and the shared weights, so tiling the rows
  changes nothing, and on the extended reals a matrix product accumulated in a tile is the same finite sum as the
  whole product's entry.  The host operations between the kernels are the reference's own, applied to equal arrays.
  So both programs end with the same two arrays: the node result and the edge result.  No float-format round trip was
  rewritten when the kernel was idealized, so the idealization claim is trivial.
-/
import proofs.«169663_j18897856103195_1_alg».proof.Defs
import proofs.«169663_j18897856103195_1_alg».proof.Proof.Gen.Kernel
import proofs.«169663_j18897856103195_1_alg».proof.Proof.Gen.Kernel.Skeleton
import proofs.«169663_j18897856103195_1_alg».proof.Proof.Gen.Kernel.Launch
import proofs.«169663_j18897856103195_1_alg».proof.Proof.Gen.Kernel.Points
import proofs.«169663_j18897856103195_1_alg».proof.Proof.Gen.Kernel.Frame
import proofs.«169663_j18897856103195_1_alg».proof.Proof.Gen.KernelIdeal
import proofs.«169663_j18897856103195_1_alg».proof.Proof.Gen.KernelIdeal.Skeleton
import proofs.«169663_j18897856103195_1_alg».proof.Proof.Gen.KernelIdeal.Launch
import proofs.«169663_j18897856103195_1_alg».proof.Proof.Gen.KernelIdeal.Points
import proofs.«169663_j18897856103195_1_alg».proof.Proof.Gen.KernelIdeal.Frame
import proofs.«169663_j18897856103195_1_alg».proof.Proof.Gen.ReferenceIdeal
import proofs.«169663_j18897856103195_1_alg».proof.Proof.Gen.Pre_finite_inputs
import proofs.«169663_j18897856103195_1_alg».proof.Proof.ReferenceRead
import proofs.«169663_j18897856103195_1_alg».proof.Proof.Whole.RefTotal
import proofs.«169663_j18897856103195_1_alg».proof.Proof.RunValues
import proofs.«169663_j18897856103195_1_alg».proof.Proof.Whole.Total
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference has no kernel: its frame is its run with the two results dropped. -/
theorem frame_ri : Cert.frame_ReferenceIdeal := fun m ρ _ =>
  (θ_run Cert.ReferenceIdeal.defs _ _).mono (fun _ h c => (h c).2.2) (Cert.ReferenceIdeal.Whole.run m ρ)

/-- The idealized kernel ends with its node and edge arrays at the reference's two result stages of its own arguments;
    the reference ends with its results at the same stages of ITS arguments, which agree with the kernel's. -/
theorem algebraic : Cert.algebraic_KernelIdeal_ReferenceIdeal := by
  intro m ρ m' ρ' _ hagree
  refine ⟨fun c => Cert.KernelIdeal.Gen.W6 m ρ c (Proc.devRef .tc Cert.KernelIdeal.main_v81_0),
    fun c => Cert.KernelIdeal.Gen.W6 m ρ c (Proc.devRef .tc Cert.KernelIdeal.main_v100),
    Cert.KernelIdeal.Whole.run_values (F := Ideal) m ρ, ?_⟩
  refine (θ_run Cert.ReferenceIdeal.defs _ _).mono (fun _ h c => ⟨(h c).1.trans ?_, (h c).2.1.trans ?_, (h c).2.2⟩)
    (Cert.ReferenceIdeal.Whole.run m' ρ')
  · obtain ⟨h0, h1, h2, h3, h4, h5, h6, h7, h8, h9, h10, h11, h12, h13, h14, h15, h16, h17, h18, h19, h20, h21, h22, h23, h24, h25, h26, h27, h28, h29⟩ := hagree c
    rw [h0, h1, h2, h3, h4, h5, h6, h7, h8, h9, h10, h11, h12, h13, h14, h15, h16, h17, h18, h19, h20, h21]
    exact (Cert.KernelIdeal.Whole.node_total m ρ c).symm
  · obtain ⟨h0, h1, h2, h3, h4, h5, h6, h7, h8, h9, h10, h11, h12, h13, h14, h15, h16, h17, h18, h19, h20, h21, h22, h23, h24, h25, h26, h27, h28, h29⟩ := hagree c
    rw [h0, h1, h2, h3, h4, h5, h6, h7, h8, h9, h10, h11, h12, h13, h14, h15, h16, h17, h18, h19, h20, h21, h22, h23, h24, h25, h26, h27, h28, h29]
    exact (Cert.KernelIdeal.Whole.edge_total m ρ c).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
